-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S4x256 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S4x256 .f32 := Host.absf main_arg9
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S4x256 .f32) (main_arg7 : FVec F S4x256x256 .f32) (main_arg8 : FVec F S4x256 .f32) (main_arg9 : FVec F S4x256 .f32) (main_arg10 : FVec F S256x128 .f32) (main_arg11 : FVec F S128 .f32) (main_arg12 : FVec F S128x1 .f32) (main_arg13 : FVec F S1 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x256 .f32 := Host.absf main_arg7
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x800000 32) (main_arg2 : IVec S100000 32) (main_arg3 : FVec F S128x256 .f32) (main_arg4 : FVec F S256 .f32) (main_arg5 : FVec F S4x256x256 .f32) (main_arg6 : FVec F S4x256 .f32) (main_arg7 : FVec F S4x256x256 .f32) (main_arg8 : FVec F S4x256 .f32) (main_arg9 : FVec F S4x256 .f32) (main_arg10 : FVec F S256x128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x256x256 .f32 := Host.absf main_arg5
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S_ : Shape := ⟨0, ![]⟩
abbrev S800000x1 : Shape := ⟨2, ![800000, 1]⟩
abbrev S100000x1 : Shape := ⟨2, ![100000, 1]⟩
abbrev S800000x256 : Shape := ⟨2, ![800000, 256]⟩
abbrev S1x256x256 : Shape := ⟨3, ![1, 256, 256]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 185
  | .vmem => 98
  | .smem => 0
  | _ => 0

abbrev hbmTy0_0 (i : Nat) : BufTy := match i % 128 with
  | 0 => ⟨S100000x128, .f32⟩
  | 1 => ⟨S2x800000, .i32⟩
  | 2 => ⟨S100000, .i32⟩
  | 3 => ⟨S128x256, .f32⟩
  | 4 => ⟨S256, .f32⟩
  | 5 => ⟨S4x256x256, .f32⟩
  | 6 => ⟨S4x256, .f32⟩
  | 7 => ⟨S4x256x256, .f32⟩
  | 8 => ⟨S4x256, .f32⟩
  | 9 => ⟨S4x256, .f32⟩
  | 10 => ⟨S256x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S1x256, .f32⟩
  | 19 => ⟨S100000x256, .f32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x256, .f32⟩
  | 39 => ⟨S_, .f32⟩
  | 40 => ⟨S100000x256, .f32⟩
  | 41 => ⟨S800000x1, .i32⟩
  | 42 => ⟨S100000x256, .f32⟩
  | 43 => ⟨S100000x256, .f32⟩
  | 44 => ⟨S100000x256, .f32⟩
  | 45 => ⟨S1x256x256, .f32⟩
  | 46 => ⟨S256x256, .f32⟩
  | 47 => ⟨S1x256, .f32⟩
  | 48 => ⟨S256, .f32⟩
  | 49 => ⟨S1x256x256, .f32⟩
  | 50 => ⟨S256x256, .f32⟩
  | 51 => ⟨S1x256, .f32⟩
  | 52 => ⟨S100000x256, .f32⟩
  | 53 => ⟨S1x256, .f32⟩
  | 54 => ⟨S1x256, .f32⟩
  | 55 => ⟨S1x256, .f32⟩
  | 56 => ⟨S256, .f32⟩
  | 57 => ⟨S1x256, .f32⟩
  | 58 => ⟨S256, .f32⟩
  | 59 => ⟨S1x256, .f32⟩
  | 60 => ⟨S1x256, .f32⟩
  | 61 => ⟨S100000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x256, .f32⟩
  | 71 => ⟨S_, .f32⟩
  | 72 => ⟨S100000x256, .f32⟩
  | 73 => ⟨S800000x1, .i32⟩
  | 74 => ⟨S100000x256, .f32⟩
  | 75 => ⟨S100000x256, .f32⟩
  | 76 => ⟨S100000x256, .f32⟩
  | 77 => ⟨S1x256x256, .f32⟩
  | 78 => ⟨S256x256, .f32⟩
  | 79 => ⟨S1x256, .f32⟩
  | 80 => ⟨S256, .f32⟩
  | 81 => ⟨S1x256x256, .f32⟩
  | 82 => ⟨S256x256, .f32⟩
  | 83 => ⟨S1x256, .f32⟩
  | 84 => ⟨S100000x256, .f32⟩
  | 85 => ⟨S1x256, .f32⟩
  | 86 => ⟨S1x256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S1x256, .f32⟩
  | 93 => ⟨S100000x256, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x256, .f32⟩
  | 103 => ⟨S_, .f32⟩
  | 104 => ⟨S100000x256, .f32⟩
  | 105 => ⟨S800000x1, .i32⟩
  | 106 => ⟨S100000x256, .f32⟩
  | 107 => ⟨S100000x256, .f32⟩
  | 108 => ⟨S100000x256, .f32⟩
  | 109 => ⟨S1x256x256, .f32⟩
  | 110 => ⟨S256x256, .f32⟩
  | 111 => ⟨S1x256, .f32⟩
  | 112 => ⟨S256, .f32⟩
  | 113 => ⟨S1x256x256, .f32⟩
  | 114 => ⟨S256x256, .f32⟩
  | 115 => ⟨S1x256, .f32⟩
  | 116 => ⟨S100000x256, .f32⟩
  | 117 => ⟨S1x256, .f32⟩
  | 118 => ⟨S1x256, .f32⟩
  | 119 => ⟨S1x256, .f32⟩
  | 120 => ⟨S256, .f32⟩
  | 121 => ⟨S1x256, .f32⟩
  | 122 => ⟨S256, .f32⟩
  | 123 => ⟨S1x256, .f32⟩
  | 124 => ⟨S1x256, .f32⟩
  | 125 => ⟨S100000x256, .f32⟩
  | 126 => ⟨S_, .i32⟩
  | 127 => ⟨S800000, .i32⟩
  | _ => ⟨S100000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x256, .f32⟩
  | 7 => ⟨S_, .f32⟩
  | 8 => ⟨S100000x256, .f32⟩
  | 9 => ⟨S800000x1, .i32⟩
  | 10 => ⟨S100000x256, .f32⟩
  | 11 => ⟨S100000x256, .f32⟩
  | 12 => ⟨S100000x256, .f32⟩
  | 13 => ⟨S1x256x256, .f32⟩
  | 14 => ⟨S256x256, .f32⟩
  | 15 => ⟨S1x256, .f32⟩
  | 16 => ⟨S256, .f32⟩
  | 17 => ⟨S1x256x256, .f32⟩
  | 18 => ⟨S256x256, .f32⟩
  | 19 => ⟨S1x256, .f32⟩
  | 20 => ⟨S100000x256, .f32⟩
  | 21 => ⟨S1x256, .f32⟩
  | 22 => ⟨S1x256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S1x256, .f32⟩
  | 29 => ⟨S100000x256, .f32⟩
  | 30 => ⟨S_, .f32⟩
  | 31 => ⟨S100000, .f32⟩
  | 32 => ⟨S_, .f32⟩
  | 33 => ⟨S256, .f32⟩
  | 34 => ⟨S100000x1, .i32⟩
  | 35 => ⟨S256, .f32⟩
  | 36 => ⟨S_, .f32⟩
  | 37 => ⟨S256x256, .f32⟩
  | 38 => ⟨S100000x1, .i32⟩
  | 39 => ⟨S256x256, .f32⟩
  | 40 => ⟨S_, .f32⟩
  | 41 => ⟨S256, .f32⟩
  | 42 => ⟨S256, .f32⟩
  | 43 => ⟨S256x1, .f32⟩
  | 44 => ⟨S256x256, .f32⟩
  | 45 => ⟨S256x256, .f32⟩
  | 46 => ⟨S256x128, .f32⟩
  | 47 => ⟨S1x128, .f32⟩
  | 48 => ⟨S256x128, .f32⟩
  | 49 => ⟨S256x128, .f32⟩
  | 50 => ⟨S_, .f32⟩
  | 51 => ⟨S256x128, .f32⟩
  | 52 => ⟨S256x128, .f32⟩
  | 53 => ⟨S256x1, .f32⟩
  | 54 => ⟨S1x1, .f32⟩
  | 55 => ⟨S256x1, .f32⟩
  | 56 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S256x256, .f32⟩
  | .local _ .vmem, ⟨34, _⟩ => ⟨S1x256, .f32⟩
  | .local _ .vmem, ⟨35, _⟩ => ⟨S256x256, .f32⟩
  | .local _ .vmem, ⟨36, _⟩ => ⟨S2000x256, .f32⟩
  | .local _ .vmem, ⟨37, _⟩ => ⟨S2000x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S256x256, .f32⟩
  | .local _ .vmem, ⟨57, _⟩ => ⟨S1x256, .f32⟩
  | .local _ .vmem, ⟨58, _⟩ => ⟨S256x256, .f32⟩
  | .local _ .vmem, ⟨59, _⟩ => ⟨S2000x256, .f32⟩
  | .local _ .vmem, ⟨60, _⟩ => ⟨S2000x256, .f32⟩
  | .local _ .vmem, ⟨61, _⟩ => ⟨S1x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S2000x256, .f32⟩
  | .local _ .vmem, ⟨66, _⟩ => ⟨S2000x256, .f32⟩
  | .local _ .vmem, ⟨67, _⟩ => ⟨S2000x256, .f32⟩
  | .local _ .vmem, ⟨68, _⟩ => ⟨S2000x256, .f32⟩
  | .local _ .vmem, ⟨69, _⟩ => ⟨S1x256, .f32⟩
  | .local _ .vmem, ⟨70, _⟩ => ⟨S1x256, .f32⟩
  | .local _ .vmem, ⟨71, _⟩ => ⟨S1x256, .f32⟩
  | .local _ .vmem, ⟨72, _⟩ => ⟨S1x256, .f32⟩
  | .local _ .vmem, ⟨73, _⟩ => ⟨S2000x256, .f32⟩
  | .local _ .vmem, ⟨74, _⟩ => ⟨S2000x256, .f32⟩
  | .local _ .vmem, ⟨75, _⟩ => ⟨S2000x256, .f32⟩
  | .local _ .vmem, ⟨76, _⟩ => ⟨S2000x256, .f32⟩
  | .local _ .vmem, ⟨77, _⟩ => ⟨S2000x256, .f32⟩
  | .local _ .vmem, ⟨78, _⟩ => ⟨S2000x256, .f32⟩
  | .local _ .vmem, ⟨79, _⟩ => ⟨S256x256, .f32⟩
  | .local _ .vmem, ⟨80, _⟩ => ⟨S1x256, .f32⟩
  | .local _ .vmem, ⟨81, _⟩ => ⟨S256x256, .f32⟩
  | .local _ .vmem, ⟨82, _⟩ => ⟨S2000x256, .f32⟩
  | .local _ .vmem, ⟨83, _⟩ => ⟨S2000x256, .f32⟩
  | .local _ .vmem, ⟨84, _⟩ => ⟨S1x256, .f32⟩
  | .local _ .vmem, ⟨85, _⟩ => ⟨S1x256, .f32⟩
  | .local _ .vmem, ⟨86, _⟩ => ⟨S1x256, .f32⟩
  | .local _ .vmem, ⟨87, _⟩ => ⟨S1x256, .f32⟩
  | .local _ .vmem, ⟨88, _⟩ => ⟨S2000x256, .f32⟩
  | .local _ .vmem, ⟨89, _⟩ => ⟨S2000x256, .f32⟩
  | .local _ .vmem, ⟨90, _⟩ => ⟨S2000x256, .f32⟩
  | .local _ .vmem, ⟨91, _⟩ => ⟨S2000x256, .f32⟩
  | .local _ .vmem, ⟨92, _⟩ => ⟨S1x256, .f32⟩
  | .local _ .vmem, ⟨93, _⟩ => ⟨S1x256, .f32⟩
  | .local _ .vmem, ⟨94, _⟩ => ⟨S1x256, .f32⟩
  | .local _ .vmem, ⟨95, _⟩ => ⟨S1x256, .f32⟩
  | .local _ .vmem, ⟨96, _⟩ => ⟨S2000x256, .f32⟩
  | .local _ .vmem, ⟨97, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_4 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59_0 : Ref sig .tc := ⟨.hbm, 84, rfl⟩
abbrev main_v59_1 : Ref sig .tc := ⟨.hbm, 85, rfl⟩
abbrev main_v59_2 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_7 : Ref sig .tc := ⟨.hbm, 94, rfl⟩
abbrev main_v67 : Ref sig .tc := ⟨.hbm, 95, rfl⟩
abbrev main_v68 : Ref sig .tc := ⟨.hbm, 96, rfl⟩
abbrev main_c_8 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_9 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86_0 : Ref sig .tc := ⟨.hbm, 116, rfl⟩
abbrev main_v86_1 : Ref sig .tc := ⟨.hbm, 117, rfl⟩
abbrev main_v86_2 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_10 : Ref sig .tc := ⟨.hbm, 126, rfl⟩
abbrev main_v94 : Ref sig .tc := ⟨.hbm, 127, rfl⟩
abbrev main_v95 : Ref sig .tc := ⟨.hbm, 128, rfl⟩
abbrev main_c_11 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_12 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113_0 : Ref sig .tc := ⟨.hbm, 148, rfl⟩
abbrev main_v113_1 : Ref sig .tc := ⟨.hbm, 149, rfl⟩
abbrev main_v113_2 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_13 : Ref sig .tc := ⟨.hbm, 158, rfl⟩
abbrev main_v121 : Ref sig .tc := ⟨.hbm, 159, rfl⟩
abbrev main_cst_14 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_15 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_16 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_call0_cst : Ref sig .tc := ⟨.hbm, 178, rfl⟩
abbrev main_call0_v0 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg7_0 : Ref sig .tc := ⟨.vmem, 39, rfl⟩
abbrev cc3_scratch0 : Ref sig .tc := ⟨.vmem, 40, rfl⟩
abbrev cc3_scratch1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg6_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg5_1 : Ref sig .tc := ⟨.vmem, 60, rfl⟩
abbrev cc5_stg6_0 : Ref sig .tc := ⟨.vmem, 61, rfl⟩
abbrev cc5_stg7_0 : Ref sig .tc := ⟨.vmem, 62, rfl⟩
abbrev cc5_scratch0 : Ref sig .tc := ⟨.vmem, 63, rfl⟩
abbrev cc5_scratch1 : Ref sig .tc := ⟨.vmem, 64, rfl⟩
abbrev cc6_stg0_0 : Ref sig .tc := ⟨.vmem, 65, rfl⟩
abbrev cc6_stg0_1 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg6_1 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg1_1 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg5_1 : Ref sig .tc := ⟨.vmem, 83, rfl⟩
abbrev cc7_stg6_0 : Ref sig .tc := ⟨.vmem, 84, rfl⟩
abbrev cc7_stg7_0 : Ref sig .tc := ⟨.vmem, 85, rfl⟩
abbrev cc7_scratch0 : Ref sig .tc := ⟨.vmem, 86, rfl⟩
abbrev cc7_scratch1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg6_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem7_0 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc5_sem6_0 : DmaSem sig := 57
abbrev cc5_sem7_0 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem6_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem5_1 : DmaSem sig := 77
abbrev cc7_sem6_0 : DmaSem sig := 78
abbrev cc7_sem7_0 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_23 : BitVec 32 := 0#32
  let v40 : BitVec 1 := Scalar.cmpi .ne v39 c0_i32_23
  v40

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_23 : BitVec 32 := 0#32
  let v40 : BitVec 1 := Scalar.cmpi .ne v39 c0_i32_23
  v40

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def k5_cond2 (i : grid5.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_23 : BitVec 32 := 0#32
  let v40 : BitVec 1 := Scalar.cmpi .ne v39 c0_i32_23
  v40

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def k7_cond2 (i : grid7.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_23 : BitVec 32 := 0#32
  let v40 : BitVec 1 := Scalar.cmpi .ne v39 c0_i32_23
  v40

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2000x256_S256 : S2000x256.Reduces [0] S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S256 : S_.BroadcastsInDim S256 (![] : Fin 0 → Fin S256.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S2000x128_S128x256_S2000x256_1_0_0_1_n_n_wf : DotDims.WF S2000x128 S128x256 S2000x256 [1] [0] [0] [1] [] []
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  scatter_S256_S100000x1_S100000_n_0_0_1_wf : ScatterDims.WF S256 S100000x1 S100000 [] [0] [0] 1
  scatter_S256x256_S100000x1_S100000x256_1_0_0_1_wf : ScatterDims.WF S256x256 S100000x1 S100000x256 [1] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .f32 = 32 ∨ (Rect.block (s := S100000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S100000x256.size a
  hwx4_6 : ∀ i : grid4.Coords, EltTy.bits .f32 = 32 ∨ (Rect.block (s := S100000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S100000x256.size a
  hwx5_5 : ∀ i : grid5.Coords, EltTy.bits .f32 = 32 ∨ (Rect.block (s := S100000x256) S2000x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S100000x256.size a
  hwx6_1 : ∀ i : grid6.Coords, EltTy.bits .f32 = 32 ∨ (Rect.block (s := S100000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S100000x256.size a
  hwx6_6 : ∀ i : grid6.Coords, EltTy.bits .f32 = 32 ∨ (Rect.block (s := S100000x256) S2000x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S100000x256.size a
  hwx7_0 : ∀ i : grid7.Coords, EltTy.bits .f32 = 32 ∨ (Rect.block (s := S100000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S100000x256.size a
  hwx7_1 : ∀ i : grid7.Coords, EltTy.bits .f32 = 32 ∨ (Rect.block (s := S100000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x256.size a ≤ S256x256.size a
  hwx7_4 : ∀ i : grid7.Coords, EltTy.bits .f32 = 32 ∨ (Rect.block (s := S256x256) S256x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S100000x256.size a
  hwx7_5 : ∀ i : grid7.Coords, EltTy.bits .f32 = 32 ∨ (Rect.block (s := S100000x256) S2000x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x256.size a ≤ S1x256.size a
  hwx7_7 : ∀ i : grid7.Coords, EltTy.bits .f32 = 32 ∨ (Rect.block (s := S1x256) S1x256.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S100000x256.size a
  hwx8_0 : ∀ i : grid8.Coords, EltTy.bits .f32 = 32 ∨ (Rect.block (s := S100000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S100000x256.size a
  hwx8_1 : ∀ i : grid8.Coords, EltTy.bits .f32 = 32 ∨ (Rect.block (s := S100000x256) S2000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x256.size a ≤ S100000x256.size a
  hwx8_6 : ∀ i : grid8.Coords, EltTy.bits .f32 = 32 ∨ (Rect.block (s := S100000x256) S2000x256.size (cc8_transform_6 i) (hinb8_6 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x256_S100000x1_S100000x256_1_0_0_1 : ScatterDims S256x256 S100000x1 S100000x256 where
  updateWindowDims := [1]
  insertedWindowDims := [0]
  scatterDimsToOperandDims := [0]
  indexVectorDim := 1
  wf := scatter_S256x256_S100000x1_S100000x256_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S1x256.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_2) S1x256.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v32_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32_1) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32_2) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v39) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v59_1) S1x256.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59_2) S1x256.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun i => !(k3_cond2 i == 1#1) | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v59_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59_1) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59_2) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v66) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86_0) S2000x256.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v86_1) S1x256.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v86_2) S1x256.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev idle5 : Fin 8 → grid5.Coords → Bool := fun | 0 => fun _ => false | 1 => fun _ => false | 2 => fun _ => false | 3 => fun _ => false | 4 => fun _ => false | 5 => fun _ => false | 6 => fun i => !(k5_cond2 i == 1#1) | 7 => fun i => !(k5_cond2 i == 1#1) | ⟨_ + 8, h⟩ => absurd h (Nat.not_lt.2 (Nat.le_add_left _ _))

abbrev win6_0 : Pipeline.Window sig grid6 :=
  Pipeline.Window.ofSpec (Memref.whole main_v86_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v86_1) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86_2) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v91) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v93) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v93) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v107) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v112) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v111) S256x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v113_0) S2000x256.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v113_1) S1x256.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v113_2) S1x256.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun i => !(k7_cond2 i == 1#1) | 7 => fun i => !(k7_cond2 i == 1#1) | ⟨_ + 8, h⟩ => absurd h (Nat.not_lt.2 (Nat.le_add_left _ _))

abbrev win8_0 : Pipeline.Window sig grid8 :=
  Pipeline.Window.ofSpec (Memref.whole main_v113_0) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v93) S2000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v113_1) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113_2) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v119) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v120) S2000x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S100000x256 : Shape := ⟨2, ![100000, 256]⟩
abbrev S1x256 : Shape := ⟨2, ![1, 256]⟩
abbrev S_ : Shape := ⟨0, ![]⟩
abbrev S800000x1 : Shape := ⟨2, ![800000, 1]⟩
abbrev S100000x1 : Shape := ⟨2, ![100000, 1]⟩
abbrev S800000x256 : Shape := ⟨2, ![800000, 256]⟩
abbrev S1x256x256 : Shape := ⟨3, ![1, 256, 256]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 322
  | .vmem => 0
  | .smem => 0
  | _ => 0

abbrev hbmTy0_0 (i : Nat) : BufTy := match i % 128 with
  | 0 => ⟨S100000x128, .f32⟩
  | 1 => ⟨S2x800000, .i32⟩
  | 2 => ⟨S100000, .i32⟩
  | 3 => ⟨S128x256, .f32⟩
  | 4 => ⟨S256, .f32⟩
  | 5 => ⟨S4x256x256, .f32⟩
  | 6 => ⟨S4x256, .f32⟩
  | 7 => ⟨S4x256x256, .f32⟩
  | 8 => ⟨S4x256, .f32⟩
  | 9 => ⟨S4x256, .f32⟩
  | 10 => ⟨S256x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S100000x256, .f32⟩
  | 19 => ⟨S1x256, .f32⟩
  | 20 => ⟨S100000x256, .f32⟩
  | 21 => ⟨S100000x256, .f32⟩
  | 22 => ⟨S_, .f32⟩
  | 23 => ⟨S100000x256, .f32⟩
  | 24 => ⟨S100000x256, .f32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x256, .f32⟩
  | 44 => ⟨S_, .f32⟩
  | 45 => ⟨S100000x256, .f32⟩
  | 46 => ⟨S800000x1, .i32⟩
  | 47 => ⟨S100000x256, .f32⟩
  | 48 => ⟨S100000x256, .f32⟩
  | 49 => ⟨S100000x256, .f32⟩
  | 50 => ⟨S1x256x256, .f32⟩
  | 51 => ⟨S256x256, .f32⟩
  | 52 => ⟨S100000x256, .f32⟩
  | 53 => ⟨S1x256, .f32⟩
  | 54 => ⟨S256, .f32⟩
  | 55 => ⟨S1x256, .f32⟩
  | 56 => ⟨S100000x256, .f32⟩
  | 57 => ⟨S100000x256, .f32⟩
  | 58 => ⟨S1x256x256, .f32⟩
  | 59 => ⟨S256x256, .f32⟩
  | 60 => ⟨S100000x256, .f32⟩
  | 61 => ⟨S100000x256, .f32⟩
  | 62 => ⟨S_, .f32⟩
  | 63 => ⟨S256, .f32⟩
  | 64 => ⟨S_, .f32⟩
  | 65 => ⟨S256, .f32⟩
  | 66 => ⟨S256, .f32⟩
  | 67 => ⟨S1x256, .f32⟩
  | 68 => ⟨S100000x256, .f32⟩
  | 69 => ⟨S100000x256, .f32⟩
  | 70 => ⟨S100000x256, .f32⟩
  | 71 => ⟨S_, .f32⟩
  | 72 => ⟨S256, .f32⟩
  | 73 => ⟨S_, .f32⟩
  | 74 => ⟨S256, .f32⟩
  | 75 => ⟨S256, .f32⟩
  | 76 => ⟨S1x256, .f32⟩
  | 77 => ⟨S100000x256, .f32⟩
  | 78 => ⟨S100000x256, .f32⟩
  | 79 => ⟨S_, .f32⟩
  | 80 => ⟨S256, .f32⟩
  | 81 => ⟨S256, .f32⟩
  | 82 => ⟨S256, .f32⟩
  | 83 => ⟨S1x256, .f32⟩
  | 84 => ⟨S100000x256, .f32⟩
  | 85 => ⟨S100000x256, .f32⟩
  | 86 => ⟨S1x256, .f32⟩
  | 87 => ⟨S256, .f32⟩
  | 88 => ⟨S1x256, .f32⟩
  | 89 => ⟨S100000x256, .f32⟩
  | 90 => ⟨S100000x256, .f32⟩
  | 91 => ⟨S1x256, .f32⟩
  | 92 => ⟨S256, .f32⟩
  | 93 => ⟨S1x256, .f32⟩
  | 94 => ⟨S100000x256, .f32⟩
  | 95 => ⟨S100000x256, .f32⟩
  | 96 => ⟨S_, .f32⟩
  | 97 => ⟨S100000x256, .f32⟩
  | 98 => ⟨S100000x256, .f32⟩
  | 99 => ⟨S100000x256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S100000x256, .f32⟩
  | 111 => ⟨S800000x1, .i32⟩
  | 112 => ⟨S100000x256, .f32⟩
  | 113 => ⟨S100000x256, .f32⟩
  | 114 => ⟨S100000x256, .f32⟩
  | 115 => ⟨S1x256x256, .f32⟩
  | 116 => ⟨S256x256, .f32⟩
  | 117 => ⟨S100000x256, .f32⟩
  | 118 => ⟨S1x256, .f32⟩
  | 119 => ⟨S256, .f32⟩
  | 120 => ⟨S1x256, .f32⟩
  | 121 => ⟨S100000x256, .f32⟩
  | 122 => ⟨S100000x256, .f32⟩
  | 123 => ⟨S1x256x256, .f32⟩
  | 124 => ⟨S256x256, .f32⟩
  | 125 => ⟨S100000x256, .f32⟩
  | 126 => ⟨S100000x256, .f32⟩
  | 127 => ⟨S_, .f32⟩
  | _ => ⟨S100000x128, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S1x256, .f32⟩
  | 5 => ⟨S100000x256, .f32⟩
  | 6 => ⟨S100000x256, .f32⟩
  | 7 => ⟨S100000x256, .f32⟩
  | 8 => ⟨S_, .f32⟩
  | 9 => ⟨S256, .f32⟩
  | 10 => ⟨S_, .f32⟩
  | 11 => ⟨S256, .f32⟩
  | 12 => ⟨S256, .f32⟩
  | 13 => ⟨S1x256, .f32⟩
  | 14 => ⟨S100000x256, .f32⟩
  | 15 => ⟨S100000x256, .f32⟩
  | 16 => ⟨S_, .f32⟩
  | 17 => ⟨S256, .f32⟩
  | 18 => ⟨S256, .f32⟩
  | 19 => ⟨S256, .f32⟩
  | 20 => ⟨S1x256, .f32⟩
  | 21 => ⟨S100000x256, .f32⟩
  | 22 => ⟨S100000x256, .f32⟩
  | 23 => ⟨S1x256, .f32⟩
  | 24 => ⟨S256, .f32⟩
  | 25 => ⟨S1x256, .f32⟩
  | 26 => ⟨S100000x256, .f32⟩
  | 27 => ⟨S100000x256, .f32⟩
  | 28 => ⟨S1x256, .f32⟩
  | 29 => ⟨S256, .f32⟩
  | 30 => ⟨S1x256, .f32⟩
  | 31 => ⟨S100000x256, .f32⟩
  | 32 => ⟨S100000x256, .f32⟩
  | 33 => ⟨S_, .f32⟩
  | 34 => ⟨S100000x256, .f32⟩
  | 35 => ⟨S100000x256, .f32⟩
  | 36 => ⟨S100000x256, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x256, .f32⟩
  | 46 => ⟨S_, .f32⟩
  | 47 => ⟨S100000x256, .f32⟩
  | 48 => ⟨S800000x1, .i32⟩
  | 49 => ⟨S100000x256, .f32⟩
  | 50 => ⟨S100000x256, .f32⟩
  | 51 => ⟨S100000x256, .f32⟩
  | 52 => ⟨S1x256x256, .f32⟩
  | 53 => ⟨S256x256, .f32⟩
  | 54 => ⟨S100000x256, .f32⟩
  | 55 => ⟨S1x256, .f32⟩
  | 56 => ⟨S256, .f32⟩
  | 57 => ⟨S1x256, .f32⟩
  | 58 => ⟨S100000x256, .f32⟩
  | 59 => ⟨S100000x256, .f32⟩
  | 60 => ⟨S1x256x256, .f32⟩
  | 61 => ⟨S256x256, .f32⟩
  | 62 => ⟨S100000x256, .f32⟩
  | 63 => ⟨S100000x256, .f32⟩
  | 64 => ⟨S_, .f32⟩
  | 65 => ⟨S256, .f32⟩
  | 66 => ⟨S_, .f32⟩
  | 67 => ⟨S256, .f32⟩
  | 68 => ⟨S256, .f32⟩
  | 69 => ⟨S1x256, .f32⟩
  | 70 => ⟨S100000x256, .f32⟩
  | 71 => ⟨S100000x256, .f32⟩
  | 72 => ⟨S100000x256, .f32⟩
  | 73 => ⟨S_, .f32⟩
  | 74 => ⟨S256, .f32⟩
  | 75 => ⟨S_, .f32⟩
  | 76 => ⟨S256, .f32⟩
  | 77 => ⟨S256, .f32⟩
  | 78 => ⟨S1x256, .f32⟩
  | 79 => ⟨S100000x256, .f32⟩
  | 80 => ⟨S100000x256, .f32⟩
  | 81 => ⟨S_, .f32⟩
  | 82 => ⟨S256, .f32⟩
  | 83 => ⟨S256, .f32⟩
  | 84 => ⟨S256, .f32⟩
  | 85 => ⟨S1x256, .f32⟩
  | 86 => ⟨S100000x256, .f32⟩
  | 87 => ⟨S100000x256, .f32⟩
  | 88 => ⟨S1x256, .f32⟩
  | 89 => ⟨S256, .f32⟩
  | 90 => ⟨S1x256, .f32⟩
  | 91 => ⟨S100000x256, .f32⟩
  | 92 => ⟨S100000x256, .f32⟩
  | 93 => ⟨S1x256, .f32⟩
  | 94 => ⟨S256, .f32⟩
  | 95 => ⟨S1x256, .f32⟩
  | 96 => ⟨S100000x256, .f32⟩
  | 97 => ⟨S100000x256, .f32⟩
  | 98 => ⟨S_, .f32⟩
  | 99 => ⟨S100000x256, .f32⟩
  | 100 => ⟨S100000x256, .f32⟩
  | 101 => ⟨S100000x256, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S_, .f32⟩
  | 112 => ⟨S100000x256, .f32⟩
  | 113 => ⟨S800000x1, .i32⟩
  | 114 => ⟨S100000x256, .f32⟩
  | 115 => ⟨S100000x256, .f32⟩
  | 116 => ⟨S100000x256, .f32⟩
  | 117 => ⟨S1x256x256, .f32⟩
  | 118 => ⟨S256x256, .f32⟩
  | 119 => ⟨S100000x256, .f32⟩
  | 120 => ⟨S1x256, .f32⟩
  | 121 => ⟨S256, .f32⟩
  | 122 => ⟨S1x256, .f32⟩
  | 123 => ⟨S100000x256, .f32⟩
  | 124 => ⟨S100000x256, .f32⟩
  | 125 => ⟨S1x256x256, .f32⟩
  | 126 => ⟨S256x256, .f32⟩
  | 127 => ⟨S100000x256, .f32⟩
  | _ => ⟨S100000x128, .f32⟩

abbrev hbmTy0_2 (i : Nat) : BufTy := match i % 128 with
  | 0 => ⟨S100000x256, .f32⟩
  | 1 => ⟨S_, .f32⟩
  | 2 => ⟨S256, .f32⟩
  | 3 => ⟨S_, .f32⟩
  | 4 => ⟨S256, .f32⟩
  | 5 => ⟨S256, .f32⟩
  | 6 => ⟨S1x256, .f32⟩
  | 7 => ⟨S100000x256, .f32⟩
  | 8 => ⟨S100000x256, .f32⟩
  | 9 => ⟨S100000x256, .f32⟩
  | 10 => ⟨S_, .f32⟩
  | 11 => ⟨S256, .f32⟩
  | 12 => ⟨S_, .f32⟩
  | 13 => ⟨S256, .f32⟩
  | 14 => ⟨S256, .f32⟩
  | 15 => ⟨S1x256, .f32⟩
  | 16 => ⟨S100000x256, .f32⟩
  | 17 => ⟨S100000x256, .f32⟩
  | 18 => ⟨S_, .f32⟩
  | 19 => ⟨S256, .f32⟩
  | 20 => ⟨S256, .f32⟩
  | 21 => ⟨S256, .f32⟩
  | 22 => ⟨S1x256, .f32⟩
  | 23 => ⟨S100000x256, .f32⟩
  | 24 => ⟨S100000x256, .f32⟩
  | 25 => ⟨S1x256, .f32⟩
  | 26 => ⟨S256, .f32⟩
  | 27 => ⟨S1x256, .f32⟩
  | 28 => ⟨S100000x256, .f32⟩
  | 29 => ⟨S100000x256, .f32⟩
  | 30 => ⟨S1x256, .f32⟩
  | 31 => ⟨S256, .f32⟩
  | 32 => ⟨S1x256, .f32⟩
  | 33 => ⟨S100000x256, .f32⟩
  | 34 => ⟨S100000x256, .f32⟩
  | 35 => ⟨S_, .f32⟩
  | 36 => ⟨S100000x256, .f32⟩
  | 37 => ⟨S100000x256, .f32⟩
  | 38 => ⟨S100000x256, .f32⟩
  | 39 => ⟨S_, .f32⟩
  | 40 => ⟨S100000, .f32⟩
  | 41 => ⟨S_, .f32⟩
  | 42 => ⟨S256, .f32⟩
  | 43 => ⟨S100000x1, .i32⟩
  | 44 => ⟨S256, .f32⟩
  | 45 => ⟨S_, .f32⟩
  | 46 => ⟨S256x256, .f32⟩
  | 47 => ⟨S100000x1, .i32⟩
  | 48 => ⟨S256x256, .f32⟩
  | 49 => ⟨S_, .f32⟩
  | 50 => ⟨S256, .f32⟩
  | 51 => ⟨S256, .f32⟩
  | 52 => ⟨S256x1, .f32⟩
  | 53 => ⟨S256x256, .f32⟩
  | 54 => ⟨S256x256, .f32⟩
  | 55 => ⟨S256x128, .f32⟩
  | 56 => ⟨S1x128, .f32⟩
  | 57 => ⟨S256x128, .f32⟩
  | 58 => ⟨S256x128, .f32⟩
  | 59 => ⟨S_, .f32⟩
  | 60 => ⟨S256x128, .f32⟩
  | 61 => ⟨S256x128, .f32⟩
  | 62 => ⟨S256x1, .f32⟩
  | 63 => ⟨S1x1, .f32⟩
  | 64 => ⟨S256x1, .f32⟩
  | 65 => ⟨S256x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_cst : Ref sig .tc := ⟨.hbm, 96, rfl⟩
abbrev main_call1_v0 : Ref sig .tc := ⟨.hbm, 97, rfl⟩
abbrev main_v69 : Ref sig .tc := ⟨.hbm, 98, rfl⟩
abbrev main_v70 : Ref sig .tc := ⟨.hbm, 99, rfl⟩
abbrev main_c_9 : Ref sig .tc := ⟨.hbm, 100, rfl⟩
abbrev main_v71 : Ref sig .tc := ⟨.hbm, 101, rfl⟩
abbrev main_v72 : Ref sig .tc := ⟨.hbm, 102, rfl⟩
abbrev main_c_10 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_12 : Ref sig .tc := ⟨.hbm, 127, rfl⟩
abbrev main_v95 : Ref sig .tc := ⟨.hbm, 128, rfl⟩
abbrev main_cst_13 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_14 : Ref sig .tc := ⟨.hbm, 136, rfl⟩
abbrev main_v102 : Ref sig .tc := ⟨.hbm, 137, rfl⟩
abbrev main_cst_15 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_16 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call2_cst : Ref sig .tc := ⟨.hbm, 161, rfl⟩
abbrev main_call2_v0 : Ref sig .tc := ⟨.hbm, 162, rfl⟩
abbrev main_v124 : Ref sig .tc := ⟨.hbm, 163, rfl⟩
abbrev main_v125 : Ref sig .tc := ⟨.hbm, 164, rfl⟩
abbrev main_c_17 : Ref sig .tc := ⟨.hbm, 165, rfl⟩
abbrev main_v126 : Ref sig .tc := ⟨.hbm, 166, rfl⟩
abbrev main_v127 : Ref sig .tc := ⟨.hbm, 167, rfl⟩
abbrev main_c_18 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_19 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_20 : Ref sig .tc := ⟨.hbm, 192, rfl⟩
abbrev main_v150 : Ref sig .tc := ⟨.hbm, 193, rfl⟩
abbrev main_cst_21 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_22 : Ref sig .tc := ⟨.hbm, 201, rfl⟩
abbrev main_v157 : Ref sig .tc := ⟨.hbm, 202, rfl⟩
abbrev main_cst_23 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_24 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_call3_cst : Ref sig .tc := ⟨.hbm, 226, rfl⟩
abbrev main_call3_v0 : Ref sig .tc := ⟨.hbm, 227, rfl⟩
abbrev main_v179 : Ref sig .tc := ⟨.hbm, 228, rfl⟩
abbrev main_v180 : Ref sig .tc := ⟨.hbm, 229, rfl⟩
abbrev main_c_25 : Ref sig .tc := ⟨.hbm, 230, rfl⟩
abbrev main_v181 : Ref sig .tc := ⟨.hbm, 231, rfl⟩
abbrev main_v182 : Ref sig .tc := ⟨.hbm, 232, rfl⟩
abbrev main_c_26 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_27 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_cst_28 : Ref sig .tc := ⟨.hbm, 257, rfl⟩
abbrev main_v205 : Ref sig .tc := ⟨.hbm, 258, rfl⟩
abbrev main_cst_29 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_cst_30 : Ref sig .tc := ⟨.hbm, 266, rfl⟩
abbrev main_v212 : Ref sig .tc := ⟨.hbm, 267, rfl⟩
abbrev main_cst_31 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_32 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_call4_cst : Ref sig .tc := ⟨.hbm, 291, rfl⟩
abbrev main_call4_v0 : Ref sig .tc := ⟨.hbm, 292, rfl⟩
abbrev main_v234 : Ref sig .tc := ⟨.hbm, 293, rfl⟩
abbrev main_v235 : Ref sig .tc := ⟨.hbm, 294, rfl⟩
abbrev main_cst_33 : Ref sig .tc := ⟨.hbm, 295, rfl⟩
abbrev main_v236 : Ref sig .tc := ⟨.hbm, 296, rfl⟩
abbrev main_cst_34 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_cst_35 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_cst_36 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_call5_cst : Ref sig .tc := ⟨.hbm, 315, rfl⟩
abbrev main_call5_v0 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  reducesTo_S100000x256_S256_d0 : S100000x256.ReducesTo [0] S256
  h_S_ : 0 < S_.numel
  bcast_S_S256 : S_.BroadcastsInDim S256 (![] : Fin 0 → Fin S256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x128_S128x256_S100000x256_1_0_0_1_n_n_wf : DotDims.WF S100000x128 S128x256 S100000x256 [1] [0] [0] [1] [] []
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  scatter_S256_S100000x1_S100000_n_0_0_1_wf : ScatterDims.WF S256 S100000x1 S100000 [] [0] [0] 1
  scatter_S256x256_S100000x1_S100000x256_1_0_0_1_wf : ScatterDims.WF S256x256 S100000x1 S100000x256 [1] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x256_S100000x1_S100000x256_1_0_0_1 : ScatterDims S256x256 S100000x1 S100000x256 where
  updateWindowDims := [1]
  insertedWindowDims := [0]
  scatterDimsToOperandDims := [0]
  indexVectorDim := 1
  wf := scatter_S256x256_S100000x1_S100000x256_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.Region0.lean ====
/- Region 0 of the kernel program: the projection `relu (x · Wp + bp)`, one tile of 2000 rows per grid point.
   Stated at the core's buffer contents `V` when the region is entered: each window's block at a point, what the
   body leaves in the output window's buffer as a function of the input blocks, the body's triple, the pipeline's
   proof data and the body obligation. Generic in the float instance. -/
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: `cc0__proj_kernel`, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store are of a whole buffer -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, of the body's
    arithmetic `k0_pay1` on the loaded blocks, over the whole buffer. -/
def out0_3 (x0 : Vec F S2000x128 .f32) (x1 : Vec F S128x256 .f32) (x2 : Vec F S1x256 .f32) : Vec F S2000x256 .f32 :=
  View.canon [⟨r0_3, k0_pay1 (View.ld x0 r0_0) (View.ld x1 r0_1) (View.ld x2 r0_2)⟩]

/-- The store covers the buffer. -/
theorem cover0_3 (p0 : Vec F S2000x256 .f32) (y : S2000x256.Idx) :
    ∃ pc ∈ ([⟨r0_3, p0⟩] : List (View.Piece (Elt F) S2000x256 .f32)), y ∈ pc.1.set :=
  View.cover_of_tiled [⟨r0_3, p0⟩] S2000x256.size (by rfl) y

/-! ## The body's triple -/

set_option maxHeartbeats 1000000 in
/-- The kernel body on whole staging memrefs, the inputs' at contents `xW` and the output's at anything, runs to the
    continuation holding the inputs' as they were and the output's at `out0_3` of the inputs'. The body reads the
    output's buffer once before it stores to it; what it reads there is not used. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Run.lean ====
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the layer's matmul and column statistics): the kernel body on any staging memrefs

The body reads the point's tile of `h` and of `agg` and the whole of `Wl`, `bl`, `Wr`, stores
`hn = agg·Wl + bl + h·Wr` whole into window 5's buffer, and adds the column sums of `hn` and of `hn*hn`
into two scratch rows kept between points: zeroed at the first point, copied out at the last. -/

/-- Every access of the body is through the whole-shape rectangle at zero offsets. -/
theorem hz2 : (![0, 0] : Fin 2 → Nat) = fun _ => 0 := by funext a; fin_cases a <;> rfl

/-- After a last store through the whole-shape rectangle at zero offsets, a buffer reads that store's payload,
    whatever it held and whatever was stored before. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-! ## What the body computes, over the blocks (the skeleton's payloads) -/

/-- `hn`'s tile from the tiles of `h` (`x0`) and `agg` (`x1`), `Wl` (`x2`), `bl` (`x3`), `Wr` (`x4`). -/
def out1_5 (x0 x1 : Vec F S2000x256 .f32) (x2 : Vec F S256x256 .f32) (x3 : Vec F S1x256 .f32) (x4 : Vec F S256x256 .f32) : Vec F S2000x256 .f32 :=
  k1_pay4 x0 x1 x2 x4 x3

/-- The column sums after a point from those before it (`s`): `s` plus the column sums of the point's `hn` tile. -/
def stepS (x0 x1 : Vec F S2000x256 .f32) (x2 : Vec F S256x256 .f32) (x3 : Vec F S1x256 .f32) (x4 : Vec F S256x256 .f32) (s : Vec F S1x256 .f32) : Vec F S1x256 .f32 :=
  k1_pay5 x0 x1 x2 x4 x3 s

/-- The column sums of squares after a point from those before it (`q`): `q` plus the column sums of `hn*hn`. -/
def stepQ (x0 x1 : Vec F S2000x256 .f32) (x2 : Vec F S256x256 .f32) (x3 : Vec F S1x256 .f32) (x4 : Vec F S256x256 .f32) (q : Vec F S1x256 .f32) : Vec F S1x256 .f32 :=
  k1_pay1 q (k1_pay6 x0 x1 x2 x4 x3)

/-! ## The body's branch conditions -/

/-- The condition of the zero-fill (`program_id = 0`), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the copy-out (`program_id = 49`), from the grid coordinates. -/
abbrev cond1_1 (i : grid1.Coords) : Prop := k1_cond2 i = 1#1
/-- It holds at the last point only — decided over the grid. -/
theorem hcond1_1 : ∀ t : Fin cfg1.N, cond1_1 (grid1.coords t) ↔ t.val = 49 :=
  (by decide +kernel : ∀ t : Fin grid1.N, cond1_1 (grid1.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel1_A (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond1_0 i) (hc1 : ¬cond1_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc1__layer_matmul_kernel i arg1 harg1 arg2 harg2 arg3 harg3 arg4 harg4 arg5 harg5 arg6 harg6 arg7 harg7 arg8 harg8 arg9 harg9 arg10 harg10) K := by
  simp only [cc1__layer_matmul_kernel_eq_skeleton]; unfold cc1__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel1_B (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond1_0 i) (hc1 : ¬cond1_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc1__layer_matmul_kernel i arg1 harg1 arg2 harg2 arg3 harg3 arg4 harg4 arg5 harg5 arg6 harg6 arg7 harg7 arg8 harg8 arg9 harg9 arg10 harg10) K := by
  simp only [cc1__layer_matmul_kernel_eq_skeleton]; unfold cc1__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel1_C (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond1_0 i) (hc1 : cond1_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc1__layer_matmul_kernel i arg1 harg1 arg2 harg2 arg3 harg3 arg4 harg4 arg5 harg5 arg6 harg6 arg7 harg7 arg8 harg8 arg9 harg9 arg10 harg10) K := by
  simp only [cc1__layer_matmul_kernel_eq_skeleton]; unfold cc1__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.Kernel.Hand

end
-- ==== Proof.K.Region1.lean ====
import proofs.«111242_j77756087927556_1_alg».proof.Proof.K.Region1Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Where windows 6 and 7 are idle, and where they are written back -/

theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel

/-! ## The running sums -/

/-- The scratch operands: whole scoped buffers of the kernel's own. -/
abbrev scM1_0 : Memref sig .tc .vmem S1x256 .f32 := Memref.whole cc1_scratch0
abbrev scM1_1 : Memref sig .tc .vmem S1x256 .f32 := Memref.whole cc1_scratch1

/-- The column sums of `hn` over the first `n` tiles: zero, then tile by tile (`stepS`). What the first
    scratch row holds before point `n`, for `n ≥ 1`. -/
def accS (c : Dev nD) : ℕ → Vec F S1x256 .f32
  | 0 => k1_pay2
  | n + 1 => if h : n < cfg1.N then stepS (iblk1 V c 0 ⟨n, h⟩) (iblk1 V c 1 ⟨n, h⟩) (iblk1 V c 2 ⟨n, h⟩) (iblk1 V c 3 ⟨n, h⟩) (iblk1 V c 4 ⟨n, h⟩) (accS c n) else accS c n

/-- The column sums of `hn*hn` over the first `n` tiles. What the second scratch row holds before point `n`, for `n ≥ 1`. -/
def accQ (c : Dev nD) : ℕ → Vec F S1x256 .f32
  | 0 => k1_pay3
  | n + 1 => if h : n < cfg1.N then stepQ (iblk1 V c 0 ⟨n, h⟩) (iblk1 V c 1 ⟨n, h⟩) (iblk1 V c 2 ⟨n, h⟩) (iblk1 V c 3 ⟨n, h⟩) (iblk1 V c 4 ⟨n, h⟩) (accQ c n) else accQ c n

theorem accS_zero (c : Dev nD) : accS V c 0 = k1_pay2 (F := F) := rfl
theorem accQ_zero (c : Dev nD) : accQ V c 0 = k1_pay3 (F := F) := rfl
theorem accS_succ (c : Dev nD) (t : Fin cfg1.N) : accS V c (t.val + 1) = stepS (iblk1 V c 0 t) (iblk1 V c 1 t) (iblk1 V c 2 t) (iblk1 V c 3 t) (iblk1 V c 4 t) (accS V c t.val) := by
  show (if h : t.val < cfg1.N then _ else _) = _; rw [dif_pos t.isLt]
theorem accQ_succ (c : Dev nD) (t : Fin cfg1.N) : accQ V c (t.val + 1) = stepQ (iblk1 V c 0 t) (iblk1 V c 1 t) (iblk1 V c 2 t) (iblk1 V c 3 t) (iblk1 V c 4 t) (accQ V c t.val) := by
  show (if h : t.val < cfg1.N then _ else _) = _; rw [dif_pos t.isLt]

/-! ## The region invariant -/

/-- The scoped buffers of the core that are neither a staging buffer of this call nor its two scratch rows. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant before position `n`: before the first point the class's (every scoped buffer that is no
    staging buffer at anything, the generator register at some state); afterwards the same with the two
    scratch rows at the running sums over the first `n` tiles. -/
def Phi1 (c : Dev nD) : ℕ → sProp 𝕄
  | 0 => Pipeline.ΦA spec1 c
  | n + 1 => iprop(iprop(iprop(owns (c : Thread nD τ) scM1_0 fullShare (accS V c (n + 1)) ∗ owns (c : Thread nD τ) scM1_1 fullShare (accQ V c (n + 1))) ∗ rest1 c) ∗ (∃ r, prngReg c r))

theorem Phi1_zero (c : Dev nD) (n : ℕ) (hz : n = 0) : Phi1 V c n = Pipeline.ΦA spec1 c := by subst hz; rfl
theorem Phi1_succ (c : Dev nD) (n : ℕ) :
    Phi1 V c (n + 1) = iprop(iprop(iprop(owns (c : Thread nD τ) scM1_0 fullShare (accS V c (n + 1)) ∗ owns (c : Thread nD τ) scM1_1 fullShare (accQ V c (n + 1))) ∗ rest1 c) ∗ (∃ r, prngReg c r)) := rfl
theorem Phi1_pos (c : Dev nD) (n : ℕ) (hz : n ≠ 0) :
    Phi1 V c n = iprop(iprop(iprop(owns (c : Thread nD τ) scM1_0 fullShare (accS V c n) ∗ owns (c : Thread nD τ) scM1_1 fullShare (accQ V c n)) ∗ rest1 c) ∗ (∃ r, prngReg c r)) := by
  cases n with
  | zero => exact absurd rfl hz
  | succ n => rfl

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## The pipeline's proof data -/

/-- The proof data of pipeline 1 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => accS V c (t.val + 1)
    | ⟨7, _⟩ => accQ V c (t.val + 1)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start and end. -/
theorem Phi1_castSucc (c : Dev nD) (t : Fin cfg1.N) : (dat1 V c).Φ t.castSucc = Phi1 V c t.val := by
  dsimp only [dat1]; simp only [Fin.coe_castSucc]
theorem Phi1_at_succ (c : Dev nD) (t : Fin cfg1.N) : (dat1 V c).Φ t.succ = Phi1 V c (t.val + 1) := by
  dsimp only [dat1]; simp only [Fin.val_succ]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = accS V c (t.val + 1) := by dsimp only [dat1]
theorem after1_7 (c : Dev nD) (t : Fin cfg1.N) : (dat1 V c).after 7 t = accQ V c (t.val + 1) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_at_succ, Phi1_succ, Phi1_castSucc]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  have hN : t.val < 50 := lt_of_lt_of_eq t.isLt (show cfg1.N = 50 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1), Dat.leavesExact_idle (dat1 V c) 7 t (idleAt1_7 t hc1) (noFlush1_7 t hc1)]
    rw [accS_succ V c t, accQ_succ V c t]
    rw [Phi1_zero V c _ h0, PhiA1_eq, show accS V c t.val = k1_pay2 (F := F) from by rw [h0]; rfl, show accQ V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond1_0 (grid1.coords t) := fun h => h0 ((hcond1_0 t).mp h)
    by_cases h1 : t.val = 49
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      rw [show (dat1 V c).leavesExact 7 t = owns (c : Thread nD τ) (st1_7 t) fullShare ((dat1 V c).after 7 t) from by
        unfold Dat.leavesExact; rw [liveAt1_7 t hc1], after1_7]
      rw [accS_succ V c t, accQ_succ V c t]
      rw [Phi1_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (accS V c t.val) (accQ V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 6 t (idleAt1_6 t hc1) (noFlush1_6 t hc1), Dat.leavesExact_idle (dat1 V c) 7 t (idleAt1_7 t hc1) (noFlush1_7 t hc1)]
      rw [accS_succ V c t, accQ_succ V c t]
      rw [Phi1_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ (accS V c t.val) (accQ V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the launch hands the region is the invariant before the first point. -/
theorem hin1 (c : Dev nD) : Pipeline.ΦA spec1 c ⊢ (dat1 V c).Φ 0 := by
  rw [show (dat1 V c).Φ 0 = Phi1 V c 0 from rfl, Phi1_zero V c 0 rfl]
  try exact Idealize.SL.BI.Entails.refl _

/-- After any point the invariant gives the class's back: the running sums are forgotten. -/
theorem Phi1_out (c : Dev nD) (t : Fin (cfg1.N + 1)) (ht : t.val ≠ 0) : (dat1 V c).Φ t ⊢ Pipeline.ΦA spec1 c := by
  rw [show (dat1 V c).Φ t = Phi1 V c t.val from rfl, Phi1_pos V c _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi1_out V c _ (by rw [Fin.val_last]; have : cfg1.N = 50 := N_1; omega)

/-- The two entailments in the form a region segment takes them: from the generator register and the scoped rest
    into the invariant before the first point, -/
theorem Phi1_in_seg (c : Dev nD) :
    iprop((∃ r, prngReg c r) ∗ Pipeline.scopedRest (Ix := Unit) (Name := ℕ) (U := UR sig nD τ) (Lvl := ℕ) (Val := Elt F) spec1 c) ⊢ (dat1 V c).Φ 0 := by
  refine (show _ ⊢ Pipeline.ΦA spec1 c from ?_).trans (hin1 V c)
  unfold Pipeline.ΦA
  iintro ⟨Hp, Hr⟩
  isplitl [Hr]; · iexact Hr
  iexact Hp

/-- and back after the last point. -/
theorem Phi1_out_seg (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  refine (hout1 V c).trans (show Pipeline.ΦA spec1 c ⊢ _ from ?_)
  unfold Pipeline.ΦA
  iintro ⟨Hr, Hp⟩
  isplitl [Hp]; · iexact Hp
  iexact Hr

end Region1

end Cert.Kernel.Hand

end
-- ==== Proof.K.Region2.lean ====
/- Region 2 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 2: `cc2__layer_norm_kernel`, at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store are of a whole buffer -/

abbrev r2_0 : Rect S1x256 := Rect.unit (s := S1x256) ![0, 0] S1x256.size inb_S1x256_S1x256_0_0
abbrev r2_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k2_pay1` on the loaded blocks, over the whole buffer. -/
def out2_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r2_1, k2_pay1 (View.ld x2 r2_0) (View.ld x3 r2_0) (View.ld x0 r2_1) (View.ld x4 r2_0) (View.ld x5 r2_0) (View.ld x1 r2_1)⟩]

/-- The store covers the buffer. -/
theorem cover2_6 (p0 : Vec F S2000x256 .f32) (y : S2000x256.Idx) :
    ∃ pc ∈ ([⟨r2_1, p0⟩] : List (View.Piece (Elt F) S2000x256 .f32)), y ∈ pc.1.set :=
  View.cover_of_tiled [⟨r2_1, p0⟩] S2000x256.size (by rfl) y

/-! ## The body's triple -/

set_option maxHeartbeats 1000000 in
/-- The kernel body on whole staging memrefs, the inputs' at contents `xW` and the output's at anything, runs to the
    continuation holding the inputs' as they were and the output's at `out2_6` of the inputs'. The body reads the
    output's buffer once before it stores to it; what it reads there is not used. -/
theorem sound_kernel2 (c : Dev nD) (E : Set ℕ) (i : grid2.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__layer_norm_kernel i arg1 harg1 arg2 harg2 arg3 harg3 arg4 harg4 arg5 harg5 arg6 harg6 arg7 harg7) K := by
  simp only [cc2__layer_norm_kernel_eq_skeleton]; unfold cc2__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point `t` each
    input's buffer at its block and the output's at `out2_6` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3Run.lean ====
import proofs.«111242_j77756087927556_1_alg».proof.Proof.K.Region1Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (a later layer's matmul and column statistics): the kernel body on any staging memrefs

The same body as region 1's, printed again under this call's names: its payloads are region 1's functions
(`out1_5`, `stepS`, `stepQ`, the zero rows `k1_pay2`, `k1_pay3`) by unfolding. -/

/-! ## The body's branch conditions -/

/-- The condition of the zero-fill (`program_id = 0`), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The condition of the copy-out (`program_id = 49`), from the grid coordinates. -/
abbrev cond3_1 (i : grid3.Coords) : Prop := k3_cond2 i = 1#1
/-- It holds at the last point only — decided over the grid. -/
theorem hcond3_1 : ∀ t : Fin cfg3.N, cond3_1 (grid3.coords t) ↔ t.val = 49 :=
  (by decide +kernel : ∀ t : Fin grid3.N, cond3_1 (grid3.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel3_A (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond3_0 i) (hc1 : ¬cond3_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc3__layer_matmul_kernel i arg1 harg1 arg2 harg2 arg3 harg3 arg4 harg4 arg5 harg5 arg6 harg6 arg7 harg7 arg8 harg8 arg9 harg9 arg10 harg10) K := by
  simp only [cc3__layer_matmul_kernel_eq_skeleton]; unfold cc3__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel3_B (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond3_0 i) (hc1 : ¬cond3_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc3__layer_matmul_kernel i arg1 harg1 arg2 harg2 arg3 harg3 arg4 harg4 arg5 harg5 arg6 harg6 arg7 harg7 arg8 harg8 arg9 harg9 arg10 harg10) K := by
  simp only [cc3__layer_matmul_kernel_eq_skeleton]; unfold cc3__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel3_C (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond3_0 i) (hc1 : cond3_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc3__layer_matmul_kernel i arg1 harg1 arg2 harg2 arg3 harg3 arg4 harg4 arg5 harg5 arg6 harg6 arg7 harg7 arg8 harg8 arg9 harg9 arg10 harg10) K := by
  simp only [cc3__layer_matmul_kernel_eq_skeleton]; unfold cc3__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.Kernel.Hand

end
-- ==== Proof.K.Region3.lean ====
import proofs.«111242_j77756087927556_1_alg».proof.Proof.K.Region3Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## Where windows 6 and 7 are idle, and where they are written back -/

theorem idleAt3_6 : ∀ t : Fin cfg3.N, ¬cond3_1 (grid3.coords t) → cfg3.idle 6 (grid3.coords t) = true := by decide +kernel
theorem idleAt3_7 : ∀ t : Fin cfg3.N, ¬cond3_1 (grid3.coords t) → cfg3.idle 7 (grid3.coords t) = true := by decide +kernel
theorem liveAt3_6 : ∀ t : Fin cfg3.N, cond3_1 (grid3.coords t) → cfg3.idle 6 (grid3.coords t) = false := by decide +kernel
theorem liveAt3_7 : ∀ t : Fin cfg3.N, cond3_1 (grid3.coords t) → cfg3.idle 7 (grid3.coords t) = false := by decide +kernel
theorem noFlush3_6 : ∀ t : Fin cfg3.N, ¬cond3_1 (grid3.coords t) → (cfg3.win 6).flush t = false := by decide +kernel
theorem noFlush3_7 : ∀ t : Fin cfg3.N, ¬cond3_1 (grid3.coords t) → (cfg3.win 7).flush t = false := by decide +kernel

/-! ## The running sums -/

/-- The scratch operands: whole scoped buffers of the kernel's own. -/
abbrev scM3_0 : Memref sig .tc .vmem S1x256 .f32 := Memref.whole cc3_scratch0
abbrev scM3_1 : Memref sig .tc .vmem S1x256 .f32 := Memref.whole cc3_scratch1

/-- The column sums of `hn` over the first `n` tiles: zero, then tile by tile (`stepS`). What the first
    scratch row holds before point `n`, for `n ≥ 1`. -/
def accS3 (c : Dev nD) : ℕ → Vec F S1x256 .f32
  | 0 => k1_pay2
  | n + 1 => if h : n < cfg3.N then stepS (iblk3 V c 0 ⟨n, h⟩) (iblk3 V c 1 ⟨n, h⟩) (iblk3 V c 2 ⟨n, h⟩) (iblk3 V c 3 ⟨n, h⟩) (iblk3 V c 4 ⟨n, h⟩) (accS3 c n) else accS3 c n

/-- The column sums of `hn*hn` over the first `n` tiles. What the second scratch row holds before point `n`, for `n ≥ 1`. -/
def accQ3 (c : Dev nD) : ℕ → Vec F S1x256 .f32
  | 0 => k1_pay3
  | n + 1 => if h : n < cfg3.N then stepQ (iblk3 V c 0 ⟨n, h⟩) (iblk3 V c 1 ⟨n, h⟩) (iblk3 V c 2 ⟨n, h⟩) (iblk3 V c 3 ⟨n, h⟩) (iblk3 V c 4 ⟨n, h⟩) (accQ3 c n) else accQ3 c n

theorem accS3_zero (c : Dev nD) : accS3 V c 0 = k1_pay2 (F := F) := rfl
theorem accQ3_zero (c : Dev nD) : accQ3 V c 0 = k1_pay3 (F := F) := rfl
theorem accS3_succ (c : Dev nD) (t : Fin cfg3.N) : accS3 V c (t.val + 1) = stepS (iblk3 V c 0 t) (iblk3 V c 1 t) (iblk3 V c 2 t) (iblk3 V c 3 t) (iblk3 V c 4 t) (accS3 V c t.val) := by
  show (if h : t.val < cfg3.N then _ else _) = _; rw [dif_pos t.isLt]
theorem accQ3_succ (c : Dev nD) (t : Fin cfg3.N) : accQ3 V c (t.val + 1) = stepQ (iblk3 V c 0 t) (iblk3 V c 1 t) (iblk3 V c 2 t) (iblk3 V c 3 t) (iblk3 V c 4 t) (accQ3 V c t.val) := by
  show (if h : t.val < cfg3.N then _ else _) = _; rw [dif_pos t.isLt]

/-! ## The region invariant -/

/-- The scoped buffers of the core that are neither a staging buffer of this call nor its two scratch rows. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The invariant before position `n`: before the first point the class's (every scoped buffer that is no
    staging buffer at anything, the generator register at some state); afterwards the same with the two
    scratch rows at the running sums over the first `n` tiles. -/
def Phi3 (c : Dev nD) : ℕ → sProp 𝕄
  | 0 => Pipeline.ΦA spec3 c
  | n + 1 => iprop(iprop(iprop(owns (c : Thread nD τ) scM3_0 fullShare (accS3 V c (n + 1)) ∗ owns (c : Thread nD τ) scM3_1 fullShare (accQ3 V c (n + 1))) ∗ rest3 c) ∗ (∃ r, prngReg c r))

theorem Phi3_zero (c : Dev nD) (n : ℕ) (hz : n = 0) : Phi3 V c n = Pipeline.ΦA spec3 c := by subst hz; rfl
theorem Phi3_succ (c : Dev nD) (n : ℕ) :
    Phi3 V c (n + 1) = iprop(iprop(iprop(owns (c : Thread nD τ) scM3_0 fullShare (accS3 V c (n + 1)) ∗ owns (c : Thread nD τ) scM3_1 fullShare (accQ3 V c (n + 1))) ∗ rest3 c) ∗ (∃ r, prngReg c r)) := rfl
theorem Phi3_pos (c : Dev nD) (n : ℕ) (hz : n ≠ 0) :
    Phi3 V c n = iprop(iprop(iprop(owns (c : Thread nD τ) scM3_0 fullShare (accS3 V c n) ∗ owns (c : Thread nD τ) scM3_1 fullShare (accQ3 V c n)) ∗ rest3 c) ∗ (∃ r, prngReg c r)) := by
  cases n with
  | zero => exact absurd rfl hz
  | succ n => rfl

/-- The class invariant with the two scratch rows as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

/-! ## The pipeline's proof data -/

/-- The proof data of pipeline 3 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
    | ⟨6, _⟩ => accS3 V c (t.val + 1)
    | ⟨7, _⟩ => accQ3 V c (t.val + 1)
  Φ t := Phi3 V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start and end. -/
theorem Phi3_castSucc (c : Dev nD) (t : Fin cfg3.N) : (dat3 V c).Φ t.castSucc = Phi3 V c t.val := by
  dsimp only [dat3]; simp only [Fin.coe_castSucc]
theorem Phi3_at_succ (c : Dev nD) (t : Fin cfg3.N) : (dat3 V c).Φ t.succ = Phi3 V c (t.val + 1) := by
  dsimp only [dat3]; simp only [Fin.val_succ]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out1_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = accS3 V c (t.val + 1) := by dsimp only [dat3]
theorem after3_7 (c : Dev nD) (t : Fin cfg3.N) : (dat3 V c).after 7 t = accQ3 V c (t.val + 1) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [Phi3_at_succ, Phi3_succ, Phi3_castSucc]
  rw [show (dat3 V c).leavesExact 0 t = owns (c : Thread nD τ) (st3_0 t) fullShare ((dat3 V c).after 0 t) from rfl, after3_0]
  rw [show (dat3 V c).leavesExact 1 t = owns (c : Thread nD τ) (st3_1 t) fullShare ((dat3 V c).after 1 t) from rfl, after3_1]
  rw [show (dat3 V c).leavesExact 2 t = owns (c : Thread nD τ) (st3_2 t) fullShare ((dat3 V c).after 2 t) from rfl, after3_2]
  rw [show (dat3 V c).leavesExact 3 t = owns (c : Thread nD τ) (st3_3 t) fullShare ((dat3 V c).after 3 t) from rfl, after3_3]
  rw [show (dat3 V c).leavesExact 4 t = owns (c : Thread nD τ) (st3_4 t) fullShare ((dat3 V c).after 4 t) from rfl, after3_4]
  rw [show (dat3 V c).leavesExact 5 t = owns (c : Thread nD τ) (st3_5 t) fullShare ((dat3 V c).after 5 t) from rfl, after3_5]
  have hN : t.val < 50 := lt_of_lt_of_eq t.isLt (show cfg3.N = 50 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 6 t (idleAt3_6 t hc1) (noFlush3_6 t hc1), Dat.leavesExact_idle (dat3 V c) 7 t (idleAt3_7 t hc1) (noFlush3_7 t hc1)]
    rw [accS3_succ V c t, accQ3_succ V c t]
    rw [Phi3_zero V c _ h0, PhiA3_eq, show accS3 V c t.val = k1_pay2 (F := F) from by rw [h0]; rfl, show accQ3 V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel3_A c (grid3.coords t) _ _ _ _ _ _ _ _ _ _ _ _ _ _ _ _ _ _ _ _ hc0 hc1 (iblk3 V c 0 t) (iblk3 V c 1 t) (iblk3 V c 2 t) (iblk3 V c 3 t) (iblk3 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond3_0 (grid3.coords t) := fun h => h0 ((hcond3_0 t).mp h)
    by_cases h1 : t.val = 49
    · have hc1 : cond3_1 (grid3.coords t) := (hcond3_1 t).mpr h1
      rw [show (dat3 V c).leavesExact 6 t = owns (c : Thread nD τ) (st3_6 t) fullShare ((dat3 V c).after 6 t) from by
        unfold Dat.leavesExact; rw [liveAt3_6 t hc1], after3_6]
      rw [show (dat3 V c).leavesExact 7 t = owns (c : Thread nD τ) (st3_7 t) fullShare ((dat3 V c).after 7 t) from by
        unfold Dat.leavesExact; rw [liveAt3_7 t hc1], after3_7]
      rw [accS3_succ V c t, accQ3_succ V c t]
      rw [Phi3_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel3_C c (grid3.coords t) _ _ _ _ _ _ _ _ _ _ _ _ _ _ _ _ _ _ _ _ hc0 hc1 (iblk3 V c 0 t) (iblk3 V c 1 t) (iblk3 V c 2 t) (iblk3 V c 3 t) (iblk3 V c 4 t) (accS3 V c t.val) (accQ3 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond3_1 (grid3.coords t) := fun h => h1 ((hcond3_1 t).mp h)
      rw [Dat.leavesExact_idle (dat3 V c) 6 t (idleAt3_6 t hc1) (noFlush3_6 t hc1), Dat.leavesExact_idle (dat3 V c) 7 t (idleAt3_7 t hc1) (noFlush3_7 t hc1)]
      rw [accS3_succ V c t, accQ3_succ V c t]
      rw [Phi3_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel3_B c (grid3.coords t) _ _ _ _ _ _ _ _ _ _ _ _ _ _ _ _ _ _ _ _ hc0 hc1 (iblk3 V c 0 t) (iblk3 V c 1 t) (iblk3 V c 2 t) (iblk3 V c 3 t) (iblk3 V c 4 t) _ _ (accS3 V c t.val) (accQ3 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- What the launch hands the region is the invariant before the first point. -/
theorem hin3 (c : Dev nD) : Pipeline.ΦA spec3 c ⊢ (dat3 V c).Φ 0 := by
  rw [show (dat3 V c).Φ 0 = Phi3 V c 0 from rfl, Phi3_zero V c 0 rfl]
  try exact Idealize.SL.BI.Entails.refl _

/-- After any point the invariant gives the class's back: the running sums are forgotten. -/
theorem Phi3_out (c : Dev nD) (t : Fin (cfg3.N + 1)) (ht : t.val ≠ 0) : (dat3 V c).Φ t ⊢ Pipeline.ΦA spec3 c := by
  rw [show (dat3 V c).Φ t = Phi3 V c t.val from rfl, Phi3_pos V c _ ht, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout3 (c : Dev nD) : (dat3 V c).Φ (Fin.last cfg3.N) ⊢ Pipeline.ΦA spec3 c :=
  Phi3_out V c _ (by rw [Fin.val_last]; have : cfg3.N = 50 := N_3; omega)

/-- The two entailments in the form a region segment takes them: from the generator register and the scoped rest
    into the invariant before the first point, -/
theorem Phi3_in_seg (c : Dev nD) :
    iprop((∃ r, prngReg c r) ∗ Pipeline.scopedRest (Ix := Unit) (Name := ℕ) (U := UR sig nD τ) (Lvl := ℕ) (Val := Elt F) spec3 c) ⊢ (dat3 V c).Φ 0 := by
  refine (show _ ⊢ Pipeline.ΦA spec3 c from ?_).trans (hin3 V c)
  unfold Pipeline.ΦA
  iintro ⟨Hp, Hr⟩
  isplitl [Hr]; · iexact Hr
  iexact Hp

/-- and back after the last point. -/
theorem Phi3_out_seg (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c) := by
  refine (hout3 V c).trans (show Pipeline.ΦA spec3 c ⊢ _ from ?_)
  unfold Pipeline.ΦA
  iintro ⟨Hr, Hp⟩
  isplitl [Hp]; · iexact Hp
  iexact Hr

end Region3

end Cert.Kernel.Hand

end
-- ==== Proof.K.Region4.lean ====
/- Region 4 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 4: `cc4__layer_norm_kernel`, at the entry contents `V` -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (unfetched, the
    block index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (unfetched, the
    block index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not (unfetched, the
    block index has not moved), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not (unfetched, the
    block index has not moved), for any proof data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not (unfetched, the
    block index has not moved), for any proof data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store are of a whole buffer -/

abbrev r4_0 : Rect S1x256 := Rect.unit (s := S1x256) ![0, 0] S1x256.size inb_S1x256_S1x256_0_0
abbrev r4_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k4_pay1` on the loaded blocks, over the whole buffer. -/
def out4_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r4_1, k4_pay1 (View.ld x2 r4_0) (View.ld x3 r4_0) (View.ld x0 r4_1) (View.ld x4 r4_0) (View.ld x5 r4_0) (View.ld x1 r4_1)⟩]

/-- The store covers the buffer. -/
theorem cover4_6 (p0 : Vec F S2000x256 .f32) (y : S2000x256.Idx) :
    ∃ pc ∈ ([⟨r4_1, p0⟩] : List (View.Piece (Elt F) S2000x256 .f32)), y ∈ pc.1.set :=
  View.cover_of_tiled [⟨r4_1, p0⟩] S2000x256.size (by rfl) y

/-! ## The body's triple -/

set_option maxHeartbeats 1000000 in
/-- The kernel body on whole staging memrefs, the inputs' at contents `xW` and the output's at anything, runs to the
    continuation holding the inputs' as they were and the output's at `out4_6` of the inputs'. The body reads the
    output's buffer once before it stores to it; what it reads there is not used. -/
theorem sound_kernel4 (c : Dev nD) (E : Set ℕ) (i : grid4.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__layer_norm_kernel i arg1 harg1 arg2 harg2 arg3 harg3 arg4 harg4 arg5 harg5 arg6 harg6 arg7 harg7) K := by
  simp only [cc4__layer_norm_kernel_eq_skeleton]; unfold cc4__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them; after the body at point `t` each
    input's buffer at its block and the output's at `out4_6` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Region5Run.lean ====
import proofs.«111242_j77756087927556_1_alg».proof.Proof.K.Region1Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (a later layer's matmul and column statistics): the kernel body on any staging memrefs

The same body as region 1's, printed again under this call's names: its payloads are region 1's functions
(`out1_5`, `stepS`, `stepQ`, the zero rows `k1_pay2`, `k1_pay3`) by unfolding. -/

/-! ## The body's branch conditions -/

/-- The condition of the zero-fill (`program_id = 0`), from the grid coordinates. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val = 0 :=
  (by decide +kernel : ∀ t : Fin grid5.N, cond5_0 (grid5.coords t) ↔ t.val = 0)

/-- The condition of the copy-out (`program_id = 49`), from the grid coordinates. -/
abbrev cond5_1 (i : grid5.Coords) : Prop := k5_cond2 i = 1#1
/-- It holds at the last point only — decided over the grid. -/
theorem hcond5_1 : ∀ t : Fin cfg5.N, cond5_1 (grid5.coords t) ↔ t.val = 49 :=
  (by decide +kernel : ∀ t : Fin grid5.N, cond5_1 (grid5.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel5_A (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond5_0 i) (hc1 : ¬cond5_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc5__layer_matmul_kernel i arg1 harg1 arg2 harg2 arg3 harg3 arg4 harg4 arg5 harg5 arg6 harg6 arg7 harg7 arg8 harg8 arg9 harg9 arg10 harg10) K := by
  simp only [cc5__layer_matmul_kernel_eq_skeleton]; unfold cc5__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel5_B (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond5_0 i) (hc1 : ¬cond5_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc5__layer_matmul_kernel i arg1 harg1 arg2 harg2 arg3 harg3 arg4 harg4 arg5 harg5 arg6 harg6 arg7 harg7 arg8 harg8 arg9 harg9 arg10 harg10) K := by
  simp only [cc5__layer_matmul_kernel_eq_skeleton]; unfold cc5__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel5_C (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond5_0 i) (hc1 : cond5_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc5__layer_matmul_kernel i arg1 harg1 arg2 harg2 arg3 harg3 arg4 harg4 arg5 harg5 arg6 harg6 arg7 harg7 arg8 harg8 arg9 harg9 arg10 harg10) K := by
  simp only [cc5__layer_matmul_kernel_eq_skeleton]; unfold cc5__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.Kernel.Hand

end
-- ==== Proof.K.Region5.lean ====
import proofs.«111242_j77756087927556_1_alg».proof.Proof.K.Region5Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## Where windows 6 and 7 are idle, and where they are written back -/

theorem idleAt5_6 : ∀ t : Fin cfg5.N, ¬cond5_1 (grid5.coords t) → cfg5.idle 6 (grid5.coords t) = true := by decide +kernel
theorem idleAt5_7 : ∀ t : Fin cfg5.N, ¬cond5_1 (grid5.coords t) → cfg5.idle 7 (grid5.coords t) = true := by decide +kernel
theorem liveAt5_6 : ∀ t : Fin cfg5.N, cond5_1 (grid5.coords t) → cfg5.idle 6 (grid5.coords t) = false := by decide +kernel
theorem liveAt5_7 : ∀ t : Fin cfg5.N, cond5_1 (grid5.coords t) → cfg5.idle 7 (grid5.coords t) = false := by decide +kernel
theorem noFlush5_6 : ∀ t : Fin cfg5.N, ¬cond5_1 (grid5.coords t) → (cfg5.win 6).flush t = false := by decide +kernel
theorem noFlush5_7 : ∀ t : Fin cfg5.N, ¬cond5_1 (grid5.coords t) → (cfg5.win 7).flush t = false := by decide +kernel

/-! ## The running sums -/

/-- The scratch operands: whole scoped buffers of the kernel's own. -/
abbrev scM5_0 : Memref sig .tc .vmem S1x256 .f32 := Memref.whole cc5_scratch0
abbrev scM5_1 : Memref sig .tc .vmem S1x256 .f32 := Memref.whole cc5_scratch1

/-- The column sums of `hn` over the first `n` tiles: zero, then tile by tile (`stepS`). What the first
    scratch row holds before point `n`, for `n ≥ 1`. -/
def accS5 (c : Dev nD) : ℕ → Vec F S1x256 .f32
  | 0 => k1_pay2
  | n + 1 => if h : n < cfg5.N then stepS (iblk5 V c 0 ⟨n, h⟩) (iblk5 V c 1 ⟨n, h⟩) (iblk5 V c 2 ⟨n, h⟩) (iblk5 V c 3 ⟨n, h⟩) (iblk5 V c 4 ⟨n, h⟩) (accS5 c n) else accS5 c n

/-- The column sums of `hn*hn` over the first `n` tiles. What the second scratch row holds before point `n`, for `n ≥ 1`. -/
def accQ5 (c : Dev nD) : ℕ → Vec F S1x256 .f32
  | 0 => k1_pay3
  | n + 1 => if h : n < cfg5.N then stepQ (iblk5 V c 0 ⟨n, h⟩) (iblk5 V c 1 ⟨n, h⟩) (iblk5 V c 2 ⟨n, h⟩) (iblk5 V c 3 ⟨n, h⟩) (iblk5 V c 4 ⟨n, h⟩) (accQ5 c n) else accQ5 c n

theorem accS5_zero (c : Dev nD) : accS5 V c 0 = k1_pay2 (F := F) := rfl
theorem accQ5_zero (c : Dev nD) : accQ5 V c 0 = k1_pay3 (F := F) := rfl
theorem accS5_succ (c : Dev nD) (t : Fin cfg5.N) : accS5 V c (t.val + 1) = stepS (iblk5 V c 0 t) (iblk5 V c 1 t) (iblk5 V c 2 t) (iblk5 V c 3 t) (iblk5 V c 4 t) (accS5 V c t.val) := by
  show (if h : t.val < cfg5.N then _ else _) = _; rw [dif_pos t.isLt]
theorem accQ5_succ (c : Dev nD) (t : Fin cfg5.N) : accQ5 V c (t.val + 1) = stepQ (iblk5 V c 0 t) (iblk5 V c 1 t) (iblk5 V c 2 t) (iblk5 V c 3 t) (iblk5 V c 4 t) (accQ5 V c t.val) := by
  show (if h : t.val < cfg5.N then _ else _) = _; rw [dif_pos t.isLt]

/-! ## The region invariant -/

/-- The scoped buffers of the core that are neither a staging buffer of this call nor its two scratch rows. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The invariant before position `n`: before the first point the class's (every scoped buffer that is no
    staging buffer at anything, the generator register at some state); afterwards the same with the two
    scratch rows at the running sums over the first `n` tiles. -/
def Phi5 (c : Dev nD) : ℕ → sProp 𝕄
  | 0 => Pipeline.ΦA spec5 c
  | n + 1 => iprop(iprop(iprop(owns (c : Thread nD τ) scM5_0 fullShare (accS5 V c (n + 1)) ∗ owns (c : Thread nD τ) scM5_1 fullShare (accQ5 V c (n + 1))) ∗ rest5 c) ∗ (∃ r, prngReg c r))

theorem Phi5_zero (c : Dev nD) (n : ℕ) (hz : n = 0) : Phi5 V c n = Pipeline.ΦA spec5 c := by subst hz; rfl
theorem Phi5_succ (c : Dev nD) (n : ℕ) :
    Phi5 V c (n + 1) = iprop(iprop(iprop(owns (c : Thread nD τ) scM5_0 fullShare (accS5 V c (n + 1)) ∗ owns (c : Thread nD τ) scM5_1 fullShare (accQ5 V c (n + 1))) ∗ rest5 c) ∗ (∃ r, prngReg c r)) := rfl
theorem Phi5_pos (c : Dev nD) (n : ℕ) (hz : n ≠ 0) :
    Phi5 V c n = iprop(iprop(iprop(owns (c : Thread nD τ) scM5_0 fullShare (accS5 V c n) ∗ owns (c : Thread nD τ) scM5_1 fullShare (accQ5 V c n)) ∗ rest5 c) ∗ (∃ r, prngReg c r)) := by
  cases n with
  | zero => exact absurd rfl hz
  | succ n => rfl

/-- The class invariant with the two scratch rows as memrefs owned at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-! ## The pipeline's proof data -/

/-- The proof data of pipeline 5 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
    | ⟨6, _⟩ => accS5 V c (t.val + 1)
    | ⟨7, _⟩ => accQ5 V c (t.val + 1)
  Φ t := Phi5 V c t.val
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start and end. -/
theorem Phi5_castSucc (c : Dev nD) (t : Fin cfg5.N) : (dat5 V c).Φ t.castSucc = Phi5 V c t.val := by
  dsimp only [dat5]; simp only [Fin.coe_castSucc]
theorem Phi5_at_succ (c : Dev nD) (t : Fin cfg5.N) : (dat5 V c).Φ t.succ = Phi5 V c (t.val + 1) := by
  dsimp only [dat5]; simp only [Fin.val_succ]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out1_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = accS5 V c (t.val + 1) := by dsimp only [dat5]
theorem after5_7 (c : Dev nD) (t : Fin cfg5.N) : (dat5 V c).after 7 t = accQ5 V c (t.val + 1) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [Phi5_at_succ, Phi5_succ, Phi5_castSucc]
  rw [show (dat5 V c).leavesExact 0 t = owns (c : Thread nD τ) (st5_0 t) fullShare ((dat5 V c).after 0 t) from rfl, after5_0]
  rw [show (dat5 V c).leavesExact 1 t = owns (c : Thread nD τ) (st5_1 t) fullShare ((dat5 V c).after 1 t) from rfl, after5_1]
  rw [show (dat5 V c).leavesExact 2 t = owns (c : Thread nD τ) (st5_2 t) fullShare ((dat5 V c).after 2 t) from rfl, after5_2]
  rw [show (dat5 V c).leavesExact 3 t = owns (c : Thread nD τ) (st5_3 t) fullShare ((dat5 V c).after 3 t) from rfl, after5_3]
  rw [show (dat5 V c).leavesExact 4 t = owns (c : Thread nD τ) (st5_4 t) fullShare ((dat5 V c).after 4 t) from rfl, after5_4]
  rw [show (dat5 V c).leavesExact 5 t = owns (c : Thread nD τ) (st5_5 t) fullShare ((dat5 V c).after 5 t) from rfl, after5_5]
  have hN : t.val < 50 := lt_of_lt_of_eq t.isLt (show cfg5.N = 50 from N_5)
  by_cases h0 : t.val = 0
  · have hc0 : cond5_0 (grid5.coords t) := (hcond5_0 t).mpr h0
    have hc1 : ¬cond5_1 (grid5.coords t) := fun h => by have := (hcond5_1 t).mp h; omega
    rw [Dat.leavesExact_idle (dat5 V c) 6 t (idleAt5_6 t hc1) (noFlush5_6 t hc1), Dat.leavesExact_idle (dat5 V c) 7 t (idleAt5_7 t hc1) (noFlush5_7 t hc1)]
    rw [accS5_succ V c t, accQ5_succ V c t]
    rw [Phi5_zero V c _ h0, PhiA5_eq, show accS5 V c t.val = k1_pay2 (F := F) from by rw [h0]; rfl, show accQ5 V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel5_A c (grid5.coords t) _ _ _ _ _ _ _ _ _ _ _ _ _ _ _ _ _ _ _ _ hc0 hc1 (iblk5 V c 0 t) (iblk5 V c 1 t) (iblk5 V c 2 t) (iblk5 V c 3 t) (iblk5 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond5_0 (grid5.coords t) := fun h => h0 ((hcond5_0 t).mp h)
    by_cases h1 : t.val = 49
    · have hc1 : cond5_1 (grid5.coords t) := (hcond5_1 t).mpr h1
      rw [show (dat5 V c).leavesExact 6 t = owns (c : Thread nD τ) (st5_6 t) fullShare ((dat5 V c).after 6 t) from by
        unfold Dat.leavesExact; rw [liveAt5_6 t hc1], after5_6]
      rw [show (dat5 V c).leavesExact 7 t = owns (c : Thread nD τ) (st5_7 t) fullShare ((dat5 V c).after 7 t) from by
        unfold Dat.leavesExact; rw [liveAt5_7 t hc1], after5_7]
      rw [accS5_succ V c t, accQ5_succ V c t]
      rw [Phi5_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel5_C c (grid5.coords t) _ _ _ _ _ _ _ _ _ _ _ _ _ _ _ _ _ _ _ _ hc0 hc1 (iblk5 V c 0 t) (iblk5 V c 1 t) (iblk5 V c 2 t) (iblk5 V c 3 t) (iblk5 V c 4 t) (accS5 V c t.val) (accQ5 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond5_1 (grid5.coords t) := fun h => h1 ((hcond5_1 t).mp h)
      rw [Dat.leavesExact_idle (dat5 V c) 6 t (idleAt5_6 t hc1) (noFlush5_6 t hc1), Dat.leavesExact_idle (dat5 V c) 7 t (idleAt5_7 t hc1) (noFlush5_7 t hc1)]
      rw [accS5_succ V c t, accQ5_succ V c t]
      rw [Phi5_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel5_B c (grid5.coords t) _ _ _ _ _ _ _ _ _ _ _ _ _ _ _ _ _ _ _ _ hc0 hc1 (iblk5 V c 0 t) (iblk5 V c 1 t) (iblk5 V c 2 t) (iblk5 V c 3 t) (iblk5 V c 4 t) _ _ (accS5 V c t.val) (accQ5 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- What the launch hands the region is the invariant before the first point. -/
theorem hin5 (c : Dev nD) : Pipeline.ΦA spec5 c ⊢ (dat5 V c).Φ 0 := by
  rw [show (dat5 V c).Φ 0 = Phi5 V c 0 from rfl, Phi5_zero V c 0 rfl]
  try exact Idealize.SL.BI.Entails.refl _

/-- After any point the invariant gives the class's back: the running sums are forgotten. -/
theorem Phi5_out (c : Dev nD) (t : Fin (cfg5.N + 1)) (ht : t.val ≠ 0) : (dat5 V c).Φ t ⊢ Pipeline.ΦA spec5 c := by
  rw [show (dat5 V c).Φ t = Phi5 V c t.val from rfl, Phi5_pos V c _ ht, PhiA5_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout5 (c : Dev nD) : (dat5 V c).Φ (Fin.last cfg5.N) ⊢ Pipeline.ΦA spec5 c :=
  Phi5_out V c _ (by rw [Fin.val_last]; have : cfg5.N = 50 := N_5; omega)

/-- The two entailments in the form a region segment takes them: from the generator register and the scoped rest
    into the invariant before the first point, -/
theorem Phi5_in_seg (c : Dev nD) :
    iprop((∃ r, prngReg c r) ∗ Pipeline.scopedRest (Ix := Unit) (Name := ℕ) (U := UR sig nD τ) (Lvl := ℕ) (Val := Elt F) spec5 c) ⊢ (dat5 V c).Φ 0 := by
  refine (show _ ⊢ Pipeline.ΦA spec5 c from ?_).trans (hin5 V c)
  unfold Pipeline.ΦA
  iintro ⟨Hp, Hr⟩
  isplitl [Hr]; · iexact Hr
  iexact Hp

/-- and back after the last point. -/
theorem Phi5_out_seg (c : Dev nD) :
    (dat5 V c).Φ (Fin.last cfg5.N) ⊢ iprop((∃ r, prngReg c r) ∗ Pipeline.scopedRest (Ix := Unit) (Name := ℕ) (U := UR sig nD τ) (Lvl := ℕ) (Val := Elt F) spec5 c) := by
  refine (hout5 V c).trans (show Pipeline.ΦA spec5 c ⊢ _ from ?_)
  unfold Pipeline.ΦA
  iintro ⟨Hr, Hp⟩
  isplitl [Hp]; · iexact Hp
  iexact Hr

end Region5

end Cert.Kernel.Hand

end
-- ==== Proof.K.Region6.lean ====
/- Region 6 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 6: `cc6__layer_norm_kernel`, at the entry contents `V` -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not (unfetched, the
    block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not (unfetched, the
    block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not (unfetched, the
    block index has not moved), for any proof data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not (unfetched, the
    block index has not moved), for any proof data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not (unfetched, the
    block index has not moved), for any proof data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store are of a whole buffer -/

abbrev r6_0 : Rect S1x256 := Rect.unit (s := S1x256) ![0, 0] S1x256.size inb_S1x256_S1x256_0_0
abbrev r6_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k6_pay1` on the loaded blocks, over the whole buffer. -/
def out6_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r6_1, k6_pay1 (View.ld x2 r6_0) (View.ld x3 r6_0) (View.ld x0 r6_1) (View.ld x4 r6_0) (View.ld x5 r6_0) (View.ld x1 r6_1)⟩]

/-- The store covers the buffer. -/
theorem cover6_6 (p0 : Vec F S2000x256 .f32) (y : S2000x256.Idx) :
    ∃ pc ∈ ([⟨r6_1, p0⟩] : List (View.Piece (Elt F) S2000x256 .f32)), y ∈ pc.1.set :=
  View.cover_of_tiled [⟨r6_1, p0⟩] S2000x256.size (by rfl) y

/-! ## The body's triple -/

set_option maxHeartbeats 1000000 in
/-- The kernel body on whole staging memrefs, the inputs' at contents `xW` and the output's at anything, runs to the
    continuation holding the inputs' as they were and the output's at `out6_6` of the inputs'. The body reads the
    output's buffer once before it stores to it; what it reads there is not used. -/
theorem sound_kernel6 (c : Dev nD) (E : Set ℕ) (i : grid6.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__layer_norm_kernel i arg1 harg1 arg2 harg2 arg3 harg3 arg4 harg4 arg5 harg5 arg6 harg6 arg7 harg7) K := by
  simp only [cc6__layer_norm_kernel_eq_skeleton]; unfold cc6__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them; after the body at point `t` each
    input's buffer at its block and the output's at `out6_6` of the input blocks; the invariant is the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Region7Run.lean ====
import proofs.«111242_j77756087927556_1_alg».proof.Proof.K.Region1Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (a later layer's matmul and column statistics): the kernel body on any staging memrefs

The same body as region 1's, printed again under this call's names: its payloads are region 1's functions
(`out1_5`, `stepS`, `stepQ`, the zero rows `k1_pay2`, `k1_pay3`) by unfolding. -/

/-! ## The body's branch conditions -/

/-- The condition of the zero-fill (`program_id = 0`), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val = 0 :=
  (by decide +kernel : ∀ t : Fin grid7.N, cond7_0 (grid7.coords t) ↔ t.val = 0)

/-- The condition of the copy-out (`program_id = 49`), from the grid coordinates. -/
abbrev cond7_1 (i : grid7.Coords) : Prop := k7_cond2 i = 1#1
/-- It holds at the last point only — decided over the grid. -/
theorem hcond7_1 : ∀ t : Fin cfg7.N, cond7_1 (grid7.coords t) ↔ t.val = 49 :=
  (by decide +kernel : ∀ t : Fin grid7.N, cond7_1 (grid7.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel7_A (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond7_0 i) (hc1 : ¬cond7_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc7__layer_matmul_kernel i arg1 harg1 arg2 harg2 arg3 harg3 arg4 harg4 arg5 harg5 arg6 harg6 arg7 harg7 arg8 harg8 arg9 harg9 arg10 harg10) K := by
  simp only [cc7__layer_matmul_kernel_eq_skeleton]; unfold cc7__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel7_B (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond7_0 i) (hc1 : ¬cond7_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc7__layer_matmul_kernel i arg1 harg1 arg2 harg2 arg3 harg3 arg4 harg4 arg5 harg5 arg6 harg6 arg7 harg7 arg8 harg8 arg9 harg9 arg10 harg10) K := by
  simp only [cc7__layer_matmul_kernel_eq_skeleton]; unfold cc7__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel7_C (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond7_0 i) (hc1 : cond7_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc7__layer_matmul_kernel i arg1 harg1 arg2 harg2 arg3 harg3 arg4 harg4 arg5 harg5 arg6 harg6 arg7 harg7 arg8 harg8 arg9 harg9 arg10 harg10) K := by
  simp only [cc7__layer_matmul_kernel_eq_skeleton]; unfold cc7__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.Kernel.Hand

end
-- ==== Proof.K.Region7.lean ====
import proofs.«111242_j77756087927556_1_alg».proof.Proof.K.Region7Run
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region7
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## Where windows 6 and 7 are idle, and where they are written back -/

theorem idleAt7_6 : ∀ t : Fin cfg7.N, ¬cond7_1 (grid7.coords t) → cfg7.idle 6 (grid7.coords t) = true := by decide +kernel
theorem idleAt7_7 : ∀ t : Fin cfg7.N, ¬cond7_1 (grid7.coords t) → cfg7.idle 7 (grid7.coords t) = true := by decide +kernel
theorem liveAt7_6 : ∀ t : Fin cfg7.N, cond7_1 (grid7.coords t) → cfg7.idle 6 (grid7.coords t) = false := by decide +kernel
theorem liveAt7_7 : ∀ t : Fin cfg7.N, cond7_1 (grid7.coords t) → cfg7.idle 7 (grid7.coords t) = false := by decide +kernel
theorem noFlush7_6 : ∀ t : Fin cfg7.N, ¬cond7_1 (grid7.coords t) → (cfg7.win 6).flush t = false := by decide +kernel
theorem noFlush7_7 : ∀ t : Fin cfg7.N, ¬cond7_1 (grid7.coords t) → (cfg7.win 7).flush t = false := by decide +kernel

/-! ## The running sums -/

/-- The scratch operands: whole scoped buffers of the kernel's own. -/
abbrev scM7_0 : Memref sig .tc .vmem S1x256 .f32 := Memref.whole cc7_scratch0
abbrev scM7_1 : Memref sig .tc .vmem S1x256 .f32 := Memref.whole cc7_scratch1

/-- The column sums of `hn` over the first `n` tiles: zero, then tile by tile (`stepS`). What the first
    scratch row holds before point `n`, for `n ≥ 1`. -/
def accS7 (c : Dev nD) : ℕ → Vec F S1x256 .f32
  | 0 => k1_pay2
  | n + 1 => if h : n < cfg7.N then stepS (iblk7 V c 0 ⟨n, h⟩) (iblk7 V c 1 ⟨n, h⟩) (iblk7 V c 2 ⟨n, h⟩) (iblk7 V c 3 ⟨n, h⟩) (iblk7 V c 4 ⟨n, h⟩) (accS7 c n) else accS7 c n

/-- The column sums of `hn*hn` over the first `n` tiles. What the second scratch row holds before point `n`, for `n ≥ 1`. -/
def accQ7 (c : Dev nD) : ℕ → Vec F S1x256 .f32
  | 0 => k1_pay3
  | n + 1 => if h : n < cfg7.N then stepQ (iblk7 V c 0 ⟨n, h⟩) (iblk7 V c 1 ⟨n, h⟩) (iblk7 V c 2 ⟨n, h⟩) (iblk7 V c 3 ⟨n, h⟩) (iblk7 V c 4 ⟨n, h⟩) (accQ7 c n) else accQ7 c n

theorem accS7_zero (c : Dev nD) : accS7 V c 0 = k1_pay2 (F := F) := rfl
theorem accQ7_zero (c : Dev nD) : accQ7 V c 0 = k1_pay3 (F := F) := rfl
theorem accS7_succ (c : Dev nD) (t : Fin cfg7.N) : accS7 V c (t.val + 1) = stepS (iblk7 V c 0 t) (iblk7 V c 1 t) (iblk7 V c 2 t) (iblk7 V c 3 t) (iblk7 V c 4 t) (accS7 V c t.val) := by
  show (if h : t.val < cfg7.N then _ else _) = _; rw [dif_pos t.isLt]
theorem accQ7_succ (c : Dev nD) (t : Fin cfg7.N) : accQ7 V c (t.val + 1) = stepQ (iblk7 V c 0 t) (iblk7 V c 1 t) (iblk7 V c 2 t) (iblk7 V c 3 t) (iblk7 V c 4 t) (accQ7 V c t.val) := by
  show (if h : t.val < cfg7.N then _ else _) = _; rw [dif_pos t.isLt]

/-! ## The region invariant -/

/-- The scoped buffers of the core that are neither a staging buffer of this call nor its two scratch rows. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The invariant before position `n`: before the first point the class's (every scoped buffer that is no
    staging buffer at anything, the generator register at some state); afterwards the same with the two
    scratch rows at the running sums over the first `n` tiles. -/
def Phi7 (c : Dev nD) : ℕ → sProp 𝕄
  | 0 => Pipeline.ΦA spec7 c
  | n + 1 => iprop(iprop(iprop(owns (c : Thread nD τ) scM7_0 fullShare (accS7 V c (n + 1)) ∗ owns (c : Thread nD τ) scM7_1 fullShare (accQ7 V c (n + 1))) ∗ rest7 c) ∗ (∃ r, prngReg c r))

theorem Phi7_zero (c : Dev nD) (n : ℕ) (hz : n = 0) : Phi7 V c n = Pipeline.ΦA spec7 c := by subst hz; rfl
theorem Phi7_succ (c : Dev nD) (n : ℕ) :
    Phi7 V c (n + 1) = iprop(iprop(iprop(owns (c : Thread nD τ) scM7_0 fullShare (accS7 V c (n + 1)) ∗ owns (c : Thread nD τ) scM7_1 fullShare (accQ7 V c (n + 1))) ∗ rest7 c) ∗ (∃ r, prngReg c r)) := rfl
theorem Phi7_pos (c : Dev nD) (n : ℕ) (hz : n ≠ 0) :
    Phi7 V c n = iprop(iprop(iprop(owns (c : Thread nD τ) scM7_0 fullShare (accS7 V c n) ∗ owns (c : Thread nD τ) scM7_1 fullShare (accQ7 V c n)) ∗ rest7 c) ∗ (∃ r, prngReg c r)) := by
  cases n with
  | zero => exact absurd rfl hz
  | succ n => rfl

/-- The class invariant with the two scratch rows as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

/-! ## The pipeline's proof data -/

/-- The proof data of pipeline 7 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out1_5 (iblk7 V c 0 t) (iblk7 V c 1 t) (iblk7 V c 2 t) (iblk7 V c 3 t) (iblk7 V c 4 t)
    | ⟨6, _⟩ => accS7 V c (t.val + 1)
    | ⟨7, _⟩ => accQ7 V c (t.val + 1)
  Φ t := Phi7 V c t.val
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start and end. -/
theorem Phi7_castSucc (c : Dev nD) (t : Fin cfg7.N) : (dat7 V c).Φ t.castSucc = Phi7 V c t.val := by
  dsimp only [dat7]; simp only [Fin.coe_castSucc]
theorem Phi7_at_succ (c : Dev nD) (t : Fin cfg7.N) : (dat7 V c).Φ t.succ = Phi7 V c (t.val + 1) := by
  dsimp only [dat7]; simp only [Fin.val_succ]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out1_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = accS7 V c (t.val + 1) := by dsimp only [dat7]
theorem after7_7 (c : Dev nD) (t : Fin cfg7.N) : (dat7 V c).after 7 t = accQ7 V c (t.val + 1) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [Phi7_at_succ, Phi7_succ, Phi7_castSucc]
  rw [show (dat7 V c).leavesExact 0 t = owns (c : Thread nD τ) (st7_0 t) fullShare ((dat7 V c).after 0 t) from rfl, after7_0]
  rw [show (dat7 V c).leavesExact 1 t = owns (c : Thread nD τ) (st7_1 t) fullShare ((dat7 V c).after 1 t) from rfl, after7_1]
  rw [show (dat7 V c).leavesExact 2 t = owns (c : Thread nD τ) (st7_2 t) fullShare ((dat7 V c).after 2 t) from rfl, after7_2]
  rw [show (dat7 V c).leavesExact 3 t = owns (c : Thread nD τ) (st7_3 t) fullShare ((dat7 V c).after 3 t) from rfl, after7_3]
  rw [show (dat7 V c).leavesExact 4 t = owns (c : Thread nD τ) (st7_4 t) fullShare ((dat7 V c).after 4 t) from rfl, after7_4]
  rw [show (dat7 V c).leavesExact 5 t = owns (c : Thread nD τ) (st7_5 t) fullShare ((dat7 V c).after 5 t) from rfl, after7_5]
  have hN : t.val < 50 := lt_of_lt_of_eq t.isLt (show cfg7.N = 50 from N_7)
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 6 t (idleAt7_6 t hc1) (noFlush7_6 t hc1), Dat.leavesExact_idle (dat7 V c) 7 t (idleAt7_7 t hc1) (noFlush7_7 t hc1)]
    rw [accS7_succ V c t, accQ7_succ V c t]
    rw [Phi7_zero V c _ h0, PhiA7_eq, show accS7 V c t.val = k1_pay2 (F := F) from by rw [h0]; rfl, show accQ7 V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel7_A c (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond7_0 (grid7.coords t) := fun h => h0 ((hcond7_0 t).mp h)
    by_cases h1 : t.val = 49
    · have hc1 : cond7_1 (grid7.coords t) := (hcond7_1 t).mpr h1
      rw [show (dat7 V c).leavesExact 6 t = owns (c : Thread nD τ) (st7_6 t) fullShare ((dat7 V c).after 6 t) from by
        unfold Dat.leavesExact; rw [liveAt7_6 t hc1], after7_6]
      rw [show (dat7 V c).leavesExact 7 t = owns (c : Thread nD τ) (st7_7 t) fullShare ((dat7 V c).after 7 t) from by
        unfold Dat.leavesExact; rw [liveAt7_7 t hc1], after7_7]
      rw [accS7_succ V c t, accQ7_succ V c t]
      rw [Phi7_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel7_C c (grid7.coords t) _ _ _ _ _ _ _ _ _ _ _ _ _ _ _ _ _ _ _ _ hc0 hc1 (iblk7 V c 0 t) (iblk7 V c 1 t) (iblk7 V c 2 t) (iblk7 V c 3 t) (iblk7 V c 4 t) (accS7 V c t.val) (accQ7 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond7_1 (grid7.coords t) := fun h => h1 ((hcond7_1 t).mp h)
      rw [Dat.leavesExact_idle (dat7 V c) 6 t (idleAt7_6 t hc1) (noFlush7_6 t hc1), Dat.leavesExact_idle (dat7 V c) 7 t (idleAt7_7 t hc1) (noFlush7_7 t hc1)]
      rw [accS7_succ V c t, accQ7_succ V c t]
      rw [Phi7_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel7_B c (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ (accS7 V c t.val) (accQ7 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- What the launch hands the region is the invariant before the first point. -/
theorem hin7 (c : Dev nD) : Pipeline.ΦA spec7 c ⊢ (dat7 V c).Φ 0 := by
  rw [show (dat7 V c).Φ 0 = Phi7 V c 0 from rfl, Phi7_zero V c 0 rfl]
  try exact Idealize.SL.BI.Entails.refl _

/-- After any point the invariant gives the class's back: the running sums are forgotten. -/
theorem Phi7_out (c : Dev nD) (t : Fin (cfg7.N + 1)) (ht : t.val ≠ 0) : (dat7 V c).Φ t ⊢ Pipeline.ΦA spec7 c := by
  rw [show (dat7 V c).Φ t = Phi7 V c t.val from rfl, Phi7_pos V c _ ht, PhiA7_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout7 (c : Dev nD) : (dat7 V c).Φ (Fin.last cfg7.N) ⊢ Pipeline.ΦA spec7 c :=
  Phi7_out V c _ (by rw [Fin.val_last]; have : cfg7.N = 50 := N_7; omega)

/-- The two entailments in the form a region segment takes them: from the generator register and the scoped rest
    into the invariant before the first point, -/
theorem Phi7_in_seg (c : Dev nD) :
    iprop((∃ r, prngReg c r) ∗ Pipeline.scopedRest (Ix := Unit) (Name := ℕ) (U := UR sig nD τ) (Lvl := ℕ) (Val := Elt F) spec7 c) ⊢ (dat7 V c).Φ 0 := by
  refine (show _ ⊢ Pipeline.ΦA spec7 c from ?_).trans (hin7 V c)
  unfold Pipeline.ΦA
  iintro ⟨Hp, Hr⟩
  isplitl [Hr]; · iexact Hr
  iexact Hp

/-- and back after the last point. -/
theorem Phi7_out_seg (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  refine (hout7 V c).trans (show Pipeline.ΦA spec7 c ⊢ _ from ?_)
  unfold Pipeline.ΦA
  iintro ⟨Hr, Hp⟩
  isplitl [Hp]; · iexact Hp
  iexact Hr

end Region7

end Cert.Kernel.Hand

end
-- ==== Proof.K.Region8.lean ====
/- Region 8 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 8: `cc8__layer_norm_kernel`, at the entry contents `V` -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (unfetched, the
    block index has not moved), for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not (unfetched, the
    block index has not moved), for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not (unfetched, the
    block index has not moved), for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not (unfetched, the
    block index has not moved), for any proof data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not (unfetched, the
    block index has not moved), for any proof data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not (unfetched, the
    block index has not moved), for any proof data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the one store are of a whole buffer -/

abbrev r8_0 : Rect S1x256 := Rect.unit (s := S1x256) ![0, 0] S1x256.size inb_S1x256_S1x256_0_0
abbrev r8_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k8_pay1` on the loaded blocks, over the whole buffer. -/
def out8_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r8_1, k8_pay1 (View.ld x2 r8_0) (View.ld x3 r8_0) (View.ld x0 r8_1) (View.ld x4 r8_0) (View.ld x5 r8_0) (View.ld x1 r8_1)⟩]

/-- The store covers the buffer. -/
theorem cover8_6 (p0 : Vec F S2000x256 .f32) (y : S2000x256.Idx) :
    ∃ pc ∈ ([⟨r8_1, p0⟩] : List (View.Piece (Elt F) S2000x256 .f32)), y ∈ pc.1.set :=
  View.cover_of_tiled [⟨r8_1, p0⟩] S2000x256.size (by rfl) y

/-! ## The body's triple -/

set_option maxHeartbeats 1000000 in
/-- The kernel body on whole staging memrefs, the inputs' at contents `xW` and the output's at anything, runs to the
    continuation holding the inputs' as they were and the output's at `out8_6` of the inputs'. The body reads the
    output's buffer once before it stores to it; what it reads there is not used. -/
theorem sound_kernel8 (c : Dev nD) (E : Set ℕ) (i : grid8.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__layer_norm_kernel i arg1 harg1 arg2 harg2 arg3 harg3 arg4 harg4 arg5 harg5 arg6 harg6 arg7 harg7) K := by
  simp only [cc8__layer_norm_kernel_eq_skeleton]; unfold cc8__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them; after the body at point `t` each
    input's buffer at its block and the output's at `out8_6` of the input blocks; the invariant is the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so `sound_kernel8` applies; the invariant and the
    core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Run.lean ====
import proofs.«111242_j77756087927556_1_alg».proof.Proof.Gen.Kernel.Launch
import proofs.«111242_j77756087927556_1_alg».proof.Proof.Gen.Kernel.Skeleton
import proofs.«111242_j77756087927556_1_alg».proof.Proof.Gen.Kernel.Points
import proofs.«111242_j77756087927556_1_alg».proof.Proof.K.Region0
import proofs.«111242_j77756087927556_1_alg».proof.Proof.K.Region1
import proofs.«111242_j77756087927556_1_alg».proof.Proof.K.Region2
import proofs.«111242_j77756087927556_1_alg».proof.Proof.K.Region3
import proofs.«111242_j77756087927556_1_alg».proof.Proof.K.Region4
import proofs.«111242_j77756087927556_1_alg».proof.Proof.K.Region5
import proofs.«111242_j77756087927556_1_alg».proof.Proof.K.Region6
import proofs.«111242_j77756087927556_1_alg».proof.Proof.K.Region7
import proofs.«111242_j77756087927556_1_alg».proof.Proof.K.Region8
import proofs.«111242_j77756087927556_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: the launch memory, then each host stretch's operations applied,
    then each kernel region's arrays at what its write-backs leave -/

/-- Core `c`'s buffers at launch. -/
abbrev W0 : Dev nD → Valuation τ sig (Elt F) := fun c b => (s₀ m ρ).mem ((c : Dev nD), b)
/-- After `hostOps0`: what region 0 is entered from. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After `hostOps1`: what region 1 is entered from. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)
/-- After `hostOps2`: what region 2 is entered from. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)
/-- After `hostOps3`: what region 3 is entered from. -/
abbrev W7 : Dev nD → Valuation τ sig (Elt F) := fun c => StableHlo.after hostOps3 (W6 m ρ c)
abbrev E7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev E8 : (c : Dev nD) → (b : Ref sig .tc) → Buf (Elt F) ((c : Thread nD τ).loc b) := fun c b => W8 m ρ c b
theorem hF3 (c : Dev nD) (w : Fin cfg3.W) : (dat3 (E7 m ρ) c).arrAt w cfg3.N = E8 m ρ c (Pipeline.arrRef spec3 w) :=
  (W8_arr m ρ c w).symm
theorem hrest3 (c : Dev nD) : ∀ b, b ∉ Finset.univ.image (Pipeline.arrRef spec3) → E8 m ρ c b = E7 m ρ c b :=
  fun b hb => W8_of_ne m ρ c b fun w e => hb (Finset.mem_image.mpr ⟨w, Finset.mem_univ _, e⟩)
/-- After `hostOps4`: what region 4 is entered from. -/
abbrev W9 : Dev nD → Valuation τ sig (Elt F) := fun c => StableHlo.after hostOps4 (W8 m ρ c)
abbrev E9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (E9 m ρ) c).arrAt w cfg4.N
theorem W10_arr (c : Dev nD) (w : Fin cfg4.W) :
    W10 m ρ c (Proc.devRef .tc (Pipeline.arrRef spec4 w)) = (dat4 (E9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev E10 : (c : Dev nD) → (b : Ref sig .tc) → Buf (Elt F) ((c : Thread nD τ).loc b) := fun c b => W10 m ρ c b
theorem hF4 (c : Dev nD) (w : Fin cfg4.W) : (dat4 (E9 m ρ) c).arrAt w cfg4.N = E10 m ρ c (Pipeline.arrRef spec4 w) :=
  (W10_arr m ρ c w).symm
theorem hrest4 (c : Dev nD) : ∀ b, b ∉ Finset.univ.image (Pipeline.arrRef spec4) → E10 m ρ c b = E9 m ρ c b :=
  fun b hb => W10_of_ne m ρ c b fun w e => hb (Finset.mem_image.mpr ⟨w, Finset.mem_univ _, e⟩)
/-- After `hostOps5`: what region 5 is entered from. -/
abbrev W11 : Dev nD → Valuation τ sig (Elt F) := fun c => StableHlo.after hostOps5 (W10 m ρ c)
abbrev E11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (E11 m ρ) c).arrAt w cfg5.N
theorem W12_arr (c : Dev nD) (w : Fin cfg5.W) :
    W12 m ρ c (Proc.devRef .tc (Pipeline.arrRef spec5 w)) = (dat5 (E11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev E12 : (c : Dev nD) → (b : Ref sig .tc) → Buf (Elt F) ((c : Thread nD τ).loc b) := fun c b => W12 m ρ c b
theorem hF5 (c : Dev nD) (w : Fin cfg5.W) : (dat5 (E11 m ρ) c).arrAt w cfg5.N = E12 m ρ c (Pipeline.arrRef spec5 w) :=
  (W12_arr m ρ c w).symm
theorem hrest5 (c : Dev nD) : ∀ b, b ∉ Finset.univ.image (Pipeline.arrRef spec5) → E12 m ρ c b = E11 m ρ c b :=
  fun b hb => W12_of_ne m ρ c b fun w e => hb (Finset.mem_image.mpr ⟨w, Finset.mem_univ _, e⟩)
/-- After `hostOps6`: what region 6 is entered from. -/
abbrev W13 : Dev nD → Valuation τ sig (Elt F) := fun c => StableHlo.after hostOps6 (W12 m ρ c)
abbrev E13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (E13 m ρ) c).arrAt w cfg6.N
theorem W14_arr (c : Dev nD) (w : Fin cfg6.W) :
    W14 m ρ c (Proc.devRef .tc (Pipeline.arrRef spec6 w)) = (dat6 (E13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev E14 : (c : Dev nD) → (b : Ref sig .tc) → Buf (Elt F) ((c : Thread nD τ).loc b) := fun c b => W14 m ρ c b
theorem hF6 (c : Dev nD) (w : Fin cfg6.W) : (dat6 (E13 m ρ) c).arrAt w cfg6.N = E14 m ρ c (Pipeline.arrRef spec6 w) :=
  (W14_arr m ρ c w).symm
theorem hrest6 (c : Dev nD) : ∀ b, b ∉ Finset.univ.image (Pipeline.arrRef spec6) → E14 m ρ c b = E13 m ρ c b :=
  fun b hb => W14_of_ne m ρ c b fun w e => hb (Finset.mem_image.mpr ⟨w, Finset.mem_univ _, e⟩)
/-- After `hostOps7`: what region 7 is entered from. -/
abbrev W15 : Dev nD → Valuation τ sig (Elt F) := fun c => StableHlo.after hostOps7 (W14 m ρ c)
abbrev E15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (E15 m ρ) c).arrAt w cfg7.N
theorem W16_arr (c : Dev nD) (w : Fin cfg7.W) :
    W16 m ρ c (Proc.devRef .tc (Pipeline.arrRef spec7 w)) = (dat7 (E15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev E16 : (c : Dev nD) → (b : Ref sig .tc) → Buf (Elt F) ((c : Thread nD τ).loc b) := fun c b => W16 m ρ c b
theorem hF7 (c : Dev nD) (w : Fin cfg7.W) : (dat7 (E15 m ρ) c).arrAt w cfg7.N = E16 m ρ c (Pipeline.arrRef spec7 w) :=
  (W16_arr m ρ c w).symm
theorem hrest7 (c : Dev nD) : ∀ b, b ∉ Finset.univ.image (Pipeline.arrRef spec7) → E16 m ρ c b = E15 m ρ c b :=
  fun b hb => W16_of_ne m ρ c b fun w e => hb (Finset.mem_image.mpr ⟨w, Finset.mem_univ _, e⟩)
/-- After `hostOps8`: what region 8 is entered from. -/
abbrev W17 : Dev nD → Valuation τ sig (Elt F) := fun c => StableHlo.after hostOps8 (W16 m ρ c)
abbrev E17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (E17 m ρ) c).arrAt w cfg8.N
theorem W18_arr (c : Dev nD) (w : Fin cfg8.W) :
    W18 m ρ c (Proc.devRef .tc (Pipeline.arrRef spec8 w)) = (dat8 (E17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev E18 : (c : Dev nD) → (b : Ref sig .tc) → Buf (Elt F) ((c : Thread nD τ).loc b) := fun c b => W18 m ρ c b
theorem hF8 (c : Dev nD) (w : Fin cfg8.W) : (dat8 (E17 m ρ) c).arrAt w cfg8.N = E18 m ρ c (Pipeline.arrRef spec8 w) :=
  (W18_arr m ρ c w).symm
theorem hrest8 (c : Dev nD) : ∀ b, b ∉ Finset.univ.image (Pipeline.arrRef spec8) → E18 m ρ c b = E17 m ρ c b :=
  fun b hb => W18_of_ne m ρ c b fun w e => hb (Finset.mem_image.mpr ⟨w, Finset.mem_univ _, e⟩)
/-- After the three last host stretches. -/
abbrev W19 : Dev nD → Valuation τ sig (Elt F) := fun c => StableHlo.after hostOps9 (W18 m ρ c)
abbrev W20 : Dev nD → Valuation τ sig (Elt F) := fun c => StableHlo.after hostOps9_1 (W19 m ρ c)
abbrev W21 : Dev nD → Valuation τ sig (Elt F) := fun c => StableHlo.after hostOps9_2 (W20 m ρ c)

/-! ## The proof data family and the thread state -/

abbrev padm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
  | ⟨8, _⟩ => fun c => dat8 (E17 m ρ) c
abbrev 𝒱₀ : Variants := Variants.none
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) padm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) padm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E3 m ρ) c).Φ 0 from rfl]
    iintro ⟨Hp, -, Hr⟩
    iapply (Phi1_in_seg (E3 m ρ) c)
    isplitl [Hp]; · iexact Hp
    iexact Hr
  hout c := by
    rw [Pipeline.ownSems0_none, show (pdats m ρ 1 c).Φ (Fin.last _) = (dat1 (E3 m ρ) c).Φ (Fin.last cfg1.N) from rfl]
    iintro H
    ihave H' := (Phi1_out_seg (E3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. -/
def reg2 : Pipeline.RegionSeg (pcfgs (F := F)) padm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. -/
def reg3 : Pipeline.RegionSeg (pcfgs (F := F)) padm (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lz lvz 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (E7 m ρ) c).Φ 0 from rfl]
    iintro ⟨Hp, -, Hr⟩
    iapply (Phi3_in_seg (E7 m ρ) c)
    isplitl [Hp]; · iexact Hp
    iexact Hr
  hout c := by
    rw [Pipeline.ownSems0_none, show (pdats m ρ 3 c).Φ (Fin.last _) = (dat3 (E7 m ρ) c).Φ (Fin.last cfg3.N) from rfl]
    iintro H
    ihave H' := (Phi3_out_seg (E7 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. -/
def reg4 : Pipeline.RegionSeg (pcfgs (F := F)) padm (pdats m ρ) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lz lvz 4 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (E9 m ρ c) (E10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. -/
def reg5 : Pipeline.RegionSeg (pcfgs (F := F)) padm (pdats m ρ) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lz lvz 5 fun _ _ => rfl
  pre c := iprop(StableHlo.held (c : Thread nD τ) (Pipeline.ucRefs τ sig) (W11 m ρ c) ∗ Rr c)
  post c := iprop(StableHlo.held (c : Thread nD τ) (Pipeline.ucRefs τ sig) (W12 m ρ c) ∗ Rr c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (E11 m ρ) c).Φ 0 from rfl]
    iintro ⟨Hp, -, Hr⟩
    iapply (Phi5_in_seg (E11 m ρ) c)
    isplitl [Hp]; · iexact Hp
    iexact Hr
  hout c := by
    rw [Pipeline.ownSems0_none, show (pdats m ρ 5 c).Φ (Fin.last _) = (dat5 (E11 m ρ) c).Φ (Fin.last cfg5.N) from rfl]
    iintro H
    ihave H' := (Phi5_out_seg (E11 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (E11 m ρ c) (E12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W13`, left at `W14`. -/
def reg6 : Pipeline.RegionSeg (pcfgs (F := F)) padm (pdats m ρ) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ Lz lvz 6 fun _ _ => rfl
  pre c := iprop(StableHlo.held (c : Thread nD τ) (Pipeline.ucRefs τ sig) (W13 m ρ c) ∗ Rr c)
  post c := iprop(StableHlo.held (c : Thread nD τ) (Pipeline.ucRefs τ sig) (W14 m ρ c) ∗ Rr c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) padm (pdats m ρ) launch6.win launch6.arr_whole c
      ((pdats m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) padm (Ix := Unit) (Name := ℕ) (U := UR sig nD τ) (Lvl := ℕ)
      launch6.win launch6.arr_whole c (pdats m ρ) ((pdats m ρ 6 c).share_full fun _ => rfl)
      (E13 m ρ c) (E14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. -/
def reg7 : Pipeline.RegionSeg (pcfgs (F := F)) padm (pdats m ρ) () defs₀ 𝒱₀ Lz lvz 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ Lz lvz 7 fun _ _ => rfl
  pre c := iprop(StableHlo.held (c : Thread nD τ) (Pipeline.ucRefs τ sig) (W15 m ρ c) ∗ Rr c)
  post c := iprop(StableHlo.held (c : Thread nD τ) (Pipeline.ucRefs τ sig) (W16 m ρ c) ∗ Rr c)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) padm (pdats m ρ) launch7.win launch7.arr_whole c
      ((pdats m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (E15 m ρ) c).Φ 0 from rfl]
    iintro ⟨Hp, -, Hr⟩
    iapply (Phi7_in_seg (E15 m ρ) c)
    isplitl [Hp]; · iexact Hp
    iexact Hr
  hout c := by
    rw [Pipeline.ownSems0_none, show (pdats m ρ 7 c).Φ (Fin.last _) = (dat7 (E15 m ρ) c).Φ (Fin.last cfg7.N) from rfl]
    iintro H
    ihave H' := (Phi7_out_seg (E15 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) padm (Ix := Unit) (Name := ℕ) (U := UR sig nD τ) (Lvl := ℕ)
      launch7.win launch7.arr_whole c (pdats m ρ) ((pdats m ρ 7 c).share_full fun _ => rfl)
      (E15 m ρ c) (E16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W17`, left at `W18`. -/
def reg8 : Pipeline.RegionSeg (pcfgs (F := F)) padm (pdats m ρ) () defs₀ 𝒱₀ Lz lvz 8 where
  win := launch8.win.to₀
  block_pos := launch8.block_pos
  stage_whole := launch8.stage_whole
  K := PEmpty
  osem k := k.elim
  ho := Pipeline.OwnSemFacts.none _
  hbody c := (body_obligation8 (E17 m ρ) c).loose
  hwaits := Pipeline.hwaits_of_owed_zero _ _ _ _ Lz lvz 8 fun _ _ => rfl
  pre c := iprop(StableHlo.held (c : Thread nD τ) (Pipeline.ucRefs τ sig) (W17 m ρ c) ∗ Rr c)
  post c := iprop(StableHlo.held (c : Thread nD τ) (Pipeline.ucRefs τ sig) (W18 m ρ c) ∗ Rr c)
  X c := iprop(∃ r, prngReg c r)
  Y c := iprop(∃ r, prngReg c r)
  Z c := Pipeline.unscopedRest (Ix := Unit) (Name := ℕ) (U := UR sig nD τ) (Lvl := ℕ) spec8 c (E17 m ρ c)
  hentry c := by
    rw [Pipeline.ownSems0_none]
    have hsplit := Pipeline.arrays_of_unscopedBufs (p := 8) (pcfgs (F := F)) padm (pdats m ρ) launch8.win launch8.arr_whole c
      ((pdats m ρ 8 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) padm (Ix := Unit) (Name := ℕ) (U := UR sig nD τ) (Lvl := ℕ)
      launch8.win launch8.arr_whole c (pdats m ρ) ((pdats m ρ 8 c).share_full fun _ => rfl)
      (E17 m ρ c) (E18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) padm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .host (hseg hostOps9_1 hostOps9_1_sub hostOps9_1_fresh (W19 m ρ)),
    .host (hseg hostOps9_2 hostOps9_2_sub hostOps9_2_fresh (W20 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents `W21`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) padm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      -- the last host stretch leaves every unscoped buffer at `W21` beside the register and the core owing nothing: reassociate
      show (iprop(StableHlo.held (c : Thread nD τ) (Pipeline.ucRefs τ sig) (W21 m ρ c) ∗ Rr c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-! ## The arguments end as launched: no host operation and no region writes one -/
theorem W21_main_arg0 (c : Dev nD) : W21 m ρ c (Proc.devRef .tc main_arg0) = m ((c : Thread nD τ).loc main_arg0) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg0 (by decide)).trans <|
  (StableHlo.after_of_writes_sub hostOps8 _ hostOps8_writes (by decide)).trans <|
  (W16_of_ne m ρ c main_arg0 (by decide)).trans <|
  (StableHlo.after_of_writes_sub hostOps7 _ hostOps7_writes (by decide)).trans <|
  (W14_of_ne m ρ c main_arg0 (by decide)).trans <|
  (StableHlo.after_of_writes_sub hostOps6 _ hostOps6_writes (by decide)).trans <|
  (W12_of_ne m ρ c main_arg0 (by decide)).trans <|
  (StableHlo.after_of_writes_sub hostOps5 _ hostOps5_writes (by decide)).trans <|
  (W10_of_ne m ρ c main_arg0 (by decide)).trans <|
  (StableHlo.after_of_writes_sub hostOps4 _ hostOps4_writes (by decide)).trans <|
  (W8_of_ne m ρ c main_arg0 (by decide)).trans <|
  (StableHlo.after_of_writes_sub hostOps3 _ hostOps3_writes (by decide)).trans <|
  (W6_of_ne m ρ c main_arg0 (by decide)).trans <|
  (StableHlo.after_of_writes_sub hostOps2 _ hostOps2_writes (by decide)).trans <|
  (W4_of_ne m ρ c main_arg0 (by decide)).trans <|
  (StableHlo.after_of_writes_sub hostOps1 _ hostOps1_writes (by decide)).trans <|
  ((W2_arr m ρ c 0).trans (((dat0 (E1 m ρ) c).arrAt_in 0 rfl _).trans (A_eq0 (E1 m ρ) c 0))).trans <|
  (StableHlo.after_of_writes_sub hostOps0 _ hostOps0_writes (by decide))
theorem W21_main_arg1 (c : Dev nD) : W21 m ρ c (Proc.devRef .tc main_arg1) = m ((c : Thread nD τ).loc main_arg1) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg1 (by decide)).trans <|
  (StableHlo.after_of_writes_sub hostOps8 _ hostOps8_writes (by decide)).trans <|
  (W16_of_ne m ρ c main_arg1 (by decide)).trans <|
  (StableHlo.after_of_writes_sub hostOps7 _ hostOps7_writes (by decide)).trans <|
  (W14_of_ne m ρ c main_arg1 (by decide)).trans <|
  (StableHlo.after_of_writes_sub hostOps6 _ hostOps6_writes (by decide)).trans <|
  (W12_of_ne m ρ c main_arg1 (by decide)).trans <|
  (StableHlo.after_of_writes_sub hostOps5 _ hostOps5_writes (by decide)).trans <|
  (W10_of_ne m ρ c main_arg1 (by decide)).trans <|
  (StableHlo.after_of_writes_sub hostOps4 _ hostOps4_writes (by decide)).trans <|
  (W8_of_ne m ρ c main_arg1 (by decide)).trans <|
  (StableHlo.after_of_writes_sub hostOps3 _ hostOps3_writes (by decide)).trans <|
  (W6_of_ne m ρ c main_arg1 (by decide)).trans <|
  (StableHlo.after_of_writes_sub hostOps2 _ hostOps2_writes (by decide)).trans <|
  (W4_of_ne m ρ c main_arg1 (by decide)).trans <|
  (StableHlo.after_of_writes_sub hostOps1 _ hostOps1_writes (by decide)).trans <|
  (W2_of_ne m ρ c main_arg1 (by decide)).trans <|
  (StableHlo.after_of_writes_sub hostOps0 _ hostOps0_writes (by decide))
theorem W21_main_arg2 (c : Dev nD) : W21 m ρ c (Proc.devRef .tc main_arg2) = m ((c : Thread nD τ).loc main_arg2) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg2 (by decide)).trans <|
  (StableHlo.after_of_writes_sub hostOps8 _ hostOps8_writes (by decide)).trans <|
  (W16_of_ne m ρ c main_arg2 (by decide)).trans <|
  (StableHlo.after_of_writes_sub hostOps7 _ hostOps7_writes (by decide)).trans <|
  (W14_of_ne m ρ c main_arg2 (by decide)).trans <|
  (StableHlo.after_of_writes_sub hostOps6 _ hostOps6_writes (by decide)).trans <|
  (W12_of_ne m ρ c main_arg2 (by decide)).trans <|
  (StableHlo.after_of_writes_sub hostOps5 _ hostOps5_writes (by decide)).trans <|
  (W10_of_ne m ρ c main_arg2 (by decide)).trans <|
  (StableHlo.after_of_writes_sub hostOps4 _ hostOps4_writes (by decide)).trans <|
  (W8_of_ne m ρ c main_arg2 (by decide)).trans <|
  (StableHlo.after_of_writes_sub hostOps3 _ hostOps3_writes (by decide)).trans <|
  (W6_of_ne m ρ c main_arg2 (by decide)).trans <|
  (StableHlo.after_of_writes_sub hostOps2 _ hostOps2_writes (by decide)).trans <|
  (W4_of_ne m ρ c main_arg2 (by decide)).trans <|
  (StableHlo.after_of_writes_sub hostOps1 _ hostOps1_writes (by decide)).trans <|
  (W2_of_ne m ρ c main_arg2 (by decide)).trans <|
  (StableHlo.after_of_writes_sub hostOps0 _ hostOps0_writes (by decide))
theorem W21_main_arg3 (c : Dev nD) : W21 m ρ c (Proc.devRef .tc main_arg3) = m ((c : Thread nD τ).loc main_arg3) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg3 (by decide)).trans <|
  (StableHlo.after_of_writes_sub hostOps8 _ hostOps8_writes (by decide)).trans <|
  (W16_of_ne m ρ c main_arg3 (by decide)).trans <|
  (StableHlo.after_of_writes_sub hostOps7 _ hostOps7_writes (by decide)).trans <|
  (W14_of_ne m ρ c main_arg3 (by decide)).trans <|
  (StableHlo.after_of_writes_sub hostOps6 _ hostOps6_writes (by decide)).trans <|
  (W12_of_ne m ρ c main_arg3 (by decide)).trans <|
  (StableHlo.after_of_writes_sub hostOps5 _ hostOps5_writes (by decide)).trans <|
  (W10_of_ne m ρ c main_arg3 (by decide)).trans <|
  (StableHlo.after_of_writes_sub hostOps4 _ hostOps4_writes (by decide)).trans <|
  (W8_of_ne m ρ c main_arg3 (by decide)).trans <|
  (StableHlo.after_of_writes_sub hostOps3 _ hostOps3_writes (by decide)).trans <|
  (W6_of_ne m ρ c main_arg3 (by decide)).trans <|
  (StableHlo.after_of_writes_sub hostOps2 _ hostOps2_writes (by decide)).trans <|
  (W4_of_ne m ρ c main_arg3 (by decide)).trans <|
  (StableHlo.after_of_writes_sub hostOps1 _ hostOps1_writes (by decide)).trans <|
  ((W2_arr m ρ c 1).trans (((dat0 (E1 m ρ) c).arrAt_in 1 rfl _).trans (A_eq0 (E1 m ρ) c 1))).trans <|
  (StableHlo.after_of_writes_sub hostOps0 _ hostOps0_writes (by decide))
theorem W21_main_arg4 (c : Dev nD) : W21 m ρ c (Proc.devRef .tc main_arg4) = m ((c : Thread nD τ).loc main_arg4) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg4 (by decide)).trans <|
  (StableHlo.after_of_writes_sub hostOps8 _ hostOps8_writes (by decide)).trans <|
  (W16_of_ne m ρ c main_arg4 (by decide)).trans <|
  (StableHlo.after_of_writes_sub hostOps7 _ hostOps7_writes (by decide)).trans <|
  (W14_of_ne m ρ c main_arg4 (by decide)).trans <|
  (StableHlo.after_of_writes_sub hostOps6 _ hostOps6_writes (by decide)).trans <|
  (W12_of_ne m ρ c main_arg4 (by decide)).trans <|
  (StableHlo.after_of_writes_sub hostOps5 _ hostOps5_writes (by decide)).trans <|
  (W10_of_ne m ρ c main_arg4 (by decide)).trans <|
  (StableHlo.after_of_writes_sub hostOps4 _ hostOps4_writes (by decide)).trans <|
  (W8_of_ne m ρ c main_arg4 (by decide)).trans <|
  (StableHlo.after_of_writes_sub hostOps3 _ hostOps3_writes (by decide)).trans <|
  (W6_of_ne m ρ c main_arg4 (by decide)).trans <|
  (StableHlo.after_of_writes_sub hostOps2 _ hostOps2_writes (by decide)).trans <|
  (W4_of_ne m ρ c main_arg4 (by decide)).trans <|
  (StableHlo.after_of_writes_sub hostOps1 _ hostOps1_writes (by decide)).trans <|
  (W2_of_ne m ρ c main_arg4 (by decide)).trans <|
  (StableHlo.after_of_writes_sub hostOps0 _ hostOps0_writes (by decide))
theorem W21_main_arg5 (c : Dev nD) : W21 m ρ c (Proc.devRef .tc main_arg5) = m ((c : Thread nD τ).loc main_arg5) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg5 (by decide)).trans <|
  (StableHlo.after_of_writes_sub hostOps8 _ hostOps8_writes (by decide)).trans <|
  (W16_of_ne m ρ c main_arg5 (by decide)).trans <|
  (StableHlo.after_of_writes_sub hostOps7 _ hostOps7_writes (by decide)).trans <|
  (W14_of_ne m ρ c main_arg5 (by decide)).trans <|
  (StableHlo.after_of_writes_sub hostOps6 _ hostOps6_writes (by decide)).trans <|
  (W12_of_ne m ρ c main_arg5 (by decide)).trans <|
  (StableHlo.after_of_writes_sub hostOps5 _ hostOps5_writes (by decide)).trans <|
  (W10_of_ne m ρ c main_arg5 (by decide)).trans <|
  (StableHlo.after_of_writes_sub hostOps4 _ hostOps4_writes (by decide)).trans <|
  (W8_of_ne m ρ c main_arg5 (by decide)).trans <|
  (StableHlo.after_of_writes_sub hostOps3 _ hostOps3_writes (by decide)).trans <|
  (W6_of_ne m ρ c main_arg5 (by decide)).trans <|
  (StableHlo.after_of_writes_sub hostOps2 _ hostOps2_writes (by decide)).trans <|
  (W4_of_ne m ρ c main_arg5 (by decide)).trans <|
  (StableHlo.after_of_writes_sub hostOps1 _ hostOps1_writes (by decide)).trans <|
  (W2_of_ne m ρ c main_arg5 (by decide)).trans <|
  (StableHlo.after_of_writes_sub hostOps0 _ hostOps0_writes (by decide))
theorem W21_main_arg6 (c : Dev nD) : W21 m ρ c (Proc.devRef .tc main_arg6) = m ((c : Thread nD τ).loc main_arg6) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg6 (by decide)).trans <|
  (StableHlo.after_of_writes_sub hostOps8 _ hostOps8_writes (by decide)).trans <|
  (W16_of_ne m ρ c main_arg6 (by decide)).trans <|
  (StableHlo.after_of_writes_sub hostOps7 _ hostOps7_writes (by decide)).trans <|
  (W14_of_ne m ρ c main_arg6 (by decide)).trans <|
  (StableHlo.after_of_writes_sub hostOps6 _ hostOps6_writes (by decide)).trans <|
  (W12_of_ne m ρ c main_arg6 (by decide)).trans <|
  (StableHlo.after_of_writes_sub hostOps5 _ hostOps5_writes (by decide)).trans <|
  (W10_of_ne m ρ c main_arg6 (by decide)).trans <|
  (StableHlo.after_of_writes_sub hostOps4 _ hostOps4_writes (by decide)).trans <|
  (W8_of_ne m ρ c main_arg6 (by decide)).trans <|
  (StableHlo.after_of_writes_sub hostOps3 _ hostOps3_writes (by decide)).trans <|
  (W6_of_ne m ρ c main_arg6 (by decide)).trans <|
  (StableHlo.after_of_writes_sub hostOps2 _ hostOps2_writes (by decide)).trans <|
  (W4_of_ne m ρ c main_arg6 (by decide)).trans <|
  (StableHlo.after_of_writes_sub hostOps1 _ hostOps1_writes (by decide)).trans <|
  (W2_of_ne m ρ c main_arg6 (by decide)).trans <|
  (StableHlo.after_of_writes_sub hostOps0 _ hostOps0_writes (by decide))
theorem W21_main_arg7 (c : Dev nD) : W21 m ρ c (Proc.devRef .tc main_arg7) = m ((c : Thread nD τ).loc main_arg7) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg7 (by decide)).trans <|
  (StableHlo.after_of_writes_sub hostOps8 _ hostOps8_writes (by decide)).trans <|
  (W16_of_ne m ρ c main_arg7 (by decide)).trans <|
  (StableHlo.after_of_writes_sub hostOps7 _ hostOps7_writes (by decide)).trans <|
  (W14_of_ne m ρ c main_arg7 (by decide)).trans <|
  (StableHlo.after_of_writes_sub hostOps6 _ hostOps6_writes (by decide)).trans <|
  (W12_of_ne m ρ c main_arg7 (by decide)).trans <|
  (StableHlo.after_of_writes_sub hostOps5 _ hostOps5_writes (by decide)).trans <|
  (W10_of_ne m ρ c main_arg7 (by decide)).trans <|
  (StableHlo.after_of_writes_sub hostOps4 _ hostOps4_writes (by decide)).trans <|
  (W8_of_ne m ρ c main_arg7 (by decide)).trans <|
  (StableHlo.after_of_writes_sub hostOps3 _ hostOps3_writes (by decide)).trans <|
  (W6_of_ne m ρ c main_arg7 (by decide)).trans <|
  (StableHlo.after_of_writes_sub hostOps2 _ hostOps2_writes (by decide)).trans <|
  (W4_of_ne m ρ c main_arg7 (by decide)).trans <|
  (StableHlo.after_of_writes_sub hostOps1 _ hostOps1_writes (by decide)).trans <|
  (W2_of_ne m ρ c main_arg7 (by decide)).trans <|
  (StableHlo.after_of_writes_sub hostOps0 _ hostOps0_writes (by decide))
theorem W21_main_arg8 (c : Dev nD) : W21 m ρ c (Proc.devRef .tc main_arg8) = m ((c : Thread nD τ).loc main_arg8) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg8 (by decide)).trans <|
  (StableHlo.after_of_writes_sub hostOps8 _ hostOps8_writes (by decide)).trans <|
  (W16_of_ne m ρ c main_arg8 (by decide)).trans <|
  (StableHlo.after_of_writes_sub hostOps7 _ hostOps7_writes (by decide)).trans <|
  (W14_of_ne m ρ c main_arg8 (by decide)).trans <|
  (StableHlo.after_of_writes_sub hostOps6 _ hostOps6_writes (by decide)).trans <|
  (W12_of_ne m ρ c main_arg8 (by decide)).trans <|
  (StableHlo.after_of_writes_sub hostOps5 _ hostOps5_writes (by decide)).trans <|
  (W10_of_ne m ρ c main_arg8 (by decide)).trans <|
  (StableHlo.after_of_writes_sub hostOps4 _ hostOps4_writes (by decide)).trans <|
  (W8_of_ne m ρ c main_arg8 (by decide)).trans <|
  (StableHlo.after_of_writes_sub hostOps3 _ hostOps3_writes (by decide)).trans <|
  (W6_of_ne m ρ c main_arg8 (by decide)).trans <|
  (StableHlo.after_of_writes_sub hostOps2 _ hostOps2_writes (by decide)).trans <|
  (W4_of_ne m ρ c main_arg8 (by decide)).trans <|
  (StableHlo.after_of_writes_sub hostOps1 _ hostOps1_writes (by decide)).trans <|
  (W2_of_ne m ρ c main_arg8 (by decide)).trans <|
  (StableHlo.after_of_writes_sub hostOps0 _ hostOps0_writes (by decide))
theorem W21_main_arg9 (c : Dev nD) : W21 m ρ c (Proc.devRef .tc main_arg9) = m ((c : Thread nD τ).loc main_arg9) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg9 (by decide)).trans <|
  (StableHlo.after_of_writes_sub hostOps8 _ hostOps8_writes (by decide)).trans <|
  (W16_of_ne m ρ c main_arg9 (by decide)).trans <|
  (StableHlo.after_of_writes_sub hostOps7 _ hostOps7_writes (by decide)).trans <|
  (W14_of_ne m ρ c main_arg9 (by decide)).trans <|
  (StableHlo.after_of_writes_sub hostOps6 _ hostOps6_writes (by decide)).trans <|
  (W12_of_ne m ρ c main_arg9 (by decide)).trans <|
  (StableHlo.after_of_writes_sub hostOps5 _ hostOps5_writes (by decide)).trans <|
  (W10_of_ne m ρ c main_arg9 (by decide)).trans <|
  (StableHlo.after_of_writes_sub hostOps4 _ hostOps4_writes (by decide)).trans <|
  (W8_of_ne m ρ c main_arg9 (by decide)).trans <|
  (StableHlo.after_of_writes_sub hostOps3 _ hostOps3_writes (by decide)).trans <|
  (W6_of_ne m ρ c main_arg9 (by decide)).trans <|
  (StableHlo.after_of_writes_sub hostOps2 _ hostOps2_writes (by decide)).trans <|
  (W4_of_ne m ρ c main_arg9 (by decide)).trans <|
  (StableHlo.after_of_writes_sub hostOps1 _ hostOps1_writes (by decide)).trans <|
  (W2_of_ne m ρ c main_arg9 (by decide)).trans <|
  (StableHlo.after_of_writes_sub hostOps0 _ hostOps0_writes (by decide))
theorem W21_main_arg10 (c : Dev nD) : W21 m ρ c (Proc.devRef .tc main_arg10) = m ((c : Thread nD τ).loc main_arg10) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg10 (by decide)).trans <|
  (StableHlo.after_of_writes_sub hostOps8 _ hostOps8_writes (by decide)).trans <|
  (W16_of_ne m ρ c main_arg10 (by decide)).trans <|
  (StableHlo.after_of_writes_sub hostOps7 _ hostOps7_writes (by decide)).trans <|
  (W14_of_ne m ρ c main_arg10 (by decide)).trans <|
  (StableHlo.after_of_writes_sub hostOps6 _ hostOps6_writes (by decide)).trans <|
  (W12_of_ne m ρ c main_arg10 (by decide)).trans <|
  (StableHlo.after_of_writes_sub hostOps5 _ hostOps5_writes (by decide)).trans <|
  (W10_of_ne m ρ c main_arg10 (by decide)).trans <|
  (StableHlo.after_of_writes_sub hostOps4 _ hostOps4_writes (by decide)).trans <|
  (W8_of_ne m ρ c main_arg10 (by decide)).trans <|
  (StableHlo.after_of_writes_sub hostOps3 _ hostOps3_writes (by decide)).trans <|
  (W6_of_ne m ρ c main_arg10 (by decide)).trans <|
  (StableHlo.after_of_writes_sub hostOps2 _ hostOps2_writes (by decide)).trans <|
  (W4_of_ne m ρ c main_arg10 (by decide)).trans <|
  (StableHlo.after_of_writes_sub hostOps1 _ hostOps1_writes (by decide)).trans <|
  (W2_of_ne m ρ c main_arg10 (by decide)).trans <|
  (StableHlo.after_of_writes_sub hostOps0 _ hostOps0_writes (by decide))
theorem W21_main_arg11 (c : Dev nD) : W21 m ρ c (Proc.devRef .tc main_arg11) = m ((c : Thread nD τ).loc main_arg11) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg11 (by decide)).trans <|
  (StableHlo.after_of_writes_sub hostOps8 _ hostOps8_writes (by decide)).trans <|
  (W16_of_ne m ρ c main_arg11 (by decide)).trans <|
  (StableHlo.after_of_writes_sub hostOps7 _ hostOps7_writes (by decide)).trans <|
  (W14_of_ne m ρ c main_arg11 (by decide)).trans <|
  (StableHlo.after_of_writes_sub hostOps6 _ hostOps6_writes (by decide)).trans <|
  (W12_of_ne m ρ c main_arg11 (by decide)).trans <|
  (StableHlo.after_of_writes_sub hostOps5 _ hostOps5_writes (by decide)).trans <|
  (W10_of_ne m ρ c main_arg11 (by decide)).trans <|
  (StableHlo.after_of_writes_sub hostOps4 _ hostOps4_writes (by decide)).trans <|
  (W8_of_ne m ρ c main_arg11 (by decide)).trans <|
  (StableHlo.after_of_writes_sub hostOps3 _ hostOps3_writes (by decide)).trans <|
  (W6_of_ne m ρ c main_arg11 (by decide)).trans <|
  (StableHlo.after_of_writes_sub hostOps2 _ hostOps2_writes (by decide)).trans <|
  (W4_of_ne m ρ c main_arg11 (by decide)).trans <|
  (StableHlo.after_of_writes_sub hostOps1 _ hostOps1_writes (by decide)).trans <|
  (W2_of_ne m ρ c main_arg11 (by decide)).trans <|
  (StableHlo.after_of_writes_sub hostOps0 _ hostOps0_writes (by decide))
theorem W21_main_arg12 (c : Dev nD) : W21 m ρ c (Proc.devRef .tc main_arg12) = m ((c : Thread nD τ).loc main_arg12) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg12 (by decide)).trans <|
  (StableHlo.after_of_writes_sub hostOps8 _ hostOps8_writes (by decide)).trans <|
  (W16_of_ne m ρ c main_arg12 (by decide)).trans <|
  (StableHlo.after_of_writes_sub hostOps7 _ hostOps7_writes (by decide)).trans <|
  (W14_of_ne m ρ c main_arg12 (by decide)).trans <|
  (StableHlo.after_of_writes_sub hostOps6 _ hostOps6_writes (by decide)).trans <|
  (W12_of_ne m ρ c main_arg12 (by decide)).trans <|
  (StableHlo.after_of_writes_sub hostOps5 _ hostOps5_writes (by decide)).trans <|
  (W10_of_ne m ρ c main_arg12 (by decide)).trans <|
  (StableHlo.after_of_writes_sub hostOps4 _ hostOps4_writes (by decide)).trans <|
  (W8_of_ne m ρ c main_arg12 (by decide)).trans <|
  (StableHlo.after_of_writes_sub hostOps3 _ hostOps3_writes (by decide)).trans <|
  (W6_of_ne m ρ c main_arg12 (by decide)).trans <|
  (StableHlo.after_of_writes_sub hostOps2 _ hostOps2_writes (by decide)).trans <|
  (W4_of_ne m ρ c main_arg12 (by decide)).trans <|
  (StableHlo.after_of_writes_sub hostOps1 _ hostOps1_writes (by decide)).trans <|
  (W2_of_ne m ρ c main_arg12 (by decide)).trans <|
  (StableHlo.after_of_writes_sub hostOps0 _ hostOps0_writes (by decide))
theorem W21_main_arg13 (c : Dev nD) : W21 m ρ c (Proc.devRef .tc main_arg13) = m ((c : Thread nD τ).loc main_arg13) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg13 (by decide)).trans <|
  (StableHlo.after_of_writes_sub hostOps8 _ hostOps8_writes (by decide)).trans <|
  (W16_of_ne m ρ c main_arg13 (by decide)).trans <|
  (StableHlo.after_of_writes_sub hostOps7 _ hostOps7_writes (by decide)).trans <|
  (W14_of_ne m ρ c main_arg13 (by decide)).trans <|
  (StableHlo.after_of_writes_sub hostOps6 _ hostOps6_writes (by decide)).trans <|
  (W12_of_ne m ρ c main_arg13 (by decide)).trans <|
  (StableHlo.after_of_writes_sub hostOps5 _ hostOps5_writes (by decide)).trans <|
  (W10_of_ne m ρ c main_arg13 (by decide)).trans <|
  (StableHlo.after_of_writes_sub hostOps4 _ hostOps4_writes (by decide)).trans <|
  (W8_of_ne m ρ c main_arg13 (by decide)).trans <|
  (StableHlo.after_of_writes_sub hostOps3 _ hostOps3_writes (by decide)).trans <|
  (W6_of_ne m ρ c main_arg13 (by decide)).trans <|
  (StableHlo.after_of_writes_sub hostOps2 _ hostOps2_writes (by decide)).trans <|
  (W4_of_ne m ρ c main_arg13 (by decide)).trans <|
  (StableHlo.after_of_writes_sub hostOps1 _ hostOps1_writes (by decide)).trans <|
  (W2_of_ne m ρ c main_arg13 (by decide)).trans <|
  (StableHlo.after_of_writes_sub hostOps0 _ hostOps0_writes (by decide))

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W21_main_arg0 m ρ c),
    (h c _ (mem_uc main_arg1 (by decide))).trans (W21_main_arg1 m ρ c),
    (h c _ (mem_uc main_arg2 (by decide))).trans (W21_main_arg2 m ρ c),
    (h c _ (mem_uc main_arg3 (by decide))).trans (W21_main_arg3 m ρ c),
    (h c _ (mem_uc main_arg4 (by decide))).trans (W21_main_arg4 m ρ c),
    (h c _ (mem_uc main_arg5 (by decide))).trans (W21_main_arg5 m ρ c),
    (h c _ (mem_uc main_arg6 (by decide))).trans (W21_main_arg6 m ρ c),
    (h c _ (mem_uc main_arg7 (by decide))).trans (W21_main_arg7 m ρ c),
    (h c _ (mem_uc main_arg8 (by decide))).trans (W21_main_arg8 m ρ c),
    (h c _ (mem_uc main_arg9 (by decide))).trans (W21_main_arg9 m ρ c),
    (h c _ (mem_uc main_arg10 (by decide))).trans (W21_main_arg10 m ρ c),
    (h c _ (mem_uc main_arg11 (by decide))).trans (W21_main_arg11 m ρ c),
    (h c _ (mem_uc main_arg12 (by decide))).trans (W21_main_arg12 m ρ c),
    (h c _ (mem_uc main_arg13 (by decide))).trans (W21_main_arg13 m ρ c)⟩) (run m ρ)

end Cert.Kernel.Hand

end
-- ==== Proof.KI.Region0.lean ====
/- Region 0 of the kernel program: the projection `relu (x · Wp + bp)`, one tile of 2000 rows per grid point.
   Stated at the core's buffer contents `V` when the region is entered: each window's block at a point, what the
   body leaves in the output window's buffer as a function of the input blocks, the body's triple, the pipeline's
   proof data and the body obligation. Generic in the float instance. -/
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 0: `cc0__proj_kernel`, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store are of a whole buffer -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, of the body's
    arithmetic `k0_pay1` on the loaded blocks, over the whole buffer. -/
def out0_3 (x0 : Vec F S2000x128 .f32) (x1 : Vec F S128x256 .f32) (x2 : Vec F S1x256 .f32) : Vec F S2000x256 .f32 :=
  View.canon [⟨r0_3, k0_pay1 (View.ld x0 r0_0) (View.ld x1 r0_1) (View.ld x2 r0_2)⟩]

/-- The store covers the buffer. -/
theorem cover0_3 (p0 : Vec F S2000x256 .f32) (y : S2000x256.Idx) :
    ∃ pc ∈ ([⟨r0_3, p0⟩] : List (View.Piece (Elt F) S2000x256 .f32)), y ∈ pc.1.set :=
  View.cover_of_tiled [⟨r0_3, p0⟩] S2000x256.size (by rfl) y

/-! ## The body's triple -/

set_option maxHeartbeats 1000000 in
/-- The kernel body on whole staging memrefs, the inputs' at contents `xW` and the output's at anything, runs to the
    continuation holding the inputs' as they were and the output's at `out0_3` of the inputs'. The body reads the
    output's buffer once before it stores to it; what it reads there is not used. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Run.lean ====
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the layer's matmul and column statistics): the kernel body on any staging memrefs

The body reads the point's tile of `h` and of `agg` and the whole of `Wl`, `bl`, `Wr`, stores
`hn = agg·Wl + bl + h·Wr` whole into window 5's buffer, and adds the column sums of `hn` and of `hn*hn`
into two scratch rows kept between points: zeroed at the first point, copied out at the last. -/

/-- Every access of the body is through the whole-shape rectangle at zero offsets. -/
theorem hz2 : (![0, 0] : Fin 2 → Nat) = fun _ => 0 := by funext a; fin_cases a <;> rfl

/-- After a last store through the whole-shape rectangle at zero offsets, a buffer reads that store's payload,
    whatever it held and whatever was stored before. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-! ## What the body computes, over the blocks (the skeleton's payloads) -/

/-- `hn`'s tile from the tiles of `h` (`x0`) and `agg` (`x1`), `Wl` (`x2`), `bl` (`x3`), `Wr` (`x4`). -/
def out1_5 (x0 x1 : Vec F S2000x256 .f32) (x2 : Vec F S256x256 .f32) (x3 : Vec F S1x256 .f32) (x4 : Vec F S256x256 .f32) : Vec F S2000x256 .f32 :=
  k1_pay4 x0 x1 x2 x4 x3

/-- The column sums after a point from those before it (`s`): `s` plus the column sums of the point's `hn` tile. -/
def stepS (x0 x1 : Vec F S2000x256 .f32) (x2 : Vec F S256x256 .f32) (x3 : Vec F S1x256 .f32) (x4 : Vec F S256x256 .f32) (s : Vec F S1x256 .f32) : Vec F S1x256 .f32 :=
  k1_pay5 x0 x1 x2 x4 x3 s

/-- The column sums of squares after a point from those before it (`q`): `q` plus the column sums of `hn*hn`. -/
def stepQ (x0 x1 : Vec F S2000x256 .f32) (x2 : Vec F S256x256 .f32) (x3 : Vec F S1x256 .f32) (x4 : Vec F S256x256 .f32) (q : Vec F S1x256 .f32) : Vec F S1x256 .f32 :=
  k1_pay1 q (k1_pay6 x0 x1 x2 x4 x3)

/-! ## The body's branch conditions -/

/-- The condition of the zero-fill (`program_id = 0`), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the copy-out (`program_id = 49`), from the grid coordinates. -/
abbrev cond1_1 (i : grid1.Coords) : Prop := k1_cond2 i = 1#1
/-- It holds at the last point only — decided over the grid. -/
theorem hcond1_1 : ∀ t : Fin cfg1.N, cond1_1 (grid1.coords t) ↔ t.val = 49 :=
  (by decide +kernel : ∀ t : Fin grid1.N, cond1_1 (grid1.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel1_A (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond1_0 i) (hc1 : ¬cond1_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc1__layer_matmul_kernel i arg1 harg1 arg2 harg2 arg3 harg3 arg4 harg4 arg5 harg5 arg6 harg6 arg7 harg7 arg8 harg8 arg9 harg9 arg10 harg10) K := by
  simp only [cc1__layer_matmul_kernel_eq_skeleton]; unfold cc1__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel1_B (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond1_0 i) (hc1 : ¬cond1_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc1__layer_matmul_kernel i arg1 harg1 arg2 harg2 arg3 harg3 arg4 harg4 arg5 harg5 arg6 harg6 arg7 harg7 arg8 harg8 arg9 harg9 arg10 harg10) K := by
  simp only [cc1__layer_matmul_kernel_eq_skeleton]; unfold cc1__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel1_C (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond1_0 i) (hc1 : cond1_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc1__layer_matmul_kernel i arg1 harg1 arg2 harg2 arg3 harg3 arg4 harg4 arg5 harg5 arg6 harg6 arg7 harg7 arg8 harg8 arg9 harg9 arg10 harg10) K := by
  simp only [cc1__layer_matmul_kernel_eq_skeleton]; unfold cc1__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.KernelIdeal.Hand

end
-- ==== Proof.KI.Region1.lean ====
import proofs.«111242_j77756087927556_1_alg».proof.Proof.KI.Region1Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Where windows 6 and 7 are idle, and where they are written back -/

theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel

/-! ## The running sums -/

/-- The scratch operands: whole scoped buffers of the kernel's own. -/
abbrev scM1_0 : Memref sig .tc .vmem S1x256 .f32 := Memref.whole cc1_scratch0
abbrev scM1_1 : Memref sig .tc .vmem S1x256 .f32 := Memref.whole cc1_scratch1

/-- The column sums of `hn` over the first `n` tiles: zero, then tile by tile (`stepS`). What the first
    scratch row holds before point `n`, for `n ≥ 1`. -/
def accS (c : Dev nD) : ℕ → Vec F S1x256 .f32
  | 0 => k1_pay2
  | n + 1 => if h : n < cfg1.N then stepS (iblk1 V c 0 ⟨n, h⟩) (iblk1 V c 1 ⟨n, h⟩) (iblk1 V c 2 ⟨n, h⟩) (iblk1 V c 3 ⟨n, h⟩) (iblk1 V c 4 ⟨n, h⟩) (accS c n) else accS c n

/-- The column sums of `hn*hn` over the first `n` tiles. What the second scratch row holds before point `n`, for `n ≥ 1`. -/
def accQ (c : Dev nD) : ℕ → Vec F S1x256 .f32
  | 0 => k1_pay3
  | n + 1 => if h : n < cfg1.N then stepQ (iblk1 V c 0 ⟨n, h⟩) (iblk1 V c 1 ⟨n, h⟩) (iblk1 V c 2 ⟨n, h⟩) (iblk1 V c 3 ⟨n, h⟩) (iblk1 V c 4 ⟨n, h⟩) (accQ c n) else accQ c n

theorem accS_zero (c : Dev nD) : accS V c 0 = k1_pay2 (F := F) := rfl
theorem accQ_zero (c : Dev nD) : accQ V c 0 = k1_pay3 (F := F) := rfl
theorem accS_succ (c : Dev nD) (t : Fin cfg1.N) : accS V c (t.val + 1) = stepS (iblk1 V c 0 t) (iblk1 V c 1 t) (iblk1 V c 2 t) (iblk1 V c 3 t) (iblk1 V c 4 t) (accS V c t.val) := by
  show (if h : t.val < cfg1.N then _ else _) = _; rw [dif_pos t.isLt]
theorem accQ_succ (c : Dev nD) (t : Fin cfg1.N) : accQ V c (t.val + 1) = stepQ (iblk1 V c 0 t) (iblk1 V c 1 t) (iblk1 V c 2 t) (iblk1 V c 3 t) (iblk1 V c 4 t) (accQ V c t.val) := by
  show (if h : t.val < cfg1.N then _ else _) = _; rw [dif_pos t.isLt]

/-! ## The region invariant -/

/-- The scoped buffers of the core that are neither a staging buffer of this call nor its two scratch rows. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant before position `n`: before the first point the class's (every scoped buffer that is no
    staging buffer at anything, the generator register at some state); afterwards the same with the two
    scratch rows at the running sums over the first `n` tiles. -/
def Phi1 (c : Dev nD) : ℕ → sProp 𝕄
  | 0 => Pipeline.ΦA spec1 c
  | n + 1 => iprop(iprop(iprop(owns (c : Thread nD τ) scM1_0 fullShare (accS V c (n + 1)) ∗ owns (c : Thread nD τ) scM1_1 fullShare (accQ V c (n + 1))) ∗ rest1 c) ∗ (∃ r, prngReg c r))

theorem Phi1_zero (c : Dev nD) (n : ℕ) (hz : n = 0) : Phi1 V c n = Pipeline.ΦA spec1 c := by subst hz; rfl
theorem Phi1_succ (c : Dev nD) (n : ℕ) :
    Phi1 V c (n + 1) = iprop(iprop(iprop(owns (c : Thread nD τ) scM1_0 fullShare (accS V c (n + 1)) ∗ owns (c : Thread nD τ) scM1_1 fullShare (accQ V c (n + 1))) ∗ rest1 c) ∗ (∃ r, prngReg c r)) := rfl
theorem Phi1_pos (c : Dev nD) (n : ℕ) (hz : n ≠ 0) :
    Phi1 V c n = iprop(iprop(iprop(owns (c : Thread nD τ) scM1_0 fullShare (accS V c n) ∗ owns (c : Thread nD τ) scM1_1 fullShare (accQ V c n)) ∗ rest1 c) ∗ (∃ r, prngReg c r)) := by
  cases n with
  | zero => exact absurd rfl hz
  | succ n => rfl

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## The pipeline's proof data -/

/-- The proof data of pipeline 1 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => accS V c (t.val + 1)
    | ⟨7, _⟩ => accQ V c (t.val + 1)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start and end. -/
theorem Phi1_castSucc (c : Dev nD) (t : Fin cfg1.N) : (dat1 V c).Φ t.castSucc = Phi1 V c t.val := by
  dsimp only [dat1]; simp only [Fin.coe_castSucc]
theorem Phi1_at_succ (c : Dev nD) (t : Fin cfg1.N) : (dat1 V c).Φ t.succ = Phi1 V c (t.val + 1) := by
  dsimp only [dat1]; simp only [Fin.val_succ]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = accS V c (t.val + 1) := by dsimp only [dat1]
theorem after1_7 (c : Dev nD) (t : Fin cfg1.N) : (dat1 V c).after 7 t = accQ V c (t.val + 1) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_at_succ, Phi1_succ, Phi1_castSucc]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  have hN : t.val < 50 := lt_of_lt_of_eq t.isLt (show cfg1.N = 50 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1), Dat.leavesExact_idle (dat1 V c) 7 t (idleAt1_7 t hc1) (noFlush1_7 t hc1)]
    rw [accS_succ V c t, accQ_succ V c t]
    rw [Phi1_zero V c _ h0, PhiA1_eq, show accS V c t.val = k1_pay2 (F := F) from by rw [h0]; rfl, show accQ V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond1_0 (grid1.coords t) := fun h => h0 ((hcond1_0 t).mp h)
    by_cases h1 : t.val = 49
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      rw [show (dat1 V c).leavesExact 7 t = owns (c : Thread nD τ) (st1_7 t) fullShare ((dat1 V c).after 7 t) from by
        unfold Dat.leavesExact; rw [liveAt1_7 t hc1], after1_7]
      rw [accS_succ V c t, accQ_succ V c t]
      rw [Phi1_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (accS V c t.val) (accQ V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 6 t (idleAt1_6 t hc1) (noFlush1_6 t hc1), Dat.leavesExact_idle (dat1 V c) 7 t (idleAt1_7 t hc1) (noFlush1_7 t hc1)]
      rw [accS_succ V c t, accQ_succ V c t]
      rw [Phi1_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ (accS V c t.val) (accQ V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the launch hands the region is the invariant before the first point. -/
theorem hin1 (c : Dev nD) : Pipeline.ΦA spec1 c ⊢ (dat1 V c).Φ 0 := by
  rw [show (dat1 V c).Φ 0 = Phi1 V c 0 from rfl, Phi1_zero V c 0 rfl]
  try exact Idealize.SL.BI.Entails.refl _

/-- After any point the invariant gives the class's back: the running sums are forgotten. -/
theorem Phi1_out (c : Dev nD) (t : Fin (cfg1.N + 1)) (ht : t.val ≠ 0) : (dat1 V c).Φ t ⊢ Pipeline.ΦA spec1 c := by
  rw [show (dat1 V c).Φ t = Phi1 V c t.val from rfl, Phi1_pos V c _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout1 (c : Dev nD) : (dat1 V c).Φ (Fin.last cfg1.N) ⊢ Pipeline.ΦA spec1 c :=
  Phi1_out V c _ (by rw [Fin.val_last]; have : cfg1.N = 50 := N_1; omega)

/-- The two entailments in the form a region segment takes them: from the generator register and the scoped rest
    into the invariant before the first point, -/
theorem Phi1_in_seg (c : Dev nD) :
    iprop((∃ r, prngReg c r) ∗ Pipeline.scopedRest (Ix := Unit) (Name := ℕ) (U := UR sig nD τ) (Lvl := ℕ) (Val := Elt F) spec1 c) ⊢ (dat1 V c).Φ 0 := by
  refine (show _ ⊢ Pipeline.ΦA spec1 c from ?_).trans (hin1 V c)
  unfold Pipeline.ΦA
  iintro ⟨Hp, Hr⟩
  isplitl [Hr]; · iexact Hr
  iexact Hp

/-- and back after the last point. -/
theorem Phi1_out_seg (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  refine (hout1 V c).trans (show Pipeline.ΦA spec1 c ⊢ _ from ?_)
  unfold Pipeline.ΦA
  iintro ⟨Hr, Hp⟩
  isplitl [Hp]; · iexact Hp
  iexact Hr

end Region1

end Cert.KernelIdeal.Hand

end
-- ==== Proof.KI.Region2.lean ====
/- Region 2 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 2: `cc2__layer_norm_kernel`, at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store are of a whole buffer -/

abbrev r2_0 : Rect S1x256 := Rect.unit (s := S1x256) ![0, 0] S1x256.size inb_S1x256_S1x256_0_0
abbrev r2_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k2_pay1` on the loaded blocks, over the whole buffer. -/
def out2_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r2_1, k2_pay1 (View.ld x2 r2_0) (View.ld x3 r2_0) (View.ld x0 r2_1) (View.ld x4 r2_0) (View.ld x5 r2_0) (View.ld x1 r2_1)⟩]

/-- The store covers the buffer. -/
theorem cover2_6 (p0 : Vec F S2000x256 .f32) (y : S2000x256.Idx) :
    ∃ pc ∈ ([⟨r2_1, p0⟩] : List (View.Piece (Elt F) S2000x256 .f32)), y ∈ pc.1.set :=
  View.cover_of_tiled [⟨r2_1, p0⟩] S2000x256.size (by rfl) y

/-! ## The body's triple -/

set_option maxHeartbeats 1000000 in
/-- The kernel body on whole staging memrefs, the inputs' at contents `xW` and the output's at anything, runs to the
    continuation holding the inputs' as they were and the output's at `out2_6` of the inputs'. The body reads the
    output's buffer once before it stores to it; what it reads there is not used. -/
theorem sound_kernel2 (c : Dev nD) (E : Set ℕ) (i : grid2.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__layer_norm_kernel i arg1 harg1 arg2 harg2 arg3 harg3 arg4 harg4 arg5 harg5 arg6 harg6 arg7 harg7) K := by
  simp only [cc2__layer_norm_kernel_eq_skeleton]; unfold cc2__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point `t` each
    input's buffer at its block and the output's at `out2_6` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3Run.lean ====
import proofs.«111242_j77756087927556_1_alg».proof.Proof.KI.Region1Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (a later layer's matmul and column statistics): the kernel body on any staging memrefs

The same body as region 1's, printed again under this call's names: its payloads are region 1's functions
(`out1_5`, `stepS`, `stepQ`, the zero rows `k1_pay2`, `k1_pay3`) by unfolding. -/

/-! ## The body's branch conditions -/

/-- The condition of the zero-fill (`program_id = 0`), from the grid coordinates. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)

/-- The condition of the copy-out (`program_id = 49`), from the grid coordinates. -/
abbrev cond3_1 (i : grid3.Coords) : Prop := k3_cond2 i = 1#1
/-- It holds at the last point only — decided over the grid. -/
theorem hcond3_1 : ∀ t : Fin cfg3.N, cond3_1 (grid3.coords t) ↔ t.val = 49 :=
  (by decide +kernel : ∀ t : Fin grid3.N, cond3_1 (grid3.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel3_A (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond3_0 i) (hc1 : ¬cond3_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc3__layer_matmul_kernel i arg1 harg1 arg2 harg2 arg3 harg3 arg4 harg4 arg5 harg5 arg6 harg6 arg7 harg7 arg8 harg8 arg9 harg9 arg10 harg10) K := by
  simp only [cc3__layer_matmul_kernel_eq_skeleton]; unfold cc3__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel3_B (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond3_0 i) (hc1 : ¬cond3_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc3__layer_matmul_kernel i arg1 harg1 arg2 harg2 arg3 harg3 arg4 harg4 arg5 harg5 arg6 harg6 arg7 harg7 arg8 harg8 arg9 harg9 arg10 harg10) K := by
  simp only [cc3__layer_matmul_kernel_eq_skeleton]; unfold cc3__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel3_C (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond3_0 i) (hc1 : cond3_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc3__layer_matmul_kernel i arg1 harg1 arg2 harg2 arg3 harg3 arg4 harg4 arg5 harg5 arg6 harg6 arg7 harg7 arg8 harg8 arg9 harg9 arg10 harg10) K := by
  simp only [cc3__layer_matmul_kernel_eq_skeleton]; unfold cc3__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.KernelIdeal.Hand

end
-- ==== Proof.KI.Region3.lean ====
import proofs.«111242_j77756087927556_1_alg».proof.Proof.KI.Region3Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## Where windows 6 and 7 are idle, and where they are written back -/

theorem idleAt3_6 : ∀ t : Fin cfg3.N, ¬cond3_1 (grid3.coords t) → cfg3.idle 6 (grid3.coords t) = true := by decide +kernel
theorem idleAt3_7 : ∀ t : Fin cfg3.N, ¬cond3_1 (grid3.coords t) → cfg3.idle 7 (grid3.coords t) = true := by decide +kernel
theorem liveAt3_6 : ∀ t : Fin cfg3.N, cond3_1 (grid3.coords t) → cfg3.idle 6 (grid3.coords t) = false := by decide +kernel
theorem liveAt3_7 : ∀ t : Fin cfg3.N, cond3_1 (grid3.coords t) → cfg3.idle 7 (grid3.coords t) = false := by decide +kernel
theorem noFlush3_6 : ∀ t : Fin cfg3.N, ¬cond3_1 (grid3.coords t) → (cfg3.win 6).flush t = false := by decide +kernel
theorem noFlush3_7 : ∀ t : Fin cfg3.N, ¬cond3_1 (grid3.coords t) → (cfg3.win 7).flush t = false := by decide +kernel

/-! ## The running sums -/

/-- The scratch operands: whole scoped buffers of the kernel's own. -/
abbrev scM3_0 : Memref sig .tc .vmem S1x256 .f32 := Memref.whole cc3_scratch0
abbrev scM3_1 : Memref sig .tc .vmem S1x256 .f32 := Memref.whole cc3_scratch1

/-- The column sums of `hn` over the first `n` tiles: zero, then tile by tile (`stepS`). What the first
    scratch row holds before point `n`, for `n ≥ 1`. -/
def accS3 (c : Dev nD) : ℕ → Vec F S1x256 .f32
  | 0 => k1_pay2
  | n + 1 => if h : n < cfg3.N then stepS (iblk3 V c 0 ⟨n, h⟩) (iblk3 V c 1 ⟨n, h⟩) (iblk3 V c 2 ⟨n, h⟩) (iblk3 V c 3 ⟨n, h⟩) (iblk3 V c 4 ⟨n, h⟩) (accS3 c n) else accS3 c n

/-- The column sums of `hn*hn` over the first `n` tiles. What the second scratch row holds before point `n`, for `n ≥ 1`. -/
def accQ3 (c : Dev nD) : ℕ → Vec F S1x256 .f32
  | 0 => k1_pay3
  | n + 1 => if h : n < cfg3.N then stepQ (iblk3 V c 0 ⟨n, h⟩) (iblk3 V c 1 ⟨n, h⟩) (iblk3 V c 2 ⟨n, h⟩) (iblk3 V c 3 ⟨n, h⟩) (iblk3 V c 4 ⟨n, h⟩) (accQ3 c n) else accQ3 c n

theorem accS3_zero (c : Dev nD) : accS3 V c 0 = k1_pay2 (F := F) := rfl
theorem accQ3_zero (c : Dev nD) : accQ3 V c 0 = k1_pay3 (F := F) := rfl
theorem accS3_succ (c : Dev nD) (t : Fin cfg3.N) : accS3 V c (t.val + 1) = stepS (iblk3 V c 0 t) (iblk3 V c 1 t) (iblk3 V c 2 t) (iblk3 V c 3 t) (iblk3 V c 4 t) (accS3 V c t.val) := by
  show (if h : t.val < cfg3.N then _ else _) = _; rw [dif_pos t.isLt]
theorem accQ3_succ (c : Dev nD) (t : Fin cfg3.N) : accQ3 V c (t.val + 1) = stepQ (iblk3 V c 0 t) (iblk3 V c 1 t) (iblk3 V c 2 t) (iblk3 V c 3 t) (iblk3 V c 4 t) (accQ3 V c t.val) := by
  show (if h : t.val < cfg3.N then _ else _) = _; rw [dif_pos t.isLt]

/-! ## The region invariant -/

/-- The scoped buffers of the core that are neither a staging buffer of this call nor its two scratch rows. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The invariant before position `n`: before the first point the class's (every scoped buffer that is no
    staging buffer at anything, the generator register at some state); afterwards the same with the two
    scratch rows at the running sums over the first `n` tiles. -/
def Phi3 (c : Dev nD) : ℕ → sProp 𝕄
  | 0 => Pipeline.ΦA spec3 c
  | n + 1 => iprop(iprop(iprop(owns (c : Thread nD τ) scM3_0 fullShare (accS3 V c (n + 1)) ∗ owns (c : Thread nD τ) scM3_1 fullShare (accQ3 V c (n + 1))) ∗ rest3 c) ∗ (∃ r, prngReg c r))

theorem Phi3_zero (c : Dev nD) (n : ℕ) (hz : n = 0) : Phi3 V c n = Pipeline.ΦA spec3 c := by subst hz; rfl
theorem Phi3_succ (c : Dev nD) (n : ℕ) :
    Phi3 V c (n + 1) = iprop(iprop(iprop(owns (c : Thread nD τ) scM3_0 fullShare (accS3 V c (n + 1)) ∗ owns (c : Thread nD τ) scM3_1 fullShare (accQ3 V c (n + 1))) ∗ rest3 c) ∗ (∃ r, prngReg c r)) := rfl
theorem Phi3_pos (c : Dev nD) (n : ℕ) (hz : n ≠ 0) :
    Phi3 V c n = iprop(iprop(iprop(owns (c : Thread nD τ) scM3_0 fullShare (accS3 V c n) ∗ owns (c : Thread nD τ) scM3_1 fullShare (accQ3 V c n)) ∗ rest3 c) ∗ (∃ r, prngReg c r)) := by
  cases n with
  | zero => exact absurd rfl hz
  | succ n => rfl

/-- The class invariant with the two scratch rows as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

/-! ## The pipeline's proof data -/

/-- The proof data of pipeline 3 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
    | ⟨6, _⟩ => accS3 V c (t.val + 1)
    | ⟨7, _⟩ => accQ3 V c (t.val + 1)
  Φ t := Phi3 V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start and end. -/
theorem Phi3_castSucc (c : Dev nD) (t : Fin cfg3.N) : (dat3 V c).Φ t.castSucc = Phi3 V c t.val := by
  dsimp only [dat3]; simp only [Fin.coe_castSucc]
theorem Phi3_at_succ (c : Dev nD) (t : Fin cfg3.N) : (dat3 V c).Φ t.succ = Phi3 V c (t.val + 1) := by
  dsimp only [dat3]; simp only [Fin.val_succ]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out1_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = accS3 V c (t.val + 1) := by dsimp only [dat3]
theorem after3_7 (c : Dev nD) (t : Fin cfg3.N) : (dat3 V c).after 7 t = accQ3 V c (t.val + 1) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [Phi3_at_succ, Phi3_succ, Phi3_castSucc]
  rw [show (dat3 V c).leavesExact 0 t = owns (c : Thread nD τ) (st3_0 t) fullShare ((dat3 V c).after 0 t) from rfl, after3_0]
  rw [show (dat3 V c).leavesExact 1 t = owns (c : Thread nD τ) (st3_1 t) fullShare ((dat3 V c).after 1 t) from rfl, after3_1]
  rw [show (dat3 V c).leavesExact 2 t = owns (c : Thread nD τ) (st3_2 t) fullShare ((dat3 V c).after 2 t) from rfl, after3_2]
  rw [show (dat3 V c).leavesExact 3 t = owns (c : Thread nD τ) (st3_3 t) fullShare ((dat3 V c).after 3 t) from rfl, after3_3]
  rw [show (dat3 V c).leavesExact 4 t = owns (c : Thread nD τ) (st3_4 t) fullShare ((dat3 V c).after 4 t) from rfl, after3_4]
  rw [show (dat3 V c).leavesExact 5 t = owns (c : Thread nD τ) (st3_5 t) fullShare ((dat3 V c).after 5 t) from rfl, after3_5]
  have hN : t.val < 50 := lt_of_lt_of_eq t.isLt (show cfg3.N = 50 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 6 t (idleAt3_6 t hc1) (noFlush3_6 t hc1), Dat.leavesExact_idle (dat3 V c) 7 t (idleAt3_7 t hc1) (noFlush3_7 t hc1)]
    rw [accS3_succ V c t, accQ3_succ V c t]
    rw [Phi3_zero V c _ h0, PhiA3_eq, show accS3 V c t.val = k1_pay2 (F := F) from by rw [h0]; rfl, show accQ3 V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel3_A c (grid3.coords t) _ _ _ _ _ _ _ _ _ _ _ _ _ _ _ _ _ _ _ _ hc0 hc1 (iblk3 V c 0 t) (iblk3 V c 1 t) (iblk3 V c 2 t) (iblk3 V c 3 t) (iblk3 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond3_0 (grid3.coords t) := fun h => h0 ((hcond3_0 t).mp h)
    by_cases h1 : t.val = 49
    · have hc1 : cond3_1 (grid3.coords t) := (hcond3_1 t).mpr h1
      rw [show (dat3 V c).leavesExact 6 t = owns (c : Thread nD τ) (st3_6 t) fullShare ((dat3 V c).after 6 t) from by
        unfold Dat.leavesExact; rw [liveAt3_6 t hc1], after3_6]
      rw [show (dat3 V c).leavesExact 7 t = owns (c : Thread nD τ) (st3_7 t) fullShare ((dat3 V c).after 7 t) from by
        unfold Dat.leavesExact; rw [liveAt3_7 t hc1], after3_7]
      rw [accS3_succ V c t, accQ3_succ V c t]
      rw [Phi3_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel3_C c (grid3.coords t) _ _ _ _ _ _ _ _ _ _ _ _ _ _ _ _ _ _ _ _ hc0 hc1 (iblk3 V c 0 t) (iblk3 V c 1 t) (iblk3 V c 2 t) (iblk3 V c 3 t) (iblk3 V c 4 t) (accS3 V c t.val) (accQ3 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond3_1 (grid3.coords t) := fun h => h1 ((hcond3_1 t).mp h)
      rw [Dat.leavesExact_idle (dat3 V c) 6 t (idleAt3_6 t hc1) (noFlush3_6 t hc1), Dat.leavesExact_idle (dat3 V c) 7 t (idleAt3_7 t hc1) (noFlush3_7 t hc1)]
      rw [accS3_succ V c t, accQ3_succ V c t]
      rw [Phi3_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel3_B c (grid3.coords t) _ _ _ _ _ _ _ _ _ _ _ _ _ _ _ _ _ _ _ _ hc0 hc1 (iblk3 V c 0 t) (iblk3 V c 1 t) (iblk3 V c 2 t) (iblk3 V c 3 t) (iblk3 V c 4 t) _ _ (accS3 V c t.val) (accQ3 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- What the launch hands the region is the invariant before the first point. -/
theorem hin3 (c : Dev nD) : Pipeline.ΦA spec3 c ⊢ (dat3 V c).Φ 0 := by
  rw [show (dat3 V c).Φ 0 = Phi3 V c 0 from rfl, Phi3_zero V c 0 rfl]
  try exact Idealize.SL.BI.Entails.refl _

/-- After any point the invariant gives the class's back: the running sums are forgotten. -/
theorem Phi3_out (c : Dev nD) (t : Fin (cfg3.N + 1)) (ht : t.val ≠ 0) : (dat3 V c).Φ t ⊢ Pipeline.ΦA spec3 c := by
  rw [show (dat3 V c).Φ t = Phi3 V c t.val from rfl, Phi3_pos V c _ ht, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout3 (c : Dev nD) : (dat3 V c).Φ (Fin.last cfg3.N) ⊢ Pipeline.ΦA spec3 c :=
  Phi3_out V c _ (by rw [Fin.val_last]; have : cfg3.N = 50 := N_3; omega)

/-- The two entailments in the form a region segment takes them: from the generator register and the scoped rest
    into the invariant before the first point, -/
theorem Phi3_in_seg (c : Dev nD) :
    iprop((∃ r, prngReg c r) ∗ Pipeline.scopedRest (Ix := Unit) (Name := ℕ) (U := UR sig nD τ) (Lvl := ℕ) (Val := Elt F) spec3 c) ⊢ (dat3 V c).Φ 0 := by
  refine (show _ ⊢ Pipeline.ΦA spec3 c from ?_).trans (hin3 V c)
  unfold Pipeline.ΦA
  iintro ⟨Hp, Hr⟩
  isplitl [Hr]; · iexact Hr
  iexact Hp

/-- and back after the last point. -/
theorem Phi3_out_seg (c : Dev nD) :
    (dat3 V c).Φ (Fin.last cfg3.N) ⊢ iprop((∃ r, prngReg c r) ∗ Pipeline.scopedRest (Ix := Unit) (Name := ℕ) (U := UR sig nD τ) (Lvl := ℕ) (Val := Elt F) spec3 c) := by
  refine (hout3 V c).trans (show Pipeline.ΦA spec3 c ⊢ _ from ?_)
  unfold Pipeline.ΦA
  iintro ⟨Hr, Hp⟩
  isplitl [Hp]; · iexact Hp
  iexact Hr

end Region3

end Cert.KernelIdeal.Hand

end
-- ==== Proof.KI.Region4.lean ====
/- Region 4 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 4: `cc4__layer_norm_kernel`, at the entry contents `V` -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (unfetched, the
    block index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (unfetched, the
    block index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not (unfetched, the
    block index has not moved), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not (unfetched, the
    block index has not moved), for any proof data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not (unfetched, the
    block index has not moved), for any proof data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store are of a whole buffer -/

abbrev r4_0 : Rect S1x256 := Rect.unit (s := S1x256) ![0, 0] S1x256.size inb_S1x256_S1x256_0_0
abbrev r4_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k4_pay1` on the loaded blocks, over the whole buffer. -/
def out4_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r4_1, k4_pay1 (View.ld x2 r4_0) (View.ld x3 r4_0) (View.ld x0 r4_1) (View.ld x4 r4_0) (View.ld x5 r4_0) (View.ld x1 r4_1)⟩]

/-- The store covers the buffer. -/
theorem cover4_6 (p0 : Vec F S2000x256 .f32) (y : S2000x256.Idx) :
    ∃ pc ∈ ([⟨r4_1, p0⟩] : List (View.Piece (Elt F) S2000x256 .f32)), y ∈ pc.1.set :=
  View.cover_of_tiled [⟨r4_1, p0⟩] S2000x256.size (by rfl) y

/-! ## The body's triple -/

set_option maxHeartbeats 1000000 in
/-- The kernel body on whole staging memrefs, the inputs' at contents `xW` and the output's at anything, runs to the
    continuation holding the inputs' as they were and the output's at `out4_6` of the inputs'. The body reads the
    output's buffer once before it stores to it; what it reads there is not used. -/
theorem sound_kernel4 (c : Dev nD) (E : Set ℕ) (i : grid4.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__layer_norm_kernel i arg1 harg1 arg2 harg2 arg3 harg3 arg4 harg4 arg5 harg5 arg6 harg6 arg7 harg7) K := by
  simp only [cc4__layer_norm_kernel_eq_skeleton]; unfold cc4__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them; after the body at point `t` each
    input's buffer at its block and the output's at `out4_6` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5Run.lean ====
import proofs.«111242_j77756087927556_1_alg».proof.Proof.KI.Region1Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (a later layer's matmul and column statistics): the kernel body on any staging memrefs

The same body as region 1's, printed again under this call's names: its payloads are region 1's functions
(`out1_5`, `stepS`, `stepQ`, the zero rows `k1_pay2`, `k1_pay3`) by unfolding. -/

/-! ## The body's branch conditions -/

/-- The condition of the zero-fill (`program_id = 0`), from the grid coordinates. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val = 0 :=
  (by decide +kernel : ∀ t : Fin grid5.N, cond5_0 (grid5.coords t) ↔ t.val = 0)

/-- The condition of the copy-out (`program_id = 49`), from the grid coordinates. -/
abbrev cond5_1 (i : grid5.Coords) : Prop := k5_cond2 i = 1#1
/-- It holds at the last point only — decided over the grid. -/
theorem hcond5_1 : ∀ t : Fin cfg5.N, cond5_1 (grid5.coords t) ↔ t.val = 49 :=
  (by decide +kernel : ∀ t : Fin grid5.N, cond5_1 (grid5.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel5_A (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond5_0 i) (hc1 : ¬cond5_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc5__layer_matmul_kernel i arg1 harg1 arg2 harg2 arg3 harg3 arg4 harg4 arg5 harg5 arg6 harg6 arg7 harg7 arg8 harg8 arg9 harg9 arg10 harg10) K := by
  simp only [cc5__layer_matmul_kernel_eq_skeleton]; unfold cc5__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel5_B (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond5_0 i) (hc1 : ¬cond5_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc5__layer_matmul_kernel i arg1 harg1 arg2 harg2 arg3 harg3 arg4 harg4 arg5 harg5 arg6 harg6 arg7 harg7 arg8 harg8 arg9 harg9 arg10 harg10) K := by
  simp only [cc5__layer_matmul_kernel_eq_skeleton]; unfold cc5__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel5_C (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond5_0 i) (hc1 : cond5_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc5__layer_matmul_kernel i arg1 harg1 arg2 harg2 arg3 harg3 arg4 harg4 arg5 harg5 arg6 harg6 arg7 harg7 arg8 harg8 arg9 harg9 arg10 harg10) K := by
  simp only [cc5__layer_matmul_kernel_eq_skeleton]; unfold cc5__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.KernelIdeal.Hand

end
-- ==== Proof.KI.Region5.lean ====
import proofs.«111242_j77756087927556_1_alg».proof.Proof.KI.Region5Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## Where windows 6 and 7 are idle, and where they are written back -/

theorem idleAt5_6 : ∀ t : Fin cfg5.N, ¬cond5_1 (grid5.coords t) → cfg5.idle 6 (grid5.coords t) = true := by decide +kernel
theorem idleAt5_7 : ∀ t : Fin cfg5.N, ¬cond5_1 (grid5.coords t) → cfg5.idle 7 (grid5.coords t) = true := by decide +kernel
theorem liveAt5_6 : ∀ t : Fin cfg5.N, cond5_1 (grid5.coords t) → cfg5.idle 6 (grid5.coords t) = false := by decide +kernel
theorem liveAt5_7 : ∀ t : Fin cfg5.N, cond5_1 (grid5.coords t) → cfg5.idle 7 (grid5.coords t) = false := by decide +kernel
theorem noFlush5_6 : ∀ t : Fin cfg5.N, ¬cond5_1 (grid5.coords t) → (cfg5.win 6).flush t = false := by decide +kernel
theorem noFlush5_7 : ∀ t : Fin cfg5.N, ¬cond5_1 (grid5.coords t) → (cfg5.win 7).flush t = false := by decide +kernel

/-! ## The running sums -/

/-- The scratch operands: whole scoped buffers of the kernel's own. -/
abbrev scM5_0 : Memref sig .tc .vmem S1x256 .f32 := Memref.whole cc5_scratch0
abbrev scM5_1 : Memref sig .tc .vmem S1x256 .f32 := Memref.whole cc5_scratch1

/-- The column sums of `hn` over the first `n` tiles: zero, then tile by tile (`stepS`). What the first
    scratch row holds before point `n`, for `n ≥ 1`. -/
def accS5 (c : Dev nD) : ℕ → Vec F S1x256 .f32
  | 0 => k1_pay2
  | n + 1 => if h : n < cfg5.N then stepS (iblk5 V c 0 ⟨n, h⟩) (iblk5 V c 1 ⟨n, h⟩) (iblk5 V c 2 ⟨n, h⟩) (iblk5 V c 3 ⟨n, h⟩) (iblk5 V c 4 ⟨n, h⟩) (accS5 c n) else accS5 c n

/-- The column sums of `hn*hn` over the first `n` tiles. What the second scratch row holds before point `n`, for `n ≥ 1`. -/
def accQ5 (c : Dev nD) : ℕ → Vec F S1x256 .f32
  | 0 => k1_pay3
  | n + 1 => if h : n < cfg5.N then stepQ (iblk5 V c 0 ⟨n, h⟩) (iblk5 V c 1 ⟨n, h⟩) (iblk5 V c 2 ⟨n, h⟩) (iblk5 V c 3 ⟨n, h⟩) (iblk5 V c 4 ⟨n, h⟩) (accQ5 c n) else accQ5 c n

theorem accS5_zero (c : Dev nD) : accS5 V c 0 = k1_pay2 (F := F) := rfl
theorem accQ5_zero (c : Dev nD) : accQ5 V c 0 = k1_pay3 (F := F) := rfl
theorem accS5_succ (c : Dev nD) (t : Fin cfg5.N) : accS5 V c (t.val + 1) = stepS (iblk5 V c 0 t) (iblk5 V c 1 t) (iblk5 V c 2 t) (iblk5 V c 3 t) (iblk5 V c 4 t) (accS5 V c t.val) := by
  show (if h : t.val < cfg5.N then _ else _) = _; rw [dif_pos t.isLt]
theorem accQ5_succ (c : Dev nD) (t : Fin cfg5.N) : accQ5 V c (t.val + 1) = stepQ (iblk5 V c 0 t) (iblk5 V c 1 t) (iblk5 V c 2 t) (iblk5 V c 3 t) (iblk5 V c 4 t) (accQ5 V c t.val) := by
  show (if h : t.val < cfg5.N then _ else _) = _; rw [dif_pos t.isLt]

/-! ## The region invariant -/

/-- The scoped buffers of the core that are neither a staging buffer of this call nor its two scratch rows. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The invariant before position `n`: before the first point the class's (every scoped buffer that is no
    staging buffer at anything, the generator register at some state); afterwards the same with the two
    scratch rows at the running sums over the first `n` tiles. -/
def Phi5 (c : Dev nD) : ℕ → sProp 𝕄
  | 0 => Pipeline.ΦA spec5 c
  | n + 1 => iprop(iprop(iprop(owns (c : Thread nD τ) scM5_0 fullShare (accS5 V c (n + 1)) ∗ owns (c : Thread nD τ) scM5_1 fullShare (accQ5 V c (n + 1))) ∗ rest5 c) ∗ (∃ r, prngReg c r))

theorem Phi5_zero (c : Dev nD) (n : ℕ) (hz : n = 0) : Phi5 V c n = Pipeline.ΦA spec5 c := by subst hz; rfl
theorem Phi5_succ (c : Dev nD) (n : ℕ) :
    Phi5 V c (n + 1) = iprop(iprop(iprop(owns (c : Thread nD τ) scM5_0 fullShare (accS5 V c (n + 1)) ∗ owns (c : Thread nD τ) scM5_1 fullShare (accQ5 V c (n + 1))) ∗ rest5 c) ∗ (∃ r, prngReg c r)) := rfl
theorem Phi5_pos (c : Dev nD) (n : ℕ) (hz : n ≠ 0) :
    Phi5 V c n = iprop(iprop(iprop(owns (c : Thread nD τ) scM5_0 fullShare (accS5 V c n) ∗ owns (c : Thread nD τ) scM5_1 fullShare (accQ5 V c n)) ∗ rest5 c) ∗ (∃ r, prngReg c r)) := by
  cases n with
  | zero => exact absurd rfl hz
  | succ n => rfl

/-- The class invariant with the two scratch rows as memrefs owned at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

/-! ## The pipeline's proof data -/

/-- The proof data of pipeline 5 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
    | ⟨6, _⟩ => accS5 V c (t.val + 1)
    | ⟨7, _⟩ => accQ5 V c (t.val + 1)
  Φ t := Phi5 V c t.val
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start and end. -/
theorem Phi5_castSucc (c : Dev nD) (t : Fin cfg5.N) : (dat5 V c).Φ t.castSucc = Phi5 V c t.val := by
  dsimp only [dat5]; simp only [Fin.coe_castSucc]
theorem Phi5_at_succ (c : Dev nD) (t : Fin cfg5.N) : (dat5 V c).Φ t.succ = Phi5 V c (t.val + 1) := by
  dsimp only [dat5]; simp only [Fin.val_succ]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out1_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = accS5 V c (t.val + 1) := by dsimp only [dat5]
theorem after5_7 (c : Dev nD) (t : Fin cfg5.N) : (dat5 V c).after 7 t = accQ5 V c (t.val + 1) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [Phi5_at_succ, Phi5_succ, Phi5_castSucc]
  rw [show (dat5 V c).leavesExact 0 t = owns (c : Thread nD τ) (st5_0 t) fullShare ((dat5 V c).after 0 t) from rfl, after5_0]
  rw [show (dat5 V c).leavesExact 1 t = owns (c : Thread nD τ) (st5_1 t) fullShare ((dat5 V c).after 1 t) from rfl, after5_1]
  rw [show (dat5 V c).leavesExact 2 t = owns (c : Thread nD τ) (st5_2 t) fullShare ((dat5 V c).after 2 t) from rfl, after5_2]
  rw [show (dat5 V c).leavesExact 3 t = owns (c : Thread nD τ) (st5_3 t) fullShare ((dat5 V c).after 3 t) from rfl, after5_3]
  rw [show (dat5 V c).leavesExact 4 t = owns (c : Thread nD τ) (st5_4 t) fullShare ((dat5 V c).after 4 t) from rfl, after5_4]
  rw [show (dat5 V c).leavesExact 5 t = owns (c : Thread nD τ) (st5_5 t) fullShare ((dat5 V c).after 5 t) from rfl, after5_5]
  have hN : t.val < 50 := lt_of_lt_of_eq t.isLt (show cfg5.N = 50 from N_5)
  by_cases h0 : t.val = 0
  · have hc0 : cond5_0 (grid5.coords t) := (hcond5_0 t).mpr h0
    have hc1 : ¬cond5_1 (grid5.coords t) := fun h => by have := (hcond5_1 t).mp h; omega
    rw [Dat.leavesExact_idle (dat5 V c) 6 t (idleAt5_6 t hc1) (noFlush5_6 t hc1), Dat.leavesExact_idle (dat5 V c) 7 t (idleAt5_7 t hc1) (noFlush5_7 t hc1)]
    rw [accS5_succ V c t, accQ5_succ V c t]
    rw [Phi5_zero V c _ h0, PhiA5_eq, show accS5 V c t.val = k1_pay2 (F := F) from by rw [h0]; rfl, show accQ5 V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel5_A c (grid5.coords t) _ _ _ _ _ _ _ _ _ _ _ _ _ _ _ _ _ _ _ _ hc0 hc1 (iblk5 V c 0 t) (iblk5 V c 1 t) (iblk5 V c 2 t) (iblk5 V c 3 t) (iblk5 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond5_0 (grid5.coords t) := fun h => h0 ((hcond5_0 t).mp h)
    by_cases h1 : t.val = 49
    · have hc1 : cond5_1 (grid5.coords t) := (hcond5_1 t).mpr h1
      rw [show (dat5 V c).leavesExact 6 t = owns (c : Thread nD τ) (st5_6 t) fullShare ((dat5 V c).after 6 t) from by
        unfold Dat.leavesExact; rw [liveAt5_6 t hc1], after5_6]
      rw [show (dat5 V c).leavesExact 7 t = owns (c : Thread nD τ) (st5_7 t) fullShare ((dat5 V c).after 7 t) from by
        unfold Dat.leavesExact; rw [liveAt5_7 t hc1], after5_7]
      rw [accS5_succ V c t, accQ5_succ V c t]
      rw [Phi5_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel5_C c (grid5.coords t) _ _ _ _ _ _ _ _ _ _ _ _ _ _ _ _ _ _ _ _ hc0 hc1 (iblk5 V c 0 t) (iblk5 V c 1 t) (iblk5 V c 2 t) (iblk5 V c 3 t) (iblk5 V c 4 t) (accS5 V c t.val) (accQ5 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond5_1 (grid5.coords t) := fun h => h1 ((hcond5_1 t).mp h)
      rw [Dat.leavesExact_idle (dat5 V c) 6 t (idleAt5_6 t hc1) (noFlush5_6 t hc1), Dat.leavesExact_idle (dat5 V c) 7 t (idleAt5_7 t hc1) (noFlush5_7 t hc1)]
      rw [accS5_succ V c t, accQ5_succ V c t]
      rw [Phi5_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel5_B c (grid5.coords t) _ _ _ _ _ _ _ _ _ _ _ _ _ _ _ _ _ _ _ _ hc0 hc1 (iblk5 V c 0 t) (iblk5 V c 1 t) (iblk5 V c 2 t) (iblk5 V c 3 t) (iblk5 V c 4 t) _ _ (accS5 V c t.val) (accQ5 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- What the launch hands the region is the invariant before the first point. -/
theorem hin5 (c : Dev nD) : Pipeline.ΦA spec5 c ⊢ (dat5 V c).Φ 0 := by
  rw [show (dat5 V c).Φ 0 = Phi5 V c 0 from rfl, Phi5_zero V c 0 rfl]
  try exact Idealize.SL.BI.Entails.refl _

/-- After any point the invariant gives the class's back: the running sums are forgotten. -/
theorem Phi5_out (c : Dev nD) (t : Fin (cfg5.N + 1)) (ht : t.val ≠ 0) : (dat5 V c).Φ t ⊢ Pipeline.ΦA spec5 c := by
  rw [show (dat5 V c).Φ t = Phi5 V c t.val from rfl, Phi5_pos V c _ ht, PhiA5_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout5 (c : Dev nD) : (dat5 V c).Φ (Fin.last cfg5.N) ⊢ Pipeline.ΦA spec5 c :=
  Phi5_out V c _ (by rw [Fin.val_last]; have : cfg5.N = 50 := N_5; omega)

/-- The two entailments in the form a region segment takes them: from the generator register and the scoped rest
    into the invariant before the first point, -/
theorem Phi5_in_seg (c : Dev nD) :
    iprop((∃ r, prngReg c r) ∗ Pipeline.scopedRest (Ix := Unit) (Name := ℕ) (U := UR sig nD τ) (Lvl := ℕ) (Val := Elt F) spec5 c) ⊢ (dat5 V c).Φ 0 := by
  refine (show _ ⊢ Pipeline.ΦA spec5 c from ?_).trans (hin5 V c)
  unfold Pipeline.ΦA
  iintro ⟨Hp, Hr⟩
  isplitl [Hr]; · iexact Hr
  iexact Hp

/-- and back after the last point. -/
theorem Phi5_out_seg (c : Dev nD) :
    (dat5 V c).Φ (Fin.last cfg5.N) ⊢ iprop((∃ r, prngReg c r) ∗ Pipeline.scopedRest (Ix := Unit) (Name := ℕ) (U := UR sig nD τ) (Lvl := ℕ) (Val := Elt F) spec5 c) := by
  refine (hout5 V c).trans (show Pipeline.ΦA spec5 c ⊢ _ from ?_)
  unfold Pipeline.ΦA
  iintro ⟨Hr, Hp⟩
  isplitl [Hp]; · iexact Hp
  iexact Hr

end Region5

end Cert.KernelIdeal.Hand

end
-- ==== Proof.KI.Region6.lean ====
/- Region 6 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 6: `cc6__layer_norm_kernel`, at the entry contents `V` -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not (unfetched, the
    block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not (unfetched, the
    block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not (unfetched, the
    block index has not moved), for any proof data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not (unfetched, the
    block index has not moved), for any proof data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not (unfetched, the
    block index has not moved), for any proof data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store are of a whole buffer -/

abbrev r6_0 : Rect S1x256 := Rect.unit (s := S1x256) ![0, 0] S1x256.size inb_S1x256_S1x256_0_0
abbrev r6_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k6_pay1` on the loaded blocks, over the whole buffer. -/
def out6_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r6_1, k6_pay1 (View.ld x2 r6_0) (View.ld x3 r6_0) (View.ld x0 r6_1) (View.ld x4 r6_0) (View.ld x5 r6_0) (View.ld x1 r6_1)⟩]

/-- The store covers the buffer. -/
theorem cover6_6 (p0 : Vec F S2000x256 .f32) (y : S2000x256.Idx) :
    ∃ pc ∈ ([⟨r6_1, p0⟩] : List (View.Piece (Elt F) S2000x256 .f32)), y ∈ pc.1.set :=
  View.cover_of_tiled [⟨r6_1, p0⟩] S2000x256.size (by rfl) y

/-! ## The body's triple -/

set_option maxHeartbeats 1000000 in
/-- The kernel body on whole staging memrefs, the inputs' at contents `xW` and the output's at anything, runs to the
    continuation holding the inputs' as they were and the output's at `out6_6` of the inputs'. The body reads the
    output's buffer once before it stores to it; what it reads there is not used. -/
theorem sound_kernel6 (c : Dev nD) (E : Set ℕ) (i : grid6.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__layer_norm_kernel i arg1 harg1 arg2 harg2 arg3 harg3 arg4 harg4 arg5 harg5 arg6 harg6 arg7 harg7) K := by
  simp only [cc6__layer_norm_kernel_eq_skeleton]; unfold cc6__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them; after the body at point `t` each
    input's buffer at its block and the output's at `out6_6` of the input blocks; the invariant is the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Region7Run.lean ====
import proofs.«111242_j77756087927556_1_alg».proof.Proof.KI.Region1Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (a later layer's matmul and column statistics): the kernel body on any staging memrefs

The same body as region 1's, printed again under this call's names: its payloads are region 1's functions
(`out1_5`, `stepS`, `stepQ`, the zero rows `k1_pay2`, `k1_pay3`) by unfolding. -/

/-! ## The body's branch conditions -/

/-- The condition of the zero-fill (`program_id = 0`), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid. -/
theorem hcond7_0 : ∀ t : Fin cfg7.N, cond7_0 (grid7.coords t) ↔ t.val = 0 :=
  (by decide +kernel : ∀ t : Fin grid7.N, cond7_0 (grid7.coords t) ↔ t.val = 0)

/-- The condition of the copy-out (`program_id = 49`), from the grid coordinates. -/
abbrev cond7_1 (i : grid7.Coords) : Prop := k7_cond2 i = 1#1
/-- It holds at the last point only — decided over the grid. -/
theorem hcond7_1 : ∀ t : Fin cfg7.N, cond7_1 (grid7.coords t) ↔ t.val = 49 :=
  (by decide +kernel : ∀ t : Fin grid7.N, cond7_1 (grid7.coords t) ↔ t.val = 49)

/-! ## The body's triple, case by case -/

set_option maxHeartbeats 1000000 in
/-- The body at the first point (the zero-fill taken, the copy-out not): as at a middle point, but the two scratch buffers are found at anything, zero-filled (`k1_pay2`, `k1_pay3`) and then accumulated into: they end at `stepS … k1_pay2` and `stepQ … k1_pay3`. -/
theorem kernel7_A (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : cond7_0 i) (hc1 : ¬cond7_1 i)
    (x0 x1 : Vec F S2000x256 .f32) (x2 : Vec F S256x256 .f32) (x3 : Vec F S1x256 .f32) (x4 : Vec F S256x256 .f32) (xi6 xi7 : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 (k1_pay2 (F := F)))
            ∗ owns (c : Thread nD τ) arg10 fullShare (stepQ x0 x1 x2 x3 x4 (k1_pay3 (F := F)))) -∗ K ⟨⟩))
      ⊢ wp frame (wpE (defs₀ (F := F)) Variants.none c none) E (cc7__layer_matmul_kernel i arg1 harg1 arg2 harg2 arg3 harg3 arg4 harg4 arg5 harg5 arg6 harg6 arg7 harg7 arg8 harg8 arg9 harg9 arg10 harg10) K := by
  simp only [cc7__layer_matmul_kernel_eq_skeleton]; unfold cc7__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  subst hf1; subst hf2; subst hf3; subst hf4; subst hf5; subst hf7; subst hf8
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at a middle point (neither conditional taken): the five inputs are read whole and kept; window 5's buffer ends at `agg·Wl + bl + h·Wr` of the point's tiles (`out1_5`); windows 6 and 7's buffers are not touched; the column-sum scratch goes from `s` to `stepS … s` and the column-sum-of-squares scratch from `q` to `stepQ … q`. -/
theorem kernel7_B (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond7_0 i) (hc1 : ¬cond7_1 i)
    (x0 x1 : Vec F S2000x256 .f32) (x2 : Vec F S256x256 .f32) (x3 : Vec F S1x256 .f32) (x4 : Vec F S256x256 .f32) (xi6 xi7 s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare xi6
            ∗ owns (c : Thread nD τ) arg8 fullShare xi7
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc7__layer_matmul_kernel i arg1 harg1 arg2 harg2 arg3 harg3 arg4 harg4 arg5 harg5 arg6 harg6 arg7 harg7 arg8 harg8 arg9 harg9 arg10 harg10) K := by
  simp only [cc7__layer_matmul_kernel_eq_skeleton]; unfold cc7__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf1; subst hf2; subst hf3; subst hf4; subst hf5; subst hf7; subst hf8; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

set_option maxHeartbeats 1000000 in
/-- The body at the last point (the zero-fill not taken, the copy-out taken): as at a middle point, and then the two scratch buffers are read back and stored whole into windows 6 and 7's buffers, which end at what the scratch ends at. -/
theorem kernel7_C (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole)
    (hc0 : ¬cond7_0 i) (hc1 : cond7_1 i)
    (x0 x1 : Vec F S2000x256 .f32) (x2 : Vec F S256x256 .f32) (x3 : Vec F S1x256 .f32) (x4 : Vec F S256x256 .f32) (s q : Vec F S1x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s
        ∗ owns (c : Thread nD τ) arg10 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (stepS x0 x1 x2 x3 x4 s)
            ∗ owns (c : Thread nD τ) arg8 fullShare (stepQ x0 x1 x2 x3 x4 q)
            ∗ owns (c : Thread nD τ) arg9 fullShare (stepS x0 x1 x2 x3 x4 s)
            ∗ owns (c : Thread nD τ) arg10 fullShare (stepQ x0 x1 x2 x3 x4 q)) -∗ K ⟨⟩))
      ⊢ wp frame (wpE (defs₀ (F := F)) Variants.none c none) E (cc7__layer_matmul_kernel i arg1 harg1 arg2 harg2 arg3 harg3 arg4 harg4 arg5 harg5 arg6 harg6 arg7 harg7 arg8 harg8 arg9 harg9 arg10 harg10) K := by
  simp only [cc7__layer_matmul_kernel_eq_skeleton]; unfold cc7__layer_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  subst hf1; subst hf2; subst hf3; subst hf4; subst hf5; subst hf9; subst hf10
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H7]
  · iexists _; isplitr
    swap; · iexact H7
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H8]
  · iexists _; isplitr
    swap; · iexact H8
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  isplitl [H9]
  · iexists _; isplitr
    swap; · iexact H9
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl
  · iexists _; isplitr
    swap; · iexact H10
    ipureintro
    sl_unfold_run_names
    refine (read_writes_unit_zero _ _ hz2 _ _ _).trans ?_
    simp only [View.readAt_eq_ld, View.readCov_cons_toLoadRect, View.ld_unit_zero (S := S2000x256) hz2, View.ld_unit_zero (S := S256x256) hz2, View.ld_unit_zero (S := S1x256) hz2]
    rfl

end Cert.KernelIdeal.Hand

end
-- ==== Proof.KI.Region7.lean ====
import proofs.«111242_j77756087927556_1_alg».proof.Proof.KI.Region7Run
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (the layer's matmul and column statistics) at the entry contents `V`

The grid has 50 points; point `t` handles rows `2000 t … 2000 t + 1999`. Windows 0 and 1 (`h`, `agg`) move
with the point; windows 2, 3, 4 (`Wl`, `bl`, `Wr`) are whole arrays fetched once; window 5 (`hn`) is written
back at every point; windows 6 and 7 (the column sums `S` and the column sums of squares `Q`) have one block,
are stored only at the last point and written back once. Between points the running sums live in two scratch rows. -/

section Region7
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## Where windows 6 and 7 are idle, and where they are written back -/

theorem idleAt7_6 : ∀ t : Fin cfg7.N, ¬cond7_1 (grid7.coords t) → cfg7.idle 6 (grid7.coords t) = true := by decide +kernel
theorem idleAt7_7 : ∀ t : Fin cfg7.N, ¬cond7_1 (grid7.coords t) → cfg7.idle 7 (grid7.coords t) = true := by decide +kernel
theorem liveAt7_6 : ∀ t : Fin cfg7.N, cond7_1 (grid7.coords t) → cfg7.idle 6 (grid7.coords t) = false := by decide +kernel
theorem liveAt7_7 : ∀ t : Fin cfg7.N, cond7_1 (grid7.coords t) → cfg7.idle 7 (grid7.coords t) = false := by decide +kernel
theorem noFlush7_6 : ∀ t : Fin cfg7.N, ¬cond7_1 (grid7.coords t) → (cfg7.win 6).flush t = false := by decide +kernel
theorem noFlush7_7 : ∀ t : Fin cfg7.N, ¬cond7_1 (grid7.coords t) → (cfg7.win 7).flush t = false := by decide +kernel

/-! ## The running sums -/

/-- The scratch operands: whole scoped buffers of the kernel's own. -/
abbrev scM7_0 : Memref sig .tc .vmem S1x256 .f32 := Memref.whole cc7_scratch0
abbrev scM7_1 : Memref sig .tc .vmem S1x256 .f32 := Memref.whole cc7_scratch1

/-- The column sums of `hn` over the first `n` tiles: zero, then tile by tile (`stepS`). What the first
    scratch row holds before point `n`, for `n ≥ 1`. -/
def accS7 (c : Dev nD) : ℕ → Vec F S1x256 .f32
  | 0 => k1_pay2
  | n + 1 => if h : n < cfg7.N then stepS (iblk7 V c 0 ⟨n, h⟩) (iblk7 V c 1 ⟨n, h⟩) (iblk7 V c 2 ⟨n, h⟩) (iblk7 V c 3 ⟨n, h⟩) (iblk7 V c 4 ⟨n, h⟩) (accS7 c n) else accS7 c n

/-- The column sums of `hn*hn` over the first `n` tiles. What the second scratch row holds before point `n`, for `n ≥ 1`. -/
def accQ7 (c : Dev nD) : ℕ → Vec F S1x256 .f32
  | 0 => k1_pay3
  | n + 1 => if h : n < cfg7.N then stepQ (iblk7 V c 0 ⟨n, h⟩) (iblk7 V c 1 ⟨n, h⟩) (iblk7 V c 2 ⟨n, h⟩) (iblk7 V c 3 ⟨n, h⟩) (iblk7 V c 4 ⟨n, h⟩) (accQ7 c n) else accQ7 c n

theorem accS7_zero (c : Dev nD) : accS7 V c 0 = k1_pay2 (F := F) := rfl
theorem accQ7_zero (c : Dev nD) : accQ7 V c 0 = k1_pay3 (F := F) := rfl
theorem accS7_succ (c : Dev nD) (t : Fin cfg7.N) : accS7 V c (t.val + 1) = stepS (iblk7 V c 0 t) (iblk7 V c 1 t) (iblk7 V c 2 t) (iblk7 V c 3 t) (iblk7 V c 4 t) (accS7 V c t.val) := by
  show (if h : t.val < cfg7.N then _ else _) = _; rw [dif_pos t.isLt]
theorem accQ7_succ (c : Dev nD) (t : Fin cfg7.N) : accQ7 V c (t.val + 1) = stepQ (iblk7 V c 0 t) (iblk7 V c 1 t) (iblk7 V c 2 t) (iblk7 V c 3 t) (iblk7 V c 4 t) (accQ7 V c t.val) := by
  show (if h : t.val < cfg7.N then _ else _) = _; rw [dif_pos t.isLt]

/-! ## The region invariant -/

/-- The scoped buffers of the core that are neither a staging buffer of this call nor its two scratch rows. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The invariant before position `n`: before the first point the class's (every scoped buffer that is no
    staging buffer at anything, the generator register at some state); afterwards the same with the two
    scratch rows at the running sums over the first `n` tiles. -/
def Phi7 (c : Dev nD) : ℕ → sProp 𝕄
  | 0 => Pipeline.ΦA spec7 c
  | n + 1 => iprop(iprop(iprop(owns (c : Thread nD τ) scM7_0 fullShare (accS7 V c (n + 1)) ∗ owns (c : Thread nD τ) scM7_1 fullShare (accQ7 V c (n + 1))) ∗ rest7 c) ∗ (∃ r, prngReg c r))

theorem Phi7_zero (c : Dev nD) (n : ℕ) (hz : n = 0) : Phi7 V c n = Pipeline.ΦA spec7 c := by subst hz; rfl
theorem Phi7_succ (c : Dev nD) (n : ℕ) :
    Phi7 V c (n + 1) = iprop(iprop(iprop(owns (c : Thread nD τ) scM7_0 fullShare (accS7 V c (n + 1)) ∗ owns (c : Thread nD τ) scM7_1 fullShare (accQ7 V c (n + 1))) ∗ rest7 c) ∗ (∃ r, prngReg c r)) := rfl
theorem Phi7_pos (c : Dev nD) (n : ℕ) (hz : n ≠ 0) :
    Phi7 V c n = iprop(iprop(iprop(owns (c : Thread nD τ) scM7_0 fullShare (accS7 V c n) ∗ owns (c : Thread nD τ) scM7_1 fullShare (accQ7 V c n)) ∗ rest7 c) ∗ (∃ r, prngReg c r)) := by
  cases n with
  | zero => exact absurd rfl hz
  | succ n => rfl

/-- The class invariant with the two scratch rows as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

/-! ## The pipeline's proof data -/

/-- The proof data of pipeline 7 on core `c`: the arrays as the region finds them (`V`); after the body at point
    `t` each input's buffer at its block, window 5's at the point's `hn` tile, windows 6 and 7's at the running
    sums over the tiles up to `t` (what the last point stores there; at the earlier points, where these windows
    are idle and not written back, nothing reads this entry); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out1_5 (iblk7 V c 0 t) (iblk7 V c 1 t) (iblk7 V c 2 t) (iblk7 V c 3 t) (iblk7 V c 4 t)
    | ⟨6, _⟩ => accS7 V c (t.val + 1)
    | ⟨7, _⟩ => accQ7 V c (t.val + 1)
  Φ t := Phi7 V c t.val
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start and end. -/
theorem Phi7_castSucc (c : Dev nD) (t : Fin cfg7.N) : (dat7 V c).Φ t.castSucc = Phi7 V c t.val := by
  dsimp only [dat7]; simp only [Fin.coe_castSucc]
theorem Phi7_at_succ (c : Dev nD) (t : Fin cfg7.N) : (dat7 V c).Φ t.succ = Phi7 V c (t.val + 1) := by
  dsimp only [dat7]; simp only [Fin.val_succ]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out1_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = accS7 V c (t.val + 1) := by dsimp only [dat7]
theorem after7_7 (c : Dev nD) (t : Fin cfg7.N) : (dat7 V c).after 7 t = accQ7 V c (t.val + 1) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4800000 in
/-- The body at any point: the inputs' memrefs hold their blocks; the closed forms say which case the point is in;
    the invariant hands the body the two scratch rows at the running sums over the earlier tiles (at anything at the
    first point) and takes them back at the sums including this tile; at the points before the last, windows 6 and 7's
    buffers come back untouched; at the last they end at the final sums; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [Phi7_at_succ, Phi7_succ, Phi7_castSucc]
  rw [show (dat7 V c).leavesExact 0 t = owns (c : Thread nD τ) (st7_0 t) fullShare ((dat7 V c).after 0 t) from rfl, after7_0]
  rw [show (dat7 V c).leavesExact 1 t = owns (c : Thread nD τ) (st7_1 t) fullShare ((dat7 V c).after 1 t) from rfl, after7_1]
  rw [show (dat7 V c).leavesExact 2 t = owns (c : Thread nD τ) (st7_2 t) fullShare ((dat7 V c).after 2 t) from rfl, after7_2]
  rw [show (dat7 V c).leavesExact 3 t = owns (c : Thread nD τ) (st7_3 t) fullShare ((dat7 V c).after 3 t) from rfl, after7_3]
  rw [show (dat7 V c).leavesExact 4 t = owns (c : Thread nD τ) (st7_4 t) fullShare ((dat7 V c).after 4 t) from rfl, after7_4]
  rw [show (dat7 V c).leavesExact 5 t = owns (c : Thread nD τ) (st7_5 t) fullShare ((dat7 V c).after 5 t) from rfl, after7_5]
  have hN : t.val < 50 := lt_of_lt_of_eq t.isLt (show cfg7.N = 50 from N_7)
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 6 t (idleAt7_6 t hc1) (noFlush7_6 t hc1), Dat.leavesExact_idle (dat7 V c) 7 t (idleAt7_7 t hc1) (noFlush7_7 t hc1)]
    rw [accS7_succ V c t, accQ7_succ V c t]
    rw [Phi7_zero V c _ h0, PhiA7_eq, show accS7 V c t.val = k1_pay2 (F := F) from by rw [h0]; rfl, show accQ7 V c t.val = k1_pay3 (F := F) from by rw [h0]; rfl]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel7_A c (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc0 : ¬cond7_0 (grid7.coords t) := fun h => h0 ((hcond7_0 t).mp h)
    by_cases h1 : t.val = 49
    · have hc1 : cond7_1 (grid7.coords t) := (hcond7_1 t).mpr h1
      rw [show (dat7 V c).leavesExact 6 t = owns (c : Thread nD τ) (st7_6 t) fullShare ((dat7 V c).after 6 t) from by
        unfold Dat.leavesExact; rw [liveAt7_6 t hc1], after7_6]
      rw [show (dat7 V c).leavesExact 7 t = owns (c : Thread nD τ) (st7_7 t) fullShare ((dat7 V c).after 7 t) from by
        unfold Dat.leavesExact; rw [liveAt7_7 t hc1], after7_7]
      rw [accS7_succ V c t, accQ7_succ V c t]
      rw [Phi7_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel7_C c (grid7.coords t) _ _ _ _ _ _ _ _ _ _ _ _ _ _ _ _ _ _ _ _ hc0 hc1 (iblk7 V c 0 t) (iblk7 V c 1 t) (iblk7 V c 2 t) (iblk7 V c 3 t) (iblk7 V c 4 t) (accS7 V c t.val) (accQ7 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond7_1 (grid7.coords t) := fun h => h1 ((hcond7_1 t).mp h)
      rw [Dat.leavesExact_idle (dat7 V c) 6 t (idleAt7_6 t hc1) (noFlush7_6 t hc1), Dat.leavesExact_idle (dat7 V c) 7 t (idleAt7_7 t hc1) (noFlush7_7 t hc1)]
      rw [accS7_succ V c t, accQ7_succ V c t]
      rw [Phi7_pos V c _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel7_B c (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ (accS7 V c t.val) (accQ7 V c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- What the launch hands the region is the invariant before the first point. -/
theorem hin7 (c : Dev nD) : Pipeline.ΦA spec7 c ⊢ (dat7 V c).Φ 0 := by
  rw [show (dat7 V c).Φ 0 = Phi7 V c 0 from rfl, Phi7_zero V c 0 rfl]
  try exact Idealize.SL.BI.Entails.refl _

/-- After any point the invariant gives the class's back: the running sums are forgotten. -/
theorem Phi7_out (c : Dev nD) (t : Fin (cfg7.N + 1)) (ht : t.val ≠ 0) : (dat7 V c).Φ t ⊢ Pipeline.ΦA spec7 c := by
  rw [show (dat7 V c).Φ t = Phi7 V c t.val from rfl, Phi7_pos V c _ ht, PhiA7_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout7 (c : Dev nD) : (dat7 V c).Φ (Fin.last cfg7.N) ⊢ Pipeline.ΦA spec7 c :=
  Phi7_out V c _ (by rw [Fin.val_last]; have : cfg7.N = 50 := N_7; omega)

/-- The two entailments in the form a region segment takes them: from the generator register and the scoped rest
    into the invariant before the first point, -/
theorem Phi7_in_seg (c : Dev nD) :
    iprop((∃ r, prngReg c r) ∗ Pipeline.scopedRest (Ix := Unit) (Name := ℕ) (U := UR sig nD τ) (Lvl := ℕ) (Val := Elt F) spec7 c) ⊢ (dat7 V c).Φ 0 := by
  refine (show _ ⊢ Pipeline.ΦA spec7 c from ?_).trans (hin7 V c)
  unfold Pipeline.ΦA
  iintro ⟨Hp, Hr⟩
  isplitl [Hr]; · iexact Hr
  iexact Hp

/-- and back after the last point. -/
theorem Phi7_out_seg (c : Dev nD) :
    (dat7 V c).Φ (Fin.last cfg7.N) ⊢ iprop((∃ r, prngReg c r) ∗ Pipeline.scopedRest (Ix := Unit) (Name := ℕ) (U := UR sig nD τ) (Lvl := ℕ) (Val := Elt F) spec7 c) := by
  refine (hout7 V c).trans (show Pipeline.ΦA spec7 c ⊢ _ from ?_)
  unfold Pipeline.ΦA
  iintro ⟨Hr, Hp⟩
  isplitl [Hp]; · iexact Hp
  iexact Hr

end Region7

end Cert.KernelIdeal.Hand

end
-- ==== Proof.KI.Region8.lean ====
/- Region 8 of the kernel program: the normalisation of a layer, `h + max ((hn - μ) · rsqrt (var + ε) · γ + β) 0`
   with `μ = S / n`, `var = Q / n - μ · μ`, one tile of 2000 rows per grid point. Stated at the core's buffer contents
   `V` when the region is entered: each window's block at a point, what the body leaves in the output window's
   buffer as a function of the input blocks, the body's triple, the pipeline's proof data and the body obligation.
   Generic in the float instance. -/
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # Region 8: `cc8__layer_norm_kernel`, at the entry contents `V` -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (unfetched, the
    block index has not moved), for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not (unfetched, the
    block index has not moved), for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not (unfetched, the
    block index has not moved), for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not (unfetched, the
    block index has not moved), for any proof data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not (unfetched, the
    block index has not moved), for any proof data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not (unfetched, the
    block index has not moved), for any proof data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the one store are of a whole buffer -/

abbrev r8_0 : Rect S1x256 := Rect.unit (s := S1x256) ![0, 0] S1x256.size inb_S1x256_S1x256_0_0
abbrev r8_1 : Rect S2000x256 := Rect.unit (s := S2000x256) ![0, 0] S2000x256.size inb_S2000x256_S2000x256_0_0

/-! ## What the body leaves in the output window's buffer -/

/-- Window 6's staging buffer after the body, from the input windows' blocks: its one store, of the body's
    arithmetic `k8_pay1` on the loaded blocks, over the whole buffer. -/
def out8_6 (x0 : Vec F S2000x256 .f32) (x1 : Vec F S2000x256 .f32) (x2 : Vec F S1x256 .f32) (x3 : Vec F S1x256 .f32) (x4 : Vec F S1x256 .f32) (x5 : Vec F S1x256 .f32) : Vec F S2000x256 .f32 :=
  View.canon [⟨r8_1, k8_pay1 (View.ld x2 r8_0) (View.ld x3 r8_0) (View.ld x0 r8_1) (View.ld x4 r8_0) (View.ld x5 r8_0) (View.ld x1 r8_1)⟩]

/-- The store covers the buffer. -/
theorem cover8_6 (p0 : Vec F S2000x256 .f32) (y : S2000x256.Idx) :
    ∃ pc ∈ ([⟨r8_1, p0⟩] : List (View.Piece (Elt F) S2000x256 .f32)), y ∈ pc.1.set :=
  View.cover_of_tiled [⟨r8_1, p0⟩] S2000x256.size (by rfl) y

/-! ## The body's triple -/

set_option maxHeartbeats 1000000 in
/-- The kernel body on whole staging memrefs, the inputs' at contents `xW` and the output's at anything, runs to the
    continuation holding the inputs' as they were and the output's at `out8_6` of the inputs'. The body reads the
    output's buffer once before it stores to it; what it reads there is not used. -/
theorem sound_kernel8 (c : Dev nD) (E : Set ℕ) (i : grid8.Coords) (arg1 : Memref sig .tc .vmem S2000x256 .f32) (harg1 : arg1.IsWhole) (arg2 : Memref sig .tc .vmem S2000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out8_6 x0 x1 x2 x3 x4 x5)) -∗ K ⟨⟩))
      ⊢ wp frame (wpE (defs₀ (F := F)) Variants.none c none) E (cc8__layer_norm_kernel i arg1 harg1 arg2 harg2 arg3 harg3 arg4 harg4 arg5 harg5 arg6 harg6 arg7 harg7) K := by
  simp only [cc8__layer_norm_kernel_eq_skeleton]; unfold cc8__layer_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core `c`: the arrays as the region finds them; after the body at point `t` each
    input's buffer at its block and the output's at `out8_6` of the input blocks; the invariant is the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so `sound_kernel8` applies; the invariant and the
    core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Run.lean ====
import proofs.«111242_j77756087927556_1_alg».proof.Proof.Gen.KernelIdeal.Launch
import proofs.«111242_j77756087927556_1_alg».proof.Proof.Gen.KernelIdeal.Skeleton
import proofs.«111242_j77756087927556_1_alg».proof.Proof.Gen.KernelIdeal.Points
import proofs.«111242_j77756087927556_1_alg».proof.Proof.KI.Region0
import proofs.«111242_j77756087927556_1_alg».proof.Proof.KI.Region1
import proofs.«111242_j77756087927556_1_alg».proof.Proof.KI.Region2
import proofs.«111242_j77756087927556_1_alg».proof.Proof.KI.Region3
import proofs.«111242_j77756087927556_1_alg».proof.Proof.KI.Region4
import proofs.«111242_j77756087927556_1_alg».proof.Proof.KI.Region5
import proofs.«111242_j77756087927556_1_alg».proof.Proof.KI.Region6
import proofs.«111242_j77756087927556_1_alg».proof.Proof.KI.Region7
import proofs.«111242_j77756087927556_1_alg».proof.Proof.KI.Region8
import proofs.«111242_j77756087927556_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: the launch memory, then each host stretch's operations applied,
    then each kernel region's arrays at what its write-backs leave -/

/-- Core `c`'s buffers at launch. -/
abbrev W0 : Dev nD → Valuation τ sig (Elt F) := fun c b => (s₀ m ρ).mem ((c : Dev nD), b)
/-- After `hostOps0`: what region 0 is entered from. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After `hostOps1`: what region 1 is entered from. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)
/-- After `hostOps2`: what region 2 is entered from. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)
/-- After `hostOps3`: what region 3 is entered from. -/
abbrev W7 : Dev nD → Valuation τ sig (Elt F) := fun c => StableHlo.after hostOps3 (W6 m ρ c)
abbrev E7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev E8 : (c : Dev nD) → (b : Ref sig .tc) → Buf (Elt F) ((c : Thread nD τ).loc b) := fun c b => W8 m ρ c b
theorem hF3 (c : Dev nD) (w : Fin cfg3.W) : (dat3 (E7 m ρ) c).arrAt w cfg3.N = E8 m ρ c (Pipeline.arrRef spec3 w) :=
  (W8_arr m ρ c w).symm
theorem hrest3 (c : Dev nD) : ∀ b, b ∉ Finset.univ.image (Pipeline.arrRef spec3) → E8 m ρ c b = E7 m ρ c b :=
  fun b hb => W8_of_ne m ρ c b fun w e => hb (Finset.mem_image.mpr ⟨w, Finset.mem_univ _, e⟩)
/-- After `hostOps4`: what region 4 is entered from. -/
abbrev W9 : Dev nD → Valuation τ sig (Elt F) := fun c => StableHlo.after hostOps4 (W8 m ρ c)
abbrev E9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (E9 m ρ) c).arrAt w cfg4.N
theorem W10_arr (c : Dev nD) (w : Fin cfg4.W) :
    W10 m ρ c (Proc.devRef .tc (Pipeline.arrRef spec4 w)) = (dat4 (E9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev E10 : (c : Dev nD) → (b : Ref sig .tc) → Buf (Elt F) ((c : Thread nD τ).loc b) := fun c b => W10 m ρ c b
theorem hF4 (c : Dev nD) (w : Fin cfg4.W) : (dat4 (E9 m ρ) c).arrAt w cfg4.N = E10 m ρ c (Pipeline.arrRef spec4 w) :=
  (W10_arr m ρ c w).symm
theorem hrest4 (c : Dev nD) : ∀ b, b ∉ Finset.univ.image (Pipeline.arrRef spec4) → E10 m ρ c b = E9 m ρ c b :=
  fun b hb => W10_of_ne m ρ c b fun w e => hb (Finset.mem_image.mpr ⟨w, Finset.mem_univ _, e⟩)
/-- After `hostOps5`: what region 5 is entered from. -/
abbrev W11 : Dev nD → Valuation τ sig (Elt F) := fun c => StableHlo.after hostOps5 (W10 m ρ c)
abbrev E11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (E11 m ρ) c).arrAt w cfg5.N
theorem W12_arr (c : Dev nD) (w : Fin cfg5.W) :
    W12 m ρ c (Proc.devRef .tc (Pipeline.arrRef spec5 w)) = (dat5 (E11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev E12 : (c : Dev nD) → (b : Ref sig .tc) → Buf (Elt F) ((c : Thread nD τ).loc b) := fun c b => W12 m ρ c b
theorem hF5 (c : Dev nD) (w : Fin cfg5.W) : (dat5 (E11 m ρ) c).arrAt w cfg5.N = E12 m ρ c (Pipeline.arrRef spec5 w) :=
  (W12_arr m ρ c w).symm
theorem hrest5 (c : Dev nD) : ∀ b, b ∉ Finset.univ.image (Pipeline.arrRef spec5) → E12 m ρ c b = E11 m ρ c b :=
  fun b hb => W12_of_ne m ρ c b fun w e => hb (Finset.mem_image.mpr ⟨w, Finset.mem_univ _, e⟩)
/-- After `hostOps6`: what region 6 is entered from. -/
abbrev W13 : Dev nD → Valuation τ sig (Elt F) := fun c => StableHlo.after hostOps6 (W12 m ρ c)
abbrev E13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (E13 m ρ) c).arrAt w cfg6.N
theorem W14_arr (c : Dev nD) (w : Fin cfg6.W) :
    W14 m ρ c (Proc.devRef .tc (Pipeline.arrRef spec6 w)) = (dat6 (E13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev E14 : (c : Dev nD) → (b : Ref sig .tc) → Buf (Elt F) ((c : Thread nD τ).loc b) := fun c b => W14 m ρ c b
theorem hF6 (c : Dev nD) (w : Fin cfg6.W) : (dat6 (E13 m ρ) c).arrAt w cfg6.N = E14 m ρ c (Pipeline.arrRef spec6 w) :=
  (W14_arr m ρ c w).symm
theorem hrest6 (c : Dev nD) : ∀ b, b ∉ Finset.univ.image (Pipeline.arrRef spec6) → E14 m ρ c b = E13 m ρ c b :=
  fun b hb => W14_of_ne m ρ c b fun w e => hb (Finset.mem_image.mpr ⟨w, Finset.mem_univ _, e⟩)
/-- After `hostOps7`: what region 7 is entered from. -/
abbrev W15 : Dev nD → Valuation τ sig (Elt F) := fun c => StableHlo.after hostOps7 (W14 m ρ c)
abbrev E15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (E15 m ρ) c).arrAt w cfg7.N
theorem W16_arr (c : Dev nD) (w : Fin cfg7.W) :
    W16 m ρ c (Proc.devRef .tc (Pipeline.arrRef spec7 w)) = (dat7 (E15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev E16 : (c : Dev nD) → (b : Ref sig .tc) → Buf (Elt F) ((c : Thread nD τ).loc b) := fun c b => W16 m ρ c b
theorem hF7 (c : Dev nD) (w : Fin cfg7.W) : (dat7 (E15 m ρ) c).arrAt w cfg7.N = E16 m ρ c (Pipeline.arrRef spec7 w) :=
  (W16_arr m ρ c w).symm
theorem hrest7 (c : Dev nD) : ∀ b, b ∉ Finset.univ.image (Pipeline.arrRef spec7) → E16 m ρ c b = E15 m ρ c b :=
  fun b hb => W16_of_ne m ρ c b fun w e => hb (Finset.mem_image.mpr ⟨w, Finset.mem_univ _, e⟩)
/-- After `hostOps8`: what region 8 is entered from. -/
abbrev W17 : Dev nD → Valuation τ sig (Elt F) := fun c => StableHlo.after hostOps8 (W16 m ρ c)
abbrev E17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (E17 m ρ) c).arrAt w cfg8.N
theorem W18_arr (c : Dev nD) (w : Fin cfg8.W) :
    W18 m ρ c (Proc.devRef .tc (Pipeline.arrRef spec8 w)) = (dat8 (E17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev E18 : (c : Dev nD) → (b : Ref sig .tc) → Buf (Elt F) ((c : Thread nD τ).loc b) := fun c b => W18 m ρ c b
theorem hF8 (c : Dev nD) (w : Fin cfg8.W) : (dat8 (E17 m ρ) c).arrAt w cfg8.N = E18 m ρ c (Pipeline.arrRef spec8 w) :=
  (W18_arr m ρ c w).symm
theorem hrest8 (c : Dev nD) : ∀ b, b ∉ Finset.univ.image (Pipeline.arrRef spec8) → E18 m ρ c b = E17 m ρ c b :=
  fun b hb => W18_of_ne m ρ c b fun w e => hb (Finset.mem_image.mpr ⟨w, Finset.mem_univ _, e⟩)
/-- After the three last host stretches. -/
abbrev W19 : Dev nD → Valuation τ sig (Elt F) := fun c => StableHlo.after hostOps9 (W18 m ρ c)
abbrev W20 : Dev nD → Valuation τ sig (Elt F) := fun c => StableHlo.after hostOps9_1 (W19 m ρ c)
abbrev W21 : Dev nD → Valuation τ sig (Elt F) := fun c => StableHlo.after hostOps9_2 (W20 m ρ c)

/-! ## The proof data family and the thread state -/

abbrev padm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
  | ⟨8, _⟩ => fun c => dat8 (E17 m ρ) c
abbrev 𝒱₀ : Variants := Variants.none
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) padm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) padm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E3 m ρ) c).Φ 0 from rfl]
    iintro ⟨Hp, -, Hr⟩
    iapply (Phi1_in_seg (E3 m ρ) c)
    isplitl [Hp]; · iexact Hp
    iexact Hr
  hout c := by
    rw [Pipeline.ownSems0_none, show (pdats m ρ 1 c).Φ (Fin.last _) = (dat1 (E3 m ρ) c).Φ (Fin.last cfg1.N) from rfl]
    iintro H
    ihave H' := (Phi1_out_seg (E3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. -/
def reg2 : Pipeline.RegionSeg (pcfgs (F := F)) padm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. -/
def reg3 : Pipeline.RegionSeg (pcfgs (F := F)) padm (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lz lvz 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (E7 m ρ) c).Φ 0 from rfl]
    iintro ⟨Hp, -, Hr⟩
    iapply (Phi3_in_seg (E7 m ρ) c)
    isplitl [Hp]; · iexact Hp
    iexact Hr
  hout c := by
    rw [Pipeline.ownSems0_none, show (pdats m ρ 3 c).Φ (Fin.last _) = (dat3 (E7 m ρ) c).Φ (Fin.last cfg3.N) from rfl]
    iintro H
    ihave H' := (Phi3_out_seg (E7 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. -/
def reg4 : Pipeline.RegionSeg (pcfgs (F := F)) padm (pdats m ρ) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lz lvz 4 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (E9 m ρ c) (E10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. -/
def reg5 : Pipeline.RegionSeg (pcfgs (F := F)) padm (pdats m ρ) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lz lvz 5 fun _ _ => rfl
  pre c := iprop(StableHlo.held (c : Thread nD τ) (Pipeline.ucRefs τ sig) (W11 m ρ c) ∗ Rr c)
  post c := iprop(StableHlo.held (c : Thread nD τ) (Pipeline.ucRefs τ sig) (W12 m ρ c) ∗ Rr c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (E11 m ρ) c).Φ 0 from rfl]
    iintro ⟨Hp, -, Hr⟩
    iapply (Phi5_in_seg (E11 m ρ) c)
    isplitl [Hp]; · iexact Hp
    iexact Hr
  hout c := by
    rw [Pipeline.ownSems0_none, show (pdats m ρ 5 c).Φ (Fin.last _) = (dat5 (E11 m ρ) c).Φ (Fin.last cfg5.N) from rfl]
    iintro H
    ihave H' := (Phi5_out_seg (E11 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (E11 m ρ c) (E12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W13`, left at `W14`. -/
def reg6 : Pipeline.RegionSeg (pcfgs (F := F)) padm (pdats m ρ) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ Lz lvz 6 fun _ _ => rfl
  pre c := iprop(StableHlo.held (c : Thread nD τ) (Pipeline.ucRefs τ sig) (W13 m ρ c) ∗ Rr c)
  post c := iprop(StableHlo.held (c : Thread nD τ) (Pipeline.ucRefs τ sig) (W14 m ρ c) ∗ Rr c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) padm (pdats m ρ) launch6.win launch6.arr_whole c
      ((pdats m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) padm (Ix := Unit) (Name := ℕ) (U := UR sig nD τ) (Lvl := ℕ)
      launch6.win launch6.arr_whole c (pdats m ρ) ((pdats m ρ 6 c).share_full fun _ => rfl)
      (E13 m ρ c) (E14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. -/
def reg7 : Pipeline.RegionSeg (pcfgs (F := F)) padm (pdats m ρ) () defs₀ 𝒱₀ Lz lvz 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ Lz lvz 7 fun _ _ => rfl
  pre c := iprop(StableHlo.held (c : Thread nD τ) (Pipeline.ucRefs τ sig) (W15 m ρ c) ∗ Rr c)
  post c := iprop(StableHlo.held (c : Thread nD τ) (Pipeline.ucRefs τ sig) (W16 m ρ c) ∗ Rr c)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) padm (pdats m ρ) launch7.win launch7.arr_whole c
      ((pdats m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (E15 m ρ) c).Φ 0 from rfl]
    iintro ⟨Hp, -, Hr⟩
    iapply (Phi7_in_seg (E15 m ρ) c)
    isplitl [Hp]; · iexact Hp
    iexact Hr
  hout c := by
    rw [Pipeline.ownSems0_none, show (pdats m ρ 7 c).Φ (Fin.last _) = (dat7 (E15 m ρ) c).Φ (Fin.last cfg7.N) from rfl]
    iintro H
    ihave H' := (Phi7_out_seg (E15 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) padm (Ix := Unit) (Name := ℕ) (U := UR sig nD τ) (Lvl := ℕ)
      launch7.win launch7.arr_whole c (pdats m ρ) ((pdats m ρ 7 c).share_full fun _ => rfl)
      (E15 m ρ c) (E16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W17`, left at `W18`. -/
def reg8 : Pipeline.RegionSeg (pcfgs (F := F)) padm (pdats m ρ) () defs₀ 𝒱₀ Lz lvz 8 where
  win := launch8.win.to₀
  block_pos := launch8.block_pos
  stage_whole := launch8.stage_whole
  K := PEmpty
  osem k := k.elim
  ho := Pipeline.OwnSemFacts.none _
  hbody c := (body_obligation8 (E17 m ρ) c).loose
  hwaits := Pipeline.hwaits_of_owed_zero _ _ _ _ Lz lvz 8 fun _ _ => rfl
  pre c := iprop(StableHlo.held (c : Thread nD τ) (Pipeline.ucRefs τ sig) (W17 m ρ c) ∗ Rr c)
  post c := iprop(StableHlo.held (c : Thread nD τ) (Pipeline.ucRefs τ sig) (W18 m ρ c) ∗ Rr c)
  X c := iprop(∃ r, prngReg c r)
  Y c := iprop(∃ r, prngReg c r)
  Z c := Pipeline.unscopedRest (Ix := Unit) (Name := ℕ) (U := UR sig nD τ) (Lvl := ℕ) spec8 c (E17 m ρ c)
  hentry c := by
    rw [Pipeline.ownSems0_none]
    have hsplit := Pipeline.arrays_of_unscopedBufs (p := 8) (pcfgs (F := F)) padm (pdats m ρ) launch8.win launch8.arr_whole c
      ((pdats m ρ 8 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) padm (Ix := Unit) (Name := ℕ) (U := UR sig nD τ) (Lvl := ℕ)
      launch8.win launch8.arr_whole c (pdats m ρ) ((pdats m ρ 8 c).share_full fun _ => rfl)
      (E17 m ρ c) (E18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) padm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .host (hseg hostOps9_1 hostOps9_1_sub hostOps9_1_fresh (W19 m ρ)),
    .host (hseg hostOps9_2 hostOps9_2_sub hostOps9_2_fresh (W20 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents `W21`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) padm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      -- the last host stretch leaves every unscoped buffer at `W21` beside the register and the core owing nothing: reassociate
      show (iprop(StableHlo.held (c : Thread nD τ) (Pipeline.ucRefs τ sig) (W21 m ρ c) ∗ Rr c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-! ## The arguments end as launched: no host operation and no region writes one -/
theorem W21_main_arg0 (c : Dev nD) : W21 m ρ c (Proc.devRef .tc main_arg0) = m ((c : Thread nD τ).loc main_arg0) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg0 (by decide)).trans <|
  (StableHlo.after_of_writes_sub hostOps8 _ hostOps8_writes (by decide)).trans <|
  (W16_of_ne m ρ c main_arg0 (by decide)).trans <|
  (StableHlo.after_of_writes_sub hostOps7 _ hostOps7_writes (by decide)).trans <|
  (W14_of_ne m ρ c main_arg0 (by decide)).trans <|
  (StableHlo.after_of_writes_sub hostOps6 _ hostOps6_writes (by decide)).trans <|
  (W12_of_ne m ρ c main_arg0 (by decide)).trans <|
  (StableHlo.after_of_writes_sub hostOps5 _ hostOps5_writes (by decide)).trans <|
  (W10_of_ne m ρ c main_arg0 (by decide)).trans <|
  (StableHlo.after_of_writes_sub hostOps4 _ hostOps4_writes (by decide)).trans <|
  (W8_of_ne m ρ c main_arg0 (by decide)).trans <|
  (StableHlo.after_of_writes_sub hostOps3 _ hostOps3_writes (by decide)).trans <|
  (W6_of_ne m ρ c main_arg0 (by decide)).trans <|
  (StableHlo.after_of_writes_sub hostOps2 _ hostOps2_writes (by decide)).trans <|
  (W4_of_ne m ρ c main_arg0 (by decide)).trans <|
  (StableHlo.after_of_writes_sub hostOps1 _ hostOps1_writes (by decide)).trans <|
  ((W2_arr m ρ c 0).trans (((dat0 (E1 m ρ) c).arrAt_in 0 rfl _).trans (A_eq0 (E1 m ρ) c 0))).trans <|
  (StableHlo.after_of_writes_sub hostOps0 _ hostOps0_writes (by decide))
theorem W21_main_arg1 (c : Dev nD) : W21 m ρ c (Proc.devRef .tc main_arg1) = m ((c : Thread nD τ).loc main_arg1) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg1 (by decide)).trans <|
  (StableHlo.after_of_writes_sub hostOps8 _ hostOps8_writes (by decide)).trans <|
  (W16_of_ne m ρ c main_arg1 (by decide)).trans <|
  (StableHlo.after_of_writes_sub hostOps7 _ hostOps7_writes (by decide)).trans <|
  (W14_of_ne m ρ c main_arg1 (by decide)).trans <|
  (StableHlo.after_of_writes_sub hostOps6 _ hostOps6_writes (by decide)).trans <|
  (W12_of_ne m ρ c main_arg1 (by decide)).trans <|
  (StableHlo.after_of_writes_sub hostOps5 _ hostOps5_writes (by decide)).trans <|
  (W10_of_ne m ρ c main_arg1 (by decide)).trans <|
  (StableHlo.after_of_writes_sub hostOps4 _ hostOps4_writes (by decide)).trans <|
  (W8_of_ne m ρ c main_arg1 (by decide)).trans <|
  (StableHlo.after_of_writes_sub hostOps3 _ hostOps3_writes (by decide)).trans <|
  (W6_of_ne m ρ c main_arg1 (by decide)).trans <|
  (StableHlo.after_of_writes_sub hostOps2 _ hostOps2_writes (by decide)).trans <|
  (W4_of_ne m ρ c main_arg1 (by decide)).trans <|
  (StableHlo.after_of_writes_sub hostOps1 _ hostOps1_writes (by decide)).trans <|
  (W2_of_ne m ρ c main_arg1 (by decide)).trans <|
  (StableHlo.after_of_writes_sub hostOps0 _ hostOps0_writes (by decide))
theorem W21_main_arg2 (c : Dev nD) : W21 m ρ c (Proc.devRef .tc main_arg2) = m ((c : Thread nD τ).loc main_arg2) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg2 (by decide)).trans <|
  (StableHlo.after_of_writes_sub hostOps8 _ hostOps8_writes (by decide)).trans <|
  (W16_of_ne m ρ c main_arg2 (by decide)).trans <|
  (StableHlo.after_of_writes_sub hostOps7 _ hostOps7_writes (by decide)).trans <|
  (W14_of_ne m ρ c main_arg2 (by decide)).trans <|
  (StableHlo.after_of_writes_sub hostOps6 _ hostOps6_writes (by decide)).trans <|
  (W12_of_ne m ρ c main_arg2 (by decide)).trans <|
  (StableHlo.after_of_writes_sub hostOps5 _ hostOps5_writes (by decide)).trans <|
  (W10_of_ne m ρ c main_arg2 (by decide)).trans <|
  (StableHlo.after_of_writes_sub hostOps4 _ hostOps4_writes (by decide)).trans <|
  (W8_of_ne m ρ c main_arg2 (by decide)).trans <|
  (StableHlo.after_of_writes_sub hostOps3 _ hostOps3_writes (by decide)).trans <|
  (W6_of_ne m ρ c main_arg2 (by decide)).trans <|
  (StableHlo.after_of_writes_sub hostOps2 _ hostOps2_writes (by decide)).trans <|
  (W4_of_ne m ρ c main_arg2 (by decide)).trans <|
  (StableHlo.after_of_writes_sub hostOps1 _ hostOps1_writes (by decide)).trans <|
  (W2_of_ne m ρ c main_arg2 (by decide)).trans <|
  (StableHlo.after_of_writes_sub hostOps0 _ hostOps0_writes (by decide))
theorem W21_main_arg3 (c : Dev nD) : W21 m ρ c (Proc.devRef .tc main_arg3) = m ((c : Thread nD τ).loc main_arg3) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg3 (by decide)).trans <|
  (StableHlo.after_of_writes_sub hostOps8 _ hostOps8_writes (by decide)).trans <|
  (W16_of_ne m ρ c main_arg3 (by decide)).trans <|
  (StableHlo.after_of_writes_sub hostOps7 _ hostOps7_writes (by decide)).trans <|
  (W14_of_ne m ρ c main_arg3 (by decide)).trans <|
  (StableHlo.after_of_writes_sub hostOps6 _ hostOps6_writes (by decide)).trans <|
  (W12_of_ne m ρ c main_arg3 (by decide)).trans <|
  (StableHlo.after_of_writes_sub hostOps5 _ hostOps5_writes (by decide)).trans <|
  (W10_of_ne m ρ c main_arg3 (by decide)).trans <|
  (StableHlo.after_of_writes_sub hostOps4 _ hostOps4_writes (by decide)).trans <|
  (W8_of_ne m ρ c main_arg3 (by decide)).trans <|
  (StableHlo.after_of_writes_sub hostOps3 _ hostOps3_writes (by decide)).trans <|
  (W6_of_ne m ρ c main_arg3 (by decide)).trans <|
  (StableHlo.after_of_writes_sub hostOps2 _ hostOps2_writes (by decide)).trans <|
  (W4_of_ne m ρ c main_arg3 (by decide)).trans <|
  (StableHlo.after_of_writes_sub hostOps1 _ hostOps1_writes (by decide)).trans <|
  ((W2_arr m ρ c 1).trans (((dat0 (E1 m ρ) c).arrAt_in 1 rfl _).trans (A_eq0 (E1 m ρ) c 1))).trans <|
  (StableHlo.after_of_writes_sub hostOps0 _ hostOps0_writes (by decide))
theorem W21_main_arg4 (c : Dev nD) : W21 m ρ c (Proc.devRef .tc main_arg4) = m ((c : Thread nD τ).loc main_arg4) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg4 (by decide)).trans <|
  (StableHlo.after_of_writes_sub hostOps8 _ hostOps8_writes (by decide)).trans <|
  (W16_of_ne m ρ c main_arg4 (by decide)).trans <|
  (StableHlo.after_of_writes_sub hostOps7 _ hostOps7_writes (by decide)).trans <|
  (W14_of_ne m ρ c main_arg4 (by decide)).trans <|
  (StableHlo.after_of_writes_sub hostOps6 _ hostOps6_writes (by decide)).trans <|
  (W12_of_ne m ρ c main_arg4 (by decide)).trans <|
  (StableHlo.after_of_writes_sub hostOps5 _ hostOps5_writes (by decide)).trans <|
  (W10_of_ne m ρ c main_arg4 (by decide)).trans <|
  (StableHlo.after_of_writes_sub hostOps4 _ hostOps4_writes (by decide)).trans <|
  (W8_of_ne m ρ c main_arg4 (by decide)).trans <|
  (StableHlo.after_of_writes_sub hostOps3 _ hostOps3_writes (by decide)).trans <|
  (W6_of_ne m ρ c main_arg4 (by decide)).trans <|
  (StableHlo.after_of_writes_sub hostOps2 _ hostOps2_writes (by decide)).trans <|
  (W4_of_ne m ρ c main_arg4 (by decide)).trans <|
  (StableHlo.after_of_writes_sub hostOps1 _ hostOps1_writes (by decide)).trans <|
  (W2_of_ne m ρ c main_arg4 (by decide)).trans <|
  (StableHlo.after_of_writes_sub hostOps0 _ hostOps0_writes (by decide))
theorem W21_main_arg5 (c : Dev nD) : W21 m ρ c (Proc.devRef .tc main_arg5) = m ((c : Thread nD τ).loc main_arg5) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg5 (by decide)).trans <|
  (StableHlo.after_of_writes_sub hostOps8 _ hostOps8_writes (by decide)).trans <|
  (W16_of_ne m ρ c main_arg5 (by decide)).trans <|
  (StableHlo.after_of_writes_sub hostOps7 _ hostOps7_writes (by decide)).trans <|
  (W14_of_ne m ρ c main_arg5 (by decide)).trans <|
  (StableHlo.after_of_writes_sub hostOps6 _ hostOps6_writes (by decide)).trans <|
  (W12_of_ne m ρ c main_arg5 (by decide)).trans <|
  (StableHlo.after_of_writes_sub hostOps5 _ hostOps5_writes (by decide)).trans <|
  (W10_of_ne m ρ c main_arg5 (by decide)).trans <|
  (StableHlo.after_of_writes_sub hostOps4 _ hostOps4_writes (by decide)).trans <|
  (W8_of_ne m ρ c main_arg5 (by decide)).trans <|
  (StableHlo.after_of_writes_sub hostOps3 _ hostOps3_writes (by decide)).trans <|
  (W6_of_ne m ρ c main_arg5 (by decide)).trans <|
  (StableHlo.after_of_writes_sub hostOps2 _ hostOps2_writes (by decide)).trans <|
  (W4_of_ne m ρ c main_arg5 (by decide)).trans <|
  (StableHlo.after_of_writes_sub hostOps1 _ hostOps1_writes (by decide)).trans <|
  (W2_of_ne m ρ c main_arg5 (by decide)).trans <|
  (StableHlo.after_of_writes_sub hostOps0 _ hostOps0_writes (by decide))
theorem W21_main_arg6 (c : Dev nD) : W21 m ρ c (Proc.devRef .tc main_arg6) = m ((c : Thread nD τ).loc main_arg6) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg6 (by decide)).trans <|
  (StableHlo.after_of_writes_sub hostOps8 _ hostOps8_writes (by decide)).trans <|
  (W16_of_ne m ρ c main_arg6 (by decide)).trans <|
  (StableHlo.after_of_writes_sub hostOps7 _ hostOps7_writes (by decide)).trans <|
  (W14_of_ne m ρ c main_arg6 (by decide)).trans <|
  (StableHlo.after_of_writes_sub hostOps6 _ hostOps6_writes (by decide)).trans <|
  (W12_of_ne m ρ c main_arg6 (by decide)).trans <|
  (StableHlo.after_of_writes_sub hostOps5 _ hostOps5_writes (by decide)).trans <|
  (W10_of_ne m ρ c main_arg6 (by decide)).trans <|
  (StableHlo.after_of_writes_sub hostOps4 _ hostOps4_writes (by decide)).trans <|
  (W8_of_ne m ρ c main_arg6 (by decide)).trans <|
  (StableHlo.after_of_writes_sub hostOps3 _ hostOps3_writes (by decide)).trans <|
  (W6_of_ne m ρ c main_arg6 (by decide)).trans <|
  (StableHlo.after_of_writes_sub hostOps2 _ hostOps2_writes (by decide)).trans <|
  (W4_of_ne m ρ c main_arg6 (by decide)).trans <|
  (StableHlo.after_of_writes_sub hostOps1 _ hostOps1_writes (by decide)).trans <|
  (W2_of_ne m ρ c main_arg6 (by decide)).trans <|
  (StableHlo.after_of_writes_sub hostOps0 _ hostOps0_writes (by decide))
theorem W21_main_arg7 (c : Dev nD) : W21 m ρ c (Proc.devRef .tc main_arg7) = m ((c : Thread nD τ).loc main_arg7) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg7 (by decide)).trans <|
  (StableHlo.after_of_writes_sub hostOps8 _ hostOps8_writes (by decide)).trans <|
  (W16_of_ne m ρ c main_arg7 (by decide)).trans <|
  (StableHlo.after_of_writes_sub hostOps7 _ hostOps7_writes (by decide)).trans <|
  (W14_of_ne m ρ c main_arg7 (by decide)).trans <|
  (StableHlo.after_of_writes_sub hostOps6 _ hostOps6_writes (by decide)).trans <|
  (W12_of_ne m ρ c main_arg7 (by decide)).trans <|
  (StableHlo.after_of_writes_sub hostOps5 _ hostOps5_writes (by decide)).trans <|
  (W10_of_ne m ρ c main_arg7 (by decide)).trans <|
  (StableHlo.after_of_writes_sub hostOps4 _ hostOps4_writes (by decide)).trans <|
  (W8_of_ne m ρ c main_arg7 (by decide)).trans <|
  (StableHlo.after_of_writes_sub hostOps3 _ hostOps3_writes (by decide)).trans <|
  (W6_of_ne m ρ c main_arg7 (by decide)).trans <|
  (StableHlo.after_of_writes_sub hostOps2 _ hostOps2_writes (by decide)).trans <|
  (W4_of_ne m ρ c main_arg7 (by decide)).trans <|
  (StableHlo.after_of_writes_sub hostOps1 _ hostOps1_writes (by decide)).trans <|
  (W2_of_ne m ρ c main_arg7 (by decide)).trans <|
  (StableHlo.after_of_writes_sub hostOps0 _ hostOps0_writes (by decide))
theorem W21_main_arg8 (c : Dev nD) : W21 m ρ c (Proc.devRef .tc main_arg8) = m ((c : Thread nD τ).loc main_arg8) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg8 (by decide)).trans <|
  (StableHlo.after_of_writes_sub hostOps8 _ hostOps8_writes (by decide)).trans <|
  (W16_of_ne m ρ c main_arg8 (by decide)).trans <|
  (StableHlo.after_of_writes_sub hostOps7 _ hostOps7_writes (by decide)).trans <|
  (W14_of_ne m ρ c main_arg8 (by decide)).trans <|
  (StableHlo.after_of_writes_sub hostOps6 _ hostOps6_writes (by decide)).trans <|
  (W12_of_ne m ρ c main_arg8 (by decide)).trans <|
  (StableHlo.after_of_writes_sub hostOps5 _ hostOps5_writes (by decide)).trans <|
  (W10_of_ne m ρ c main_arg8 (by decide)).trans <|
  (StableHlo.after_of_writes_sub hostOps4 _ hostOps4_writes (by decide)).trans <|
  (W8_of_ne m ρ c main_arg8 (by decide)).trans <|
  (StableHlo.after_of_writes_sub hostOps3 _ hostOps3_writes (by decide)).trans <|
  (W6_of_ne m ρ c main_arg8 (by decide)).trans <|
  (StableHlo.after_of_writes_sub hostOps2 _ hostOps2_writes (by decide)).trans <|
  (W4_of_ne m ρ c main_arg8 (by decide)).trans <|
  (StableHlo.after_of_writes_sub hostOps1 _ hostOps1_writes (by decide)).trans <|
  (W2_of_ne m ρ c main_arg8 (by decide)).trans <|
  (StableHlo.after_of_writes_sub hostOps0 _ hostOps0_writes (by decide))
theorem W21_main_arg9 (c : Dev nD) : W21 m ρ c (Proc.devRef .tc main_arg9) = m ((c : Thread nD τ).loc main_arg9) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg9 (by decide)).trans <|
  (StableHlo.after_of_writes_sub hostOps8 _ hostOps8_writes (by decide)).trans <|
  (W16_of_ne m ρ c main_arg9 (by decide)).trans <|
  (StableHlo.after_of_writes_sub hostOps7 _ hostOps7_writes (by decide)).trans <|
  (W14_of_ne m ρ c main_arg9 (by decide)).trans <|
  (StableHlo.after_of_writes_sub hostOps6 _ hostOps6_writes (by decide)).trans <|
  (W12_of_ne m ρ c main_arg9 (by decide)).trans <|
  (StableHlo.after_of_writes_sub hostOps5 _ hostOps5_writes (by decide)).trans <|
  (W10_of_ne m ρ c main_arg9 (by decide)).trans <|
  (StableHlo.after_of_writes_sub hostOps4 _ hostOps4_writes (by decide)).trans <|
  (W8_of_ne m ρ c main_arg9 (by decide)).trans <|
  (StableHlo.after_of_writes_sub hostOps3 _ hostOps3_writes (by decide)).trans <|
  (W6_of_ne m ρ c main_arg9 (by decide)).trans <|
  (StableHlo.after_of_writes_sub hostOps2 _ hostOps2_writes (by decide)).trans <|
  (W4_of_ne m ρ c main_arg9 (by decide)).trans <|
  (StableHlo.after_of_writes_sub hostOps1 _ hostOps1_writes (by decide)).trans <|
  (W2_of_ne m ρ c main_arg9 (by decide)).trans <|
  (StableHlo.after_of_writes_sub hostOps0 _ hostOps0_writes (by decide))
theorem W21_main_arg10 (c : Dev nD) : W21 m ρ c (Proc.devRef .tc main_arg10) = m ((c : Thread nD τ).loc main_arg10) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg10 (by decide)).trans <|
  (StableHlo.after_of_writes_sub hostOps8 _ hostOps8_writes (by decide)).trans <|
  (W16_of_ne m ρ c main_arg10 (by decide)).trans <|
  (StableHlo.after_of_writes_sub hostOps7 _ hostOps7_writes (by decide)).trans <|
  (W14_of_ne m ρ c main_arg10 (by decide)).trans <|
  (StableHlo.after_of_writes_sub hostOps6 _ hostOps6_writes (by decide)).trans <|
  (W12_of_ne m ρ c main_arg10 (by decide)).trans <|
  (StableHlo.after_of_writes_sub hostOps5 _ hostOps5_writes (by decide)).trans <|
  (W10_of_ne m ρ c main_arg10 (by decide)).trans <|
  (StableHlo.after_of_writes_sub hostOps4 _ hostOps4_writes (by decide)).trans <|
  (W8_of_ne m ρ c main_arg10 (by decide)).trans <|
  (StableHlo.after_of_writes_sub hostOps3 _ hostOps3_writes (by decide)).trans <|
  (W6_of_ne m ρ c main_arg10 (by decide)).trans <|
  (StableHlo.after_of_writes_sub hostOps2 _ hostOps2_writes (by decide)).trans <|
  (W4_of_ne m ρ c main_arg10 (by decide)).trans <|
  (StableHlo.after_of_writes_sub hostOps1 _ hostOps1_writes (by decide)).trans <|
  (W2_of_ne m ρ c main_arg10 (by decide)).trans <|
  (StableHlo.after_of_writes_sub hostOps0 _ hostOps0_writes (by decide))
theorem W21_main_arg11 (c : Dev nD) : W21 m ρ c (Proc.devRef .tc main_arg11) = m ((c : Thread nD τ).loc main_arg11) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg11 (by decide)).trans <|
  (StableHlo.after_of_writes_sub hostOps8 _ hostOps8_writes (by decide)).trans <|
  (W16_of_ne m ρ c main_arg11 (by decide)).trans <|
  (StableHlo.after_of_writes_sub hostOps7 _ hostOps7_writes (by decide)).trans <|
  (W14_of_ne m ρ c main_arg11 (by decide)).trans <|
  (StableHlo.after_of_writes_sub hostOps6 _ hostOps6_writes (by decide)).trans <|
  (W12_of_ne m ρ c main_arg11 (by decide)).trans <|
  (StableHlo.after_of_writes_sub hostOps5 _ hostOps5_writes (by decide)).trans <|
  (W10_of_ne m ρ c main_arg11 (by decide)).trans <|
  (StableHlo.after_of_writes_sub hostOps4 _ hostOps4_writes (by decide)).trans <|
  (W8_of_ne m ρ c main_arg11 (by decide)).trans <|
  (StableHlo.after_of_writes_sub hostOps3 _ hostOps3_writes (by decide)).trans <|
  (W6_of_ne m ρ c main_arg11 (by decide)).trans <|
  (StableHlo.after_of_writes_sub hostOps2 _ hostOps2_writes (by decide)).trans <|
  (W4_of_ne m ρ c main_arg11 (by decide)).trans <|
  (StableHlo.after_of_writes_sub hostOps1 _ hostOps1_writes (by decide)).trans <|
  (W2_of_ne m ρ c main_arg11 (by decide)).trans <|
  (StableHlo.after_of_writes_sub hostOps0 _ hostOps0_writes (by decide))
theorem W21_main_arg12 (c : Dev nD) : W21 m ρ c (Proc.devRef .tc main_arg12) = m ((c : Thread nD τ).loc main_arg12) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg12 (by decide)).trans <|
  (StableHlo.after_of_writes_sub hostOps8 _ hostOps8_writes (by decide)).trans <|
  (W16_of_ne m ρ c main_arg12 (by decide)).trans <|
  (StableHlo.after_of_writes_sub hostOps7 _ hostOps7_writes (by decide)).trans <|
  (W14_of_ne m ρ c main_arg12 (by decide)).trans <|
  (StableHlo.after_of_writes_sub hostOps6 _ hostOps6_writes (by decide)).trans <|
  (W12_of_ne m ρ c main_arg12 (by decide)).trans <|
  (StableHlo.after_of_writes_sub hostOps5 _ hostOps5_writes (by decide)).trans <|
  (W10_of_ne m ρ c main_arg12 (by decide)).trans <|
  (StableHlo.after_of_writes_sub hostOps4 _ hostOps4_writes (by decide)).trans <|
  (W8_of_ne m ρ c main_arg12 (by decide)).trans <|
  (StableHlo.after_of_writes_sub hostOps3 _ hostOps3_writes (by decide)).trans <|
  (W6_of_ne m ρ c main_arg12 (by decide)).trans <|
  (StableHlo.after_of_writes_sub hostOps2 _ hostOps2_writes (by decide)).trans <|
  (W4_of_ne m ρ c main_arg12 (by decide)).trans <|
  (StableHlo.after_of_writes_sub hostOps1 _ hostOps1_writes (by decide)).trans <|
  (W2_of_ne m ρ c main_arg12 (by decide)).trans <|
  (StableHlo.after_of_writes_sub hostOps0 _ hostOps0_writes (by decide))
theorem W21_main_arg13 (c : Dev nD) : W21 m ρ c (Proc.devRef .tc main_arg13) = m ((c : Thread nD τ).loc main_arg13) :=
  (StableHlo.after_of_writes_sub hostOps9_2 _ hostOps9_2_writes (by decide)).trans <|
  (StableHlo.after_of_writes_sub hostOps9_1 _ hostOps9_1_writes (by decide)).trans <|
  (StableHlo.after_of_writes_sub hostOps9 _ hostOps9_writes (by decide)).trans <|
  (W18_of_ne m ρ c main_arg13 (by decide)).trans <|
  (StableHlo.after_of_writes_sub hostOps8 _ hostOps8_writes (by decide)).trans <|
  (W16_of_ne m ρ c main_arg13 (by decide)).trans <|
  (StableHlo.after_of_writes_sub hostOps7 _ hostOps7_writes (by decide)).trans <|
  (W14_of_ne m ρ c main_arg13 (by decide)).trans <|
  (StableHlo.after_of_writes_sub hostOps6 _ hostOps6_writes (by decide)).trans <|
  (W12_of_ne m ρ c main_arg13 (by decide)).trans <|
  (StableHlo.after_of_writes_sub hostOps5 _ hostOps5_writes (by decide)).trans <|
  (W10_of_ne m ρ c main_arg13 (by decide)).trans <|
  (StableHlo.after_of_writes_sub hostOps4 _ hostOps4_writes (by decide)).trans <|
  (W8_of_ne m ρ c main_arg13 (by decide)).trans <|
  (StableHlo.after_of_writes_sub hostOps3 _ hostOps3_writes (by decide)).trans <|
  (W6_of_ne m ρ c main_arg13 (by decide)).trans <|
  (StableHlo.after_of_writes_sub hostOps2 _ hostOps2_writes (by decide)).trans <|
  (W4_of_ne m ρ c main_arg13 (by decide)).trans <|
  (StableHlo.after_of_writes_sub hostOps1 _ hostOps1_writes (by decide)).trans <|
  (W2_of_ne m ρ c main_arg13 (by decide)).trans <|
  (StableHlo.after_of_writes_sub hostOps0 _ hostOps0_writes (by decide))

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W21_main_arg0 m ρ c),
    (h c _ (mem_uc main_arg1 (by decide))).trans (W21_main_arg1 m ρ c),
    (h c _ (mem_uc main_arg2 (by decide))).trans (W21_main_arg2 m ρ c),
    (h c _ (mem_uc main_arg3 (by decide))).trans (W21_main_arg3 m ρ c),
    (h c _ (mem_uc main_arg4 (by decide))).trans (W21_main_arg4 m ρ c),
    (h c _ (mem_uc main_arg5 (by decide))).trans (W21_main_arg5 m ρ c),
    (h c _ (mem_uc main_arg6 (by decide))).trans (W21_main_arg6 m ρ c),
    (h c _ (mem_uc main_arg7 (by decide))).trans (W21_main_arg7 m ρ c),
    (h c _ (mem_uc main_arg8 (by decide))).trans (W21_main_arg8 m ρ c),
    (h c _ (mem_uc main_arg9 (by decide))).trans (W21_main_arg9 m ρ c),
    (h c _ (mem_uc main_arg10 (by decide))).trans (W21_main_arg10 m ρ c),
    (h c _ (mem_uc main_arg11 (by decide))).trans (W21_main_arg11 m ρ c),
    (h c _ (mem_uc main_arg12 (by decide))).trans (W21_main_arg12 m ρ c),
    (h c _ (mem_uc main_arg13 (by decide))).trans (W21_main_arg13 m ρ c)⟩) (run m ρ)

end Cert.KernelIdeal.Hand

end
-- ==== Proof.Ref.Run.lean ====
/-
  The reference program's @main as the list of its 308 host operations (a called function's three operations inline, over
  the call's record of buffers), and its run: from any memory with zero counters every weakly fair execution terminates and
  every final state has each buffer at the fold of the operations' results over the launch contents. The fold is read stage by
  stage elsewhere; no composed term of the whole program is ever formed (h, agg and hn are each read several times per layer).
-/
import proofs.«111242_j77756087927556_1_alg».proof.Proof.Gen.ReferenceIdeal
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main's part 0 (as printed: main_part0). -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg4 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    TRef.nullary main_call0.cst (constant S_ .f32 0x00000000#32),
    TRef.unary main_call0.cst main_call0.v0 (broadcastInDim S100000x256 ![] bcast_S_S100000x256),
    TRef.binary (.of main_v7) main_call0.v0 main_call0.v1 maximumf,
    nullary main_cst (constant S_ .f32 0x3F800000#32),
    unary main_cst main_v9 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v8 main_v21 main_v22 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_3 (constant S_ .f32 0x00000000#32),
    unary main_cst_3 main_v23 (broadcastInDim S100000x256 ![] bcast_S_S100000x256 : (⟨S_, .f32⟩ : BufTy).Contents (Elt F) → (⟨S100000x256, .f32⟩ : BufTy).Contents (Elt F)),
    unary main_v3 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v26 (broadcastInDim S100000x256 ![0, 1] bcast_S100000x1_S100000x256_0_1 : (⟨S100000x1, .f32⟩ : BufTy).Contents (Elt F) → (⟨S100000x256, .f32⟩ : BufTy).Contents (Elt F)),
    binary main_v25 main_v26 main_v27 (Host.divf : (⟨S100000x256, .f32⟩ : BufTy).Contents (Elt F) → (⟨S100000x256, .f32⟩ : BufTy).Contents (Elt F) → (⟨S100000x256, .f32⟩ : BufTy).Contents (Elt F)),
    unary main_arg5 main_v28 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v28 main_v29 rfl shapeCasts_S1x256x256_S256x256,
    binary main_v27 main_v29 main_v30 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v31 ((extractStridedSlice S1x256 ![0, 0] · slices_S4x256_S1x256_0_0) : (⟨S4x256, .f32⟩ : BufTy).Contents (Elt F) → (⟨S1x256, .f32⟩ : BufTy).Contents (Elt F)),
    reshape main_v31 main_v32 rfl shapeCasts_S1x256_S256,
    unary main_v32 main_v33 (broadcastInDim S1x256 ![1] bcast_S256_S1x256_1 : (⟨S256, .f32⟩ : BufTy).Contents (Elt F) → (⟨S1x256, .f32⟩ : BufTy).Contents (Elt F)),
    unary main_v33 main_v34 (broadcastInDim S100000x256 ![0, 1] bcast_S1x256_S100000x256_0_1 : (⟨S1x256, .f32⟩ : BufTy).Contents (Elt F) → (⟨S100000x256, .f32⟩ : BufTy).Contents (Elt F)),
    binary main_v30 main_v34 main_v35 (addf : (⟨S100000x256, .f32⟩ : BufTy).Contents (Elt F) → (⟨S100000x256, .f32⟩ : BufTy).Contents (Elt F) → (⟨S100000x256, .f32⟩ : BufTy).Contents (Elt F)),
    unary main_arg7 main_v36 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v36 main_v37 rfl shapeCasts_S1x256x256_S256x256,
    binary main_v8 main_v37 main_v38 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v35 main_v38 main_v39 (addf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x00000000#32),
    binary main_v39 main_cst_4 main_v40 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_5 (constant S_ .f32 0x47C35000#32),
    unary main_cst_5 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)),
    unary main_v42 main_v43 (broadcastInDim S1x256 ![1] bcast_S256_S1x256_1 : (⟨S256, .f32⟩ : BufTy).Contents (Elt F) → (⟨S1x256, .f32⟩ : BufTy).Contents (Elt F)),
    unary main_v43 main_v44 (broadcastInDim S100000x256 ![0, 1] bcast_S1x256_S100000x256_0_1 : (⟨S1x256, .f32⟩ : BufTy).Contents (Elt F) → (⟨S100000x256, .f32⟩ : BufTy).Contents (Elt F)),
    binary main_v39 main_v44 main_v45 (subf : (⟨S100000x256, .f32⟩ : BufTy).Contents (Elt F) → (⟨S100000x256, .f32⟩ : BufTy).Contents (Elt F) → (⟨S100000x256, .f32⟩ : BufTy).Contents (Elt F)),
    binary main_v45 main_v45 main_v46 (mulf : (⟨S100000x256, .f32⟩ : BufTy).Contents (Elt F) → (⟨S100000x256, .f32⟩ : BufTy).Contents (Elt F) → (⟨S100000x256, .f32⟩ : BufTy).Contents (Elt F)),
    nullary main_cst_6 (constant S_ .f32 0x00000000#32),
    binary main_v46 main_cst_6 main_v47 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_7 (constant S_ .f32 0x47C35000#32),
    unary main_cst_7 main_v48 (broadcastInDim S256 ![] bcast_S_S256 : (⟨S_, .f32⟩ : BufTy).Contents (Elt F) → (⟨S256, .f32⟩ : BufTy).Contents (Elt F)),
    binary main_v47 main_v48 main_v49 (Host.divf : (⟨S256, .f32⟩ : BufTy).Contents (Elt F) → (⟨S256, .f32⟩ : BufTy).Contents (Elt F) → (⟨S256, .f32⟩ : BufTy).Contents (Elt F)) ]

set_option maxHeartbeats 4000000 in
/-- @main's part 1 (as printed: main_part1). -/
abbrev ops1 : List (HloOp τ sig (Elt F)) :=
  [ unary main_v42 main_v50 (broadcastInDim S1x256 ![1] bcast_S256_S1x256_1 : (⟨S256, .f32⟩ : BufTy).Contents (Elt F) → (⟨S1x256, .f32⟩ : BufTy).Contents (Elt F)),
    unary main_v50 main_v51 (broadcastInDim S100000x256 ![0, 1] bcast_S1x256_S100000x256_0_1 : (⟨S1x256, .f32⟩ : BufTy).Contents (Elt F) → (⟨S100000x256, .f32⟩ : BufTy).Contents (Elt F)),
    binary main_v39 main_v51 main_v52 (subf : (⟨S100000x256, .f32⟩ : BufTy).Contents (Elt F) → (⟨S100000x256, .f32⟩ : BufTy).Contents (Elt F) → (⟨S100000x256, .f32⟩ : BufTy).Contents (Elt F)),
    nullary main_cst_8 (constant S_ .f32 0x3727C5AC#32),
    unary main_cst_8 main_v53 (broadcastInDim S256 ![] bcast_S_S256 : (⟨S_, .f32⟩ : BufTy).Contents (Elt F) → (⟨S256, .f32⟩ : BufTy).Contents (Elt F)),
    binary main_v49 main_v53 main_v54 (addf : (⟨S256, .f32⟩ : BufTy).Contents (Elt F) → (⟨S256, .f32⟩ : BufTy).Contents (Elt F) → (⟨S256, .f32⟩ : BufTy).Contents (Elt F)),
    unary main_v54 main_v55 (Host.rsqrt : (⟨S256, .f32⟩ : BufTy).Contents (Elt F) → (⟨S256, .f32⟩ : BufTy).Contents (Elt F)),
    unary main_v55 main_v56 (broadcastInDim S1x256 ![1] bcast_S256_S1x256_1 : (⟨S256, .f32⟩ : BufTy).Contents (Elt F) → (⟨S1x256, .f32⟩ : BufTy).Contents (Elt F)),
    unary main_v56 main_v57 (broadcastInDim S100000x256 ![0, 1] bcast_S1x256_S100000x256_0_1 : (⟨S1x256, .f32⟩ : BufTy).Contents (Elt F) → (⟨S100000x256, .f32⟩ : BufTy).Contents (Elt F)),
    binary main_v52 main_v57 main_v58 (mulf : (⟨S100000x256, .f32⟩ : BufTy).Contents (Elt F) → (⟨S100000x256, .f32⟩ : BufTy).Contents (Elt F) → (⟨S100000x256, .f32⟩ : BufTy).Contents (Elt F)),
    unary main_arg8 main_v59 ((extractStridedSlice S1x256 ![0, 0] · slices_S4x256_S1x256_0_0) : (⟨S4x256, .f32⟩ : BufTy).Contents (Elt F) → (⟨S1x256, .f32⟩ : BufTy).Contents (Elt F)),
    reshape main_v59 main_v60 rfl shapeCasts_S1x256_S256,
    unary main_v60 main_v61 (broadcastInDim S1x256 ![1] bcast_S256_S1x256_1 : (⟨S256, .f32⟩ : BufTy).Contents (Elt F) → (⟨S1x256, .f32⟩ : BufTy).Contents (Elt F)),
    unary main_v61 main_v62 (broadcastInDim S100000x256 ![0, 1] bcast_S1x256_S100000x256_0_1 : (⟨S1x256, .f32⟩ : BufTy).Contents (Elt F) → (⟨S100000x256, .f32⟩ : BufTy).Contents (Elt F)),
    binary main_v58 main_v62 main_v63 (mulf : (⟨S100000x256, .f32⟩ : BufTy).Contents (Elt F) → (⟨S100000x256, .f32⟩ : BufTy).Contents (Elt F) → (⟨S100000x256, .f32⟩ : BufTy).Contents (Elt F)),
    unary main_arg9 main_v64 ((extractStridedSlice S1x256 ![0, 0] · slices_S4x256_S1x256_0_0) : (⟨S4x256, .f32⟩ : BufTy).Contents (Elt F) → (⟨S1x256, .f32⟩ : BufTy).Contents (Elt F)),
    reshape main_v64 main_v65 rfl shapeCasts_S1x256_S256,
    unary main_v65 main_v66 (broadcastInDim S1x256 ![1] bcast_S256_S1x256_1 : (⟨S256, .f32⟩ : BufTy).Contents (Elt F) → (⟨S1x256, .f32⟩ : BufTy).Contents (Elt F)),
    unary main_v66 main_v67 (broadcastInDim S100000x256 ![0, 1] bcast_S1x256_S100000x256_0_1 : (⟨S1x256, .f32⟩ : BufTy).Contents (Elt F) → (⟨S100000x256, .f32⟩ : BufTy).Contents (Elt F)),
    binary main_v63 main_v67 main_v68 (addf : (⟨S100000x256, .f32⟩ : BufTy).Contents (Elt F) → (⟨S100000x256, .f32⟩ : BufTy).Contents (Elt F) → (⟨S100000x256, .f32⟩ : BufTy).Contents (Elt F)),
    TRef.nullary main_call1.cst (constant S_ .f32 0x00000000#32),
    TRef.unary main_call1.cst main_call1.v0 (broadcastInDim S100000x256 ![] bcast_S_S100000x256),
    TRef.binary (.of main_v68) main_call1.v0 main_call1.v1 maximumf,
    binary main_v8 main_v69 main_v70 (addf : (⟨S100000x256, .f32⟩ : BufTy).Contents (Elt F) → (⟨S100000x256, .f32⟩ : BufTy).Contents (Elt F) → (⟨S100000x256, .f32⟩ : BufTy).Contents (Elt F)),
    nullary main_c_9 (constantI S_ 32 0#32),
    unary main_c_9 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_10 (constantI S_ 32 100000#32),
    unary main_c_10 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v70 main_v76 main_v77 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_11 (constant S_ .f32 0x00000000#32),
    unary main_cst_11 main_v78 (broadcastInDim S100000x256 ![] bcast_S_S100000x256 : (⟨S_, .f32⟩ : BufTy).Contents (Elt F) → (⟨S100000x256, .f32⟩ : BufTy).Contents (Elt F)),
    unary main_v3 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v81 (broadcastInDim S100000x256 ![0, 1] bcast_S100000x1_S100000x256_0_1 : (⟨S100000x1, .f32⟩ : BufTy).Contents (Elt F) → (⟨S100000x256, .f32⟩ : BufTy).Contents (Elt F)),
    binary main_v80 main_v81 main_v82 (Host.divf : (⟨S100000x256, .f32⟩ : BufTy).Contents (Elt F) → (⟨S100000x256, .f32⟩ : BufTy).Contents (Elt F) → (⟨S100000x256, .f32⟩ : BufTy).Contents (Elt F)),
    unary main_arg5 main_v83 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v83 main_v84 rfl shapeCasts_S1x256x256_S256x256,
    binary main_v82 main_v84 main_v85 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v86 ((extractStridedSlice S1x256 ![1, 0] · slices_S4x256_S1x256_1_0) : (⟨S4x256, .f32⟩ : BufTy).Contents (Elt F) → (⟨S1x256, .f32⟩ : BufTy).Contents (Elt F)),
    reshape main_v86 main_v87 rfl shapeCasts_S1x256_S256,
    unary main_v87 main_v88 (broadcastInDim S1x256 ![1] bcast_S256_S1x256_1 : (⟨S256, .f32⟩ : BufTy).Contents (Elt F) → (⟨S1x256, .f32⟩ : BufTy).Contents (Elt F)),
    unary main_v88 main_v89 (broadcastInDim S100000x256 ![0, 1] bcast_S1x256_S100000x256_0_1 : (⟨S1x256, .f32⟩ : BufTy).Contents (Elt F) → (⟨S100000x256, .f32⟩ : BufTy).Contents (Elt F)),
    binary main_v85 main_v89 main_v90 (addf : (⟨S100000x256, .f32⟩ : BufTy).Contents (Elt F) → (⟨S100000x256, .f32⟩ : BufTy).Contents (Elt F) → (⟨S100000x256, .f32⟩ : BufTy).Contents (Elt F)),
    unary main_arg7 main_v91 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v91 main_v92 rfl shapeCasts_S1x256x256_S256x256,
    binary main_v70 main_v92 main_v93 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v90 main_v93 main_v94 (addf : (⟨S100000x256, .f32⟩ : BufTy).Contents (Elt F) → (⟨S100000x256, .f32⟩ : BufTy).Contents (Elt F) → (⟨S100000x256, .f32⟩ : BufTy).Contents (Elt F)),
    nullary main_cst_12 (constant S_ .f32 0x00000000#32),
    binary main_v94 main_cst_12 main_v95 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_13 (constant S_ .f32 0x47C35000#32),
    unary main_cst_13 main_v96 (broadcastInDim S256 ![] bcast_S_S256 : (⟨S_, .f32⟩ : BufTy).Contents (Elt F) → (⟨S256, .f32⟩ : BufTy).Contents (Elt F)),
    binary main_v95 main_v96 main_v97 (Host.divf : (⟨S256, .f32⟩ : BufTy).Contents (Elt F) → (⟨S256, .f32⟩ : BufTy).Contents (Elt F) → (⟨S256, .f32⟩ : BufTy).Contents (Elt F)),
    unary main_v97 main_v98 (broadcastInDim S1x256 ![1] bcast_S256_S1x256_1 : (⟨S256, .f32⟩ : BufTy).Contents (Elt F) → (⟨S1x256, .f32⟩ : BufTy).Contents (Elt F)),
    unary main_v98 main_v99 (broadcastInDim S100000x256 ![0, 1] bcast_S1x256_S100000x256_0_1 : (⟨S1x256, .f32⟩ : BufTy).Contents (Elt F) → (⟨S100000x256, .f32⟩ : BufTy).Contents (Elt F)),
    binary main_v94 main_v99 main_v100 (subf : (⟨S100000x256, .f32⟩ : BufTy).Contents (Elt F) → (⟨S100000x256, .f32⟩ : BufTy).Contents (Elt F) → (⟨S100000x256, .f32⟩ : BufTy).Contents (Elt F)),
    binary main_v100 main_v100 main_v101 (mulf : (⟨S100000x256, .f32⟩ : BufTy).Contents (Elt F) → (⟨S100000x256, .f32⟩ : BufTy).Contents (Elt F) → (⟨S100000x256, .f32⟩ : BufTy).Contents (Elt F)),
    nullary main_cst_14 (constant S_ .f32 0x00000000#32),
    binary main_v101 main_cst_14 main_v102 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)) ]

set_option maxHeartbeats 4000000 in
/-- @main's part 2 (as printed: main_part2). -/
abbrev ops2 : List (HloOp τ sig (Elt F)) :=
  [ nullary main_cst_15 (constant S_ .f32 0x47C35000#32),
    unary main_cst_15 main_v103 (broadcastInDim S256 ![] bcast_S_S256 : (⟨S_, .f32⟩ : BufTy).Contents (Elt F) → (⟨S256, .f32⟩ : BufTy).Contents (Elt F)),
    binary main_v102 main_v103 main_v104 (Host.divf : (⟨S256, .f32⟩ : BufTy).Contents (Elt F) → (⟨S256, .f32⟩ : BufTy).Contents (Elt F) → (⟨S256, .f32⟩ : BufTy).Contents (Elt F)),
    unary main_v97 main_v105 (broadcastInDim S1x256 ![1] bcast_S256_S1x256_1 : (⟨S256, .f32⟩ : BufTy).Contents (Elt F) → (⟨S1x256, .f32⟩ : BufTy).Contents (Elt F)),
    unary main_v105 main_v106 (broadcastInDim S100000x256 ![0, 1] bcast_S1x256_S100000x256_0_1 : (⟨S1x256, .f32⟩ : BufTy).Contents (Elt F) → (⟨S100000x256, .f32⟩ : BufTy).Contents (Elt F)),
    binary main_v94 main_v106 main_v107 (subf : (⟨S100000x256, .f32⟩ : BufTy).Contents (Elt F) → (⟨S100000x256, .f32⟩ : BufTy).Contents (Elt F) → (⟨S100000x256, .f32⟩ : BufTy).Contents (Elt F)),
    nullary main_cst_16 (constant S_ .f32 0x3727C5AC#32),
    unary main_cst_16 main_v108 (broadcastInDim S256 ![] bcast_S_S256 : (⟨S_, .f32⟩ : BufTy).Contents (Elt F) → (⟨S256, .f32⟩ : BufTy).Contents (Elt F)),
    binary main_v104 main_v108 main_v109 (addf : (⟨S256, .f32⟩ : BufTy).Contents (Elt F) → (⟨S256, .f32⟩ : BufTy).Contents (Elt F) → (⟨S256, .f32⟩ : BufTy).Contents (Elt F)),
    unary main_v109 main_v110 (Host.rsqrt : (⟨S256, .f32⟩ : BufTy).Contents (Elt F) → (⟨S256, .f32⟩ : BufTy).Contents (Elt F)),
    unary main_v110 main_v111 (broadcastInDim S1x256 ![1] bcast_S256_S1x256_1 : (⟨S256, .f32⟩ : BufTy).Contents (Elt F) → (⟨S1x256, .f32⟩ : BufTy).Contents (Elt F)),
    unary main_v111 main_v112 (broadcastInDim S100000x256 ![0, 1] bcast_S1x256_S100000x256_0_1 : (⟨S1x256, .f32⟩ : BufTy).Contents (Elt F) → (⟨S100000x256, .f32⟩ : BufTy).Contents (Elt F)),
    binary main_v107 main_v112 main_v113 (mulf : (⟨S100000x256, .f32⟩ : BufTy).Contents (Elt F) → (⟨S100000x256, .f32⟩ : BufTy).Contents (Elt F) → (⟨S100000x256, .f32⟩ : BufTy).Contents (Elt F)),
    unary main_arg8 main_v114 ((extractStridedSlice S1x256 ![1, 0] · slices_S4x256_S1x256_1_0) : (⟨S4x256, .f32⟩ : BufTy).Contents (Elt F) → (⟨S1x256, .f32⟩ : BufTy).Contents (Elt F)),
    reshape main_v114 main_v115 rfl shapeCasts_S1x256_S256,
    unary main_v115 main_v116 (broadcastInDim S1x256 ![1] bcast_S256_S1x256_1 : (⟨S256, .f32⟩ : BufTy).Contents (Elt F) → (⟨S1x256, .f32⟩ : BufTy).Contents (Elt F)),
    unary main_v116 main_v117 (broadcastInDim S100000x256 ![0, 1] bcast_S1x256_S100000x256_0_1 : (⟨S1x256, .f32⟩ : BufTy).Contents (Elt F) → (⟨S100000x256, .f32⟩ : BufTy).Contents (Elt F)),
    binary main_v113 main_v117 main_v118 (mulf : (⟨S100000x256, .f32⟩ : BufTy).Contents (Elt F) → (⟨S100000x256, .f32⟩ : BufTy).Contents (Elt F) → (⟨S100000x256, .f32⟩ : BufTy).Contents (Elt F)),
    unary main_arg9 main_v119 ((extractStridedSlice S1x256 ![1, 0] · slices_S4x256_S1x256_1_0) : (⟨S4x256, .f32⟩ : BufTy).Contents (Elt F) → (⟨S1x256, .f32⟩ : BufTy).Contents (Elt F)),
    reshape main_v119 main_v120 rfl shapeCasts_S1x256_S256,
    unary main_v120 main_v121 (broadcastInDim S1x256 ![1] bcast_S256_S1x256_1 : (⟨S256, .f32⟩ : BufTy).Contents (Elt F) → (⟨S1x256, .f32⟩ : BufTy).Contents (Elt F)),
    unary main_v121 main_v122 (broadcastInDim S100000x256 ![0, 1] bcast_S1x256_S100000x256_0_1 : (⟨S1x256, .f32⟩ : BufTy).Contents (Elt F) → (⟨S100000x256, .f32⟩ : BufTy).Contents (Elt F)),
    binary main_v118 main_v122 main_v123 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (.of main_v123) main_call2.v0 main_call2.v1 maximumf,
    binary main_v70 main_v124 main_v125 (addf : (⟨S100000x256, .f32⟩ : BufTy).Contents (Elt F) → (⟨S100000x256, .f32⟩ : BufTy).Contents (Elt F) → (⟨S100000x256, .f32⟩ : BufTy).Contents (Elt F)),
    nullary main_c_17 (constantI S_ 32 0#32),
    unary main_c_17 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_18 (constantI S_ 32 100000#32),
    unary main_c_18 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v125 main_v131 main_v132 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_19 (constant S_ .f32 0x00000000#32),
    unary main_cst_19 main_v133 (broadcastInDim S100000x256 ![] bcast_S_S100000x256 : (⟨S_, .f32⟩ : BufTy).Contents (Elt F) → (⟨S100000x256, .f32⟩ : BufTy).Contents (Elt F)),
    unary main_v3 main_v134 (broadcastInDim S800000x1 ![0] bcast_S800000_S800000x1_0 : (⟨S800000, .i32⟩ : BufTy).Contents (Elt F) → (⟨S800000x1, .i32⟩ : BufTy).Contents (Elt F)),
    ternary main_v133 main_v134 main_v132 main_v135 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v136 (broadcastInDim S100000x256 ![0, 1] bcast_S100000x1_S100000x256_0_1 : (⟨S100000x1, .f32⟩ : BufTy).Contents (Elt F) → (⟨S100000x256, .f32⟩ : BufTy).Contents (Elt F)),
    binary main_v135 main_v136 main_v137 (Host.divf : (⟨S100000x256, .f32⟩ : BufTy).Contents (Elt F) → (⟨S100000x256, .f32⟩ : BufTy).Contents (Elt F) → (⟨S100000x256, .f32⟩ : BufTy).Contents (Elt F)),
    unary main_arg5 main_v138 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v138 main_v139 rfl shapeCasts_S1x256x256_S256x256,
    binary main_v137 main_v139 main_v140 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v141 ((extractStridedSlice S1x256 ![2, 0] · slices_S4x256_S1x256_2_0) : (⟨S4x256, .f32⟩ : BufTy).Contents (Elt F) → (⟨S1x256, .f32⟩ : BufTy).Contents (Elt F)),
    reshape main_v141 main_v142 rfl shapeCasts_S1x256_S256,
    unary main_v142 main_v143 (broadcastInDim S1x256 ![1] bcast_S256_S1x256_1 : (⟨S256, .f32⟩ : BufTy).Contents (Elt F) → (⟨S1x256, .f32⟩ : BufTy).Contents (Elt F)),
    unary main_v143 main_v144 (broadcastInDim S100000x256 ![0, 1] bcast_S1x256_S100000x256_0_1 : (⟨S1x256, .f32⟩ : BufTy).Contents (Elt F) → (⟨S100000x256, .f32⟩ : BufTy).Contents (Elt F)),
    binary main_v140 main_v144 main_v145 (addf : (⟨S100000x256, .f32⟩ : BufTy).Contents (Elt F) → (⟨S100000x256, .f32⟩ : BufTy).Contents (Elt F) → (⟨S100000x256, .f32⟩ : BufTy).Contents (Elt F)),
    unary main_arg7 main_v146 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v146 main_v147 rfl shapeCasts_S1x256x256_S256x256,
    binary main_v125 main_v147 main_v148 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v145 main_v148 main_v149 (addf : (⟨S100000x256, .f32⟩ : BufTy).Contents (Elt F) → (⟨S100000x256, .f32⟩ : BufTy).Contents (Elt F) → (⟨S100000x256, .f32⟩ : BufTy).Contents (Elt F)),
    nullary main_cst_20 (constant S_ .f32 0x00000000#32),
    binary main_v149 main_cst_20 main_v150 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_21 (constant S_ .f32 0x47C35000#32),
    unary main_cst_21 main_v151 (broadcastInDim S256 ![] bcast_S_S256 : (⟨S_, .f32⟩ : BufTy).Contents (Elt F) → (⟨S256, .f32⟩ : BufTy).Contents (Elt F)),
    binary main_v150 main_v151 main_v152 (Host.divf : (⟨S256, .f32⟩ : BufTy).Contents (Elt F) → (⟨S256, .f32⟩ : BufTy).Contents (Elt F) → (⟨S256, .f32⟩ : BufTy).Contents (Elt F)),
    unary main_v152 main_v153 (broadcastInDim S1x256 ![1] bcast_S256_S1x256_1 : (⟨S256, .f32⟩ : BufTy).Contents (Elt F) → (⟨S1x256, .f32⟩ : BufTy).Contents (Elt F)),
    unary main_v153 main_v154 (broadcastInDim S100000x256 ![0, 1] bcast_S1x256_S100000x256_0_1 : (⟨S1x256, .f32⟩ : BufTy).Contents (Elt F) → (⟨S100000x256, .f32⟩ : BufTy).Contents (Elt F)),
    binary main_v149 main_v154 main_v155 (subf : (⟨S100000x256, .f32⟩ : BufTy).Contents (Elt F) → (⟨S100000x256, .f32⟩ : BufTy).Contents (Elt F) → (⟨S100000x256, .f32⟩ : BufTy).Contents (Elt F)) ]

set_option maxHeartbeats 4000000 in
/-- @main's part 3 (as printed: main_part3). -/
abbrev ops3 : List (HloOp τ sig (Elt F)) :=
  [ binary main_v155 main_v155 main_v156 (mulf : (⟨S100000x256, .f32⟩ : BufTy).Contents (Elt F) → (⟨S100000x256, .f32⟩ : BufTy).Contents (Elt F) → (⟨S100000x256, .f32⟩ : BufTy).Contents (Elt F)),
    nullary main_cst_22 (constant S_ .f32 0x00000000#32),
    binary main_v156 main_cst_22 main_v157 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_23 (constant S_ .f32 0x47C35000#32),
    unary main_cst_23 main_v158 (broadcastInDim S256 ![] bcast_S_S256 : (⟨S_, .f32⟩ : BufTy).Contents (Elt F) → (⟨S256, .f32⟩ : BufTy).Contents (Elt F)),
    binary main_v157 main_v158 main_v159 (Host.divf : (⟨S256, .f32⟩ : BufTy).Contents (Elt F) → (⟨S256, .f32⟩ : BufTy).Contents (Elt F) → (⟨S256, .f32⟩ : BufTy).Contents (Elt F)),
    unary main_v152 main_v160 (broadcastInDim S1x256 ![1] bcast_S256_S1x256_1 : (⟨S256, .f32⟩ : BufTy).Contents (Elt F) → (⟨S1x256, .f32⟩ : BufTy).Contents (Elt F)),
    unary main_v160 main_v161 (broadcastInDim S100000x256 ![0, 1] bcast_S1x256_S100000x256_0_1 : (⟨S1x256, .f32⟩ : BufTy).Contents (Elt F) → (⟨S100000x256, .f32⟩ : BufTy).Contents (Elt F)),
    binary main_v149 main_v161 main_v162 (subf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x3727C5AC#32),
    unary main_cst_24 main_v163 (broadcastInDim S256 ![] bcast_S_S256 : (⟨S_, .f32⟩ : BufTy).Contents (Elt F) → (⟨S256, .f32⟩ : BufTy).Contents (Elt F)),
    binary main_v159 main_v163 main_v164 (addf : (⟨S256, .f32⟩ : BufTy).Contents (Elt F) → (⟨S256, .f32⟩ : BufTy).Contents (Elt F) → (⟨S256, .f32⟩ : BufTy).Contents (Elt F)),
    unary main_v164 main_v165 (Host.rsqrt : (⟨S256, .f32⟩ : BufTy).Contents (Elt F) → (⟨S256, .f32⟩ : BufTy).Contents (Elt F)),
    unary main_v165 main_v166 (broadcastInDim S1x256 ![1] bcast_S256_S1x256_1 : (⟨S256, .f32⟩ : BufTy).Contents (Elt F) → (⟨S1x256, .f32⟩ : BufTy).Contents (Elt F)),
    unary main_v166 main_v167 (broadcastInDim S100000x256 ![0, 1] bcast_S1x256_S100000x256_0_1 : (⟨S1x256, .f32⟩ : BufTy).Contents (Elt F) → (⟨S100000x256, .f32⟩ : BufTy).Contents (Elt F)),
    binary main_v162 main_v167 main_v168 (mulf : (⟨S100000x256, .f32⟩ : BufTy).Contents (Elt F) → (⟨S100000x256, .f32⟩ : BufTy).Contents (Elt F) → (⟨S100000x256, .f32⟩ : BufTy).Contents (Elt F)),
    unary main_arg8 main_v169 ((extractStridedSlice S1x256 ![2, 0] · slices_S4x256_S1x256_2_0) : (⟨S4x256, .f32⟩ : BufTy).Contents (Elt F) → (⟨S1x256, .f32⟩ : BufTy).Contents (Elt F)),
    reshape main_v169 main_v170 rfl shapeCasts_S1x256_S256,
    unary main_v170 main_v171 (broadcastInDim S1x256 ![1] bcast_S256_S1x256_1 : (⟨S256, .f32⟩ : BufTy).Contents (Elt F) → (⟨S1x256, .f32⟩ : BufTy).Contents (Elt F)),
    unary main_v171 main_v172 (broadcastInDim S100000x256 ![0, 1] bcast_S1x256_S100000x256_0_1 : (⟨S1x256, .f32⟩ : BufTy).Contents (Elt F) → (⟨S100000x256, .f32⟩ : BufTy).Contents (Elt F)),
    binary main_v168 main_v172 main_v173 (mulf : (⟨S100000x256, .f32⟩ : BufTy).Contents (Elt F) → (⟨S100000x256, .f32⟩ : BufTy).Contents (Elt F) → (⟨S100000x256, .f32⟩ : BufTy).Contents (Elt F)),
    unary main_arg9 main_v174 ((extractStridedSlice S1x256 ![2, 0] · slices_S4x256_S1x256_2_0) : (⟨S4x256, .f32⟩ : BufTy).Contents (Elt F) → (⟨S1x256, .f32⟩ : BufTy).Contents (Elt F)),
    reshape main_v174 main_v175 rfl shapeCasts_S1x256_S256,
    unary main_v175 main_v176 (broadcastInDim S1x256 ![1] bcast_S256_S1x256_1 : (⟨S256, .f32⟩ : BufTy).Contents (Elt F) → (⟨S1x256, .f32⟩ : BufTy).Contents (Elt F)),
    unary main_v176 main_v177 (broadcastInDim S100000x256 ![0, 1] bcast_S1x256_S100000x256_0_1 : (⟨S1x256, .f32⟩ : BufTy).Contents (Elt F) → (⟨S100000x256, .f32⟩ : BufTy).Contents (Elt F)),
    binary main_v173 main_v177 main_v178 (addf : (⟨S100000x256, .f32⟩ : BufTy).Contents (Elt F) → (⟨S100000x256, .f32⟩ : BufTy).Contents (Elt F) → (⟨S100000x256, .f32⟩ : BufTy).Contents (Elt F)),
    TRef.nullary main_call3.cst (constant S_ .f32 0x00000000#32),
    TRef.unary main_call3.cst main_call3.v0 (broadcastInDim S100000x256 ![] bcast_S_S100000x256),
    TRef.binary (.of main_v178) main_call3.v0 main_call3.v1 maximumf,
    binary main_v125 main_v179 main_v180 (addf : (⟨S100000x256, .f32⟩ : BufTy).Contents (Elt F) → (⟨S100000x256, .f32⟩ : BufTy).Contents (Elt F) → (⟨S100000x256, .f32⟩ : BufTy).Contents (Elt F)),
    nullary main_c_25 (constantI S_ 32 0#32),
    unary main_c_25 main_v181 (broadcastInDim S800000 ![] bcast_S_S800000 : (⟨S_, .i32⟩ : BufTy).Contents (Elt F) → (⟨S800000, .i32⟩ : BufTy).Contents (Elt F)),
    binary main_v1 main_v181 main_v182 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v183 (broadcastInDim S800000 ![] bcast_S_S800000 : (⟨S_, .i32⟩ : BufTy).Contents (Elt F) → (⟨S800000, .i32⟩ : BufTy).Contents (Elt F)),
    binary main_v1 main_v183 main_v184 (addi : (⟨S800000, .i32⟩ : BufTy).Contents (Elt F) → (⟨S800000, .i32⟩ : BufTy).Contents (Elt F) → (⟨S800000, .i32⟩ : BufTy).Contents (Elt F)),
    ternary main_v182 main_v184 main_v1 main_v185 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v185 main_v186 (broadcastInDim S800000x1 ![0] bcast_S800000_S800000x1_0 : (⟨S800000, .i32⟩ : BufTy).Contents (Elt F) → (⟨S800000x1, .i32⟩ : BufTy).Contents (Elt F)),
    binary main_v180 main_v186 main_v187 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_27 (constant S_ .f32 0x00000000#32),
    unary main_cst_27 main_v188 (broadcastInDim S100000x256 ![] bcast_S_S100000x256 : (⟨S_, .f32⟩ : BufTy).Contents (Elt F) → (⟨S100000x256, .f32⟩ : BufTy).Contents (Elt F)),
    unary main_v3 main_v189 (broadcastInDim S800000x1 ![0] bcast_S800000_S800000x1_0 : (⟨S800000, .i32⟩ : BufTy).Contents (Elt F) → (⟨S800000x1, .i32⟩ : BufTy).Contents (Elt F)),
    ternary main_v188 main_v189 main_v187 main_v190 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v191 (broadcastInDim S100000x256 ![0, 1] bcast_S100000x1_S100000x256_0_1 : (⟨S100000x1, .f32⟩ : BufTy).Contents (Elt F) → (⟨S100000x256, .f32⟩ : BufTy).Contents (Elt F)),
    binary main_v190 main_v191 main_v192 (Host.divf : (⟨S100000x256, .f32⟩ : BufTy).Contents (Elt F) → (⟨S100000x256, .f32⟩ : BufTy).Contents (Elt F) → (⟨S100000x256, .f32⟩ : BufTy).Contents (Elt F)),
    unary main_arg5 main_v193 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v193 main_v194 rfl shapeCasts_S1x256x256_S256x256,
    binary main_v192 main_v194 main_v195 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v196 ((extractStridedSlice S1x256 ![3, 0] · slices_S4x256_S1x256_3_0) : (⟨S4x256, .f32⟩ : BufTy).Contents (Elt F) → (⟨S1x256, .f32⟩ : BufTy).Contents (Elt F)),
    reshape main_v196 main_v197 rfl shapeCasts_S1x256_S256,
    unary main_v197 main_v198 (broadcastInDim S1x256 ![1] bcast_S256_S1x256_1 : (⟨S256, .f32⟩ : BufTy).Contents (Elt F) → (⟨S1x256, .f32⟩ : BufTy).Contents (Elt F)),
    unary main_v198 main_v199 (broadcastInDim S100000x256 ![0, 1] bcast_S1x256_S100000x256_0_1 : (⟨S1x256, .f32⟩ : BufTy).Contents (Elt F) → (⟨S100000x256, .f32⟩ : BufTy).Contents (Elt F)),
    binary main_v195 main_v199 main_v200 (addf : (⟨S100000x256, .f32⟩ : BufTy).Contents (Elt F) → (⟨S100000x256, .f32⟩ : BufTy).Contents (Elt F) → (⟨S100000x256, .f32⟩ : BufTy).Contents (Elt F)),
    unary main_arg7 main_v201 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v201 main_v202 rfl shapeCasts_S1x256x256_S256x256,
    binary main_v180 main_v202 main_v203 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v200 main_v203 main_v204 (addf : (⟨S100000x256, .f32⟩ : BufTy).Contents (Elt F) → (⟨S100000x256, .f32⟩ : BufTy).Contents (Elt F) → (⟨S100000x256, .f32⟩ : BufTy).Contents (Elt F)),
    nullary main_cst_28 (constant S_ .f32 0x00000000#32),
    binary main_v204 main_cst_28 main_v205 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_29 (constant S_ .f32 0x47C35000#32),
    unary main_cst_29 main_v206 (broadcastInDim S256 ![] bcast_S_S256 : (⟨S_, .f32⟩ : BufTy).Contents (Elt F) → (⟨S256, .f32⟩ : BufTy).Contents (Elt F)),
    binary main_v205 main_v206 main_v207 (Host.divf : (⟨S256, .f32⟩ : BufTy).Contents (Elt F) → (⟨S256, .f32⟩ : BufTy).Contents (Elt F) → (⟨S256, .f32⟩ : BufTy).Contents (Elt F)) ]

set_option maxHeartbeats 4000000 in
/-- @main's part 4 (as printed: main_part4). -/
abbrev ops4 : List (HloOp τ sig (Elt F)) :=
  [ unary main_v207 main_v208 (broadcastInDim S1x256 ![1] bcast_S256_S1x256_1 : (⟨S256, .f32⟩ : BufTy).Contents (Elt F) → (⟨S1x256, .f32⟩ : BufTy).Contents (Elt F)),
    unary main_v208 main_v209 (broadcastInDim S100000x256 ![0, 1] bcast_S1x256_S100000x256_0_1 : (⟨S1x256, .f32⟩ : BufTy).Contents (Elt F) → (⟨S100000x256, .f32⟩ : BufTy).Contents (Elt F)),
    binary main_v204 main_v209 main_v210 (subf : (⟨S100000x256, .f32⟩ : BufTy).Contents (Elt F) → (⟨S100000x256, .f32⟩ : BufTy).Contents (Elt F) → (⟨S100000x256, .f32⟩ : BufTy).Contents (Elt F)),
    binary main_v210 main_v210 main_v211 (mulf : (⟨S100000x256, .f32⟩ : BufTy).Contents (Elt F) → (⟨S100000x256, .f32⟩ : BufTy).Contents (Elt F) → (⟨S100000x256, .f32⟩ : BufTy).Contents (Elt F)),
    nullary main_cst_30 (constant S_ .f32 0x00000000#32),
    binary main_v211 main_cst_30 main_v212 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_31 (constant S_ .f32 0x47C35000#32),
    unary main_cst_31 main_v213 (broadcastInDim S256 ![] bcast_S_S256 : (⟨S_, .f32⟩ : BufTy).Contents (Elt F) → (⟨S256, .f32⟩ : BufTy).Contents (Elt F)),
    binary main_v212 main_v213 main_v214 (Host.divf : (⟨S256, .f32⟩ : BufTy).Contents (Elt F) → (⟨S256, .f32⟩ : BufTy).Contents (Elt F) → (⟨S256, .f32⟩ : BufTy).Contents (Elt F)),
    unary main_v207 main_v215 (broadcastInDim S1x256 ![1] bcast_S256_S1x256_1 : (⟨S256, .f32⟩ : BufTy).Contents (Elt F) → (⟨S1x256, .f32⟩ : BufTy).Contents (Elt F)),
    unary main_v215 main_v216 (broadcastInDim S100000x256 ![0, 1] bcast_S1x256_S100000x256_0_1 : (⟨S1x256, .f32⟩ : BufTy).Contents (Elt F) → (⟨S100000x256, .f32⟩ : BufTy).Contents (Elt F)),
    binary main_v204 main_v216 main_v217 (subf : (⟨S100000x256, .f32⟩ : BufTy).Contents (Elt F) → (⟨S100000x256, .f32⟩ : BufTy).Contents (Elt F) → (⟨S100000x256, .f32⟩ : BufTy).Contents (Elt F)),
    nullary main_cst_32 (constant S_ .f32 0x3727C5AC#32),
    unary main_cst_32 main_v218 (broadcastInDim S256 ![] bcast_S_S256 : (⟨S_, .f32⟩ : BufTy).Contents (Elt F) → (⟨S256, .f32⟩ : BufTy).Contents (Elt F)),
    binary main_v214 main_v218 main_v219 (addf : (⟨S256, .f32⟩ : BufTy).Contents (Elt F) → (⟨S256, .f32⟩ : BufTy).Contents (Elt F) → (⟨S256, .f32⟩ : BufTy).Contents (Elt F)),
    unary main_v219 main_v220 (Host.rsqrt : (⟨S256, .f32⟩ : BufTy).Contents (Elt F) → (⟨S256, .f32⟩ : BufTy).Contents (Elt F)),
    unary main_v220 main_v221 (broadcastInDim S1x256 ![1] bcast_S256_S1x256_1 : (⟨S256, .f32⟩ : BufTy).Contents (Elt F) → (⟨S1x256, .f32⟩ : BufTy).Contents (Elt F)),
    unary main_v221 main_v222 (broadcastInDim S100000x256 ![0, 1] bcast_S1x256_S100000x256_0_1 : (⟨S1x256, .f32⟩ : BufTy).Contents (Elt F) → (⟨S100000x256, .f32⟩ : BufTy).Contents (Elt F)),
    binary main_v217 main_v222 main_v223 (mulf : (⟨S100000x256, .f32⟩ : BufTy).Contents (Elt F) → (⟨S100000x256, .f32⟩ : BufTy).Contents (Elt F) → (⟨S100000x256, .f32⟩ : BufTy).Contents (Elt F)),
    unary main_arg8 main_v224 ((extractStridedSlice S1x256 ![3, 0] · slices_S4x256_S1x256_3_0) : (⟨S4x256, .f32⟩ : BufTy).Contents (Elt F) → (⟨S1x256, .f32⟩ : BufTy).Contents (Elt F)),
    reshape main_v224 main_v225 rfl shapeCasts_S1x256_S256,
    unary main_v225 main_v226 (broadcastInDim S1x256 ![1] bcast_S256_S1x256_1 : (⟨S256, .f32⟩ : BufTy).Contents (Elt F) → (⟨S1x256, .f32⟩ : BufTy).Contents (Elt F)),
    unary main_v226 main_v227 (broadcastInDim S100000x256 ![0, 1] bcast_S1x256_S100000x256_0_1 : (⟨S1x256, .f32⟩ : BufTy).Contents (Elt F) → (⟨S100000x256, .f32⟩ : BufTy).Contents (Elt F)),
    binary main_v223 main_v227 main_v228 (mulf : (⟨S100000x256, .f32⟩ : BufTy).Contents (Elt F) → (⟨S100000x256, .f32⟩ : BufTy).Contents (Elt F) → (⟨S100000x256, .f32⟩ : BufTy).Contents (Elt F)),
    unary main_arg9 main_v229 ((extractStridedSlice S1x256 ![3, 0] · slices_S4x256_S1x256_3_0) : (⟨S4x256, .f32⟩ : BufTy).Contents (Elt F) → (⟨S1x256, .f32⟩ : BufTy).Contents (Elt F)),
    reshape main_v229 main_v230 rfl shapeCasts_S1x256_S256,
    unary main_v230 main_v231 (broadcastInDim S1x256 ![1] bcast_S256_S1x256_1 : (⟨S256, .f32⟩ : BufTy).Contents (Elt F) → (⟨S1x256, .f32⟩ : BufTy).Contents (Elt F)),
    unary main_v231 main_v232 (broadcastInDim S100000x256 ![0, 1] bcast_S1x256_S100000x256_0_1 : (⟨S1x256, .f32⟩ : BufTy).Contents (Elt F) → (⟨S100000x256, .f32⟩ : BufTy).Contents (Elt F)),
    binary main_v228 main_v232 main_v233 (addf : (⟨S100000x256, .f32⟩ : BufTy).Contents (Elt F) → (⟨S100000x256, .f32⟩ : BufTy).Contents (Elt F) → (⟨S100000x256, .f32⟩ : BufTy).Contents (Elt F)),
    TRef.nullary main_call4.cst (constant S_ .f32 0x00000000#32),
    TRef.unary main_call4.cst main_call4.v0 (broadcastInDim S100000x256 ![] bcast_S_S100000x256),
    TRef.binary (.of main_v233) main_call4.v0 main_call4.v1 maximumf,
    binary main_v180 main_v234 main_v235 (addf : (⟨S100000x256, .f32⟩ : BufTy).Contents (Elt F) → (⟨S100000x256, .f32⟩ : BufTy).Contents (Elt F) → (⟨S100000x256, .f32⟩ : BufTy).Contents (Elt F)),
    nullary main_cst_33 (constant S_ .f32 0x3F800000#32),
    unary main_cst_33 main_v236 (broadcastInDim S100000 ![] bcast_S_S100000 : (⟨S_, .f32⟩ : BufTy).Contents (Elt F) → (⟨S100000, .f32⟩ : BufTy).Contents (Elt F)),
    nullary main_cst_34 (constant S_ .f32 0x00000000#32),
    unary main_cst_34 main_v237 (broadcastInDim S256 ![] bcast_S_S256 : (⟨S_, .f32⟩ : BufTy).Contents (Elt F) → (⟨S256, .f32⟩ : BufTy).Contents (Elt F)),
    unary main_arg2 main_v238 (broadcastInDim S100000x1 ![0] bcast_S100000_S100000x1_0 : (⟨S100000, .i32⟩ : BufTy).Contents (Elt F) → (⟨S100000x1, .i32⟩ : BufTy).Contents (Elt F)),
    ternary main_v237 main_v238 main_v236 main_v239 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_35 (constant S_ .f32 0x00000000#32),
    unary main_cst_35 main_v240 (broadcastInDim S256x256 ![] bcast_S_S256x256 : (⟨S_, .f32⟩ : BufTy).Contents (Elt F) → (⟨S256x256, .f32⟩ : BufTy).Contents (Elt F)),
    unary main_arg2 main_v241 (broadcastInDim S100000x1 ![0] bcast_S100000_S100000x1_0 : (⟨S100000, .i32⟩ : BufTy).Contents (Elt F) → (⟨S100000x1, .i32⟩ : BufTy).Contents (Elt F)),
    ternary main_v240 main_v241 main_v235 main_v242 ((fun x i u => Host.scatterAdd scatter_S256x256_S100000x1_S100000x256_1_0_0_1 x i u) : (⟨S256x256, .f32⟩ : BufTy).Contents (Elt F) → (⟨S100000x1, .i32⟩ : BufTy).Contents (Elt F) → (⟨S100000x256, .f32⟩ : BufTy).Contents (Elt F) → (⟨S256x256, .f32⟩ : BufTy).Contents (Elt F)),
    nullary main_cst_36 (constant S_ .f32 0x3F800000#32),
    unary main_cst_36 main_v243 (broadcastInDim S256 ![] bcast_S_S256 : (⟨S_, .f32⟩ : BufTy).Contents (Elt F) → (⟨S256, .f32⟩ : BufTy).Contents (Elt F)),
    binary main_v239 main_v243 main_v244 (maximumf : (⟨S256, .f32⟩ : BufTy).Contents (Elt F) → (⟨S256, .f32⟩ : BufTy).Contents (Elt F) → (⟨S256, .f32⟩ : BufTy).Contents (Elt F)),
    unary main_v244 main_v245 (broadcastInDim S256x1 ![0] bcast_S256_S256x1_0 : (⟨S256, .f32⟩ : BufTy).Contents (Elt F) → (⟨S256x1, .f32⟩ : BufTy).Contents (Elt F)),
    unary main_v245 main_v246 (broadcastInDim S256x256 ![0, 1] bcast_S256x1_S256x256_0_1 : (⟨S256x1, .f32⟩ : BufTy).Contents (Elt F) → (⟨S256x256, .f32⟩ : BufTy).Contents (Elt F)),
    binary main_v242 main_v246 main_v247 (Host.divf : (⟨S256x256, .f32⟩ : BufTy).Contents (Elt F) → (⟨S256x256, .f32⟩ : BufTy).Contents (Elt F) → (⟨S256x256, .f32⟩ : BufTy).Contents (Elt F)),
    binary main_v247 main_arg10 main_v248 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg11 main_v249 (broadcastInDim S1x128 ![1] bcast_S128_S1x128_1 : (⟨S128, .f32⟩ : BufTy).Contents (Elt F) → (⟨S1x128, .f32⟩ : BufTy).Contents (Elt F)),
    unary main_v249 main_v250 (broadcastInDim S256x128 ![0, 1] bcast_S1x128_S256x128_0_1 : (⟨S1x128, .f32⟩ : BufTy).Contents (Elt F) → (⟨S256x128, .f32⟩ : BufTy).Contents (Elt F)),
    binary main_v248 main_v250 main_v251 (addf : (⟨S256x128, .f32⟩ : BufTy).Contents (Elt F) → (⟨S256x128, .f32⟩ : BufTy).Contents (Elt F) → (⟨S256x128, .f32⟩ : BufTy).Contents (Elt F)),
    TRef.nullary main_call5.cst (constant S_ .f32 0x00000000#32),
    TRef.unary main_call5.cst main_call5.v0 (broadcastInDim S256x128 ![] bcast_S_S256x128),
    TRef.binary (.of main_v251) main_call5.v0 main_call5.v1 maximumf,
    binary main_v252 main_arg12 main_v253 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg13 main_v254 (broadcastInDim S1x1 ![1] bcast_S1_S1x1_1 : (⟨S1, .f32⟩ : BufTy).Contents (Elt F) → (⟨S1x1, .f32⟩ : BufTy).Contents (Elt F)),
    unary main_v254 main_v255 (broadcastInDim S256x1 ![0, 1] bcast_S1x1_S256x1_0_1 : (⟨S1x1, .f32⟩ : BufTy).Contents (Elt F) → (⟨S256x1, .f32⟩ : BufTy).Contents (Elt F)),
    binary main_v253 main_v255 main_v256 (addf : (⟨S256x1, .f32⟩ : BufTy).Contents (Elt F) → (⟨S256x1, .f32⟩ : BufTy).Contents (Elt F) → (⟨S256x1, .f32⟩ : BufTy).Contents (Elt F)) ]

/-- @main's operations, in order: the five printed parts one after the other. -/
abbrev ops : List (HloOp τ sig (Elt F)) := ops0 ++ ops1 ++ ops2 ++ ops3 ++ ops4

/-! ## What each part writes: the references its operations name as results (no argument among them) -/

abbrev ops0_W : List (Ref sig .tc) := [main_v0, main_v1, main_v2, main_v3, main_v4, main_v5, main_v6, main_v7, main_call0_cst, main_call0_v0, main_v8, main_cst, main_v9, main_cst_0, main_v10, main_v11, main_v12, main_cst_1, main_v13, main_v14, main_v15, main_c, main_v16, main_v17, main_c_2, main_v18, main_v19, main_v20, main_v21, main_v22, main_cst_3, main_v23, main_v24, main_v25, main_v26, main_v27, main_v28, main_v29, main_v30, main_v31, main_v32, main_v33, main_v34, main_v35, main_v36, main_v37, main_v38, main_v39, main_cst_4, main_v40, main_cst_5, main_v41, main_v42, main_v43, main_v44, main_v45, main_v46, main_cst_6, main_v47, main_cst_7, main_v48, main_v49]
set_option maxHeartbeats 4000000 in
theorem ops0_writes : (ops0 : List (HloOp τ sig (Elt F))).Forall fun op => op.writes ⊆ (ops0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

abbrev ops1_W : List (Ref sig .tc) := [main_v50, main_v51, main_v52, main_cst_8, main_v53, main_v54, main_v55, main_v56, main_v57, main_v58, main_v59, main_v60, main_v61, main_v62, main_v63, main_v64, main_v65, main_v66, main_v67, main_v68, main_call1_cst, main_call1_v0, main_v69, main_v70, main_c_9, main_v71, main_v72, main_c_10, main_v73, main_v74, main_v75, main_v76, main_v77, main_cst_11, main_v78, main_v79, main_v80, main_v81, main_v82, main_v83, main_v84, main_v85, main_v86, main_v87, main_v88, main_v89, main_v90, main_v91, main_v92, main_v93, main_v94, main_cst_12, main_v95, main_cst_13, main_v96, main_v97, main_v98, main_v99, main_v100, main_v101, main_cst_14, main_v102]
set_option maxHeartbeats 4000000 in
theorem ops1_writes : (ops1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

abbrev ops2_W : List (Ref sig .tc) := [main_cst_15, main_v103, main_v104, main_v105, main_v106, main_v107, main_cst_16, main_v108, main_v109, main_v110, main_v111, main_v112, main_v113, main_v114, main_v115, main_v116, main_v117, main_v118, main_v119, main_v120, main_v121, main_v122, main_v123, main_call2_cst, main_call2_v0, main_v124, main_v125, main_c_17, main_v126, main_v127, main_c_18, main_v128, main_v129, main_v130, main_v131, main_v132, main_cst_19, main_v133, main_v134, main_v135, main_v136, main_v137, main_v138, main_v139, main_v140, main_v141, main_v142, main_v143, main_v144, main_v145, main_v146, main_v147, main_v148, main_v149, main_cst_20, main_v150, main_cst_21, main_v151, main_v152, main_v153, main_v154, main_v155]
set_option maxHeartbeats 4000000 in
theorem ops2_writes : (ops2 : List (HloOp τ sig (Elt F))).Forall fun op => op.writes ⊆ (ops2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

abbrev ops3_W : List (Ref sig .tc) := [main_v156, main_cst_22, main_v157, main_cst_23, main_v158, main_v159, main_v160, main_v161, main_v162, main_cst_24, main_v163, main_v164, main_v165, main_v166, main_v167, main_v168, main_v169, main_v170, main_v171, main_v172, main_v173, main_v174, main_v175, main_v176, main_v177, main_v178, main_call3_cst, main_call3_v0, main_v179, main_v180, main_c_25, main_v181, main_v182, main_c_26, main_v183, main_v184, main_v185, main_v186, main_v187, main_cst_27, main_v188, main_v189, main_v190, main_v191, main_v192, main_v193, main_v194, main_v195, main_v196, main_v197, main_v198, main_v199, main_v200, main_v201, main_v202, main_v203, main_v204, main_cst_28, main_v205, main_cst_29, main_v206, main_v207]
set_option maxHeartbeats 4000000 in
theorem ops3_writes : (ops3 : List (HloOp τ sig (Elt F))).Forall fun op => op.writes ⊆ (ops3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

abbrev ops4_W : List (Ref sig .tc) := [main_v208, main_v209, main_v210, main_v211, main_cst_30, main_v212, main_cst_31, main_v213, main_v214, main_v215, main_v216, main_v217, main_cst_32, main_v218, main_v219, main_v220, main_v221, main_v222, main_v223, main_v224, main_v225, main_v226, main_v227, main_v228, main_v229, main_v230, main_v231, main_v232, main_v233, main_call4_cst, main_call4_v0, main_v234, main_v235, main_cst_33, main_v236, main_cst_34, main_v237, main_v238, main_v239, main_cst_35, main_v240, main_v241, main_v242, main_cst_36, main_v243, main_v244, main_v245, main_v246, main_v247, main_v248, main_v249, main_v250, main_v251, main_call5_cst, main_call5_v0, main_v252, main_v253, main_v254, main_v255, main_v256]
set_option maxHeartbeats 4000000 in
theorem ops4_writes : (ops4 : List (HloOp τ sig (Elt F))).Forall fun op => op.writes ⊆ (ops4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A reference no part writes holds its launch contents after all of @main's operations. -/
theorem after_ops_of_not_written (V : Valuation τ sig (Elt F)) (r : Ref sig .tc) (h0 : r ∉ ops0_W) (h1 : r ∉ ops1_W) (h2 : r ∉ ops2_W) (h3 : r ∉ ops3_W) (h4 : r ∉ ops4_W) :
    after ops V (Proc.devRef .tc r) = V (Proc.devRef .tc r) := by
  simp only [ops, StableHlo.after_append]
  rw [after_of_writes_sub ops4 _ ops4_writes h4, after_of_writes_sub ops3 _ ops3_writes h3, after_of_writes_sub ops2 _ ops2_writes h2, after_of_writes_sub ops1 _ ops1_writes h1, after_of_writes_sub ops0 _ ops0_writes h0]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
/-- Every weakly fair execution of the reference terminates, and every final state has each buffer at the operations' fold
    over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- Every argument array ends holding its launch contents: no operation names an argument as its result. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c main_arg0).trans (after_ops_of_not_written _ main_arg0 (by decide) (by decide) (by decide) (by decide) (by decide)),
    (h c main_arg1).trans (after_ops_of_not_written _ main_arg1 (by decide) (by decide) (by decide) (by decide) (by decide)),
    (h c main_arg2).trans (after_ops_of_not_written _ main_arg2 (by decide) (by decide) (by decide) (by decide) (by decide)),
    (h c main_arg3).trans (after_ops_of_not_written _ main_arg3 (by decide) (by decide) (by decide) (by decide) (by decide)),
    (h c main_arg4).trans (after_ops_of_not_written _ main_arg4 (by decide) (by decide) (by decide) (by decide) (by decide)),
    (h c main_arg5).trans (after_ops_of_not_written _ main_arg5 (by decide) (by decide) (by decide) (by decide) (by decide)),
    (h c main_arg6).trans (after_ops_of_not_written _ main_arg6 (by decide) (by decide) (by decide) (by decide) (by decide)),
    (h c main_arg7).trans (after_ops_of_not_written _ main_arg7 (by decide) (by decide) (by decide) (by decide) (by decide)),
    (h c main_arg8).trans (after_ops_of_not_written _ main_arg8 (by decide) (by decide) (by decide) (by decide) (by decide)),
    (h c main_arg9).trans (after_ops_of_not_written _ main_arg9 (by decide) (by decide) (by decide) (by decide) (by decide)),
    (h c main_arg10).trans (after_ops_of_not_written _ main_arg10 (by decide) (by decide) (by decide) (by decide) (by decide)),
    (h c main_arg11).trans (after_ops_of_not_written _ main_arg11 (by decide) (by decide) (by decide) (by decide) (by decide)),
    (h c main_arg12).trans (after_ops_of_not_written _ main_arg12 (by decide) (by decide) (by decide) (by decide) (by decide)),
    (h c main_arg13).trans (after_ops_of_not_written _ main_arg13 (by decide) (by decide) (by decide) (by decide) (by decide))⟩) (run_after m ρ)

end Cert.ReferenceIdeal.RunH

end
-- ==== Proof.Spec.lean ====
/-
  The mathematics of the GraphSAGE forward pass, stated once and independently of either program.

  Arrays are functions from a literal shape's index set to the extended reals.  The stages are
    G0     : h  = max (x · Wp + bp) 0
    hnK    : hn = agg · Wl + bl + h · Wr
    sumK, sumsqK : the column sums of hn and of hn², as [1, 256] rows
    G2     : batch normalisation from two rows of column statistics S and Q, as
             mu = S / n, var = Q / n - mu · mu, out = h + max ((hn - mu) · rsqrt (var + eps) · gamma + beta) 0
    normR  : the same with the two-pass variance var = (Σ (hn - mu)²) / n.
  The law G2_eq_normR says the two normalisations agree when every entry of hn is a real number:
  E[x²] - (E x)² = E[(x - E x)²] holds over ℝ (and needs the divisor n to be the number of rows), while over the
  extended reals it can fail at an infinity.  The lemmas named …_real carry "every entry is a real number"
  through each stage, so that the law can be applied layer after layer.
-/
import Idealize.ShloMosaic.PureOps.Ideal
import Idealize.ShloMosaic.PureOps.Ideal.Laws
import Idealize.ShloMosaic.Lib.ValueIdx
import Mathlib

noncomputable section

namespace Cert.Spec

open Idealize.ShloMosaic Idealize.ShloMosaic.ValueIdx
open scoped BigOperators

/-! ## Literals -/

/-- The f32 word of 100000.0, the number of rows both programs divide by. -/
local notation "cN" => Ideal.ofBits FTy.f32 0x47C35000#32
/-- The f32 word nearest 1e-5, the epsilon both programs add to the variance. -/
local notation "cEps" => Ideal.ofBits FTy.f32 0x3727C5AC#32

theorem cN_eq : cN = ((100000 : ℝ) : EReal) := by
  simp [Ideal.ofBits, Ideal.ieee, -EReal.coe_mul]; norm_num

theorem cEps_eq : cEps = (((10995116 : ℝ) * (2 : ℝ) ^ (-40 : ℤ) : ℝ) : EReal) := by
  simp [Ideal.ofBits, Ideal.ieee, -EReal.coe_mul]

/-! ## Real entries -/

/-- Every entry of the array is a real number (neither infinity). -/
def IsReal {ι : Type*} (a : ι → EReal) : Prop := ∀ i, ∃ r : ℝ, a i = (r : EReal)

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division by the row count, on a real. -/
theorem div_cN_coe (s : ℝ) : Ideal.div (s : EReal) cN = ((s / 100000 : ℝ) : EReal) := by
  rw [cN_eq, Ideal.div_coe (by norm_num), ← EReal.coe_mul]; congr 1; ring

/-! ## The variance law over ℝ -/

/-- E[x²] - (E x)² = E[(x - E x)²] when the divisor is the number of terms. -/
theorem var_law {ι : Type*} [Fintype ι] (r : ι → ℝ) (c : ℝ) (hc0 : c ≠ 0) (hcard : (Fintype.card ι : ℝ) = c) :
    (∑ i, r i * r i) / c - (∑ i, r i) / c * ((∑ i, r i) / c)
      = (∑ i, (r i - (∑ i, r i) / c) * (r i - (∑ i, r i) / c)) / c := by
  have h1 : ∀ m : ℝ, ∑ i, (r i - m) * (r i - m) = (∑ i, r i * r i) - 2 * m * (∑ i, r i) + c * (m * m) := by
    intro m
    have : ∀ i, (r i - m) * (r i - m) = r i * r i - 2 * m * r i + m * m := fun i => by ring
    simp only [this, Finset.sum_add_distrib, Finset.sum_sub_distrib, ← Finset.mul_sum, Finset.sum_const,
      Finset.card_univ, nsmul_eq_mul, hcard]
    ring
  rw [h1]; field_simp; ring

/-! ## Real entries through the arithmetic -/

theorem real_zero : ∃ r : ℝ, (0 : EReal) = r := ⟨0, rfl⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_max {x y : EReal} (hx : ∃ r : ℝ, x = r) (hy : ∃ r : ℝ, y = r) : ∃ r : ℝ, max x y = r := by
  rcases le_total x y with h | h
  · rw [max_eq_right h]; exact hy
  · rw [max_eq_left h]; exact hx

/-- A finite sum of real entries is real. -/
theorem real_sum {ι : Type*} (s : Finset ι) (f : ι → EReal) (hf : ∀ i, ∃ r : ℝ, f i = r) :
    ∃ r : ℝ, ∑ i ∈ s, f i = r := by
  choose r hr using hf
  exact ⟨∑ i ∈ s, r i, by simp only [hr, coe_sum]⟩

/-- A finite sum of non-negative real entries is a non-negative real. -/
theorem real_sum_nonneg {ι : Type*} (s : Finset ι) (f : ι → EReal) (hf : ∀ i, ∃ r : ℝ, 0 ≤ r ∧ f i = r) :
    ∃ r : ℝ, 0 ≤ r ∧ ∑ i ∈ s, f i = r := by
  choose r h0 hr using hf
  exact ⟨∑ i ∈ s, r i, Finset.sum_nonneg (fun i _ => h0 i), by simp only [hr, coe_sum]⟩

/-- A real divided by the row count is real. -/
theorem real_div_cN {x : EReal} (hx : ∃ r : ℝ, x = r) : ∃ r : ℝ, Ideal.div x cN = r := by
  obtain ⟨a, rfl⟩ := hx; exact ⟨_, div_cN_coe a⟩

/-- A real divided by a real that is at least one is real (a sum over neighbours divided by a clamped in-degree). -/
theorem real_div_ge_one {x y : EReal} (hx : ∃ r : ℝ, x = r) (hy : ∃ r : ℝ, 1 ≤ r ∧ y = r) :
    ∃ r : ℝ, Ideal.div x y = r := by
  obtain ⟨a, rfl⟩ := hx; obtain ⟨b, hb, rfl⟩ := hy
  have hb0 : b ≠ 0 := by linarith
  exact ⟨a * (1 / b), by rw [Ideal.div_coe hb0, ← EReal.coe_mul]⟩

/-- The reciprocal square root of a positive real is real. -/
theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- Epsilon is a positive real. -/
theorem real_cEps : ∃ e : ℝ, 0 < e ∧ cEps = (e : EReal) :=
  ⟨_, by positivity, cEps_eq⟩

/-! ## The variance law on the extended reals -/

/-- For a column of real numbers whose length is the divisor, the one-pass variance
    Σ a² / n - (Σ a / n)² is the two-pass variance Σ (a - Σ a / n)² / n. -/
theorem var_eq {ι : Type*} [Fintype ι] (hcard : Fintype.card ι = 100000) (a : ι → EReal) (ha : IsReal a) :
    Ideal.div (∑ i, a i * a i) cN - Ideal.div (∑ i, a i) cN * Ideal.div (∑ i, a i) cN
      = Ideal.div (∑ i, (a i - Ideal.div (∑ i, a i) cN) * (a i - Ideal.div (∑ i, a i) cN)) cN := by
  choose r hr using ha
  obtain rfl : a = fun i => ((r i : ℝ) : EReal) := funext hr
  simp only [← EReal.coe_mul, coe_sum, div_cN_coe, ← EReal.coe_sub]
  exact congrArg _ (var_law r 100000 (by norm_num) (by rw [hcard]; norm_num))

/-- The two-pass variance of a real column is a non-negative real. -/
theorem var_real_nonneg {ι : Type*} [Fintype ι] (a : ι → EReal) (ha : IsReal a) :
    ∃ v : ℝ, 0 ≤ v ∧
      Ideal.div (∑ i, (a i - Ideal.div (∑ i, a i) cN) * (a i - Ideal.div (∑ i, a i) cN)) cN = v := by
  obtain ⟨m, hm⟩ := real_div_cN (real_sum Finset.univ a ha)
  obtain ⟨s, hs0, hs⟩ := real_sum_nonneg Finset.univ
    (fun i => (a i - Ideal.div (∑ i, a i) cN) * (a i - Ideal.div (∑ i, a i) cN))
    (fun i => by
      obtain ⟨r, hr⟩ := ha i
      exact ⟨(r - m) * (r - m), mul_self_nonneg _, by rw [hm, hr, ← EReal.coe_sub, ← EReal.coe_mul]⟩)
  exact ⟨s / 100000, by positivity, by rw [hs, div_cN_coe]⟩

/-! ## Arrays over literal shapes, and the stages -/

/-- A rank-2 array of extended reals over literal extents. -/
abbrev Arr2 (a b : ℕ) : Type := (⟨2, ![a, b]⟩ : Shape).Idx → EReal
/-- A rank-1 array of extended reals over a literal extent. -/
abbrev Arr1 (a : ℕ) : Type := (⟨1, ![a]⟩ : Shape).Idx → EReal

/-- A vector of 256 entries laid out as a [1, 256] row. -/
def row (b : Arr1 256) : Arr2 1 256 := fun j => b (ix1 (j 1))

/-- The input projection: max (Σ_k x[n,k] · wp[k,j] + b2[0,j], 0). -/
def G0 (x : Arr2 100000 128) (wp : Arr2 128 256) (b2 : Arr2 1 256) : Arr2 100000 256 :=
  fun i => max ((∑ k : Fin 128, x (ix2 (i 0) k) * wp (ix2 k (i 1))) + b2 (ix2 0 (i 1))) 0

/-- The layer's linear part: Σ_k agg[n,k] · wl[k,j] + bl2[0,j] + Σ_k h[n,k] · wr[k,j]. -/
def hnK (h agg : Arr2 100000 256) (wl : Arr2 256 256) (bl2 : Arr2 1 256) (wr : Arr2 256 256) : Arr2 100000 256 :=
  fun i => (∑ k : Fin 256, agg (ix2 (i 0) k) * wl (ix2 k (i 1))) + bl2 (ix2 0 (i 1))
    + ∑ k : Fin 256, h (ix2 (i 0) k) * wr (ix2 k (i 1))

/-- The column sums, as a [1, 256] row. -/
def sumK (hn : Arr2 100000 256) : Arr2 1 256 := fun j => ∑ r : Fin 100000, hn (ix2 r (j 1))

/-- The column sums of the squares, as a [1, 256] row. -/
def sumsqK (hn : Arr2 100000 256) : Arr2 1 256 := fun j => ∑ r : Fin 100000, hn (ix2 r (j 1)) * hn (ix2 r (j 1))

/-- One normalised, scaled, shifted, floored entry added to the residual:
    hv + max ((hnv - mu) · rsqrt (var + eps) · g + b) 0. -/
def normAt (hnv hv mu var g b : EReal) : EReal :=
  hv + max ((hnv - mu) * Ideal.rsqrt (var + cEps) * g + b) 0

/-- The normalisation from two rows of column statistics S and Q: mu = S / n, var = Q / n - mu · mu. -/
def G2 (hn h : Arr2 100000 256) (S Q g b : Arr2 1 256) : Arr2 100000 256 :=
  fun i => h i + max ((hn i - Ideal.div (S (ix2 0 (i 1))) cN)
      * Ideal.rsqrt (Ideal.div (Q (ix2 0 (i 1))) cN - Ideal.div (S (ix2 0 (i 1))) cN * Ideal.div (S (ix2 0 (i 1))) cN + cEps)
      * g (ix2 0 (i 1)) + b (ix2 0 (i 1))) 0

theorem G2_apply (hn h : Arr2 100000 256) (S Q g b : Arr2 1 256) (i : (⟨2, ![100000, 256]⟩ : Shape).Idx) :
    G2 hn h S Q g b i = normAt (hn i) (h i) (Ideal.div (S (ix2 0 (i 1))) cN)
      (Ideal.div (Q (ix2 0 (i 1))) cN - Ideal.div (S (ix2 0 (i 1))) cN * Ideal.div (S (ix2 0 (i 1))) cN)
      (g (ix2 0 (i 1))) (b (ix2 0 (i 1))) := rfl

/-- The column means, as a row. -/
def muR (hn : Arr2 100000 256) : Arr2 1 256 := fun j => Ideal.div (sumK hn j) cN
/-- The squared deviations from the column means. -/
def sqDev (hn : Arr2 100000 256) : Arr2 100000 256 :=
  fun i => (hn i - muR hn (ix2 0 (i 1))) * (hn i - muR hn (ix2 0 (i 1)))
/-- The two-pass column variances, as a row. -/
def varR (hn : Arr2 100000 256) : Arr2 1 256 := fun j => Ideal.div (sumK (sqDev hn) j) cN
/-- The two-pass normalisation. -/
def normR (hn h : Arr2 100000 256) (g b : Arr2 1 256) : Arr2 100000 256 :=
  fun i => normAt (hn i) (h i) (muR hn (ix2 0 (i 1))) (varR hn (ix2 0 (i 1))) (g (ix2 0 (i 1))) (b (ix2 0 (i 1)))

/-- THE LAW: from real entries, the one-pass normalisation fed with the true column sums of hn and of hn² is the
    two-pass normalisation. -/
theorem G2_eq_normR (hn h : Arr2 100000 256) (g b : Arr2 1 256) (hreal : IsReal hn) :
    G2 hn h (sumK hn) (sumsqK hn) g b = normR hn h g b := by
  funext i
  obtain ⟨n, j, rfl⟩ : ∃ (n : Fin 100000) (j : Fin 256), i = ix2 n j := ⟨i 0, i 1, eq_ix2 i⟩
  have hv := var_eq (ι := Fin 100000) (by simp) (fun n => hn (ix2 n j)) (fun n => hreal _)
  rw [G2_apply]
  exact congrArg (fun v => normAt (hn (ix2 n j)) (h (ix2 n j)) (muR hn (ix2 0 j)) v (g (ix2 0 j)) (b (ix2 0 j))) hv

/-! ## Real entries through the stages -/

theorem row_real (b : Arr1 256) (hb : IsReal b) : IsReal (row b) := fun _ => hb _

theorem G0_real (x : Arr2 100000 128) (wp : Arr2 128 256) (b2 : Arr2 1 256)
    (hx : IsReal x) (hw : IsReal wp) (hb : IsReal b2) : IsReal (G0 x wp b2) := fun _ =>
  real_max (real_add (real_sum _ _ (fun _ => real_mul (hx _) (hw _))) (hb _)) real_zero

theorem hnK_real (h agg : Arr2 100000 256) (wl : Arr2 256 256) (bl2 : Arr2 1 256) (wr : Arr2 256 256)
    (hh : IsReal h) (ha : IsReal agg) (hwl : IsReal wl) (hb : IsReal bl2) (hwr : IsReal wr) :
    IsReal (hnK h agg wl bl2 wr) := fun _ =>
  real_add (real_add (real_sum _ _ (fun _ => real_mul (ha _) (hwl _))) (hb _))
    (real_sum _ _ (fun _ => real_mul (hh _) (hwr _)))

theorem normAt_real {hnv hv mu var g b : EReal} (h1 : ∃ r : ℝ, hnv = r) (h2 : ∃ r : ℝ, hv = r)
    (h3 : ∃ r : ℝ, mu = r) (h4 : ∃ v : ℝ, 0 ≤ v ∧ var = v) (h5 : ∃ r : ℝ, g = r) (h6 : ∃ r : ℝ, b = r) :
    ∃ r : ℝ, normAt hnv hv mu var g b = r := by
  obtain ⟨v, hv0, rfl⟩ := h4
  obtain ⟨e, he0, he⟩ := real_cEps
  have hr : ∃ r : ℝ, Ideal.rsqrt ((v : EReal) + cEps) = r := by
    rw [he, ← EReal.coe_add, rsqrt_pos _ (by linarith)]; exact ⟨_, rfl⟩
  exact real_add h2 (real_max (real_add (real_mul (real_mul (real_sub h1 h3) hr) h5) h6) real_zero)

theorem normR_real (hn h : Arr2 100000 256) (g b : Arr2 1 256)
    (hhn : IsReal hn) (hh : IsReal h) (hg : IsReal g) (hb : IsReal b) : IsReal (normR hn h g b) := fun i =>
  normAt_real (hhn _) (hh _) (real_div_cN (real_sum _ _ (fun _ => hhn _)))
    (var_real_nonneg (fun n : Fin 100000 => hn (ix2 n (i 1))) (fun _ => hhn _)) (hg _) (hb _)

/-! ## Regrouping a sum over the rows by tiles -/

/-- A sum over 100000 rows is the sum over 50 tiles of the sums over each tile's 2000 rows. -/
theorem sum_tiles {M : Type*} [AddCommMonoid M] (f : Fin 100000 → M) :
    ∑ n : Fin 100000, f n
      = ∑ t : Fin 50, ∑ r : Fin 2000, f ⟨2000 * t.val + r.val, by have := t.isLt; have := r.isLt; omega⟩ := by
  rw [← Finset.sum_product', Finset.univ_product_univ,
    ← Equiv.sum_comp (finProdFinEquiv (m := 50) (n := 2000)) f]
  refine Finset.sum_congr rfl (fun p _ => congrArg f (Fin.ext ?_))
  show p.2.val + 2000 * p.1.val = 2000 * p.1.val + p.2.val
  omega

/-! ## A layer's parameters out of the stacked arguments -/

/-- A rank-3 array of extended reals over literal extents. -/
abbrev Arr3 (a b c : ℕ) : Type := (⟨3, ![a, b, c]⟩ : Shape).Idx → EReal

/-- Layer l's [256, 256] matrix out of a stacked [4, 256, 256] argument. -/
def layerW (l : Fin 4) (w : Arr3 4 256 256) : Arr2 256 256 := fun i => w (ix3 l (i 0) (i 1))
/-- Layer l's 256 entries out of a stacked [4, 256] argument, as a [1, 256] row. -/
def layerRow (l : Fin 4) (b : Arr2 4 256) : Arr2 1 256 := fun i => b (ix2 l (i 1))

theorem layerW_real (l : Fin 4) (w : Arr3 4 256 256) (hw : IsReal w) : IsReal (layerW l w) := fun _ => hw _
theorem layerRow_real (l : Fin 4) (b : Arr2 4 256) (hb : IsReal b) : IsReal (layerRow l b) := fun _ => hb _

/-- One layer after the neighbour aggregation agg of h, two-pass form. -/
def layerR (l : Fin 4) (wl : Arr3 4 256 256) (bl : Arr2 4 256) (wr : Arr3 4 256 256) (gamma beta : Arr2 4 256)
    (h agg : Arr2 100000 256) : Arr2 100000 256 :=
  normR (hnK h agg (layerW l wl) (layerRow l bl) (layerW l wr)) h (layerRow l gamma) (layerRow l beta)

theorem layerR_real (l : Fin 4) (wl : Arr3 4 256 256) (bl : Arr2 4 256) (wr : Arr3 4 256 256) (gamma beta : Arr2 4 256)
    (h agg : Arr2 100000 256) (hwl : IsReal wl) (hbl : IsReal bl) (hwr : IsReal wr) (hg : IsReal gamma)
    (hb : IsReal beta) (hh : IsReal h) (ha : IsReal agg) : IsReal (layerR l wl bl wr gamma beta h agg) :=
  normR_real _ _ _ _ (hnK_real _ _ _ _ _ hh ha (layerW_real l wl hwl) (layerRow_real l bl hbl) (layerW_real l wr hwr))
    hh (layerRow_real l gamma hg) (layerRow_real l beta hb)

/-- One layer in the one-pass form the kernel computes, fed with the true column statistics, is the two-pass layer
    whenever its inputs are real. -/
theorem layerK_eq_layerR (l : Fin 4) (wl : Arr3 4 256 256) (bl : Arr2 4 256) (wr : Arr3 4 256 256)
    (gamma beta : Arr2 4 256) (h agg : Arr2 100000 256)
    (hwl : IsReal wl) (hbl : IsReal bl) (hwr : IsReal wr) (hh : IsReal h) (ha : IsReal agg) :
    G2 (hnK h agg (layerW l wl) (layerRow l bl) (layerW l wr)) h
        (sumK (hnK h agg (layerW l wl) (layerRow l bl) (layerW l wr)))
        (sumsqK (hnK h agg (layerW l wl) (layerRow l bl) (layerW l wr))) (layerRow l gamma) (layerRow l beta)
      = layerR l wl bl wr gamma beta h agg :=
  G2_eq_normR _ _ _ _
    (hnK_real _ _ _ _ _ hh ha (layerW_real l wl hwl) (layerRow_real l bl hbl) (layerW_real l wr hwr))

end Cert.Spec
-- ==== Proof.KI.Val0.lean ====
/- The value of region 0 at the exact extended reals: the output tile's entry (p, q) is
   `max (∑ k, x (p, k) · Wp (k, q) + bp (0, q)) 0`, and the tiles assemble to the whole array. -/
import proofs.«111242_j77756087927556_1_alg».proof.Proof.KI.Region0
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The tile product read at an index -/

theorem lhs0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The tile's matrix product into a zero accumulator, at entry (p, q): the sum over the 128 contracted positions. -/
theorem matmul0_apply (a : FVec Ideal S2000x128 .bf16) (b : FVec Ideal S128x256 .bf16) (p : Fin 2000) (q : Fin 256) :
    (matmul dot_S2000x128_S128x256_S2000x256_1_0_0_1_n_n none a b (constant (F := Ideal) S2000x256 .f32 0x00000000#32) : FVec Ideal S2000x256 .f32) (ix2 p q)
      = ∑ k : Fin 128, a (ix2 p k) * b (ix2 k q) := by
  refine (Ideal.matmul_constant_zero_apply dot_S2000x128_S128x256_S2000x256_1_0_0_1_n_n none a b (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The bias row broadcast over the tile's rows, at entry (p, q): the row's entry q. -/
theorem bias0_apply (x2 : Vec Ideal S1x256 .f32) (p : Fin 2000) (q : Fin 256) :
    (broadcastTo S2000x256 (shapeCast S1x256 x2 shapeCasts_S1x256_S1x256) broadcasts_S1x256_S2000x256 : FVec Ideal S2000x256 .f32) (ix2 p q)
      = x2 (ix2 0 q) := by
  rw [shapeCast_self]
  exact broadcastTo_apply x2 broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The body's arithmetic at entry (p, q) of the tile. -/
theorem pay0_apply (x0 : Vec Ideal S2000x128 .f32) (x1 : Vec Ideal S128x256 .f32) (x2 : Vec Ideal S1x256 .f32) (p : Fin 2000) (q : Fin 256) :
    k0_pay1 x0 x1 x2 (ix2 p q)
      = max ((∑ k : Fin 128, x0 (ix2 p k) * x1 (ix2 k q)) + x2 (ix2 0 q)) 0 := by
  unfold k0_pay1
  exact congrArg₂ max (congrArg₂ (· + ·) (matmul0_apply (truncf .bf16 x0 bitsLt_bf16_f32) (truncf .bf16 x1 bitsLt_bf16_f32) p q) (bias0_apply x2 p q)) Ideal.ofBits_zero_f32

/-! ## From the tiles to the array -/

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices over the grid: the rows' tile moves with the point, the weights and the bias stay
    at their one block, and the output's tile is the point's. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 49 ∧ win0_3.index t (1 : Fin 2) = 0 :=
  (by decide +kernel : ∀ t : Fin grid0.N, _)

/-- Every tile of the output is some point's. -/
theorem idx_onto0 : ∀ (q0 : Fin 50), ∃ t : Fin cfg0.N, win0_3.index t = ![q0.val, 0] :=
  (by decide +kernel : ∀ (q0 : Fin 50), ∃ t : Fin grid0.N, win0_3.index t = ![q0.val, 0])

/-- What point `t` writes back is tile `t` of `G0` of the arrays as the region finds them. -/
theorem flushed0_3_eq (c : Dev nD) (t : Fin cfg0.N) :
    (dat0 (F := Ideal) V c).flushed 3 t
      = ((cfg0.win 3).blk t).view.read (Elt Ideal) (Cert.Spec.G0 (V c main_arg0) (V c main_arg3) (V c main_v4)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x256) hz0, View.ld_unit_zero (S := S1x256) hz0]
  obtain ⟨e0, e1, e2, e3, e4, e5, e6, e7⟩ := idx_facts0 t
  funext j
  obtain ⟨p, q, rfl⟩ : ∃ (p : Fin 2000) (q : Fin 256), j = ix2 p q := ⟨j 0, j 1, eq_ix2 j⟩
  refine (pay0_apply (iblk0 V c 0 t) (iblk0 V c 1 t) (iblk0 V c 2 t) p q).trans ?_
  have h0 : ∀ k : Fin 128, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have h1 : ∀ k : Fin 128, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 256 + 1 * q.val = win0_3.index t (1 : Fin 2) * 256 + 1 * q.val; omega
  have h2 : ((cfg0.win 2).blk t).view.emb (ix2 0 q)
      = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  have key : ∀ (X : S100000x128.Idx → EReal) (W : S128x256.Idx → EReal) (B : S1x256.Idx → EReal),
      max ((∑ k : Fin 128, X (((cfg0.win 0).blk t).view.emb (ix2 p k)) * W (((cfg0.win 1).blk t).view.emb (ix2 k q)))
        + B (((cfg0.win 2).blk t).view.emb (ix2 0 q))) 0
      = Cert.Spec.G0 X W B (((cfg0.win 3).blk t).view.emb (ix2 p q)) := by
    intro X W B
    show _ = max ((∑ k : Fin 128, X (ix2 ((((cfg0.win 3).blk t).view.emb (ix2 p q)) 0) k) * W (ix2 k ((((cfg0.win 3).blk t).view.emb (ix2 p q)) 1))) + B (ix2 0 ((((cfg0.win 3).blk t).view.emb (ix2 p q)) 1))) 0
    rw [h2]
    refine congrArg (fun s => max (s + _) 0) (Finset.sum_congr rfl fun k _ => ?_)
    exact congrArg₂ (· * ·) (congrArg X (h0 k)) (congrArg W (h1 k))
  exact key (V c main_arg0) (V c main_arg3) (V c main_v4)

/-- An index of the output array is in point `t`'s tile iff each coordinate is in the tile's range on its axis. -/
theorem mem_blk0_3 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5).slice (win0_3.rect t)).set ↔ _
  rw [View.set_slice_whole, Rect.mem_set_unit]
  exact Iff.rfl

/-- The tiles cover the array: row `r` is in the tile of point `r / 2000`. -/
theorem cover0_3_arr (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the region's run is `G0` of the arrays as the region finds them. -/
theorem final0_3 (c : Dev nD) :
    (dat0 (F := Ideal) V c).arrAt 3 cfg0.N = Cert.Spec.G0 (V c main_arg0) (V c main_arg3) (V c main_v4) :=
  (dat0 V c).arrAt_eq_of_cover 3 (Cert.Spec.G0 (V c main_arg0) (V c main_arg3) (V c main_v4))
    (fun t _ => flushed0_3_eq V c t) cover0_3_arr

end Cert.KernelIdeal.HandVal

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.LibColumnBroadcast.lean ====
/-
  More layout readings of columns and rows, for arrays of any extents, in the style of the library's layout file:
  the host's `broadcast_in_dim` of a column `[a, 1]` along a second axis to `[a, b]`, of a vector `[a]` to a column
  `[a, 1]` and of a vector `[b]` to a one-row matrix `[1, b]`, each read at an index; and, as whole arrays, a vector
  reshaped to a column (or to a row) is the vector broadcast to that column (or row).
-/
import Idealize.ShloMosaic.Lib.ValueIdx
import Idealize.ShloMosaic.Lib.ValueLayout
import Idealize.ShloMosaic.Lib.Pipeline.Value
import proofs.«111242_j77756087927556_1_alg».proof.Proof.LibColumnLayout

namespace Cert.Gcn.Layout

open Idealize.ShloMosaic Idealize.ShloMosaic.ValueIdx

variable {α : Type} {a b : ℕ}

/-- A column `[a, 1]` broadcast by the host along the features to `[a, b]` reads, at `(p, c)`, the column's entry of row `p`. -/
theorem broadcastInDim_col_apply (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ => rfl

/-- A vector `[a]` broadcast by the host to a column `[a, 1]` reads, at `(i, u)`, the vector's entry `i`. -/
theorem broadcastInDim_a_a1_apply (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) ?_
  intro ax
  match ax with
  | ⟨0, _⟩ =>
    show i.val = if a = 1 then 0 else i.val
    split
    · have := i.isLt; omega
    · rfl

/-- A vector `[b]` broadcast by the host to a one-row matrix `[1, b]` reads, at `(u, c)`, the vector's entry `c`. -/
theorem broadcastInDim_b_1b_apply (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro ax
  match ax with
  | ⟨0, _⟩ =>
    show c.val = if b = 1 then 0 else c.val
    split
    · have := c.isLt; omega
    · rfl

/-- A vector reshaped to a column is the vector broadcast to that column. -/
theorem shapeCast_col_eq_broadcastInDim (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, broadcastInDim_a_a1_apply]

/-- A vector reshaped to a one-row matrix is the vector broadcast to that row. -/
theorem shapeCast_row_eq_broadcastInDim (x : (⟨1, ![b]⟩ : Shape).Idx → α)
    (hs : (⟨1, ![b]⟩ : Shape).ShapeCasts ⟨2, ![1, b]⟩) (hb : (⟨1, ![b]⟩ : Shape).BroadcastsInDim ⟨2, ![1, b]⟩ ![1]) :
    shapeCast ⟨2, ![1, b]⟩ x hs = broadcastInDim ⟨2, ![1, b]⟩ ![1] hb x := by
  funext j
  obtain ⟨u, c, rfl⟩ : ∃ (u : Fin 1) (c : Fin b), j = ix2 u c := ⟨j 0, j 1, eq_ix2 j⟩
  have hu : u = 0 := Subsingleton.elim _ _
  subst hu
  rw [shapeCast_a_1a_apply, broadcastInDim_b_1b_apply]

end Cert.Gcn.Layout
-- ==== Proof.KI.Host0.lean ====
import proofs.«111242_j77756087927556_1_alg».proof.Proof.KI.Run
import proofs.«111242_j77756087927556_1_alg».proof.Proof.KI.Val0
import proofs.«111242_j77756087927556_1_alg».proof.Proof.Spec
import proofs.«111242_j77756087927556_1_alg».proof.Proof.LibColumnBroadcast
import Idealize.ShloMosaic.Lib.StableHlo.Run
import Idealize.ShloMosaic.Lib.ValueLayout
noncomputable section
namespace Cert.KernelIdeal.HandVal
open Cert.KernelIdeal Cert.KernelIdeal.Gen Cert.KernelIdeal.Hand Idealize.ShloMosaic Idealize.ShloMosaic.TcCoe Idealize.ShloMosaic.StableHlo Idealize.ShloMosaic.ValueIdx

/-- The first host stretch leaves the bias, a vector of 256 entries, laid out as one row of 256. -/
theorem host0_v4 (W : Valuation τ sig (Elt Ideal)) :
    after (hostOps0 (F := Ideal)) W (Proc.devRef .tc main_v4) = shapeCast S1x256 (W (Proc.devRef .tc main_arg4)) shapeCasts_S256_S1x256 := by
  after_results
  rfl

/-- It writes neither the node features nor the projection's weights. -/
theorem host0_arg0 (W : Valuation τ sig (Elt Ideal)) : after (hostOps0 (F := Ideal)) W (Proc.devRef .tc main_arg0) = W (Proc.devRef .tc main_arg0) := by after_results
theorem host0_arg3 (W : Valuation τ sig (Elt Ideal)) : after (hostOps0 (F := Ideal)) W (Proc.devRef .tc main_arg3) = W (Proc.devRef .tc main_arg3) := by after_results

/-- A vector of 256 entries laid out as one row is that vector read at the column. -/
theorem row_of_shapeCast (b : FVec Ideal S256 .f32) : (shapeCast S1x256 b shapeCasts_S256_S1x256 : Cert.Spec.Arr2 1 256) = Cert.Spec.row b := by
  funext j
  obtain ⟨u, q, rfl⟩ : ∃ (u : Fin 1) (q : Fin 256), j = ix2 u q := ⟨j 0, j 1, eq_ix2 j⟩
  exact shapeCast_a_1a_apply b shapeCasts_S256_S1x256 u q

variable (m : (ℓ : Loc nD τ sig) → Buf (Elt Ideal) ℓ) (ρ : Dev nD → PrngReg)

/-- After region 0 the projected features: `max (x · Wp + bp) 0`, row by row. -/
theorem W2_v5 (c : Dev nD) : W2 m ρ c (Proc.devRef .tc main_v5)
    = Cert.Spec.G0 (m ((c : Thread nD τ).loc main_arg0)) (m ((c : Thread nD τ).loc main_arg3)) (Cert.Spec.row (m ((c : Thread nD τ).loc main_arg4))) := by
  refine ((W2_arr m ρ c 3).trans (final0_3 (E1 m ρ) c)).trans ?_
  -- the three arrays region 0 reads, as the first host stretch leaves them
  have e0 : E1 m ρ c main_arg0 = m ((c : Thread nD τ).loc main_arg0) := host0_arg0 _
  have e3 : E1 m ρ c main_arg3 = m ((c : Thread nD τ).loc main_arg3) := host0_arg3 _
  have e4 : E1 m ρ c main_v4 = Cert.Spec.row (m ((c : Thread nD τ).loc main_arg4)) := (host0_v4 _).trans (row_of_shapeCast _)
  rw [e0, e3, e4]
end Cert.KernelIdeal.HandVal
end
-- ==== Proof.KI.HostW.lean ====
/- The layout operations of the kernel program's host stretches before and after each layer's matmul region: the
   layer's slices of the stacked weights and rows, read at an index, are `Cert.Spec.layerW` / `Cert.Spec.layerRow`
   of the arguments; and what each stretch leaves untouched. Over any valuation the stretch is entered from. -/
import proofs.«111242_j77756087927556_1_alg».proof.Proof.Gen.KernelIdeal.Launch
import proofs.«111242_j77756087927556_1_alg».proof.Proof.Gen.KernelIdeal.Regions
import proofs.«111242_j77756087927556_1_alg».proof.Proof.Spec
import Idealize.ShloMosaic.Lib.StableHlo.Run
import Idealize.ShloMosaic.Lib.Pipeline.Value
import Idealize.ShloMosaic.Lib.ValueLayout
import Idealize.ShloMosaic.Lib.ValueIdx
noncomputable section
namespace Cert.KernelIdeal.HandVal
open Cert.KernelIdeal Cert.KernelIdeal.Gen Idealize.ShloMosaic Idealize.ShloMosaic.TcCoe Idealize.ShloMosaic.StableHlo Idealize.ShloMosaic.ValueIdx

/-! ## The slices read at an index -/

/-- A unit slice of a rank-3 array along its leading axis reads, at (u, k, j), the array at (o, k, j). -/
theorem sliceLead3_apply {α : Type} {n0 n1 n2 : ℕ} (o : ℕ) (X : (⟨3, ![n0, n1, n2]⟩ : Shape).Idx → α)
    (h : (⟨3, ![n0, n1, n2]⟩ : Shape).Slices ![o, 0, 0] ⟨3, ![1, n1, n2]⟩) (u : Fin 1) (k : Fin n1) (j : Fin n2)
    (l : Fin n0) (hl : l.val = o) :
    extractStridedSlice ⟨3, ![1, n1, n2]⟩ ![o, 0, 0] X h (ix3 u k j) = X (ix3 l k j) :=
  extractStridedSlice_apply ![o, 0, 0] X h (ix3 u k j) (ix3 l k j) (fun a => match a with
    | ⟨0, _⟩ => by show l.val = o + u.val; omega
    | ⟨1, _⟩ => by show k.val = 0 + k.val; omega
    | ⟨2, _⟩ => by show j.val = 0 + j.val; omega)

/-- Layer `l`'s matrix: the unit slice at `l` of a stacked [4, 256, 256] array, its leading axis dropped. -/
theorem layerW_of_slice (o : ℕ) (l : Fin 4) (hl : l.val = o) (w : FVec Ideal S4x256x256 .f32)
    (h : S4x256x256.Slices ![o, 0, 0] S1x256x256) (h' : S1x256x256.ShapeCasts S256x256) :
    (shapeCast S256x256 (extractStridedSlice S1x256x256 ![o, 0, 0] w h) h' : Cert.Spec.Arr2 256 256) = Cert.Spec.layerW l w := by
  funext i
  obtain ⟨k, j, rfl⟩ : ∃ (k : Fin 256) (j : Fin 256), i = ix2 k j := ⟨i 0, i 1, eq_ix2 i⟩
  rw [shapeCast_1ab_ab_apply]
  exact sliceLead3_apply o w h (0 : Fin 1) k j l hl

/-- Layer `l`'s row: the unit slice at `l` of a stacked [4, 256] array, flattened to 256 entries and laid out
    again as one row. -/
theorem layerRow_of_slice (o : ℕ) (l : Fin 4) (hl : l.val = o) (b : FVec Ideal S4x256 .f32)
    (h : S4x256.Slices ![o, 0] S1x256) (h1 : S1x256.ShapeCasts S256) (h2 : S256.ShapeCasts S1x256) :
    (shapeCast S1x256 (shapeCast S256 (extractStridedSlice S1x256 ![o, 0] b h) h1) h2 : Cert.Spec.Arr2 1 256) = Cert.Spec.layerRow l b := by
  funext i
  obtain ⟨u, j, rfl⟩ : ∃ (u : Fin 1) (j : Fin 256), i = ix2 u j := ⟨i 0, i 1, eq_ix2 i⟩
  rw [shapeCast_a_1a_apply, shapeCast_1a_a_apply]
  exact slice2_axis0_apply o b h (0 : Fin 1) j l (by omega)

variable (W : Valuation τ sig (Elt Ideal))

/-! ## Layer 0: the stretch before its matmul region (`hostOps1`) and the one before its normalisation region (`hostOps2`) -/

theorem host1_Wl_ops : after (hostOps1 (F := Ideal)) W (Proc.devRef .tc main_v26)
    = shapeCast S256x256 (extractStridedSlice S1x256x256 ![0, 0, 0] (W (Proc.devRef .tc main_arg5)) slices_S4x256x256_S1x256x256_0_0_0) shapeCasts_S1x256x256_S256x256 := by
  after_results
  rfl
theorem host1_bl_ops : after (hostOps1 (F := Ideal)) W (Proc.devRef .tc main_v31)
    = shapeCast S1x256 (shapeCast S256 (extractStridedSlice S1x256 ![0, 0] (W (Proc.devRef .tc main_arg6)) slices_S4x256_S1x256_0_0) shapeCasts_S1x256_S256) shapeCasts_S256_S1x256 := by
  after_results
  rfl
theorem host1_Wr_ops : after (hostOps1 (F := Ideal)) W (Proc.devRef .tc main_v30)
    = shapeCast S256x256 (extractStridedSlice S1x256x256 ![0, 0, 0] (W (Proc.devRef .tc main_arg7)) slices_S4x256x256_S1x256x256_0_0_0) shapeCasts_S1x256x256_S256x256 := by
  after_results
  rfl
theorem host2_gamma_ops : after (hostOps2 (F := Ideal)) W (Proc.devRef .tc main_v37)
    = shapeCast S1x256 (shapeCast S256 (extractStridedSlice S1x256 ![0, 0] (W (Proc.devRef .tc main_arg8)) slices_S4x256_S1x256_0_0) shapeCasts_S1x256_S256) shapeCasts_S256_S1x256 := by
  after_results
  rfl
theorem host2_beta_ops : after (hostOps2 (F := Ideal)) W (Proc.devRef .tc main_v38)
    = shapeCast S1x256 (shapeCast S256 (extractStridedSlice S1x256 ![0, 0] (W (Proc.devRef .tc main_arg9)) slices_S4x256_S1x256_0_0) shapeCasts_S1x256_S256) shapeCasts_S256_S1x256 := by
  after_results
  rfl

/-- Layer 0's `Wl`, `bl` (as a row) and `Wr` as the stretch leaves them: the layer's slices of the arguments. -/
theorem host1_Wl : after (hostOps1 (F := Ideal)) W (Proc.devRef .tc main_v26) = Cert.Spec.layerW 0 (W (Proc.devRef .tc main_arg5)) :=
  (host1_Wl_ops W).trans (layerW_of_slice 0 0 rfl _ _ _)
theorem host1_bl : after (hostOps1 (F := Ideal)) W (Proc.devRef .tc main_v31) = Cert.Spec.layerRow 0 (W (Proc.devRef .tc main_arg6)) :=
  (host1_bl_ops W).trans (layerRow_of_slice 0 0 rfl _ _ _ _)
theorem host1_Wr : after (hostOps1 (F := Ideal)) W (Proc.devRef .tc main_v30) = Cert.Spec.layerW 0 (W (Proc.devRef .tc main_arg7)) :=
  (host1_Wr_ops W).trans (layerW_of_slice 0 0 rfl _ _ _)
/-- Layer 0's `gamma` and `beta` as rows. -/
theorem host2_gamma : after (hostOps2 (F := Ideal)) W (Proc.devRef .tc main_v37) = Cert.Spec.layerRow 0 (W (Proc.devRef .tc main_arg8)) :=
  (host2_gamma_ops W).trans (layerRow_of_slice 0 0 rfl _ _ _ _)
theorem host2_beta : after (hostOps2 (F := Ideal)) W (Proc.devRef .tc main_v38) = Cert.Spec.layerRow 0 (W (Proc.devRef .tc main_arg9)) :=
  (host2_beta_ops W).trans (layerRow_of_slice 0 0 rfl _ _ _ _)

/-- What the two stretches leave untouched: any reference they do not write, -/
theorem host1_keeps (r : Ref sig .tc) (h : r ∉ hostOps1_W) : after (hostOps1 (F := Ideal)) W (Proc.devRef .tc r) = W (Proc.devRef .tc r) :=
  StableHlo.after_of_writes_sub hostOps1 W hostOps1_writes h
theorem host2_keeps (r : Ref sig .tc) (h : r ∉ hostOps2_W) : after (hostOps2 (F := Ideal)) W (Proc.devRef .tc r) = W (Proc.devRef .tc r) :=
  StableHlo.after_of_writes_sub hostOps2 W hostOps2_writes h
/-- in particular the layer's input features and the matmul region's three outputs. -/
theorem host1_h : after (hostOps1 (F := Ideal)) W (Proc.devRef .tc main_v5) = W (Proc.devRef .tc main_v5) := host1_keeps W main_v5 (by decide)
theorem host2_h : after (hostOps2 (F := Ideal)) W (Proc.devRef .tc main_v5) = W (Proc.devRef .tc main_v5) := host2_keeps W main_v5 (by decide)
theorem host2_hn : after (hostOps2 (F := Ideal)) W (Proc.devRef .tc main_v32_0) = W (Proc.devRef .tc main_v32_0) := host2_keeps W main_v32_0 (by decide)
theorem host2_S : after (hostOps2 (F := Ideal)) W (Proc.devRef .tc main_v32_1) = W (Proc.devRef .tc main_v32_1) := host2_keeps W main_v32_1 (by decide)
theorem host2_Q : after (hostOps2 (F := Ideal)) W (Proc.devRef .tc main_v32_2) = W (Proc.devRef .tc main_v32_2) := host2_keeps W main_v32_2 (by decide)

/-! ## Layer 1: the stretch before its matmul region (`hostOps3`) and the one before its normalisation region (`hostOps4`) -/

theorem host3_Wl_ops : after (hostOps3 (F := Ideal)) W (Proc.devRef .tc main_v53)
    = shapeCast S256x256 (extractStridedSlice S1x256x256 ![1, 0, 0] (W (Proc.devRef .tc main_arg5)) slices_S4x256x256_S1x256x256_1_0_0) shapeCasts_S1x256x256_S256x256 := by
  after_results
  rfl
theorem host3_bl_ops : after (hostOps3 (F := Ideal)) W (Proc.devRef .tc main_v58)
    = shapeCast S1x256 (shapeCast S256 (extractStridedSlice S1x256 ![1, 0] (W (Proc.devRef .tc main_arg6)) slices_S4x256_S1x256_1_0) shapeCasts_S1x256_S256) shapeCasts_S256_S1x256 := by
  after_results
  rfl
theorem host3_Wr_ops : after (hostOps3 (F := Ideal)) W (Proc.devRef .tc main_v57)
    = shapeCast S256x256 (extractStridedSlice S1x256x256 ![1, 0, 0] (W (Proc.devRef .tc main_arg7)) slices_S4x256x256_S1x256x256_1_0_0) shapeCasts_S1x256x256_S256x256 := by
  after_results
  rfl
theorem host4_gamma_ops : after (hostOps4 (F := Ideal)) W (Proc.devRef .tc main_v64)
    = shapeCast S1x256 (shapeCast S256 (extractStridedSlice S1x256 ![1, 0] (W (Proc.devRef .tc main_arg8)) slices_S4x256_S1x256_1_0) shapeCasts_S1x256_S256) shapeCasts_S256_S1x256 := by
  after_results
  rfl
theorem host4_beta_ops : after (hostOps4 (F := Ideal)) W (Proc.devRef .tc main_v65)
    = shapeCast S1x256 (shapeCast S256 (extractStridedSlice S1x256 ![1, 0] (W (Proc.devRef .tc main_arg9)) slices_S4x256_S1x256_1_0) shapeCasts_S1x256_S256) shapeCasts_S256_S1x256 := by
  after_results
  rfl

/-- Layer 1's `Wl`, `bl` (as a row) and `Wr` as the stretch leaves them: the layer's slices of the arguments. -/
theorem host3_Wl : after (hostOps3 (F := Ideal)) W (Proc.devRef .tc main_v53) = Cert.Spec.layerW 1 (W (Proc.devRef .tc main_arg5)) :=
  (host3_Wl_ops W).trans (layerW_of_slice 1 1 rfl _ _ _)
theorem host3_bl : after (hostOps3 (F := Ideal)) W (Proc.devRef .tc main_v58) = Cert.Spec.layerRow 1 (W (Proc.devRef .tc main_arg6)) :=
  (host3_bl_ops W).trans (layerRow_of_slice 1 1 rfl _ _ _ _)
theorem host3_Wr : after (hostOps3 (F := Ideal)) W (Proc.devRef .tc main_v57) = Cert.Spec.layerW 1 (W (Proc.devRef .tc main_arg7)) :=
  (host3_Wr_ops W).trans (layerW_of_slice 1 1 rfl _ _ _)
/-- Layer 1's `gamma` and `beta` as rows. -/
theorem host4_gamma : after (hostOps4 (F := Ideal)) W (Proc.devRef .tc main_v64) = Cert.Spec.layerRow 1 (W (Proc.devRef .tc main_arg8)) :=
  (host4_gamma_ops W).trans (layerRow_of_slice 1 1 rfl _ _ _ _)
theorem host4_beta : after (hostOps4 (F := Ideal)) W (Proc.devRef .tc main_v65) = Cert.Spec.layerRow 1 (W (Proc.devRef .tc main_arg9)) :=
  (host4_beta_ops W).trans (layerRow_of_slice 1 1 rfl _ _ _ _)

/-- What the two stretches leave untouched: any reference they do not write, -/
theorem host3_keeps (r : Ref sig .tc) (h : r ∉ hostOps3_W) : after (hostOps3 (F := Ideal)) W (Proc.devRef .tc r) = W (Proc.devRef .tc r) :=
  StableHlo.after_of_writes_sub hostOps3 W hostOps3_writes h
theorem host4_keeps (r : Ref sig .tc) (h : r ∉ hostOps4_W) : after (hostOps4 (F := Ideal)) W (Proc.devRef .tc r) = W (Proc.devRef .tc r) :=
  StableHlo.after_of_writes_sub hostOps4 W hostOps4_writes h
/-- in particular the layer's input features and the matmul region's three outputs. -/
theorem host3_h : after (hostOps3 (F := Ideal)) W (Proc.devRef .tc main_v39) = W (Proc.devRef .tc main_v39) := host3_keeps W main_v39 (by decide)
theorem host4_h : after (hostOps4 (F := Ideal)) W (Proc.devRef .tc main_v39) = W (Proc.devRef .tc main_v39) := host4_keeps W main_v39 (by decide)
theorem host4_hn : after (hostOps4 (F := Ideal)) W (Proc.devRef .tc main_v59_0) = W (Proc.devRef .tc main_v59_0) := host4_keeps W main_v59_0 (by decide)
theorem host4_S : after (hostOps4 (F := Ideal)) W (Proc.devRef .tc main_v59_1) = W (Proc.devRef .tc main_v59_1) := host4_keeps W main_v59_1 (by decide)
theorem host4_Q : after (hostOps4 (F := Ideal)) W (Proc.devRef .tc main_v59_2) = W (Proc.devRef .tc main_v59_2) := host4_keeps W main_v59_2 (by decide)

/-! ## Layer 2: the stretch before its matmul region (`hostOps5`) and the one before its normalisation region (`hostOps6`) -/

theorem host5_Wl_ops : after (hostOps5 (F := Ideal)) W (Proc.devRef .tc main_v80)
    = shapeCast S256x256 (extractStridedSlice S1x256x256 ![2, 0, 0] (W (Proc.devRef .tc main_arg5)) slices_S4x256x256_S1x256x256_2_0_0) shapeCasts_S1x256x256_S256x256 := by
  after_results
  rfl
theorem host5_bl_ops : after (hostOps5 (F := Ideal)) W (Proc.devRef .tc main_v85)
    = shapeCast S1x256 (shapeCast S256 (extractStridedSlice S1x256 ![2, 0] (W (Proc.devRef .tc main_arg6)) slices_S4x256_S1x256_2_0) shapeCasts_S1x256_S256) shapeCasts_S256_S1x256 := by
  after_results
  rfl
theorem host5_Wr_ops : after (hostOps5 (F := Ideal)) W (Proc.devRef .tc main_v84)
    = shapeCast S256x256 (extractStridedSlice S1x256x256 ![2, 0, 0] (W (Proc.devRef .tc main_arg7)) slices_S4x256x256_S1x256x256_2_0_0) shapeCasts_S1x256x256_S256x256 := by
  after_results
  rfl
theorem host6_gamma_ops : after (hostOps6 (F := Ideal)) W (Proc.devRef .tc main_v91)
    = shapeCast S1x256 (shapeCast S256 (extractStridedSlice S1x256 ![2, 0] (W (Proc.devRef .tc main_arg8)) slices_S4x256_S1x256_2_0) shapeCasts_S1x256_S256) shapeCasts_S256_S1x256 := by
  after_results
  rfl
theorem host6_beta_ops : after (hostOps6 (F := Ideal)) W (Proc.devRef .tc main_v92)
    = shapeCast S1x256 (shapeCast S256 (extractStridedSlice S1x256 ![2, 0] (W (Proc.devRef .tc main_arg9)) slices_S4x256_S1x256_2_0) shapeCasts_S1x256_S256) shapeCasts_S256_S1x256 := by
  after_results
  rfl

/-- Layer 2's `Wl`, `bl` (as a row) and `Wr` as the stretch leaves them: the layer's slices of the arguments. -/
theorem host5_Wl : after (hostOps5 (F := Ideal)) W (Proc.devRef .tc main_v80) = Cert.Spec.layerW 2 (W (Proc.devRef .tc main_arg5)) :=
  (host5_Wl_ops W).trans (layerW_of_slice 2 2 rfl _ _ _)
theorem host5_bl : after (hostOps5 (F := Ideal)) W (Proc.devRef .tc main_v85) = Cert.Spec.layerRow 2 (W (Proc.devRef .tc main_arg6)) :=
  (host5_bl_ops W).trans (layerRow_of_slice 2 2 rfl _ _ _ _)
theorem host5_Wr : after (hostOps5 (F := Ideal)) W (Proc.devRef .tc main_v84) = Cert.Spec.layerW 2 (W (Proc.devRef .tc main_arg7)) :=
  (host5_Wr_ops W).trans (layerW_of_slice 2 2 rfl _ _ _)
/-- Layer 2's `gamma` and `beta` as rows. -/
theorem host6_gamma : after (hostOps6 (F := Ideal)) W (Proc.devRef .tc main_v91) = Cert.Spec.layerRow 2 (W (Proc.devRef .tc main_arg8)) :=
  (host6_gamma_ops W).trans (layerRow_of_slice 2 2 rfl _ _ _ _)
theorem host6_beta : after (hostOps6 (F := Ideal)) W (Proc.devRef .tc main_v92) = Cert.Spec.layerRow 2 (W (Proc.devRef .tc main_arg9)) :=
  (host6_beta_ops W).trans (layerRow_of_slice 2 2 rfl _ _ _ _)

/-- What the two stretches leave untouched: any reference they do not write, -/
theorem host5_keeps (r : Ref sig .tc) (h : r ∉ hostOps5_W) : after (hostOps5 (F := Ideal)) W (Proc.devRef .tc r) = W (Proc.devRef .tc r) :=
  StableHlo.after_of_writes_sub hostOps5 W hostOps5_writes h
theorem host6_keeps (r : Ref sig .tc) (h : r ∉ hostOps6_W) : after (hostOps6 (F := Ideal)) W (Proc.devRef .tc r) = W (Proc.devRef .tc r) :=
  StableHlo.after_of_writes_sub hostOps6 W hostOps6_writes h
/-- in particular the layer's input features and the matmul region's three outputs. -/
theorem host5_h : after (hostOps5 (F := Ideal)) W (Proc.devRef .tc main_v66) = W (Proc.devRef .tc main_v66) := host5_keeps W main_v66 (by decide)
theorem host6_h : after (hostOps6 (F := Ideal)) W (Proc.devRef .tc main_v66) = W (Proc.devRef .tc main_v66) := host6_keeps W main_v66 (by decide)
theorem host6_hn : after (hostOps6 (F := Ideal)) W (Proc.devRef .tc main_v86_0) = W (Proc.devRef .tc main_v86_0) := host6_keeps W main_v86_0 (by decide)
theorem host6_S : after (hostOps6 (F := Ideal)) W (Proc.devRef .tc main_v86_1) = W (Proc.devRef .tc main_v86_1) := host6_keeps W main_v86_1 (by decide)
theorem host6_Q : after (hostOps6 (F := Ideal)) W (Proc.devRef .tc main_v86_2) = W (Proc.devRef .tc main_v86_2) := host6_keeps W main_v86_2 (by decide)

/-! ## Layer 3: the stretch before its matmul region (`hostOps7`) and the one before its normalisation region (`hostOps8`) -/

theorem host7_Wl_ops : after (hostOps7 (F := Ideal)) W (Proc.devRef .tc main_v107)
    = shapeCast S256x256 (extractStridedSlice S1x256x256 ![3, 0, 0] (W (Proc.devRef .tc main_arg5)) slices_S4x256x256_S1x256x256_3_0_0) shapeCasts_S1x256x256_S256x256 := by
  after_results
  rfl
theorem host7_bl_ops : after (hostOps7 (F := Ideal)) W (Proc.devRef .tc main_v112)
    = shapeCast S1x256 (shapeCast S256 (extractStridedSlice S1x256 ![3, 0] (W (Proc.devRef .tc main_arg6)) slices_S4x256_S1x256_3_0) shapeCasts_S1x256_S256) shapeCasts_S256_S1x256 := by
  after_results
  rfl
theorem host7_Wr_ops : after (hostOps7 (F := Ideal)) W (Proc.devRef .tc main_v111)
    = shapeCast S256x256 (extractStridedSlice S1x256x256 ![3, 0, 0] (W (Proc.devRef .tc main_arg7)) slices_S4x256x256_S1x256x256_3_0_0) shapeCasts_S1x256x256_S256x256 := by
  after_results
  rfl
theorem host8_gamma_ops : after (hostOps8 (F := Ideal)) W (Proc.devRef .tc main_v118)
    = shapeCast S1x256 (shapeCast S256 (extractStridedSlice S1x256 ![3, 0] (W (Proc.devRef .tc main_arg8)) slices_S4x256_S1x256_3_0) shapeCasts_S1x256_S256) shapeCasts_S256_S1x256 := by
  after_results
  rfl
theorem host8_beta_ops : after (hostOps8 (F := Ideal)) W (Proc.devRef .tc main_v119)
    = shapeCast S1x256 (shapeCast S256 (extractStridedSlice S1x256 ![3, 0] (W (Proc.devRef .tc main_arg9)) slices_S4x256_S1x256_3_0) shapeCasts_S1x256_S256) shapeCasts_S256_S1x256 := by
  after_results
  rfl

/-- Layer 3's `Wl`, `bl` (as a row) and `Wr` as the stretch leaves them: the layer's slices of the arguments. -/
theorem host7_Wl : after (hostOps7 (F := Ideal)) W (Proc.devRef .tc main_v107) = Cert.Spec.layerW 3 (W (Proc.devRef .tc main_arg5)) :=
  (host7_Wl_ops W).trans (layerW_of_slice 3 3 rfl _ _ _)
theorem host7_bl : after (hostOps7 (F := Ideal)) W (Proc.devRef .tc main_v112) = Cert.Spec.layerRow 3 (W (Proc.devRef .tc main_arg6)) :=
  (host7_bl_ops W).trans (layerRow_of_slice 3 3 rfl _ _ _ _)
theorem host7_Wr : after (hostOps7 (F := Ideal)) W (Proc.devRef .tc main_v111) = Cert.Spec.layerW 3 (W (Proc.devRef .tc main_arg7)) :=
  (host7_Wr_ops W).trans (layerW_of_slice 3 3 rfl _ _ _)
/-- Layer 3's `gamma` and `beta` as rows. -/
theorem host8_gamma : after (hostOps8 (F := Ideal)) W (Proc.devRef .tc main_v118) = Cert.Spec.layerRow 3 (W (Proc.devRef .tc main_arg8)) :=
  (host8_gamma_ops W).trans (layerRow_of_slice 3 3 rfl _ _ _ _)
theorem host8_beta : after (hostOps8 (F := Ideal)) W (Proc.devRef .tc main_v119) = Cert.Spec.layerRow 3 (W (Proc.devRef .tc main_arg9)) :=
  (host8_beta_ops W).trans (layerRow_of_slice 3 3 rfl _ _ _ _)

/-- What the two stretches leave untouched: any reference they do not write, -/
theorem host7_keeps (r : Ref sig .tc) (h : r ∉ hostOps7_W) : after (hostOps7 (F := Ideal)) W (Proc.devRef .tc r) = W (Proc.devRef .tc r) :=
  StableHlo.after_of_writes_sub hostOps7 W hostOps7_writes h
theorem host8_keeps (r : Ref sig .tc) (h : r ∉ hostOps8_W) : after (hostOps8 (F := Ideal)) W (Proc.devRef .tc r) = W (Proc.devRef .tc r) :=
  StableHlo.after_of_writes_sub hostOps8 W hostOps8_writes h
/-- in particular the layer's input features and the matmul region's three outputs. -/
theorem host7_h : after (hostOps7 (F := Ideal)) W (Proc.devRef .tc main_v93) = W (Proc.devRef .tc main_v93) := host7_keeps W main_v93 (by decide)
theorem host8_h : after (hostOps8 (F := Ideal)) W (Proc.devRef .tc main_v93) = W (Proc.devRef .tc main_v93) := host8_keeps W main_v93 (by decide)
theorem host8_hn : after (hostOps8 (F := Ideal)) W (Proc.devRef .tc main_v113_0) = W (Proc.devRef .tc main_v113_0) := host8_keeps W main_v113_0 (by decide)
theorem host8_S : after (hostOps8 (F := Ideal)) W (Proc.devRef .tc main_v113_1) = W (Proc.devRef .tc main_v113_1) := host8_keeps W main_v113_1 (by decide)
theorem host8_Q : after (hostOps8 (F := Ideal)) W (Proc.devRef .tc main_v113_2) = W (Proc.devRef .tc main_v113_2) := host8_keeps W main_v113_2 (by decide)

end Cert.KernelIdeal.HandVal
end
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.LibGatherScatterRows.lean ====
/-
  Row gathers and row scatters read at an index: `stablehlo.gather` / `"stablehlo.scatter"` along axis 0 of a one- or
  two-axis operand with a column `[E, 1]` of start indices (collapsed / inserted axis 0, start index map `[0]`, index
  vector on axis 1, no batching axes). A gathered element is the operand's at the start index read signed and clamped
  into the rows (`clampRow`); an update lands on row `r` exactly when its scatter index, read signed, is `r`.
  Stated for arbitrary dimension-number records over literal shapes, the records' fields as hypotheses.
-/
import Idealize.ShloMosaic.Lib.ValueIdx

namespace Idealize.ShloMosaic.GatherScatterRows

open Idealize.ShloMosaic Idealize.ShloMosaic.ValueIdx

/-- A start index read signed and clamped into the rows `[0, N − 1]`. -/
def clampRow {w : Nat} (N : Nat) (v : BitVec w) : Nat := min v.toInt.toNat (N - 1)

/-- The clamped row is a row. -/
theorem clampRow_lt {w : Nat} {N : Nat} (hN : 0 < N) (v : BitVec w) : clampRow N v < N := by
  unfold clampRow; omega

/-- **A row gather of a two-axis operand, read at an index.** `stablehlo.gather` of an operand `[N, C]` at start
    indices `[E, 1]` with offset_dims `[1]`, collapsed_slice_dims `[0]`, start_index_map `[0]`, index_vector_dim 1 and
    no batching axes: result element `(e, k)` is the operand at row `idx[e, 0]` (read signed, clamped into
    `[0, N − 1]`) and column `k`. -/
theorem gather_rows2_apply {α : Type} {N C E w : Nat} (hN : 0 < N)
    (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (x : (⟨2, ![N, C]⟩ : Shape).Idx → α) (idx : IVec ⟨2, ![E, 1]⟩ w) (y : (⟨2, ![E, C]⟩ : Shape).Idx) :
    Host.gather d x idx y = x (ix2 ⟨clampRow N (idx (ix2 (y 0) 0)), clampRow_lt hN _⟩ (y 1)) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![E, 1]⟩) (t := ⟨2, ![E, C]⟩)
        ⟨[1], [0], [], [], [0], 1, ss, wf⟩ y ⟨List.idxOf (0 : Fin 2) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨2, ![N, C]⟩) (si := ⟨2, ![E, 1]⟩) (t := ⟨2, ![E, C]⟩)
        ⟨[1], [0], [], [], [0], 1, ss, wf⟩ y ⟨List.idxOf (0 : Fin 2) [0], _⟩)).toInt.toNat (N - ss 0) = _
    rw [hsi, hs0]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

/-- **A row gather of a one-axis operand, read at an index.** `stablehlo.gather` of an operand `[N]` at start indices
    `[E, 1]` with offset_dims `[]`, collapsed_slice_dims `[0]`, start_index_map `[0]`, index_vector_dim 1 and no
    batching axes: result element `e` is the operand at `idx[e, 0]`, read signed and clamped into `[0, N − 1]`. -/
theorem gather_rows1_apply {α : Type} {N E w : Nat} (hN : 0 < N)
    (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (x : (⟨1, ![N]⟩ : Shape).Idx → α) (idx : IVec ⟨2, ![E, 1]⟩ w) (y : (⟨1, ![E]⟩ : Shape).Idx) :
    Host.gather d x idx y = x (ix1 ⟨clampRow N (idx (ix2 (y 0) 0)), clampRow_lt hN _⟩) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨1, ![N]⟩) (si := ⟨2, ![E, 1]⟩) (t := ⟨1, ![E]⟩)
        ⟨[], [0], [], [], [0], 1, ss, wf⟩ y ⟨List.idxOf (0 : Fin 1) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨1, ![N]⟩) (si := ⟨2, ![E, 1]⟩) (t := ⟨1, ![E]⟩)
        ⟨[], [0], [], [], [0], 1, ss, wf⟩ y ⟨List.idxOf (0 : Fin 1) [0], _⟩)).toInt.toNat (N - ss 0) = _
    rw [hsi, hs0]
    rfl

/-- An axis is kept exactly when it is not one of the removed axes. -/
theorem mem_kept {s : Shape} (axes : List (Fin s.rank)) (a : Fin s.rank) : a ∈ s.kept axes ↔ a ∉ axes := by
  simp [Shape.kept, List.mem_filter, List.mem_finRange]

/-- An axis of a two-axis shape is axis 0 or axis 1. -/
theorem axis2_cases {sz : Fin 2 → Nat} (a : Fin (Shape.rank ⟨2, sz⟩)) : a = 0 ∨ a = 1 := by
  rcases a with ⟨_ | _ | n, h⟩
  · exact Or.inl rfl
  · exact Or.inr rfl
  · exact absurd h (by show ¬ (n + 2 < 2); omega)

/-- **Where a row scatter of a two-axis operand lands.** For `stablehlo.scatter` into an operand `[N, C]` at scatter
    indices `[E, 1]` with updates `[E, C]`, update_window_dims `[1]`, inserted_window_dims `[0]`,
    scatter_dims_to_operand_dims `[0]` and index_vector_dim 1: update `(e, k)` lands at operand index `i` exactly
    when its scatter index `idx[e, 0]`, read signed, is `i`'s row (so it is a row: not negative, below `N`) and `k` is
    `i`'s column. -/
theorem scatter_rows2_resultIdx {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (idx : IVec ⟨2, ![E, 1]⟩ w) (j : (⟨2, ![E, C]⟩ : Shape).Idx) (i : (⟨2, ![N, C]⟩ : Shape).Idx) :
    d.resultIdx? j idx = some i ↔ ((idx (ix2 (j 0) 0)).toInt = ((i 0).val : Int) ∧ j 1 = i 1) := by
  obtain ⟨uw, iw, sd, iv, wf⟩ := d
  dsimp only at hu hi hs hv
  subst hu hi hs hv
  have hst0 : ScatterDims.start (s := ⟨2, ![N, C]⟩) (si := ⟨2, ![E, 1]⟩) (u := ⟨2, ![E, C]⟩) ⟨[1], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hst1 : ScatterDims.start (s := ⟨2, ![N, C]⟩) (si := ⟨2, ![E, 1]⟩) (u := ⟨2, ![E, C]⟩) ⟨[1], [0], [0], 1, wf⟩ j idx 1 = 0 := by
    unfold ScatterDims.start
    rw [dif_neg (fun h => absurd (congrArg Fin.val (List.mem_singleton.mp h)) Nat.one_ne_zero)]
  have hw0 : ScatterDims.window (s := ⟨2, ![N, C]⟩) (si := ⟨2, ![E, 1]⟩) (u := ⟨2, ![E, C]⟩) ⟨[1], [0], [0], 1, wf⟩ j 0 = 0 := by
    unfold ScatterDims.window
    rw [dif_neg (fun h => (mem_kept _ _).mp h (List.mem_singleton.mpr rfl))]
  have hw1 : ScatterDims.window (s := ⟨2, ![N, C]⟩) (si := ⟨2, ![E, 1]⟩) (u := ⟨2, ![E, C]⟩) ⟨[1], [0], [0], 1, wf⟩ j 1 = (j 1).val := by
    unfold ScatterDims.window
    rw [dif_pos ((mem_kept _ _).mpr (fun h => absurd (congrArg Fin.val (List.mem_singleton.mp h)) Nat.one_ne_zero))]
    rfl
  have hi0 : (i 0).val < N := (i 0).isLt
  have hi1 : (i 1).val < C := (i 1).isLt
  have hj1 : (j 1).val < C := (j 1).isLt
  unfold ScatterDims.resultIdx?
  constructor
  · intro h
    split at h
    · rename_i hall
      have h' := Option.some.inj h
      have e0 : (ScatterDims.start (s := ⟨2, ![N, C]⟩) (si := ⟨2, ![E, 1]⟩) (u := ⟨2, ![E, C]⟩) ⟨[1], [0], [0], 1, wf⟩ j idx 0 + (ScatterDims.window (s := ⟨2, ![N, C]⟩) (si := ⟨2, ![E, 1]⟩) (u := ⟨2, ![E, C]⟩) ⟨[1], [0], [0], 1, wf⟩ j 0 : Nat)).toNat = (i 0).val := congrArg Fin.val (congrFun h' 0)
      have e1 : (ScatterDims.start (s := ⟨2, ![N, C]⟩) (si := ⟨2, ![E, 1]⟩) (u := ⟨2, ![E, C]⟩) ⟨[1], [0], [0], 1, wf⟩ j idx 1 + (ScatterDims.window (s := ⟨2, ![N, C]⟩) (si := ⟨2, ![E, 1]⟩) (u := ⟨2, ![E, C]⟩) ⟨[1], [0], [0], 1, wf⟩ j 1 : Nat)).toNat = (i 1).val := congrArg Fin.val (congrFun h' 1)
      have c0 := (hall 0).1
      rw [hst0, hw0] at e0 c0
      rw [hst1, hw1] at e1
      refine ⟨by omega, Fin.ext (by omega)⟩
    · exact absurd h (by simp)
  · rintro ⟨h0, h1⟩
    have h1' : (j 1).val = (i 1).val := congrArg Fin.val h1
    have hall : ∀ a, 0 ≤ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) ∧ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) < ((⟨2, ![N, C]⟩ : Shape).size a : Nat) := by
      intro a
      rcases axis2_cases a with rfl | rfl
      · rw [hst0, hw0]
        show 0 ≤ (idx (ix2 (j 0) 0)).toInt + ((0 : Nat) : Int) ∧ (idx (ix2 (j 0) 0)).toInt + ((0 : Nat) : Int) < (N : Int)
        omega
      · rw [hst1, hw1]
        show 0 ≤ (0 : Int) + ((j 1).val : Int) ∧ (0 : Int) + ((j 1).val : Int) < (C : Int)
        omega
    rw [dif_pos hall]
    refine congrArg some (funext fun a => Fin.ext ?_)
    rcases axis2_cases a with rfl | rfl
    · dsimp only
      rw [hst0, hw0]
      omega
    · dsimp only
      rw [hst1, hw1]
      omega

/-- A one-axis shape's only axis is axis 0. -/
theorem axis1_cases {sz : Fin 1 → Nat} (a : Fin (Shape.rank ⟨1, sz⟩)) : a = 0 := by
  rcases a with ⟨_ | n, h⟩
  · rfl
  · exact absurd h (by show ¬ (n + 1 < 1); omega)

/-- **Where a row scatter of a one-axis operand lands.** For `stablehlo.scatter` into an operand `[N]` at scatter
    indices `[E, 1]` with updates `[E]`, update_window_dims `[]`, inserted_window_dims `[0]`,
    scatter_dims_to_operand_dims `[0]` and index_vector_dim 1: update `e` lands at operand index `i` exactly when its
    scatter index `idx[e, 0]`, read signed, is `i` (so it is an index: not negative, below `N`). -/
theorem scatter_rows1_resultIdx {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w) (j : (⟨1, ![E]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  dsimp only at hu hi hs hv
  subst hu hi hs hv
  have hst0 : ScatterDims.start (s := ⟨1, ![N]⟩) (si := ⟨2, ![E, 1]⟩) (u := ⟨1, ![E]⟩) ⟨[], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hw0 : ScatterDims.window (s := ⟨1, ![N]⟩) (si := ⟨2, ![E, 1]⟩) (u := ⟨1, ![E]⟩) ⟨[], [0], [0], 1, wf⟩ j 0 = 0 := by
    unfold ScatterDims.window
    rw [dif_neg (fun h => (mem_kept _ _).mp h (List.mem_singleton.mpr rfl))]
  have hi0 : (i 0).val < N := (i 0).isLt
  unfold ScatterDims.resultIdx?
  constructor
  · intro h
    split at h
    · rename_i hall
      have h' := Option.some.inj h
      have e0 : (ScatterDims.start (s := ⟨1, ![N]⟩) (si := ⟨2, ![E, 1]⟩) (u := ⟨1, ![E]⟩) ⟨[], [0], [0], 1, wf⟩ j idx 0 + (ScatterDims.window (s := ⟨1, ![N]⟩) (si := ⟨2, ![E, 1]⟩) (u := ⟨1, ![E]⟩) ⟨[], [0], [0], 1, wf⟩ j 0 : Nat)).toNat = (i 0).val := congrArg Fin.val (congrFun h' 0)
      have c0 := (hall 0).1
      rw [hst0, hw0] at e0 c0
      omega
    · exact absurd h (by simp)
  · intro h0
    have hall : ∀ a, 0 ≤ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) ∧ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) < ((⟨1, ![N]⟩ : Shape).size a : Nat) := by
      intro a
      obtain rfl := axis1_cases a
      rw [hst0, hw0]
      show 0 ≤ (idx (ix2 (j 0) 0)).toInt + ((0 : Nat) : Int) ∧ (idx (ix2 (j 0) 0)).toInt + ((0 : Nat) : Int) < (N : Int)
      omega
    rw [dif_pos hall]
    refine congrArg some (funext fun a => Fin.ext ?_)
    obtain rfl := axis1_cases a
    dsimp only
    rw [hst0, hw0]
    omega

end Idealize.ShloMosaic.GatherScatterRows
-- ==== Proof.HostReal.lean ====
/-
  Real entries through the host operations around the layers: a row gather of an array with real entries has real
  entries (every gathered element IS an element of the operand, the start index clamped into the rows); a
  scatter-add of real updates into an array with real entries has real entries (an operand entry plus a finite sum
  of updates); and the clamped in-degree — a scatter-add of ones into zeros, floored at one — is a real at least one,
  so a quotient by it is real.
-/
import proofs.«111242_j77756087927556_1_alg».proof.Proof.Spec
import proofs.«111242_j77756087927556_1_alg».proof.Proof.LibGatherScatterRows

noncomputable section

namespace Cert.Spec

open Idealize.ShloMosaic Idealize.ShloMosaic.ValueIdx Idealize.ShloMosaic.GatherScatterRows
open scoped BigOperators

/-- A scatter-add of real updates into real entries has real entries. -/
theorem scatterAdd_real {s si su : Shape} {w : ℕ} (d : ScatterDims s si su) (x : FVec Ideal s .f32) (idx : IVec si w)
    (upd : FVec Ideal su .f32) (hx : IsReal x) (hu : IsReal upd) : IsReal (Host.scatterAdd d x idx upd) := fun i => by
  have e : Host.scatterAdd d x idx upd i = Ideal.hostScatterAdd d x idx upd i := rfl
  rw [e]; unfold Ideal.hostScatterAdd
  exact real_add (hx i) (real_sum _ _ hu)

/-- A scatter-add of non-negative real updates into non-negative real entries has non-negative real entries. -/
theorem scatterAdd_real_nonneg {s si su : Shape} {w : ℕ} (d : ScatterDims s si su) (x : FVec Ideal s .f32)
    (idx : IVec si w) (upd : FVec Ideal su .f32) (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Host.scatterAdd d x idx upd i = (r : EReal) := by
  have e : Host.scatterAdd d x idx upd i = Ideal.hostScatterAdd d x idx upd i := rfl
  rw [e]; unfold Ideal.hostScatterAdd
  obtain ⟨a, ha, hxa⟩ := hx i
  obtain ⟨b, hb, hsb⟩ := real_sum_nonneg (Finset.univ.filter (fun j => d.resultIdx? j idx = some i)) upd hu
  exact ⟨a + b, add_nonneg ha hb, by rw [hxa, hsb, EReal.coe_add]⟩

/-- A row gather of an array with real entries has real entries. -/
theorem gather_rows_real {N C E w : ℕ} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (x : FVec Ideal ⟨2, ![N, C]⟩ .f32) (idx : IVec ⟨2, ![E, 1]⟩ w) (hx : IsReal x) :
    IsReal (Host.gather d x idx) := fun y => by
  rw [gather_rows2_apply hN d ho hc hb hsb hm hv x idx y]; exact hx _

/-- A real floored at one is a real at least one. -/
theorem real_max_one {x : EReal} (hx : ∃ r : ℝ, x = r) : ∃ r : ℝ, 1 ≤ r ∧ max x 1 = (r : EReal) := by
  obtain ⟨a, rfl⟩ := hx
  rcases le_total a 1 with h | h
  · exact ⟨1, le_refl _, by rw [max_eq_right (by exact_mod_cast h)]; rfl⟩
  · exact ⟨a, h, max_eq_left (by exact_mod_cast h)⟩

end Cert.Spec
-- ==== Proof.RefStages.lean ====
/-
  The reference program's host operations, stage by stage, as the functions of Proof/Spec.lean.

  Each stage is written here once as the composition of host operations the reference program applies, over
  arbitrary operand arrays, and then read at an index: the input projection (a product, a bias row broadcast
  down the rows, the floor at zero), a layer's linear part (two products against slices of the stacked weights,
  a bias row), and a layer's normalisation (the column mean as a column sum over 100000, the column variance
  as the column sum of the squared deviations over 100000, the reciprocal square root, scale, shift, floor,
  and the residual). The layout operations read at an index are the library's; the few forms it lacks
  (a scalar broadcast anywhere, a row broadcast down the rows by the host's broadcast_in_dim, a slice of a
  rank-3 array along its leading axis, a column sum of a rank-2 array) are proved first.
-/
import proofs.«111242_j77756087927556_1_alg».proof.ReferenceIdeal
import proofs.«111242_j77756087927556_1_alg».proof.Proof.Spec
import proofs.«111242_j77756087927556_1_alg».proof.Proof.LibPlainDot
import proofs.«111242_j77756087927556_1_alg».proof.Proof.LibColumnBroadcast
import proofs.«111242_j77756087927556_1_alg».proof.Proof.HostReal
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx Cert.Spec Cert.Gcn
open scoped BigOperators

/-! ## Layout operations read at an index -/

/-- A scalar broadcast to any shape reads the scalar everywhere. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A row [1, b] broadcast by the host down the rows to [a, b] reads, at (p, c), the row's entry c. -/
theorem bcastRow_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) ?_
  intro ax
  match ax with
  | ⟨0, _⟩ => rfl
  | ⟨1, _⟩ =>
    show c.val = if b = 1 then 0 else c.val
    split
    · have := c.isLt; omega
    · rfl

/-- A unit slice of a rank-3 array along its leading axis reads, at (u, k, j), the array at (o, k, j). -/
theorem slice3_axis0_apply {α : Type} {n0 n1 n2 : ℕ} (o : ℕ) (X : (⟨3, ![n0, n1, n2]⟩ : Shape).Idx → α)
    (h : (⟨3, ![n0, n1, n2]⟩ : Shape).Slices ![o, 0, 0] ⟨3, ![1, n1, n2]⟩) (u : Fin 1) (k : Fin n1) (j : Fin n2)
    (l : Fin n0) (hl : l.val = o) :
    extractStridedSlice ⟨3, ![1, n1, n2]⟩ ![o, 0, 0] X h (ix3 u k j) = X (ix3 l k j) :=
  extractStridedSlice_apply ![o, 0, 0] X h (ix3 u k j) (ix3 l k j) (fun a => match a with
    | ⟨0, _⟩ => by show l.val = o + u.val; omega
    | ⟨1, _⟩ => by show k.val = 0 + k.val; omega
    | ⟨2, _⟩ => by show j.val = 0 + j.val; omega)

/-- The host's sum of a [100000, 256] array down its rows reads, at column j, the initial value plus the sum of
    that column. -/
theorem colReduce_apply (h' : (⟨2, ![100000, 256]⟩ : Shape).ReducesTo [0] ⟨1, ![256]⟩)
    (hu : 0 < (⟨0, ![]⟩ : Shape).numel) (x : FVec Ideal ⟨2, ![100000, 256]⟩ .f32)
    (init : (⟨0, ![]⟩ : Shape).Idx → EReal) (j : Fin 256) :
    Host.reduceAdd (F := Ideal) (φ := .f32) x init h' hu (ix1 j)
      = init (Shape.Idx.first hu) + ∑ n : Fin 100000, x (ix2 n j) := by
  show Ideal.hostReduceAdd h' x (init (Shape.Idx.first hu)) (ix1 j) = _
  rw [Ideal.hostReduceAdd_single h' (by decide)]
  refine congrArg (_ + ·) (Finset.sum_congr rfl fun k _ => ?_)
  exact congrArg x (funext fun a => Fin.ext (by match a with | ⟨0, _⟩ => rfl | ⟨1, _⟩ => rfl))

variable [Facts₀]
open Cert.ReferenceIdeal.Facts₀

/-- The two products of the program are plain: rows by columns, one contracted axis. -/
theorem plain_in : PlainDot.IsPlain dot_S100000x128_S128x256_S100000x256_1_0_0_1_n_n :=
  ⟨rfl, rfl, rfl, rfl, rfl, rfl, rfl, rfl⟩
theorem plain_hid : PlainDot.IsPlain dot_S100000x256_S256x256_S100000x256_1_0_0_1_n_n :=
  ⟨rfl, rfl, rfl, rfl, rfl, rfl, rfl, rfl⟩

/-! ## The input projection -/

/-- The reference's input projection: the product, plus the bias broadcast to a row and down the rows, floored at zero. -/
def projOps (x0 : FVec Ideal S100000x128 .f32) (x3 : FVec Ideal S128x256 .f32) (x4 : FVec Ideal S256 .f32) :
    FVec Ideal S100000x256 .f32 :=
  maximumf (addf (Host.dotGeneral dot_S100000x128_S128x256_S100000x256_1_0_0_1_n_n none x0 x3)
      (broadcastInDim S100000x256 ![0, 1] Facts₀.bcast_S1x256_S100000x256_0_1
        (broadcastInDim S1x256 ![1] Facts₀.bcast_S256_S1x256_1 x4)))
    (broadcastInDim S100000x256 ![] Facts₀.bcast_S_S100000x256 (constant (F := Ideal) S_ .f32 0x00000000#32))

theorem projOps_eq (x0 : FVec Ideal S100000x128 .f32) (x3 : FVec Ideal S128x256 .f32) (x4 : FVec Ideal S256 .f32) :
    projOps x0 x3 x4 = G0 x0 x3 (row x4) := by
  funext i
  obtain ⟨n, j, rfl⟩ : ∃ (n : Fin 100000) (j : Fin 256), i = ix2 n j := ⟨i 0, i 1, eq_ix2 i⟩
  unfold projOps
  rw [maximumf_apply, addf_apply, PlainDot.dotGeneral_apply plain_in, bcastRow_apply,
    Layout.broadcastInDim_b_1b_apply, bcastScalar_apply, constant_apply, Ideal.ofBits_zero_f32]
  rfl

/-! ## The specification's functions at an index -/

theorem muR_at (hn : Arr2 100000 256) (j : Fin 256) :
    muR hn (ix2 (0 : Fin 1) j) = Ideal.div (∑ r : Fin 100000, hn (ix2 r j)) (Ideal.ofBits .f32 0x47C35000#32) := rfl
theorem sqDev_at (hn : Arr2 100000 256) (n : Fin 100000) (j : Fin 256) :
    sqDev hn (ix2 n j) = (hn (ix2 n j) - muR hn (ix2 (0 : Fin 1) j)) * (hn (ix2 n j) - muR hn (ix2 (0 : Fin 1) j)) := rfl
theorem varR_at (hn : Arr2 100000 256) (j : Fin 256) :
    varR hn (ix2 (0 : Fin 1) j) = Ideal.div (∑ r : Fin 100000, sqDev hn (ix2 r j)) (Ideal.ofBits .f32 0x47C35000#32) := rfl
theorem normR_at (hn h : Arr2 100000 256) (g b : Arr2 1 256) (n : Fin 100000) (j : Fin 256) :
    normR hn h g b (ix2 n j) = normAt (hn (ix2 n j)) (h (ix2 n j)) (muR hn (ix2 (0 : Fin 1) j)) (varR hn (ix2 (0 : Fin 1) j))
      (g (ix2 (0 : Fin 1) j)) (b (ix2 (0 : Fin 1) j)) := rfl
theorem hnK_at (h agg : Arr2 100000 256) (wl : Arr2 256 256) (bl2 : Arr2 1 256) (wr : Arr2 256 256)
    (n : Fin 100000) (j : Fin 256) :
    hnK h agg wl bl2 wr (ix2 n j) = (∑ k : Fin 256, agg (ix2 n k) * wl (ix2 k j)) + bl2 (ix2 (0 : Fin 1) j)
      + ∑ k : Fin 256, h (ix2 n k) * wr (ix2 k j) := rfl
theorem layerW_at (l : Fin 4) (w : Arr3 4 256 256) (k j : Fin 256) : layerW l w (ix2 k j) = w (ix3 l k j) := rfl
theorem layerRow_at (l : Fin 4) (b : Arr2 4 256) (u : Fin 1) (j : Fin 256) : layerRow l b (ix2 u j) = b (ix2 l j) := rfl

/-! ## The column statistics -/

/-- The host's division and reciprocal square root read at an index. -/
theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-- The reference's column means: the column sums from zero, divided by 100000.0 broadcast to the columns. -/
def meanOps (hn : FVec Ideal S100000x256 .f32) : FVec Ideal S256 .f32 :=
  Host.divf (Host.reduceAdd hn (constant (F := Ideal) S_ .f32 0x00000000#32) Facts₀.reducesTo_S100000x256_S256_d0 Facts₀.h_S_)
    (broadcastInDim (s := S_) S256 ![] Facts₀.bcast_S_S256 (constant (F := Ideal) S_ .f32 0x47C35000#32))

theorem meanOps_apply (hn : FVec Ideal S100000x256 .f32) (j : Fin 256) :
    meanOps hn (ix1 j) = muR hn (ix2 (0 : Fin 1) j) := by
  unfold meanOps
  rw [hostDivf_apply, colReduce_apply, bcastScalar_apply, constant_apply, constant_apply, Ideal.ofBits_zero_f32, zero_add,
    muR_at]

/-- The deviations from the column means: the means broadcast to a row and down the rows, subtracted. -/
def devOps (hn : FVec Ideal S100000x256 .f32) : FVec Ideal S100000x256 .f32 :=
  subf hn (broadcastInDim S100000x256 ![0, 1] Facts₀.bcast_S1x256_S100000x256_0_1
    (broadcastInDim S1x256 ![1] Facts₀.bcast_S256_S1x256_1 (meanOps hn)))

theorem devOps_apply (hn : FVec Ideal S100000x256 .f32) (n : Fin 100000) (j : Fin 256) :
    devOps hn (ix2 n j) = hn (ix2 n j) - muR hn (ix2 (0 : Fin 1) j) := by
  unfold devOps
  rw [subf_apply, bcastRow_apply, Layout.broadcastInDim_b_1b_apply, meanOps_apply]

/-- The reference's column variances: the column sums from zero of the squared deviations, divided by 100000.0. -/
def varOps (hn : FVec Ideal S100000x256 .f32) : FVec Ideal S256 .f32 :=
  Host.divf (Host.reduceAdd (mulf (devOps hn) (devOps hn))
      (constant (F := Ideal) S_ .f32 0x00000000#32) Facts₀.reducesTo_S100000x256_S256_d0 Facts₀.h_S_)
    (broadcastInDim (s := S_) S256 ![] Facts₀.bcast_S_S256 (constant (F := Ideal) S_ .f32 0x47C35000#32))

theorem varOps_apply (hn : FVec Ideal S100000x256 .f32) (j : Fin 256) :
    varOps hn (ix1 j) = varR hn (ix2 (0 : Fin 1) j) := by
  unfold varOps
  rw [hostDivf_apply, colReduce_apply, bcastScalar_apply, constant_apply, constant_apply, Ideal.ofBits_zero_f32, zero_add,
    varR_at]
  simp only [mulf_apply, devOps_apply, sqDev_at]

/-- The reciprocal square root of the variance plus epsilon, read at a column. -/
theorem rsqrtOps_apply (v : FVec Ideal S256 .f32) (j : Fin 256) :
    Host.rsqrt (addf v (broadcastInDim (s := S_) S256 ![] Facts₀.bcast_S_S256 (constant (F := Ideal) S_ .f32 0x3727C5AC#32))) (ix1 j)
      = Ideal.rsqrt (v (ix1 j) + Ideal.ofBits .f32 0x3727C5AC#32) := by
  rw [hostRsqrt_apply, addf_apply, bcastScalar_apply, constant_apply]

/-- Layer 0's linear part as the reference applies it: the aggregate times the layer's slice of Wl, plus the layer's
    slice of bl broadcast to a row and down the rows, plus the features times the layer's slice of Wr. -/
def linOps0 (h agg : FVec Ideal S100000x256 .f32) (x5 : FVec Ideal S4x256x256 .f32) (x6 : FVec Ideal S4x256 .f32)
    (x7 : FVec Ideal S4x256x256 .f32) : FVec Ideal S100000x256 .f32 :=
  addf (addf (Host.dotGeneral dot_S100000x256_S256x256_S100000x256_1_0_0_1_n_n none agg
        (shapeCast S256x256 (extractStridedSlice S1x256x256 ![0, 0, 0] x5 Facts₀.slices_S4x256x256_S1x256x256_0_0_0)
          Facts₀.shapeCasts_S1x256x256_S256x256))
      (broadcastInDim S100000x256 ![0, 1] Facts₀.bcast_S1x256_S100000x256_0_1
        (broadcastInDim S1x256 ![1] Facts₀.bcast_S256_S1x256_1
          (shapeCast S256 (extractStridedSlice S1x256 ![0, 0] x6 Facts₀.slices_S4x256_S1x256_0_0)
            Facts₀.shapeCasts_S1x256_S256))))
    (Host.dotGeneral dot_S100000x256_S256x256_S100000x256_1_0_0_1_n_n none h
      (shapeCast S256x256 (extractStridedSlice S1x256x256 ![0, 0, 0] x7 Facts₀.slices_S4x256x256_S1x256x256_0_0_0)
        Facts₀.shapeCasts_S1x256x256_S256x256))

theorem linOps0_eq (h agg : FVec Ideal S100000x256 .f32) (x5 : FVec Ideal S4x256x256 .f32)
    (x6 : FVec Ideal S4x256 .f32) (x7 : FVec Ideal S4x256x256 .f32) :
    linOps0 h agg x5 x6 x7 = hnK h agg (layerW 0 x5) (layerRow 0 x6) (layerW 0 x7) := by
  funext i
  obtain ⟨n, j, rfl⟩ : ∃ (n : Fin 100000) (j : Fin 256), i = ix2 n j := ⟨i 0, i 1, eq_ix2 i⟩
  unfold linOps0
  rw [addf_apply, addf_apply, PlainDot.dotGeneral_apply plain_hid, PlainDot.dotGeneral_apply plain_hid,
    bcastRow_apply, Layout.broadcastInDim_b_1b_apply, shapeCast_1a_a_apply,
    slice2_axis0_apply 0 x6 _ (0 : Fin 1) j (0 : Fin 4) rfl, hnK_at]
  simp only [shapeCast_1ab_ab_apply, slice3_axis0_apply 0 _ _ (0 : Fin 1) _ _ (0 : Fin 4) rfl, layerW_at, layerRow_at]

/-- Layer 0's normalisation as the reference applies it to hn and the residual h: the deviations from the column
    means, times the reciprocal square root of the column variance plus epsilon, times the layer's slice of gamma,
    plus the layer's slice of beta (each a row broadcast down the rows), floored at zero, plus the residual. -/
def normOps0 (hn h : FVec Ideal S100000x256 .f32) (x8 x9 : FVec Ideal S4x256 .f32) : FVec Ideal S100000x256 .f32 :=
  addf h (maximumf (addf (mulf (mulf (devOps hn)
      (broadcastInDim S100000x256 ![0, 1] Facts₀.bcast_S1x256_S100000x256_0_1
        (broadcastInDim S1x256 ![1] Facts₀.bcast_S256_S1x256_1
          (Host.rsqrt (addf (varOps hn)
            (broadcastInDim (s := S_) S256 ![] Facts₀.bcast_S_S256 (constant (F := Ideal) S_ .f32 0x3727C5AC#32)))))))
      (broadcastInDim S100000x256 ![0, 1] Facts₀.bcast_S1x256_S100000x256_0_1
        (broadcastInDim S1x256 ![1] Facts₀.bcast_S256_S1x256_1
          (shapeCast S256 (extractStridedSlice S1x256 ![0, 0] x8 Facts₀.slices_S4x256_S1x256_0_0)
            Facts₀.shapeCasts_S1x256_S256))))
      (broadcastInDim S100000x256 ![0, 1] Facts₀.bcast_S1x256_S100000x256_0_1
        (broadcastInDim S1x256 ![1] Facts₀.bcast_S256_S1x256_1
          (shapeCast S256 (extractStridedSlice S1x256 ![0, 0] x9 Facts₀.slices_S4x256_S1x256_0_0)
            Facts₀.shapeCasts_S1x256_S256))))
    (broadcastInDim S100000x256 ![] Facts₀.bcast_S_S100000x256 (constant (F := Ideal) S_ .f32 0x00000000#32)))

theorem normOps0_eq (hn h : FVec Ideal S100000x256 .f32) (x8 x9 : FVec Ideal S4x256 .f32) :
    normOps0 hn h x8 x9 = normR hn h (layerRow 0 x8) (layerRow 0 x9) := by
  funext i
  obtain ⟨n, j, rfl⟩ : ∃ (n : Fin 100000) (j : Fin 256), i = ix2 n j := ⟨i 0, i 1, eq_ix2 i⟩
  unfold normOps0
  rw [addf_apply, maximumf_apply, addf_apply, mulf_apply, mulf_apply, devOps_apply,
    bcastRow_apply, bcastRow_apply, bcastRow_apply,
    Layout.broadcastInDim_b_1b_apply, Layout.broadcastInDim_b_1b_apply, Layout.broadcastInDim_b_1b_apply,
    bcastScalar_apply, constant_apply, Ideal.ofBits_zero_f32,
    shapeCast_1a_a_apply, shapeCast_1a_a_apply,
    slice2_axis0_apply 0 x8 _ (0 : Fin 1) j (0 : Fin 4) rfl,
    slice2_axis0_apply 0 x9 _ (0 : Fin 1) j (0 : Fin 4) rfl,
    rsqrtOps_apply, varOps_apply, normR_at, layerRow_at, layerRow_at]
  rfl

/-- Layer 1's linear part as the reference applies it: the aggregate times the layer's slice of Wl, plus the layer's
    slice of bl broadcast to a row and down the rows, plus the features times the layer's slice of Wr. -/
def linOps1 (h agg : FVec Ideal S100000x256 .f32) (x5 : FVec Ideal S4x256x256 .f32) (x6 : FVec Ideal S4x256 .f32)
    (x7 : FVec Ideal S4x256x256 .f32) : FVec Ideal S100000x256 .f32 :=
  addf (addf (Host.dotGeneral dot_S100000x256_S256x256_S100000x256_1_0_0_1_n_n none agg
        (shapeCast S256x256 (extractStridedSlice S1x256x256 ![1, 0, 0] x5 Facts₀.slices_S4x256x256_S1x256x256_1_0_0)
          Facts₀.shapeCasts_S1x256x256_S256x256))
      (broadcastInDim S100000x256 ![0, 1] Facts₀.bcast_S1x256_S100000x256_0_1
        (broadcastInDim S1x256 ![1] Facts₀.bcast_S256_S1x256_1
          (shapeCast S256 (extractStridedSlice S1x256 ![1, 0] x6 Facts₀.slices_S4x256_S1x256_1_0)
            Facts₀.shapeCasts_S1x256_S256))))
    (Host.dotGeneral dot_S100000x256_S256x256_S100000x256_1_0_0_1_n_n none h
      (shapeCast S256x256 (extractStridedSlice S1x256x256 ![1, 0, 0] x7 Facts₀.slices_S4x256x256_S1x256x256_1_0_0)
        Facts₀.shapeCasts_S1x256x256_S256x256))

theorem linOps1_eq (h agg : FVec Ideal S100000x256 .f32) (x5 : FVec Ideal S4x256x256 .f32)
    (x6 : FVec Ideal S4x256 .f32) (x7 : FVec Ideal S4x256x256 .f32) :
    linOps1 h agg x5 x6 x7 = hnK h agg (layerW 1 x5) (layerRow 1 x6) (layerW 1 x7) := by
  funext i
  obtain ⟨n, j, rfl⟩ : ∃ (n : Fin 100000) (j : Fin 256), i = ix2 n j := ⟨i 0, i 1, eq_ix2 i⟩
  unfold linOps1
  rw [addf_apply, addf_apply, PlainDot.dotGeneral_apply plain_hid, PlainDot.dotGeneral_apply plain_hid,
    bcastRow_apply, Layout.broadcastInDim_b_1b_apply, shapeCast_1a_a_apply,
    slice2_axis0_apply 1 x6 _ (0 : Fin 1) j (1 : Fin 4) rfl, hnK_at]
  simp only [shapeCast_1ab_ab_apply, slice3_axis0_apply 1 _ _ (0 : Fin 1) _ _ (1 : Fin 4) rfl, layerW_at, layerRow_at]

/-- Layer 1's normalisation as the reference applies it to hn and the residual h: the deviations from the column
    means, times the reciprocal square root of the column variance plus epsilon, times the layer's slice of gamma,
    plus the layer's slice of beta (each a row broadcast down the rows), floored at zero, plus the residual. -/
def normOps1 (hn h : FVec Ideal S100000x256 .f32) (x8 x9 : FVec Ideal S4x256 .f32) : FVec Ideal S100000x256 .f32 :=
  addf h (maximumf (addf (mulf (mulf (devOps hn)
      (broadcastInDim S100000x256 ![0, 1] Facts₀.bcast_S1x256_S100000x256_0_1
        (broadcastInDim S1x256 ![1] Facts₀.bcast_S256_S1x256_1
          (Host.rsqrt (addf (varOps hn)
            (broadcastInDim (s := S_) S256 ![] Facts₀.bcast_S_S256 (constant (F := Ideal) S_ .f32 0x3727C5AC#32)))))))
      (broadcastInDim S100000x256 ![0, 1] Facts₀.bcast_S1x256_S100000x256_0_1
        (broadcastInDim S1x256 ![1] Facts₀.bcast_S256_S1x256_1
          (shapeCast S256 (extractStridedSlice S1x256 ![1, 0] x8 Facts₀.slices_S4x256_S1x256_1_0)
            Facts₀.shapeCasts_S1x256_S256))))
      (broadcastInDim S100000x256 ![0, 1] Facts₀.bcast_S1x256_S100000x256_0_1
        (broadcastInDim S1x256 ![1] Facts₀.bcast_S256_S1x256_1
          (shapeCast S256 (extractStridedSlice S1x256 ![1, 0] x9 Facts₀.slices_S4x256_S1x256_1_0)
            Facts₀.shapeCasts_S1x256_S256))))
    (broadcastInDim S100000x256 ![] Facts₀.bcast_S_S100000x256 (constant (F := Ideal) S_ .f32 0x00000000#32)))

theorem normOps1_eq (hn h : FVec Ideal S100000x256 .f32) (x8 x9 : FVec Ideal S4x256 .f32) :
    normOps1 hn h x8 x9 = normR hn h (layerRow 1 x8) (layerRow 1 x9) := by
  funext i
  obtain ⟨n, j, rfl⟩ : ∃ (n : Fin 100000) (j : Fin 256), i = ix2 n j := ⟨i 0, i 1, eq_ix2 i⟩
  unfold normOps1
  rw [addf_apply, maximumf_apply, addf_apply, mulf_apply, mulf_apply, devOps_apply,
    bcastRow_apply, bcastRow_apply, bcastRow_apply,
    Layout.broadcastInDim_b_1b_apply, Layout.broadcastInDim_b_1b_apply, Layout.broadcastInDim_b_1b_apply,
    bcastScalar_apply, constant_apply, Ideal.ofBits_zero_f32,
    shapeCast_1a_a_apply, shapeCast_1a_a_apply,
    slice2_axis0_apply 1 x8 _ (0 : Fin 1) j (1 : Fin 4) rfl,
    slice2_axis0_apply 1 x9 _ (0 : Fin 1) j (1 : Fin 4) rfl,
    rsqrtOps_apply, varOps_apply, normR_at, layerRow_at, layerRow_at]
  rfl

/-- Layer 2's linear part as the reference applies it: the aggregate times the layer's slice of Wl, plus the layer's
    slice of bl broadcast to a row and down the rows, plus the features times the layer's slice of Wr. -/
def linOps2 (h agg : FVec Ideal S100000x256 .f32) (x5 : FVec Ideal S4x256x256 .f32) (x6 : FVec Ideal S4x256 .f32)
    (x7 : FVec Ideal S4x256x256 .f32) : FVec Ideal S100000x256 .f32 :=
  addf (addf (Host.dotGeneral dot_S100000x256_S256x256_S100000x256_1_0_0_1_n_n none agg
        (shapeCast S256x256 (extractStridedSlice S1x256x256 ![2, 0, 0] x5 Facts₀.slices_S4x256x256_S1x256x256_2_0_0)
          Facts₀.shapeCasts_S1x256x256_S256x256))
      (broadcastInDim S100000x256 ![0, 1] Facts₀.bcast_S1x256_S100000x256_0_1
        (broadcastInDim S1x256 ![1] Facts₀.bcast_S256_S1x256_1
          (shapeCast S256 (extractStridedSlice S1x256 ![2, 0] x6 Facts₀.slices_S4x256_S1x256_2_0)
            Facts₀.shapeCasts_S1x256_S256))))
    (Host.dotGeneral dot_S100000x256_S256x256_S100000x256_1_0_0_1_n_n none h
      (shapeCast S256x256 (extractStridedSlice S1x256x256 ![2, 0, 0] x7 Facts₀.slices_S4x256x256_S1x256x256_2_0_0)
        Facts₀.shapeCasts_S1x256x256_S256x256))

theorem linOps2_eq (h agg : FVec Ideal S100000x256 .f32) (x5 : FVec Ideal S4x256x256 .f32)
    (x6 : FVec Ideal S4x256 .f32) (x7 : FVec Ideal S4x256x256 .f32) :
    linOps2 h agg x5 x6 x7 = hnK h agg (layerW 2 x5) (layerRow 2 x6) (layerW 2 x7) := by
  funext i
  obtain ⟨n, j, rfl⟩ : ∃ (n : Fin 100000) (j : Fin 256), i = ix2 n j := ⟨i 0, i 1, eq_ix2 i⟩
  unfold linOps2
  rw [addf_apply, addf_apply, PlainDot.dotGeneral_apply plain_hid, PlainDot.dotGeneral_apply plain_hid,
    bcastRow_apply, Layout.broadcastInDim_b_1b_apply, shapeCast_1a_a_apply,
    slice2_axis0_apply 2 x6 _ (0 : Fin 1) j (2 : Fin 4) rfl, hnK_at]
  simp only [shapeCast_1ab_ab_apply, slice3_axis0_apply 2 _ _ (0 : Fin 1) _ _ (2 : Fin 4) rfl, layerW_at, layerRow_at]

/-- Layer 2's normalisation as the reference applies it to hn and the residual h: the deviations from the column
    means, times the reciprocal square root of the column variance plus epsilon, times the layer's slice of gamma,
    plus the layer's slice of beta (each a row broadcast down the rows), floored at zero, plus the residual. -/
def normOps2 (hn h : FVec Ideal S100000x256 .f32) (x8 x9 : FVec Ideal S4x256 .f32) : FVec Ideal S100000x256 .f32 :=
  addf h (maximumf (addf (mulf (mulf (devOps hn)
      (broadcastInDim S100000x256 ![0, 1] Facts₀.bcast_S1x256_S100000x256_0_1
        (broadcastInDim S1x256 ![1] Facts₀.bcast_S256_S1x256_1
          (Host.rsqrt (addf (varOps hn)
            (broadcastInDim (s := S_) S256 ![] Facts₀.bcast_S_S256 (constant (F := Ideal) S_ .f32 0x3727C5AC#32)))))))
      (broadcastInDim S100000x256 ![0, 1] Facts₀.bcast_S1x256_S100000x256_0_1
        (broadcastInDim S1x256 ![1] Facts₀.bcast_S256_S1x256_1
          (shapeCast S256 (extractStridedSlice S1x256 ![2, 0] x8 Facts₀.slices_S4x256_S1x256_2_0)
            Facts₀.shapeCasts_S1x256_S256))))
      (broadcastInDim S100000x256 ![0, 1] Facts₀.bcast_S1x256_S100000x256_0_1
        (broadcastInDim S1x256 ![1] Facts₀.bcast_S256_S1x256_1
          (shapeCast S256 (extractStridedSlice S1x256 ![2, 0] x9 Facts₀.slices_S4x256_S1x256_2_0)
            Facts₀.shapeCasts_S1x256_S256))))
    (broadcastInDim S100000x256 ![] Facts₀.bcast_S_S100000x256 (constant (F := Ideal) S_ .f32 0x00000000#32)))

theorem normOps2_eq (hn h : FVec Ideal S100000x256 .f32) (x8 x9 : FVec Ideal S4x256 .f32) :
    normOps2 hn h x8 x9 = normR hn h (layerRow 2 x8) (layerRow 2 x9) := by
  funext i
  obtain ⟨n, j, rfl⟩ : ∃ (n : Fin 100000) (j : Fin 256), i = ix2 n j := ⟨i 0, i 1, eq_ix2 i⟩
  unfold normOps2
  rw [addf_apply, maximumf_apply, addf_apply, mulf_apply, mulf_apply, devOps_apply,
    bcastRow_apply, bcastRow_apply, bcastRow_apply,
    Layout.broadcastInDim_b_1b_apply, Layout.broadcastInDim_b_1b_apply, Layout.broadcastInDim_b_1b_apply,
    bcastScalar_apply, constant_apply, Ideal.ofBits_zero_f32,
    shapeCast_1a_a_apply, shapeCast_1a_a_apply,
    slice2_axis0_apply 2 x8 _ (0 : Fin 1) j (2 : Fin 4) rfl,
    slice2_axis0_apply 2 x9 _ (0 : Fin 1) j (2 : Fin 4) rfl,
    rsqrtOps_apply, varOps_apply, normR_at, layerRow_at, layerRow_at]
  rfl

/-- Layer 3's linear part as the reference applies it: the aggregate times the layer's slice of Wl, plus the layer's
    slice of bl broadcast to a row and down the rows, plus the features times the layer's slice of Wr. -/
def linOps3 (h agg : FVec Ideal S100000x256 .f32) (x5 : FVec Ideal S4x256x256 .f32) (x6 : FVec Ideal S4x256 .f32)
    (x7 : FVec Ideal S4x256x256 .f32) : FVec Ideal S100000x256 .f32 :=
  addf (addf (Host.dotGeneral dot_S100000x256_S256x256_S100000x256_1_0_0_1_n_n none agg
        (shapeCast S256x256 (extractStridedSlice S1x256x256 ![3, 0, 0] x5 Facts₀.slices_S4x256x256_S1x256x256_3_0_0)
          Facts₀.shapeCasts_S1x256x256_S256x256))
      (broadcastInDim S100000x256 ![0, 1] Facts₀.bcast_S1x256_S100000x256_0_1
        (broadcastInDim S1x256 ![1] Facts₀.bcast_S256_S1x256_1
          (shapeCast S256 (extractStridedSlice S1x256 ![3, 0] x6 Facts₀.slices_S4x256_S1x256_3_0)
            Facts₀.shapeCasts_S1x256_S256))))
    (Host.dotGeneral dot_S100000x256_S256x256_S100000x256_1_0_0_1_n_n none h
      (shapeCast S256x256 (extractStridedSlice S1x256x256 ![3, 0, 0] x7 Facts₀.slices_S4x256x256_S1x256x256_3_0_0)
        Facts₀.shapeCasts_S1x256x256_S256x256))

theorem linOps3_eq (h agg : FVec Ideal S100000x256 .f32) (x5 : FVec Ideal S4x256x256 .f32)
    (x6 : FVec Ideal S4x256 .f32) (x7 : FVec Ideal S4x256x256 .f32) :
    linOps3 h agg x5 x6 x7 = hnK h agg (layerW 3 x5) (layerRow 3 x6) (layerW 3 x7) := by
  funext i
  obtain ⟨n, j, rfl⟩ : ∃ (n : Fin 100000) (j : Fin 256), i = ix2 n j := ⟨i 0, i 1, eq_ix2 i⟩
  unfold linOps3
  rw [addf_apply, addf_apply, PlainDot.dotGeneral_apply plain_hid, PlainDot.dotGeneral_apply plain_hid,
    bcastRow_apply, Layout.broadcastInDim_b_1b_apply, shapeCast_1a_a_apply,
    slice2_axis0_apply 3 x6 _ (0 : Fin 1) j (3 : Fin 4) rfl, hnK_at]
  simp only [shapeCast_1ab_ab_apply, slice3_axis0_apply 3 _ _ (0 : Fin 1) _ _ (3 : Fin 4) rfl, layerW_at, layerRow_at]

/-- Layer 3's normalisation as the reference applies it to hn and the residual h: the deviations from the column
    means, times the reciprocal square root of the column variance plus epsilon, times the layer's slice of gamma,
    plus the layer's slice of beta (each a row broadcast down the rows), floored at zero, plus the residual. -/
def normOps3 (hn h : FVec Ideal S100000x256 .f32) (x8 x9 : FVec Ideal S4x256 .f32) : FVec Ideal S100000x256 .f32 :=
  addf h (maximumf (addf (mulf (mulf (devOps hn)
      (broadcastInDim S100000x256 ![0, 1] Facts₀.bcast_S1x256_S100000x256_0_1
        (broadcastInDim S1x256 ![1] Facts₀.bcast_S256_S1x256_1
          (Host.rsqrt (addf (varOps hn)
            (broadcastInDim (s := S_) S256 ![] Facts₀.bcast_S_S256 (constant (F := Ideal) S_ .f32 0x3727C5AC#32)))))))
      (broadcastInDim S100000x256 ![0, 1] Facts₀.bcast_S1x256_S100000x256_0_1
        (broadcastInDim S1x256 ![1] Facts₀.bcast_S256_S1x256_1
          (shapeCast S256 (extractStridedSlice S1x256 ![3, 0] x8 Facts₀.slices_S4x256_S1x256_3_0)
            Facts₀.shapeCasts_S1x256_S256))))
      (broadcastInDim S100000x256 ![0, 1] Facts₀.bcast_S1x256_S100000x256_0_1
        (broadcastInDim S1x256 ![1] Facts₀.bcast_S256_S1x256_1
          (shapeCast S256 (extractStridedSlice S1x256 ![3, 0] x9 Facts₀.slices_S4x256_S1x256_3_0)
            Facts₀.shapeCasts_S1x256_S256))))
    (broadcastInDim S100000x256 ![] Facts₀.bcast_S_S100000x256 (constant (F := Ideal) S_ .f32 0x00000000#32)))

theorem normOps3_eq (hn h : FVec Ideal S100000x256 .f32) (x8 x9 : FVec Ideal S4x256 .f32) :
    normOps3 hn h x8 x9 = normR hn h (layerRow 3 x8) (layerRow 3 x9) := by
  funext i
  obtain ⟨n, j, rfl⟩ : ∃ (n : Fin 100000) (j : Fin 256), i = ix2 n j := ⟨i 0, i 1, eq_ix2 i⟩
  unfold normOps3
  rw [addf_apply, maximumf_apply, addf_apply, mulf_apply, mulf_apply, devOps_apply,
    bcastRow_apply, bcastRow_apply, bcastRow_apply,
    Layout.broadcastInDim_b_1b_apply, Layout.broadcastInDim_b_1b_apply, Layout.broadcastInDim_b_1b_apply,
    bcastScalar_apply, constant_apply, Ideal.ofBits_zero_f32,
    shapeCast_1a_a_apply, shapeCast_1a_a_apply,
    slice2_axis0_apply 3 x8 _ (0 : Fin 1) j (3 : Fin 4) rfl,
    slice2_axis0_apply 3 x9 _ (0 : Fin 1) j (3 : Fin 4) rfl,
    rsqrtOps_apply, varOps_apply, normR_at, layerRow_at, layerRow_at]
  rfl

/-! ## The host chain around the layers, shared with the kernel's program

These are the operations both programs apply unchanged: the two rows of the edge list, the clamped in-degree, the mean
over the in-neighbours (a row gather at the source nodes, a scatter-add at the destination nodes, a division by the
clamped in-degree), and after the last layer the per-graph mean pooling and the two-layer predictor. They are named
here once and never opened, except to carry "every entry is real" through the neighbour mean. -/

/-- The source node of every edge: row 0 of the edge list. -/
def srcOps (x1 : IVec S2x800000 32) : IVec S800000 32 :=
  (shapeCast _ (((extractStridedSlice S1x800000 ![0, 0] · slices_S2x800000_S1x800000_0_0) : (⟨S2x800000, .i32⟩ : BufTy).Contents (Elt Ideal) → (⟨S1x800000, .i32⟩ : BufTy).Contents (Elt Ideal)) x1) shapeCasts_S1x800000_S800000)
/-- The destination node of every edge: row 1 of the edge list. -/
def dstOps (x1 : IVec S2x800000 32) : IVec S800000 32 :=
  (shapeCast _ (((extractStridedSlice S1x800000 ![1, 0] · slices_S2x800000_S1x800000_1_0) : (⟨S2x800000, .i32⟩ : BufTy).Contents (Elt Ideal) → (⟨S1x800000, .i32⟩ : BufTy).Contents (Elt Ideal)) x1) shapeCasts_S1x800000_S800000)
/-- The clamped in-degree as a column: ones scattered-added at the destinations into zeros, floored at one. -/
def degOps (dst : IVec S800000 32) : FVec Ideal S100000x1 .f32 :=
  ((broadcastInDim S100000x1 ![0] bcast_S100000_S100000x1_0 : (⟨S100000, .f32⟩ : BufTy).Contents (Elt Ideal) → (⟨S100000x1, .f32⟩ : BufTy).Contents (Elt Ideal)) ((maximumf (F := Ideal) (φ := .f32) : (⟨S100000, .f32⟩ : BufTy).Contents (Elt Ideal) → (⟨S100000, .f32⟩ : BufTy).Contents (Elt Ideal) → (⟨S100000, .f32⟩ : BufTy).Contents (Elt Ideal)) (((fun x i u => Host.scatterAdd (F := Ideal) (φ := .f32) scatter_S100000_S800000x1_S800000_n_0_0_1 x i u) : (⟨S100000, .f32⟩ : BufTy).Contents (Elt Ideal) → (⟨S800000x1, .i32⟩ : BufTy).Contents (Elt Ideal) → (⟨S800000, .f32⟩ : BufTy).Contents (Elt Ideal) → (⟨S100000, .f32⟩ : BufTy).Contents (Elt Ideal)) ((broadcastInDim S100000 ![] bcast_S_S100000 : (⟨S_, .f32⟩ : BufTy).Contents (Elt Ideal) → (⟨S100000, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) dst) ((broadcastInDim S800000 ![] bcast_S_S800000 : (⟨S_, .f32⟩ : BufTy).Contents (Elt Ideal) → (⟨S800000, .f32⟩ : BufTy).Contents (Elt Ideal)) (constant (F := Ideal) S_ .f32 0x3F800000#32))) ((broadcastInDim S100000 ![] bcast_S_S100000 : (⟨S_, .f32⟩ : BufTy).Contents (Elt Ideal) → (⟨S100000, .f32⟩ : BufTy).Contents (Elt Ideal)) (constant (F := Ideal) S_ .f32 0x3F800000#32))))
/-- The mean over the in-neighbours: the rows of h gathered at the sources (a negative index wrapped), scatter-added at
    the destinations into zeros, divided by the clamped in-degree broadcast along the features. -/
def aggOps (src dst : IVec S800000 32) (degc : FVec Ideal S100000x1 .f32) (h : FVec Ideal S100000x256 .f32) :
    FVec Ideal S100000x256 .f32 :=
  ((Host.divf (F := Ideal) (φ := .f32) : (⟨S100000x256, .f32⟩ : BufTy).Contents (Elt Ideal) → (⟨S100000x256, .f32⟩ : BufTy).Contents (Elt Ideal) → (⟨S100000x256, .f32⟩ : BufTy).Contents (Elt Ideal)) (((fun x i u => Host.scatterAdd (F := Ideal) (φ := .f32) scatter_S100000x256_S800000x1_S800000x256_1_0_0_1 x i u) : (⟨S100000x256, .f32⟩ : BufTy).Contents (Elt Ideal) → (⟨S800000x1, .i32⟩ : BufTy).Contents (Elt Ideal) → (⟨S800000x256, .f32⟩ : BufTy).Contents (Elt Ideal) → (⟨S100000x256, .f32⟩ : BufTy).Contents (Elt Ideal)) ((broadcastInDim S100000x256 ![] bcast_S_S100000x256 : (⟨S_, .f32⟩ : BufTy).Contents (Elt Ideal) → (⟨S100000x256, .f32⟩ : BufTy).Contents (Elt Ideal)) (constant (F := Ideal) S_ .f32 0x00000000#32)) ((broadcastInDim S800000x1 ![0] bcast_S800000_S800000x1_0 : (⟨S800000, .i32⟩ : BufTy).Contents (Elt Ideal) → (⟨S800000x1, .i32⟩ : BufTy).Contents (Elt Ideal)) dst) (((fun x i => Host.gather gather_S100000x256_S800000x1_S800000x256_1_0_n_n_0_1_1256 x i) : (⟨S100000x256, .f32⟩ : BufTy).Contents (Elt Ideal) → (⟨S800000x1, .i32⟩ : BufTy).Contents (Elt Ideal) → (⟨S800000x256, .f32⟩ : BufTy).Contents (Elt Ideal)) h ((broadcastInDim S800000x1 ![0] bcast_S800000_S800000x1_0 : (⟨S800000, .i32⟩ : BufTy).Contents (Elt Ideal) → (⟨S800000x1, .i32⟩ : BufTy).Contents (Elt Ideal)) ((select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)) ((cmpi .slt : (⟨S800000, .i32⟩ : BufTy).Contents (Elt Ideal) → (⟨S800000, .i32⟩ : BufTy).Contents (Elt Ideal) → (⟨S800000, .i1⟩ : BufTy).Contents (Elt Ideal)) src ((broadcastInDim S800000 ![] bcast_S_S800000 : (⟨S_, .i32⟩ : BufTy).Contents (Elt Ideal) → (⟨S800000, .i32⟩ : BufTy).Contents (Elt Ideal)) (constantI S_ 32 0#32))) ((addi : (⟨S800000, .i32⟩ : BufTy).Contents (Elt Ideal) → (⟨S800000, .i32⟩ : BufTy).Contents (Elt Ideal) → (⟨S800000, .i32⟩ : BufTy).Contents (Elt Ideal)) src ((broadcastInDim S800000 ![] bcast_S_S800000 : (⟨S_, .i32⟩ : BufTy).Contents (Elt Ideal) → (⟨S800000, .i32⟩ : BufTy).Contents (Elt Ideal)) (constantI S_ 32 100000#32))) src)))) ((broadcastInDim S100000x256 ![0, 1] bcast_S100000x1_S100000x256_0_1 : (⟨S100000x1, .f32⟩ : BufTy).Contents (Elt Ideal) → (⟨S100000x256, .f32⟩ : BufTy).Contents (Elt Ideal)) degc))
/-- The per-graph mean pooling and the predictor. -/
def tailOps (x2 : IVec S100000 32) (x10 : FVec Ideal S256x128 .f32) (x11 : FVec Ideal S128 .f32)
    (x12 : FVec Ideal S128x1 .f32) (x13 : FVec Ideal S1 .f32) (h : FVec Ideal S100000x256 .f32) : FVec Ideal S256x1 .f32 :=
  ((addf (F := Ideal) (φ := .f32) : (⟨S256x1, .f32⟩ : BufTy).Contents (Elt Ideal) → (⟨S256x1, .f32⟩ : BufTy).Contents (Elt Ideal) → (⟨S256x1, .f32⟩ : BufTy).Contents (Elt Ideal)) (((fun l r => Host.dotGeneral (F := Ideal) (φ₁ := .f32) (φ₂ := .f32) dot_S256x128_S128x1_S256x1_1_0_0_1_n_n none l r) : (⟨S256x128, .f32⟩ : BufTy).Contents (Elt Ideal) → (⟨S128x1, .f32⟩ : BufTy).Contents (Elt Ideal) → (⟨S256x1, .f32⟩ : BufTy).Contents (Elt Ideal)) (maximumf (F := Ideal) (φ := .f32) ((addf (F := Ideal) (φ := .f32) : (⟨S256x128, .f32⟩ : BufTy).Contents (Elt Ideal) → (⟨S256x128, .f32⟩ : BufTy).Contents (Elt Ideal) → (⟨S256x128, .f32⟩ : BufTy).Contents (Elt Ideal)) (((fun l r => Host.dotGeneral (F := Ideal) (φ₁ := .f32) (φ₂ := .f32) dot_S256x256_S256x128_S256x128_1_0_0_1_n_n none l r) : (⟨S256x256, .f32⟩ : BufTy).Contents (Elt Ideal) → (⟨S256x128, .f32⟩ : BufTy).Contents (Elt Ideal) → (⟨S256x128, .f32⟩ : BufTy).Contents (Elt Ideal)) ((Host.divf (F := Ideal) (φ := .f32) : (⟨S256x256, .f32⟩ : BufTy).Contents (Elt Ideal) → (⟨S256x256, .f32⟩ : BufTy).Contents (Elt Ideal) → (⟨S256x256, .f32⟩ : BufTy).Contents (Elt Ideal)) (((fun x i u => Host.scatterAdd (F := Ideal) (φ := .f32) scatter_S256x256_S100000x1_S100000x256_1_0_0_1 x i u) : (⟨S256x256, .f32⟩ : BufTy).Contents (Elt Ideal) → (⟨S100000x1, .i32⟩ : BufTy).Contents (Elt Ideal) → (⟨S100000x256, .f32⟩ : BufTy).Contents (Elt Ideal) → (⟨S256x256, .f32⟩ : BufTy).Contents (Elt Ideal)) ((broadcastInDim S256x256 ![] bcast_S_S256x256 : (⟨S_, .f32⟩ : BufTy).Contents (Elt Ideal) → (⟨S256x256, .f32⟩ : BufTy).Contents (Elt Ideal)) (constant (F := Ideal) S_ .f32 0x00000000#32)) ((broadcastInDim S100000x1 ![0] bcast_S100000_S100000x1_0 : (⟨S100000, .i32⟩ : BufTy).Contents (Elt Ideal) → (⟨S100000x1, .i32⟩ : BufTy).Contents (Elt Ideal)) x2) h) ((broadcastInDim S256x256 ![0, 1] bcast_S256x1_S256x256_0_1 : (⟨S256x1, .f32⟩ : BufTy).Contents (Elt Ideal) → (⟨S256x256, .f32⟩ : BufTy).Contents (Elt Ideal)) ((broadcastInDim S256x1 ![0] bcast_S256_S256x1_0 : (⟨S256, .f32⟩ : BufTy).Contents (Elt Ideal) → (⟨S256x1, .f32⟩ : BufTy).Contents (Elt Ideal)) ((maximumf (F := Ideal) (φ := .f32) : (⟨S256, .f32⟩ : BufTy).Contents (Elt Ideal) → (⟨S256, .f32⟩ : BufTy).Contents (Elt Ideal) → (⟨S256, .f32⟩ : BufTy).Contents (Elt Ideal)) (((fun x i u => Host.scatterAdd (F := Ideal) (φ := .f32) scatter_S256_S100000x1_S100000_n_0_0_1 x i u) : (⟨S256, .f32⟩ : BufTy).Contents (Elt Ideal) → (⟨S100000x1, .i32⟩ : BufTy).Contents (Elt Ideal) → (⟨S100000, .f32⟩ : BufTy).Contents (Elt Ideal) → (⟨S256, .f32⟩ : BufTy).Contents (Elt Ideal)) ((broadcastInDim S256 ![] bcast_S_S256 : (⟨S_, .f32⟩ : BufTy).Contents (Elt Ideal) → (⟨S256, .f32⟩ : BufTy).Contents (Elt Ideal)) (constant (F := Ideal) S_ .f32 0x00000000#32)) ((broadcastInDim S100000x1 ![0] bcast_S100000_S100000x1_0 : (⟨S100000, .i32⟩ : BufTy).Contents (Elt Ideal) → (⟨S100000x1, .i32⟩ : BufTy).Contents (Elt Ideal)) x2) ((broadcastInDim S100000 ![] bcast_S_S100000 : (⟨S_, .f32⟩ : BufTy).Contents (Elt Ideal) → (⟨S100000, .f32⟩ : BufTy).Contents (Elt Ideal)) (constant (F := Ideal) S_ .f32 0x3F800000#32))) ((broadcastInDim S256 ![] bcast_S_S256 : (⟨S_, .f32⟩ : BufTy).Contents (Elt Ideal) → (⟨S256, .f32⟩ : BufTy).Contents (Elt Ideal)) (constant (F := Ideal) S_ .f32 0x3F800000#32)))))) x10) ((broadcastInDim S256x128 ![0, 1] bcast_S1x128_S256x128_0_1 : (⟨S1x128, .f32⟩ : BufTy).Contents (Elt Ideal) → (⟨S256x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x11))) ((broadcastInDim S256x128 ![] bcast_S_S256x128) (constant (F := Ideal) S_ .f32 0x00000000#32))) x12) ((broadcastInDim S256x1 ![0, 1] bcast_S1x1_S256x1_0_1 : (⟨S1x1, .f32⟩ : BufTy).Contents (Elt Ideal) → (⟨S256x1, .f32⟩ : BufTy).Contents (Elt Ideal)) ((broadcastInDim S1x1 ![1] bcast_S1_S1x1_1 : (⟨S1, .f32⟩ : BufTy).Contents (Elt Ideal) → (⟨S1x1, .f32⟩ : BufTy).Contents (Elt Ideal)) x13)))

/-- The f32 word of 1.0 is one. -/
theorem ofBits_one : Ideal.ofBits .f32 0x3F800000#32 = (1 : EReal) := by
  rw [show (1 : EReal) = ((1 : ℝ) : EReal) from EReal.coe_one.symm]
  simp [Ideal.ofBits, Ideal.ieee, -EReal.coe_mul]; norm_num

/-- The clamped in-degree is a real at least one. -/
theorem degOps_ge_one (dst : IVec S800000 32) (i : S100000x1.Idx) : ∃ r : ℝ, 1 ≤ r ∧ degOps dst i = (r : EReal) := by
  obtain ⟨n, u, rfl⟩ : ∃ (n : Fin 100000) (u : Fin 1), i = ix2 n u := ⟨i 0, i 1, eq_ix2 i⟩
  unfold degOps
  rw [Layout.broadcastInDim_a_a1_apply, maximumf_apply, bcastScalar_apply, constant_apply, ofBits_one]
  refine real_max_one ?_
  have hz : ∀ i, ∃ r : ℝ, 0 ≤ r ∧ (broadcastInDim (s := S_) S100000 ![] Facts₀.bcast_S_S100000
      (constant (F := Ideal) S_ .f32 0x00000000#32)) i = (r : EReal) := fun i =>
    ⟨0, le_refl _, by rw [bcastScalar_apply, constant_apply, Ideal.ofBits_zero_f32]; rfl⟩
  have ho : ∀ j, ∃ r : ℝ, 0 ≤ r ∧ (broadcastInDim (s := S_) S800000 ![] Facts₀.bcast_S_S800000
      (constant (F := Ideal) S_ .f32 0x3F800000#32)) j = (r : EReal) := fun j =>
    ⟨1, zero_le_one, by rw [bcastScalar_apply, constant_apply, ofBits_one]; rfl⟩
  obtain ⟨r, _, hr⟩ := scatterAdd_real_nonneg scatter_S100000_S800000x1_S800000_n_0_0_1 _
    (broadcastInDim S800000x1 ![0] Facts₀.bcast_S800000_S800000x1_0 dst) _ hz ho (ix1 n)
  exact ⟨r, hr⟩

/-- The neighbour mean of real features, over a divisor that is a real at least one, is real. -/
theorem aggOps_real (src dst : IVec S800000 32) (degc : FVec Ideal S100000x1 .f32) (h : FVec Ideal S100000x256 .f32)
    (hd : ∀ i, ∃ r : ℝ, 1 ≤ r ∧ degc i = (r : EReal)) (hh : IsReal h) : IsReal (aggOps src dst degc h) := fun i => by
  obtain ⟨n, j, rfl⟩ : ∃ (n : Fin 100000) (j : Fin 256), i = ix2 n j := ⟨i 0, i 1, eq_ix2 i⟩
  unfold aggOps
  rw [hostDivf_apply, Layout.broadcastInDim_col_apply]
  refine real_div_ge_one ?_ (hd _)
  refine scatterAdd_real scatter_S100000x256_S800000x1_S800000x256_1_0_0_1 _ _ _ (fun i => ?_) ?_ _
  · exact ⟨0, by rw [bcastScalar_apply, constant_apply, Ideal.ofBits_zero_f32]; rfl⟩
  · exact gather_rows_real (by decide) gather_S100000x256_S800000x1_S800000x256_1_0_n_n_0_1_1256 rfl rfl rfl rfl rfl rfl _ _ hh

end Cert.ReferenceIdeal.RefValue
-- ==== Proof.RefTail.lean ====
/-
  The pooling-and-predictor tail in three parts: the per-graph mean of the features through the first predictor layer's
  product and bias, the floor at zero, and the second predictor layer. The tail is their composition.
-/
import proofs.«111242_j77756087927556_1_alg».proof.Proof.RefStages

noncomputable section

namespace Cert.ReferenceIdeal.RefValue

open Cert.ReferenceIdeal Idealize.ShloMosaic Idealize.ShloMosaic.ValueIdx Cert.Spec

variable [Facts₀]
open Cert.ReferenceIdeal.Facts₀

/-- The per-graph mean of the features (a scatter-add by graph into zeros over the clamped graph sizes), times W1, plus b1. -/
def tailA (x2 : IVec S100000 32) (x10 : FVec Ideal S256x128 .f32) (x11 : FVec Ideal S128 .f32)
    (h : FVec Ideal S100000x256 .f32) : FVec Ideal S256x128 .f32 :=
  ((addf (F := Ideal) (φ := .f32) : (⟨S256x128, .f32⟩ : BufTy).Contents (Elt Ideal) → (⟨S256x128, .f32⟩ : BufTy).Contents (Elt Ideal) → (⟨S256x128, .f32⟩ : BufTy).Contents (Elt Ideal)) (((fun l r => Host.dotGeneral (F := Ideal) (φ₁ := .f32) (φ₂ := .f32) dot_S256x256_S256x128_S256x128_1_0_0_1_n_n none l r) : (⟨S256x256, .f32⟩ : BufTy).Contents (Elt Ideal) → (⟨S256x128, .f32⟩ : BufTy).Contents (Elt Ideal) → (⟨S256x128, .f32⟩ : BufTy).Contents (Elt Ideal)) ((Host.divf (F := Ideal) (φ := .f32) : (⟨S256x256, .f32⟩ : BufTy).Contents (Elt Ideal) → (⟨S256x256, .f32⟩ : BufTy).Contents (Elt Ideal) → (⟨S256x256, .f32⟩ : BufTy).Contents (Elt Ideal)) (((fun x i u => Host.scatterAdd (F := Ideal) (φ := .f32) scatter_S256x256_S100000x1_S100000x256_1_0_0_1 x i u) : (⟨S256x256, .f32⟩ : BufTy).Contents (Elt Ideal) → (⟨S100000x1, .i32⟩ : BufTy).Contents (Elt Ideal) → (⟨S100000x256, .f32⟩ : BufTy).Contents (Elt Ideal) → (⟨S256x256, .f32⟩ : BufTy).Contents (Elt Ideal)) ((broadcastInDim S256x256 ![] bcast_S_S256x256 : (⟨S_, .f32⟩ : BufTy).Contents (Elt Ideal) → (⟨S256x256, .f32⟩ : BufTy).Contents (Elt Ideal)) (constant (F := Ideal) S_ .f32 0x00000000#32)) ((broadcastInDim S100000x1 ![0] bcast_S100000_S100000x1_0 : (⟨S100000, .i32⟩ : BufTy).Contents (Elt Ideal) → (⟨S100000x1, .i32⟩ : BufTy).Contents (Elt Ideal)) x2) h) ((broadcastInDim S256x256 ![0, 1] bcast_S256x1_S256x256_0_1 : (⟨S256x1, .f32⟩ : BufTy).Contents (Elt Ideal) → (⟨S256x256, .f32⟩ : BufTy).Contents (Elt Ideal)) ((broadcastInDim S256x1 ![0] bcast_S256_S256x1_0 : (⟨S256, .f32⟩ : BufTy).Contents (Elt Ideal) → (⟨S256x1, .f32⟩ : BufTy).Contents (Elt Ideal)) ((maximumf (F := Ideal) (φ := .f32) : (⟨S256, .f32⟩ : BufTy).Contents (Elt Ideal) → (⟨S256, .f32⟩ : BufTy).Contents (Elt Ideal) → (⟨S256, .f32⟩ : BufTy).Contents (Elt Ideal)) (((fun x i u => Host.scatterAdd (F := Ideal) (φ := .f32) scatter_S256_S100000x1_S100000_n_0_0_1 x i u) : (⟨S256, .f32⟩ : BufTy).Contents (Elt Ideal) → (⟨S100000x1, .i32⟩ : BufTy).Contents (Elt Ideal) → (⟨S100000, .f32⟩ : BufTy).Contents (Elt Ideal) → (⟨S256, .f32⟩ : BufTy).Contents (Elt Ideal)) ((broadcastInDim S256 ![] bcast_S_S256 : (⟨S_, .f32⟩ : BufTy).Contents (Elt Ideal) → (⟨S256, .f32⟩ : BufTy).Contents (Elt Ideal)) (constant (F := Ideal) S_ .f32 0x00000000#32)) ((broadcastInDim S100000x1 ![0] bcast_S100000_S100000x1_0 : (⟨S100000, .i32⟩ : BufTy).Contents (Elt Ideal) → (⟨S100000x1, .i32⟩ : BufTy).Contents (Elt Ideal)) x2) ((broadcastInDim S100000 ![] bcast_S_S100000 : (⟨S_, .f32⟩ : BufTy).Contents (Elt Ideal) → (⟨S100000, .f32⟩ : BufTy).Contents (Elt Ideal)) (constant (F := Ideal) S_ .f32 0x3F800000#32))) ((broadcastInDim S256 ![] bcast_S_S256 : (⟨S_, .f32⟩ : BufTy).Contents (Elt Ideal) → (⟨S256, .f32⟩ : BufTy).Contents (Elt Ideal)) (constant (F := Ideal) S_ .f32 0x3F800000#32)))))) x10) ((broadcastInDim S256x128 ![0, 1] bcast_S1x128_S256x128_0_1 : (⟨S1x128, .f32⟩ : BufTy).Contents (Elt Ideal) → (⟨S256x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) x11)))
/-- The floor at zero. -/
def tailB (y : FVec Ideal S256x128 .f32) : FVec Ideal S256x128 .f32 :=
  (maximumf (F := Ideal) (φ := .f32) y ((broadcastInDim S256x128 ![] bcast_S_S256x128) (constant (F := Ideal) S_ .f32 0x00000000#32)))
/-- The second predictor layer: times W2, plus b2. -/
def tailC (z : FVec Ideal S256x128 .f32) (x12 : FVec Ideal S128x1 .f32) (x13 : FVec Ideal S1 .f32) : FVec Ideal S256x1 .f32 :=
  ((addf (F := Ideal) (φ := .f32) : (⟨S256x1, .f32⟩ : BufTy).Contents (Elt Ideal) → (⟨S256x1, .f32⟩ : BufTy).Contents (Elt Ideal) → (⟨S256x1, .f32⟩ : BufTy).Contents (Elt Ideal)) (((fun l r => Host.dotGeneral (F := Ideal) (φ₁ := .f32) (φ₂ := .f32) dot_S256x128_S128x1_S256x1_1_0_0_1_n_n none l r) : (⟨S256x128, .f32⟩ : BufTy).Contents (Elt Ideal) → (⟨S128x1, .f32⟩ : BufTy).Contents (Elt Ideal) → (⟨S256x1, .f32⟩ : BufTy).Contents (Elt Ideal)) z x12) ((broadcastInDim S256x1 ![0, 1] bcast_S1x1_S256x1_0_1 : (⟨S1x1, .f32⟩ : BufTy).Contents (Elt Ideal) → (⟨S256x1, .f32⟩ : BufTy).Contents (Elt Ideal)) ((broadcastInDim S1x1 ![1] bcast_S1_S1x1_1 : (⟨S1, .f32⟩ : BufTy).Contents (Elt Ideal) → (⟨S1x1, .f32⟩ : BufTy).Contents (Elt Ideal)) x13)))

/-- The tail is the three parts in turn. -/
theorem tailOps_split (x2 : IVec S100000 32) (x10 : FVec Ideal S256x128 .f32) (x11 : FVec Ideal S128 .f32)
    (x12 : FVec Ideal S128x1 .f32) (x13 : FVec Ideal S1 .f32) (h : FVec Ideal S100000x256 .f32) :
    tailOps x2 x10 x11 x12 x13 h = tailC (tailB (tailA x2 x10 x11 h)) x12 x13 := rfl

end Cert.ReferenceIdeal.RefValue
-- ==== Proof.KI.HostAgg.lean ====
/-
  The kernel program's host stretches around the layers, read off the contents W of the buffers before each stretch: the
  two rows of the edge list, the clamped in-degree column, each layer's mean over the in-neighbours, and after the last
  layer the pooling and the predictor — each the very function of its operands that the reference applies (the two
  programs' lines coincide), named once and never opened. The last three stretches are read one at a time, each over
  its own contents, and joined by what the later ones leave untouched.
-/
import proofs.«111242_j77756087927556_1_alg».proof.Proof.Gen.KernelIdeal.Launch
import proofs.«111242_j77756087927556_1_alg».proof.Proof.Gen.KernelIdeal.Regions
import proofs.«111242_j77756087927556_1_alg».proof.Proof.Gen.ReferenceIdeal
import proofs.«111242_j77756087927556_1_alg».proof.Proof.RefStages
import proofs.«111242_j77756087927556_1_alg».proof.Proof.RefTail
import Idealize.ShloMosaic.Lib.StableHlo.Run

noncomputable section

namespace Cert.KernelIdeal.HandVal

open Cert.KernelIdeal Cert.KernelIdeal.Gen Idealize.ShloMosaic Idealize.ShloMosaic.TcCoe Idealize.ShloMosaic.StableHlo
open Cert.ReferenceIdeal.RefValue (srcOps dstOps degOps aggOps tailOps tailA tailB tailC tailOps_split)

variable (W : Valuation τ sig (Elt Ideal))

set_option maxHeartbeats 400000 in
/-- The source node of every edge, as the first stretch leaves it. -/
theorem host0_src : after (hostOps0 (F := Ideal)) W (Proc.devRef .tc main_v1) = srcOps (W (Proc.devRef .tc main_arg1)) := by
  after_results
  rfl
set_option maxHeartbeats 400000 in
/-- The destination node of every edge. -/
theorem host0_dst : after (hostOps0 (F := Ideal)) W (Proc.devRef .tc main_v3) = dstOps (W (Proc.devRef .tc main_arg1)) := by
  after_results
  rfl

set_option maxHeartbeats 400000 in
/-- The clamped in-degree column, computed once from the destinations. -/
theorem host1_deg : after (hostOps1 (F := Ideal)) W (Proc.devRef .tc main_v12) = degOps (W (Proc.devRef .tc main_v3)) := by
  after_results
  rfl

set_option maxHeartbeats 1000000 in
/-- Layer 0's mean over the in-neighbours of the projected features. -/
theorem host1_agg : after (hostOps1 (F := Ideal)) W (Proc.devRef .tc main_v24)
    = aggOps (W (Proc.devRef .tc main_v1)) (W (Proc.devRef .tc main_v3)) (degOps (W (Proc.devRef .tc main_v3))) (W (Proc.devRef .tc main_v5)) := by
  after_results
  rfl

set_option maxHeartbeats 1000000 in
/-- Layer 1's mean over the in-neighbours, with the in-degree column computed before the first layer. -/
theorem host3_agg : after (hostOps3 (F := Ideal)) W (Proc.devRef .tc main_v51)
    = aggOps (W (Proc.devRef .tc main_v1)) (W (Proc.devRef .tc main_v3)) (W (Proc.devRef .tc main_v12)) (W (Proc.devRef .tc main_v39)) := by
  after_results_simp
  rfl

set_option maxHeartbeats 1000000 in
/-- Layer 2's mean over the in-neighbours, with the in-degree column computed before the first layer. -/
theorem host5_agg : after (hostOps5 (F := Ideal)) W (Proc.devRef .tc main_v78)
    = aggOps (W (Proc.devRef .tc main_v1)) (W (Proc.devRef .tc main_v3)) (W (Proc.devRef .tc main_v12)) (W (Proc.devRef .tc main_v66)) := by
  after_results_simp
  rfl

set_option maxHeartbeats 1000000 in
/-- Layer 3's mean over the in-neighbours, with the in-degree column computed before the first layer. -/
theorem host7_agg : after (hostOps7 (F := Ideal)) W (Proc.devRef .tc main_v105)
    = aggOps (W (Proc.devRef .tc main_v1)) (W (Proc.devRef .tc main_v3)) (W (Proc.devRef .tc main_v12)) (W (Proc.devRef .tc main_v93)) := by
  after_results_simp
  rfl

set_option maxHeartbeats 1000000 in
/-- The first of the last three stretches: the per-graph mean of the features, times W1, plus b1. -/
theorem host9_a : after (hostOps9 (F := Ideal)) W (Proc.devRef .tc main_v136)
    = tailA (W (Proc.devRef .tc main_arg2)) (W (Proc.devRef .tc main_arg10)) (W (Proc.devRef .tc main_arg11)) (W (Proc.devRef .tc main_v120)) := by
  after_results_simp
  rfl
set_option maxHeartbeats 400000 in
/-- The second: the floor at zero. -/
theorem host9_b : after (hostOps9_1 (F := Ideal)) W (Proc.devRef .tc main_v137) = tailB (W (Proc.devRef .tc main_v136)) := by
  after_results
  rfl
set_option maxHeartbeats 400000 in
/-- The third: times W2, plus b2. -/
theorem host9_c : after (hostOps9_2 (F := Ideal)) W (Proc.devRef .tc main_v141)
    = tailC (W (Proc.devRef .tc main_v137)) (W (Proc.devRef .tc main_arg12)) (W (Proc.devRef .tc main_arg13)) := by
  after_results
  rfl

set_option maxHeartbeats 400000 in
/-- After the last layer: the per-graph mean pooling and the two-layer predictor, over the three last stretches. -/
theorem host9_out : after (hostOps9_2 (F := Ideal)) (after (hostOps9_1 (F := Ideal)) (after (hostOps9 (F := Ideal)) W)) (Proc.devRef .tc main_v141)
    = tailOps (W (Proc.devRef .tc main_arg2)) (W (Proc.devRef .tc main_arg10)) (W (Proc.devRef .tc main_arg11))
        (W (Proc.devRef .tc main_arg12)) (W (Proc.devRef .tc main_arg13)) (W (Proc.devRef .tc main_v120)) := by
  rw [host9_c, host9_b, host9_a, tailOps_split,
    after_of_writes_sub hostOps9_1 _ hostOps9_1_writes (r := main_arg12) (by decide),
    after_of_writes_sub hostOps9_1 _ hostOps9_1_writes (r := main_arg13) (by decide),
    after_of_writes_sub hostOps9 _ hostOps9_writes (r := main_arg12) (by decide),
    after_of_writes_sub hostOps9 _ hostOps9_writes (r := main_arg13) (by decide)]

end Cert.KernelIdeal.HandVal

end
-- ==== Proof.KI.LayerPay.lean ====
/- The layer's matmul-and-statistics body at the exact extended reals, entry by entry: the output tile's entry (p, q) is
   `∑ k, agg (p, k) · Wl (k, q) + bl (0, q) + ∑ k, h (p, k) · Wr (k, q)`; one step of the running column sums adds the
   tile's column sums, one step of the running sums of squares adds the column sums of the squared tile; both start
   from zero rows. Stated once over the blocks: every layer's region computes these same functions. -/
import proofs.«111242_j77756087927556_1_alg».proof.Proof.KI.Region1Run
import proofs.«111242_j77756087927556_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.ValueIdx
open scoped BigOperators

/-! ## The tile products and the bias row at an index -/

/-- The tile product's dimension numbers are those of a plain rows × contraction by contraction × columns product. -/
theorem plainLayer : Cert.Gcn.PlainDot.IsPlain (M := 2000) (K := 256) (N := 256) dot_S2000x256_S256x256_S2000x256_1_0_0_1_n_n :=
  ⟨rfl, rfl, rfl, rfl, rfl, rfl, rfl, rfl⟩

/-- A tile's matrix product into a zero accumulator, at entry (p, q): the sum over the 256 contracted positions. -/
theorem matmulLayer_apply (a : FVec Ideal S2000x256 .bf16) (b : FVec Ideal S256x256 .bf16) (p : Fin 2000) (q : Fin 256) :
    (matmul dot_S2000x256_S256x256_S2000x256_1_0_0_1_n_n none a b (constant (F := Ideal) S2000x256 .f32 0x00000000#32) : FVec Ideal S2000x256 .f32) (ix2 p q)
      = ∑ k : Fin 256, a (ix2 p k) * b (ix2 k q) :=
  Cert.Gcn.PlainDot.matmul_zero_apply plainLayer none a b (ix2 p q)

/-- The bias row broadcast over the tile's rows, at entry (p, q): the row's entry q. -/
theorem biasLayer_apply (x3 : Vec Ideal S1x256 .f32) (p : Fin 2000) (q : Fin 256) :
    (broadcastTo S2000x256 x3 broadcasts_S1x256_S2000x256 : FVec Ideal S2000x256 .f32) (ix2 p q) = x3 (ix2 0 q) :=
  broadcastTo_apply x3 broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- THE TILE: entry (p, q) of `hn`'s tile from the tiles of `h` (`x0`) and `agg` (`x1`) and the whole `Wl` (`x2`),
    `bl` (`x3`), `Wr` (`x4`). -/
theorem out1_5_apply (x0 x1 : Vec Ideal S2000x256 .f32) (x2 : Vec Ideal S256x256 .f32) (x3 : Vec Ideal S1x256 .f32) (x4 : Vec Ideal S256x256 .f32)
    (p : Fin 2000) (q : Fin 256) :
    out1_5 x0 x1 x2 x3 x4 (ix2 p q)
      = (∑ k : Fin 256, x1 (ix2 p k) * x2 (ix2 k q)) + x3 (ix2 0 q) + ∑ k : Fin 256, x0 (ix2 p k) * x4 (ix2 k q) := by
  unfold out1_5 k1_pay4
  simp only [shapeCast_self]
  exact congrArg₂ (· + ·)
    (congrArg₂ (· + ·) (matmulLayer_apply (truncf .bf16 x1 bitsLt_bf16_f32) (truncf .bf16 x2 bitsLt_bf16_f32) p q) (biasLayer_apply x3 p q))
    (matmulLayer_apply (truncf .bf16 x0 bitsLt_bf16_f32) (truncf .bf16 x4 bitsLt_bf16_f32) p q)

/-! ## The column sums of a tile -/

/-- The sum of a tile over its rows, laid out as a [1, 256] row, at column q. -/
theorem colsum_apply (v : FVec Ideal S2000x256 .f32) (q : Fin 256) :
    (shapeCast S1x256 (multiReduction (F := Ideal) .add [0] S256 v 0x00000000#32 reduces_S2000x256_S256 (.inl rfl) rfl) shapeCasts_S256_S1x256 : FVec Ideal S1x256 .f32) (ix2 0 q)
      = ∑ r : Fin 2000, v (ix2 r q) := by
  refine (shapeCast_addUnit_apply ![256] _ shapeCasts_S256_S1x256 (ix2 0 q)).trans ?_
  refine (Ideal.multiReduction_add_single v _ reduces_S2000x256_S256 (.inl rfl) rfl _).trans ?_
  refine Finset.sum_congr rfl fun r _ => congrArg v ?_
  funext a; apply Fin.ext
  match a with
  | ⟨0, _⟩ => rfl
  | ⟨1, _⟩ => rfl

/-- ONE STEP OF THE COLUMN SUMS: the sums before, plus the tile's column sums. -/
theorem stepS_apply (x0 x1 : Vec Ideal S2000x256 .f32) (x2 : Vec Ideal S256x256 .f32) (x3 : Vec Ideal S1x256 .f32) (x4 : Vec Ideal S256x256 .f32)
    (s : Vec Ideal S1x256 .f32) (q : Fin 256) :
    stepS x0 x1 x2 x3 x4 s (ix2 0 q) = s (ix2 0 q) + ∑ r : Fin 2000, out1_5 x0 x1 x2 x3 x4 (ix2 r q) := by
  unfold stepS k1_pay5
  simp only [shapeCast_self]
  exact congrArg (s (ix2 0 q) + ·) (colsum_apply (k1_pay4 x0 x1 x2 x4 x3) q)

/-- ONE STEP OF THE COLUMN SUMS OF SQUARES: the sums before, plus the column sums of the squared tile. -/
theorem stepQ_apply (x0 x1 : Vec Ideal S2000x256 .f32) (x2 : Vec Ideal S256x256 .f32) (x3 : Vec Ideal S1x256 .f32) (x4 : Vec Ideal S256x256 .f32)
    (s : Vec Ideal S1x256 .f32) (q : Fin 256) :
    stepQ x0 x1 x2 x3 x4 s (ix2 0 q)
      = s (ix2 0 q) + ∑ r : Fin 2000, out1_5 x0 x1 x2 x3 x4 (ix2 r q) * out1_5 x0 x1 x2 x3 x4 (ix2 r q) := by
  unfold stepQ k1_pay1
  simp only [shapeCast_self]
  exact congrArg (s (ix2 0 q) + ·) (colsum_apply (k1_pay6 x0 x1 x2 x4 x3) q)

/-- The zero rows both running sums start from. -/
theorem zeroS_apply (j : S1x256.Idx) : (k1_pay2 (F := Ideal)) j = 0 := by
  unfold k1_pay2; simp only [shapeCast_self]; exact Ideal.ofBits_zero_f32
theorem zeroQ_apply (j : S1x256.Idx) : (k1_pay3 (F := Ideal)) j = 0 := by
  unfold k1_pay3; simp only [shapeCast_self]; exact Ideal.ofBits_zero_f32

end Cert.KernelIdeal.HandVal

end
-- ==== Proof.KI.Val1.lean ====
/- The value of region 1 at the exact extended reals: the tiles of window 5 assemble to
   `hn = agg · Wl + bl + h · Wr` over all 100000 rows, and windows 6 and 7, written back once after the last
   point, hold the column sums of `hn` and of `hn²`: the running sums over the 50 tiles regroup to the sums
   over the 100000 rows. No finiteness is needed: addition on the extended reals is commutative and associative. -/
import proofs.«111242_j77756087927556_1_alg».proof.Proof.KI.Region1
import proofs.«111242_j77756087927556_1_alg».proof.Proof.KI.LayerPay
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The windows' block indices -/

/-- Over the grid: the tiles of `h`, `agg` and `hn` are the point's; every other window stays at its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `p` of point `t`'s tile is row `2000 t + p` of the array. -/
def rowOf1 (t : Fin cfg1.N) (p : Fin 2000) : Fin 100000 :=
  ⟨2000 * t.val + p.val, by have h : t.val < 50 := lt_of_lt_of_eq t.isLt N_1; have := p.isLt; omega⟩

/-! ## A tile of `hn` -/

/-- Entry (p, q) of point `t`'s tile is entry (2000 t + p, q) of `hn` of the arrays as the region finds them. -/
theorem tile1_eq (c : Dev nD) (t : Fin cfg1.N) (p : Fin 2000) (q : Fin 256) :
    out1_5 (iblk1 V c 0 t) (iblk1 V c 1 t) (iblk1 V c 2 t) (iblk1 V c 3 t) (iblk1 V c 4 t) (ix2 p q) = (Cert.Spec.hnK (V c main_v5) (V c main_v24) (V c main_v26) (V c main_v31) (V c main_v30)) (ix2 (rowOf1 t p) q) := by
  obtain ⟨e00, e01, e10, e11, e20, e21, e30, e31, e40, e41, -⟩ := idx_facts1 t
  refine (out1_5_apply (iblk1 V c 0 t) (iblk1 V c 1 t) (iblk1 V c 2 t) (iblk1 V c 3 t) (iblk1 V c 4 t) p q).trans ?_
  have h0 : ∀ k : Fin 256, (((cfg1.win 0).blk t).view.emb (ix2 p k)) = ix2 (rowOf1 t p) k := fun k => by
    funext a; apply Fin.ext
    match a with
    | ⟨0, _⟩ => show win1_0.index t (0 : Fin 2) * 2000 + 1 * p.val = 2000 * t.val + p.val; omega
    | ⟨1, _⟩ => show win1_0.index t (1 : Fin 2) * 256 + 1 * k.val = k.val; omega
  have h1 : ∀ k : Fin 256, (((cfg1.win 1).blk t).view.emb (ix2 p k)) = ix2 (rowOf1 t p) k := fun k => by
    funext a; apply Fin.ext
    match a with
    | ⟨0, _⟩ => show win1_1.index t (0 : Fin 2) * 2000 + 1 * p.val = 2000 * t.val + p.val; omega
    | ⟨1, _⟩ => show win1_1.index t (1 : Fin 2) * 256 + 1 * k.val = k.val; omega
  have h2 : ∀ k : Fin 256, (((cfg1.win 2).blk t).view.emb (ix2 k q)) = ix2 k q := fun k => by
    funext a; apply Fin.ext
    match a with
    | ⟨0, _⟩ => show win1_2.index t (0 : Fin 2) * 256 + 1 * k.val = k.val; omega
    | ⟨1, _⟩ => show win1_2.index t (1 : Fin 2) * 256 + 1 * q.val = q.val; omega
  have h3 : (((cfg1.win 3).blk t).view.emb (ix2 0 q)) = ix2 0 q := by
    funext a; apply Fin.ext
    match a with
    | ⟨0, _⟩ => show win1_3.index t (0 : Fin 2) * 1 + 1 * 0 = 0; omega
    | ⟨1, _⟩ => show win1_3.index t (1 : Fin 2) * 256 + 1 * q.val = q.val; omega
  have h4 : ∀ k : Fin 256, (((cfg1.win 4).blk t).view.emb (ix2 k q)) = ix2 k q := fun k => by
    funext a; apply Fin.ext
    match a with
    | ⟨0, _⟩ => show win1_4.index t (0 : Fin 2) * 256 + 1 * k.val = k.val; omega
    | ⟨1, _⟩ => show win1_4.index t (1 : Fin 2) * 256 + 1 * q.val = q.val; omega
  have key : ∀ (H A : S100000x256.Idx → EReal) (WL : S256x256.Idx → EReal) (B : S1x256.Idx → EReal) (WR : S256x256.Idx → EReal),
      (∑ k : Fin 256, A (((cfg1.win 1).blk t).view.emb (ix2 p k)) * WL (((cfg1.win 2).blk t).view.emb (ix2 k q))) + B (((cfg1.win 3).blk t).view.emb (ix2 0 q))
        + ∑ k : Fin 256, H (((cfg1.win 0).blk t).view.emb (ix2 p k)) * WR (((cfg1.win 4).blk t).view.emb (ix2 k q))
      = Cert.Spec.hnK H A WL B WR (ix2 (rowOf1 t p) q) := by
    intro H A WL B WR
    show _ = (∑ k : Fin 256, A (ix2 (rowOf1 t p) k) * WL (ix2 k q)) + B (ix2 0 q) + ∑ k : Fin 256, H (ix2 (rowOf1 t p) k) * WR (ix2 k q)
    rw [h3]
    exact congrArg₂ (· + ·)
      (congrArg (· + B (ix2 0 q)) (Finset.sum_congr rfl fun k _ => congrArg₂ (· * ·) (congrArg A (h1 k)) (congrArg WL (h2 k))))
      (Finset.sum_congr rfl fun k _ => congrArg₂ (· * ·) (congrArg H (h0 k)) (congrArg WR (h4 k)))
  exact key (V c main_v5) (V c main_v24) (V c main_v26) (V c main_v31) (V c main_v30)

/-! ## Window 5: from the tiles to the array -/

/-- What point `t` writes back is tile `t` of `hn`. -/
theorem flushed1_5_eq (c : Dev nD) (t : Fin cfg1.N) :
    (dat1 (F := Ideal) V c).flushed 5 t = ((cfg1.win 5).blk t).view.read (Elt Ideal) (Cert.Spec.hnK (V c main_v5) (V c main_v24) (V c main_v26) (V c main_v31) (V c main_v30)) := by
  show (cfg1.win 5).cut (grid1.coords t) ((dat1 V c).after 5 t) = _
  rw [after1_5]
  obtain ⟨e00, e01, e10, e11, e20, e21, e30, e31, e40, e41, e50, e51, -⟩ := idx_facts1 t
  funext j
  obtain ⟨p, q, rfl⟩ : ∃ (p : Fin 2000) (q : Fin 256), j = ix2 p q := ⟨j 0, j 1, eq_ix2 j⟩
  refine (tile1_eq V c t p q).trans ?_
  have h5 : (((cfg1.win 5).blk t).view.emb (ix2 p q)) = ix2 (rowOf1 t p) q := by
    funext a; apply Fin.ext
    match a with
    | ⟨0, _⟩ => show win1_5.index t (0 : Fin 2) * 2000 + 1 * p.val = 2000 * t.val + p.val; omega
    | ⟨1, _⟩ => show win1_5.index t (1 : Fin 2) * 256 + 1 * q.val = q.val; omega
  exact (congrArg (Cert.Spec.hnK (V c main_v5) (V c main_v24) (V c main_v26) (V c main_v31) (V c main_v30)) h5).symm

/-- An index of `hn` is in point `t`'s tile iff each coordinate is in the tile's range on its axis. -/
theorem mem_blk1_5 (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v32_0).slice (win1_5.rect t)).set ↔ _
  rw [View.set_slice_whole, Rect.mem_set_unit]
  exact Iff.rfl

/-- The tiles cover `hn`: row `r` is in the tile of point `r / 2000`. -/
theorem cover1_5_arr (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 50 := N_1
  let t : Fin cfg1.N := ⟨(i 0).val / 2000, by omega⟩
  obtain ⟨-, -, -, -, -, -, -, -, -, -, e50, e51, -⟩ := idx_facts1 t
  have q0 : win1_5.index t (0 : Fin 2) = (i 0).val / 2000 := e50
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- WINDOW 5's ARRAY after the region's run is `hn` of the arrays as the region finds them. -/
theorem final1_5 (c : Dev nD) :
    (dat1 (F := Ideal) V c).arrAt 5 cfg1.N = (Cert.Spec.hnK (V c main_v5) (V c main_v24) (V c main_v26) (V c main_v31) (V c main_v30)) :=
  (dat1 V c).arrAt_eq_of_cover 5 (Cert.Spec.hnK (V c main_v5) (V c main_v24) (V c main_v26) (V c main_v31) (V c main_v30)) (fun t _ => flushed1_5_eq V c t) (cover1_5_arr)

/-! ## The running sums over the first `n` tiles -/

/-- Tile `t`'s column sum of `hn` at column `q` (zero past the grid). -/
def tileS1 (c : Dev nD) (q : Fin 256) (t : ℕ) : EReal :=
  if h : t < 50 then ∑ r : Fin 2000, (Cert.Spec.hnK (V c main_v5) (V c main_v24) (V c main_v26) (V c main_v31) (V c main_v30)) (ix2 ⟨2000 * t + r.val, by have := r.isLt; omega⟩ q) else 0
/-- Tile `t`'s column sum of `hn²` at column `q` (zero past the grid). -/
def tileQ1 (c : Dev nD) (q : Fin 256) (t : ℕ) : EReal :=
  if h : t < 50 then ∑ r : Fin 2000, (Cert.Spec.hnK (V c main_v5) (V c main_v24) (V c main_v26) (V c main_v31) (V c main_v30)) (ix2 ⟨2000 * t + r.val, by have := r.isLt; omega⟩ q) * (Cert.Spec.hnK (V c main_v5) (V c main_v24) (V c main_v26) (V c main_v31) (V c main_v30)) (ix2 ⟨2000 * t + r.val, by have := r.isLt; omega⟩ q) else 0

/-- Before point `n` the first scratch row holds the column sums of `hn` over the first `n` tiles. -/
theorem accS1_eq (c : Dev nD) (q : Fin 256) : ∀ n : ℕ, n ≤ 50 →
    accS V c n (ix2 0 q) = ∑ t ∈ Finset.range n, tileS1 V c q t
  | 0, _ => by rw [Finset.sum_range_zero]; exact zeroS_apply _
  | n + 1, hn => by
    have hlt : n < 50 := hn
    have ih := accS1_eq c q n (Nat.le_of_succ_le hn)
    rw [Finset.sum_range_succ, ← ih]
    show accS V c ((⟨n, lt_of_lt_of_eq hlt N_1.symm⟩ : Fin cfg1.N).val + 1) (ix2 0 q) = _
    rw [accS_succ V c ⟨n, lt_of_lt_of_eq hlt N_1.symm⟩]
    refine (stepS_apply _ _ _ _ _ _ q).trans (congrArg (accS V c n (ix2 0 q) + ·) ?_)
    unfold tileS1
    rw [dif_pos hlt]
    exact Finset.sum_congr rfl fun r _ => tile1_eq V c ⟨n, lt_of_lt_of_eq hlt N_1.symm⟩ r q

/-- Before point `n` the second scratch row holds the column sums of `hn²` over the first `n` tiles. -/
theorem accQ1_eq (c : Dev nD) (q : Fin 256) : ∀ n : ℕ, n ≤ 50 →
    accQ V c n (ix2 0 q) = ∑ t ∈ Finset.range n, tileQ1 V c q t
  | 0, _ => by rw [Finset.sum_range_zero]; exact zeroQ_apply _
  | n + 1, hn => by
    have hlt : n < 50 := hn
    have ih := accQ1_eq c q n (Nat.le_of_succ_le hn)
    rw [Finset.sum_range_succ, ← ih]
    show accQ V c ((⟨n, lt_of_lt_of_eq hlt N_1.symm⟩ : Fin cfg1.N).val + 1) (ix2 0 q) = _
    rw [accQ_succ V c ⟨n, lt_of_lt_of_eq hlt N_1.symm⟩]
    refine (stepQ_apply _ _ _ _ _ _ q).trans (congrArg (accQ V c n (ix2 0 q) + ·) ?_)
    unfold tileQ1
    rw [dif_pos hlt]
    exact Finset.sum_congr rfl fun r _ => by rw [tile1_eq V c ⟨n, lt_of_lt_of_eq hlt N_1.symm⟩ r q]; rfl

/-- After the last point: the column sums of `hn` over all 100000 rows. -/
theorem accS1_last (c : Dev nD) (q : Fin 256) :
    accS V c 50 (ix2 0 q) = ∑ r : Fin 100000, (Cert.Spec.hnK (V c main_v5) (V c main_v24) (V c main_v26) (V c main_v31) (V c main_v30)) (ix2 r q) := by
  rw [accS1_eq V c q 50 le_rfl, Cert.Spec.sum_tiles (fun r => (Cert.Spec.hnK (V c main_v5) (V c main_v24) (V c main_v26) (V c main_v31) (V c main_v30)) (ix2 r q)), ← Fin.sum_univ_eq_sum_range]
  exact Finset.sum_congr rfl fun t _ => by unfold tileS1; rw [dif_pos t.isLt]

/-- After the last point: the column sums of `hn²` over all 100000 rows. -/
theorem accQ1_last (c : Dev nD) (q : Fin 256) :
    accQ V c 50 (ix2 0 q) = ∑ r : Fin 100000, (Cert.Spec.hnK (V c main_v5) (V c main_v24) (V c main_v26) (V c main_v31) (V c main_v30)) (ix2 r q) * (Cert.Spec.hnK (V c main_v5) (V c main_v24) (V c main_v26) (V c main_v31) (V c main_v30)) (ix2 r q) := by
  rw [accQ1_eq V c q 50 le_rfl, Cert.Spec.sum_tiles (fun r => (Cert.Spec.hnK (V c main_v5) (V c main_v24) (V c main_v26) (V c main_v31) (V c main_v30)) (ix2 r q) * (Cert.Spec.hnK (V c main_v5) (V c main_v24) (V c main_v26) (V c main_v31) (V c main_v30)) (ix2 r q)), ← Fin.sum_univ_eq_sum_range]
  exact Finset.sum_congr rfl fun t _ => by unfold tileQ1; rw [dif_pos t.isLt]

/-! ## Windows 6 and 7: written back once, after the last point -/

/-- The specification's rows of column sums, at a column. -/
theorem sumK_apply (hn : Cert.Spec.Arr2 100000 256) (q : Fin 256) : Cert.Spec.sumK hn (ix2 0 q) = ∑ r : Fin 100000, hn (ix2 r q) := rfl
theorem sumsqK_apply (hn : Cert.Spec.Arr2 100000 256) (q : Fin 256) : Cert.Spec.sumsqK hn (ix2 0 q) = ∑ r : Fin 100000, hn (ix2 r q) * hn (ix2 r q) := rfl

/-- Window 6's one block is the whole row: reading the block reads the row. -/
theorem read_blk1_6 (t : Fin cfg1.N) (G : S1x256.Idx → EReal) (q : Fin 256) :
    ((cfg1.win 6).blk t).view.read (Elt Ideal) G (ix2 0 q) = G (ix2 0 q) := by
  obtain ⟨-, -, -, -, -, -, -, -, -, -, -, -, e60, e61, e70, e71⟩ := idx_facts1 t
  have hemb : ((cfg1.win 6).blk t).view.emb (ix2 0 q) = ix2 0 q := by
    funext a; apply Fin.ext
    match a with
    | ⟨0, _⟩ => show win1_6.index t (0 : Fin 2) * 1 + 1 * 0 = 0; omega
    | ⟨1, _⟩ => show win1_6.index t (1 : Fin 2) * 256 + 1 * q.val = q.val; omega
  show G (((cfg1.win 6).blk t).view.emb (ix2 0 q)) = G (ix2 0 q)
  rw [hemb]

/-- The one point that writes window 6 back is the last, and what it writes is the whole row of column sums. -/
theorem flushed1_6_eq (c : Dev nD) (t : Fin cfg1.N) (ht : (cfg1.win 6).flush t = true) :
    (dat1 (F := Ideal) V c).flushed 6 t = ((cfg1.win 6).blk t).view.read (Elt Ideal) (Cert.Spec.sumK (Cert.Spec.hnK (V c main_v5) (V c main_v24) (V c main_v26) (V c main_v31) (V c main_v30))) := by
  show (cfg1.win 6).cut (grid1.coords t) ((dat1 V c).after 6 t) = _
  rw [after1_6]
  have hN : t.val < 50 := lt_of_lt_of_eq t.isLt N_1
  have h49 : t.val = 49 := by have := (flush1_6 t).mp ht; omega
  have e : accS V c (t.val + 1) = accS V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk1_6 t _ q).symm
  exact (accS1_last V c q).trans (sumK_apply _ q).symm

theorem mem_blk1_6 (t : Fin cfg1.N) (i : S1x256.Idx) :
    i ∈ ((cfg1.win 6).blk t).view.set ↔ ∀ a : Fin 2, win1_6.index t a * S1x256.size a ≤ (i a).val ∧ (i a).val < win1_6.index t a * S1x256.size a + S1x256.size a := by
  show i ∈ ((View.whole main_v32_1).slice (win1_6.rect t)).set ↔ _
  rw [View.set_slice_whole, Rect.mem_set_unit]
  exact Iff.rfl

/-- The last point's block is the whole row. -/
theorem cover1_6_arr (i : S1x256.Idx) :
    ∃ t : Fin cfg1.N, (cfg1.win 6).flush t = true ∧ i ∈ ((cfg1.win 6).blk t).view.set := by
  have hi0 : (i 0).val < 1 := (i 0).isLt
  have hi1 : (i 1).val < 256 := (i 1).isLt
  have hN : cfg1.N = 50 := N_1
  let t : Fin cfg1.N := ⟨49, by omega⟩
  obtain ⟨-, -, -, -, -, -, -, -, -, -, -, -, e60, e61, e70, e71⟩ := idx_facts1 t
  refine ⟨t, (flush1_6 t).mpr (by show 49 % 50 = 49; rfl), ?_⟩
  rw [mem_blk1_6]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 256 ≤ (i 1).val ∧ (i 1).val < win1_6.index t (1 : Fin 2) * 256 + 256; omega

/-- WINDOW 6's ARRAY after the region's run: the column sums of `hn` over all rows. -/
theorem final1_6 (c : Dev nD) :
    (dat1 (F := Ideal) V c).arrAt 6 cfg1.N = (Cert.Spec.sumK (Cert.Spec.hnK (V c main_v5) (V c main_v24) (V c main_v26) (V c main_v31) (V c main_v30))) :=
  (dat1 V c).arrAt_eq_of_cover 6 (Cert.Spec.sumK (Cert.Spec.hnK (V c main_v5) (V c main_v24) (V c main_v26) (V c main_v31) (V c main_v30))) (fun t ht => flushed1_6_eq V c t ht) (cover1_6_arr)

/-- Window 7's one block is the whole row: reading the block reads the row. -/
theorem read_blk1_7 (t : Fin cfg1.N) (G : S1x256.Idx → EReal) (q : Fin 256) :
    ((cfg1.win 7).blk t).view.read (Elt Ideal) G (ix2 0 q) = G (ix2 0 q) := by
  obtain ⟨-, -, -, -, -, -, -, -, -, -, -, -, e60, e61, e70, e71⟩ := idx_facts1 t
  have hemb : ((cfg1.win 7).blk t).view.emb (ix2 0 q) = ix2 0 q := by
    funext a; apply Fin.ext
    match a with
    | ⟨0, _⟩ => show win1_7.index t (0 : Fin 2) * 1 + 1 * 0 = 0; omega
    | ⟨1, _⟩ => show win1_7.index t (1 : Fin 2) * 256 + 1 * q.val = q.val; omega
  show G (((cfg1.win 7).blk t).view.emb (ix2 0 q)) = G (ix2 0 q)
  rw [hemb]

/-- The one point that writes window 7 back is the last, and what it writes is the whole row of column sums. -/
theorem flushed1_7_eq (c : Dev nD) (t : Fin cfg1.N) (ht : (cfg1.win 7).flush t = true) :
    (dat1 (F := Ideal) V c).flushed 7 t = ((cfg1.win 7).blk t).view.read (Elt Ideal) (Cert.Spec.sumsqK (Cert.Spec.hnK (V c main_v5) (V c main_v24) (V c main_v26) (V c main_v31) (V c main_v30))) := by
  show (cfg1.win 7).cut (grid1.coords t) ((dat1 V c).after 7 t) = _
  rw [after1_7]
  have hN : t.val < 50 := lt_of_lt_of_eq t.isLt N_1
  have h49 : t.val = 49 := by have := (flush1_7 t).mp ht; omega
  have e : accQ V c (t.val + 1) = accQ V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk1_7 t _ q).symm
  exact (accQ1_last V c q).trans (sumsqK_apply _ q).symm

theorem mem_blk1_7 (t : Fin cfg1.N) (i : S1x256.Idx) :
    i ∈ ((cfg1.win 7).blk t).view.set ↔ ∀ a : Fin 2, win1_7.index t a * S1x256.size a ≤ (i a).val ∧ (i a).val < win1_7.index t a * S1x256.size a + S1x256.size a := by
  show i ∈ ((View.whole main_v32_2).slice (win1_7.rect t)).set ↔ _
  rw [View.set_slice_whole, Rect.mem_set_unit]
  exact Iff.rfl

/-- The last point's block is the whole row. -/
theorem cover1_7_arr (i : S1x256.Idx) :
    ∃ t : Fin cfg1.N, (cfg1.win 7).flush t = true ∧ i ∈ ((cfg1.win 7).blk t).view.set := by
  have hi0 : (i 0).val < 1 := (i 0).isLt
  have hi1 : (i 1).val < 256 := (i 1).isLt
  have hN : cfg1.N = 50 := N_1
  let t : Fin cfg1.N := ⟨49, by omega⟩
  obtain ⟨-, -, -, -, -, -, -, -, -, -, -, -, e60, e61, e70, e71⟩ := idx_facts1 t
  refine ⟨t, (flush1_7 t).mpr (by show 49 % 50 = 49; rfl), ?_⟩
  rw [mem_blk1_7]
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 256 ≤ (i 1).val ∧ (i 1).val < win1_7.index t (1 : Fin 2) * 256 + 256; omega

/-- WINDOW 7's ARRAY after the region's run: the column sums of `hn²` over all rows. -/
theorem final1_7 (c : Dev nD) :
    (dat1 (F := Ideal) V c).arrAt 7 cfg1.N = (Cert.Spec.sumsqK (Cert.Spec.hnK (V c main_v5) (V c main_v24) (V c main_v26) (V c main_v31) (V c main_v30))) :=
  (dat1 V c).arrAt_eq_of_cover 7 (Cert.Spec.sumsqK (Cert.Spec.hnK (V c main_v5) (V c main_v24) (V c main_v26) (V c main_v31) (V c main_v30))) (fun t ht => flushed1_7_eq V c t ht) (cover1_7_arr)

end Cert.KernelIdeal.HandVal

end
-- ==== Proof.KI.Val3.lean ====
/- The value of region 3 at the exact extended reals: the tiles of window 5 assemble to
   `hn = agg · Wl + bl + h · Wr` over all 100000 rows, and windows 6 and 7, written back once after the last
   point, hold the column sums of `hn` and of `hn²`: the running sums over the 50 tiles regroup to the sums
   over the 100000 rows. No finiteness is needed: addition on the extended reals is commutative and associative. -/
import proofs.«111242_j77756087927556_1_alg».proof.Proof.KI.Region3
import proofs.«111242_j77756087927556_1_alg».proof.Proof.KI.Val1
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The windows' block indices -/

/-- Over the grid: the tiles of `h`, `agg` and `hn` are the point's; every other window stays at its one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Row `p` of point `t`'s tile is row `2000 t + p` of the array. -/
def rowOf3 (t : Fin cfg3.N) (p : Fin 2000) : Fin 100000 :=
  ⟨2000 * t.val + p.val, by have h : t.val < 50 := lt_of_lt_of_eq t.isLt N_3; have := p.isLt; omega⟩

/-! ## A tile of `hn` -/

/-- Entry (p, q) of point `t`'s tile is entry (2000 t + p, q) of `hn` of the arrays as the region finds them. -/
theorem tile3_eq (c : Dev nD) (t : Fin cfg3.N) (p : Fin 2000) (q : Fin 256) :
    out1_5 (iblk3 V c 0 t) (iblk3 V c 1 t) (iblk3 V c 2 t) (iblk3 V c 3 t) (iblk3 V c 4 t) (ix2 p q) = (Cert.Spec.hnK (V c main_v39) (V c main_v51) (V c main_v53) (V c main_v58) (V c main_v57)) (ix2 (rowOf3 t p) q) := by
  obtain ⟨e00, e01, e10, e11, e20, e21, e30, e31, e40, e41, -⟩ := idx_facts3 t
  refine (out1_5_apply (iblk3 V c 0 t) (iblk3 V c 1 t) (iblk3 V c 2 t) (iblk3 V c 3 t) (iblk3 V c 4 t) p q).trans ?_
  have h0 : ∀ k : Fin 256, (((cfg3.win 0).blk t).view.emb (ix2 p k)) = ix2 (rowOf3 t p) k := fun k => by
    funext a; apply Fin.ext
    match a with
    | ⟨0, _⟩ => show win3_0.index t (0 : Fin 2) * 2000 + 1 * p.val = 2000 * t.val + p.val; omega
    | ⟨1, _⟩ => show win3_0.index t (1 : Fin 2) * 256 + 1 * k.val = k.val; omega
  have h1 : ∀ k : Fin 256, (((cfg3.win 1).blk t).view.emb (ix2 p k)) = ix2 (rowOf3 t p) k := fun k => by
    funext a; apply Fin.ext
    match a with
    | ⟨0, _⟩ => show win3_1.index t (0 : Fin 2) * 2000 + 1 * p.val = 2000 * t.val + p.val; omega
    | ⟨1, _⟩ => show win3_1.index t (1 : Fin 2) * 256 + 1 * k.val = k.val; omega
  have h2 : ∀ k : Fin 256, (((cfg3.win 2).blk t).view.emb (ix2 k q)) = ix2 k q := fun k => by
    funext a; apply Fin.ext
    match a with
    | ⟨0, _⟩ => show win3_2.index t (0 : Fin 2) * 256 + 1 * k.val = k.val; omega
    | ⟨1, _⟩ => show win3_2.index t (1 : Fin 2) * 256 + 1 * q.val = q.val; omega
  have h3 : (((cfg3.win 3).blk t).view.emb (ix2 0 q)) = ix2 0 q := by
    funext a; apply Fin.ext
    match a with
    | ⟨0, _⟩ => show win3_3.index t (0 : Fin 2) * 1 + 1 * 0 = 0; omega
    | ⟨1, _⟩ => show win3_3.index t (1 : Fin 2) * 256 + 1 * q.val = q.val; omega
  have h4 : ∀ k : Fin 256, (((cfg3.win 4).blk t).view.emb (ix2 k q)) = ix2 k q := fun k => by
    funext a; apply Fin.ext
    match a with
    | ⟨0, _⟩ => show win3_4.index t (0 : Fin 2) * 256 + 1 * k.val = k.val; omega
    | ⟨1, _⟩ => show win3_4.index t (1 : Fin 2) * 256 + 1 * q.val = q.val; omega
  have key : ∀ (H A : S100000x256.Idx → EReal) (WL : S256x256.Idx → EReal) (B : S1x256.Idx → EReal) (WR : S256x256.Idx → EReal),
      (∑ k : Fin 256, A (((cfg3.win 1).blk t).view.emb (ix2 p k)) * WL (((cfg3.win 2).blk t).view.emb (ix2 k q))) + B (((cfg3.win 3).blk t).view.emb (ix2 0 q))
        + ∑ k : Fin 256, H (((cfg3.win 0).blk t).view.emb (ix2 p k)) * WR (((cfg3.win 4).blk t).view.emb (ix2 k q))
      = Cert.Spec.hnK H A WL B WR (ix2 (rowOf3 t p) q) := by
    intro H A WL B WR
    show _ = (∑ k : Fin 256, A (ix2 (rowOf3 t p) k) * WL (ix2 k q)) + B (ix2 0 q) + ∑ k : Fin 256, H (ix2 (rowOf3 t p) k) * WR (ix2 k q)
    rw [h3]
    exact congrArg₂ (· + ·)
      (congrArg (· + B (ix2 0 q)) (Finset.sum_congr rfl fun k _ => congrArg₂ (· * ·) (congrArg A (h1 k)) (congrArg WL (h2 k))))
      (Finset.sum_congr rfl fun k _ => congrArg₂ (· * ·) (congrArg H (h0 k)) (congrArg WR (h4 k)))
  exact key (V c main_v39) (V c main_v51) (V c main_v53) (V c main_v58) (V c main_v57)

/-! ## Window 5: from the tiles to the array -/

/-- What point `t` writes back is tile `t` of `hn`. -/
theorem flushed3_5_eq (c : Dev nD) (t : Fin cfg3.N) :
    (dat3 (F := Ideal) V c).flushed 5 t = ((cfg3.win 5).blk t).view.read (Elt Ideal) (Cert.Spec.hnK (V c main_v39) (V c main_v51) (V c main_v53) (V c main_v58) (V c main_v57)) := by
  show (cfg3.win 5).cut (grid3.coords t) ((dat3 V c).after 5 t) = _
  rw [after3_5]
  obtain ⟨e00, e01, e10, e11, e20, e21, e30, e31, e40, e41, e50, e51, -⟩ := idx_facts3 t
  funext j
  obtain ⟨p, q, rfl⟩ : ∃ (p : Fin 2000) (q : Fin 256), j = ix2 p q := ⟨j 0, j 1, eq_ix2 j⟩
  refine (tile3_eq V c t p q).trans ?_
  have h5 : (((cfg3.win 5).blk t).view.emb (ix2 p q)) = ix2 (rowOf3 t p) q := by
    funext a; apply Fin.ext
    match a with
    | ⟨0, _⟩ => show win3_5.index t (0 : Fin 2) * 2000 + 1 * p.val = 2000 * t.val + p.val; omega
    | ⟨1, _⟩ => show win3_5.index t (1 : Fin 2) * 256 + 1 * q.val = q.val; omega
  exact (congrArg (Cert.Spec.hnK (V c main_v39) (V c main_v51) (V c main_v53) (V c main_v58) (V c main_v57)) h5).symm

/-- An index of `hn` is in point `t`'s tile iff each coordinate is in the tile's range on its axis. -/
theorem mem_blk3_5 (t : Fin cfg3.N) (i : S100000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v59_0).slice (win3_5.rect t)).set ↔ _
  rw [View.set_slice_whole, Rect.mem_set_unit]
  exact Iff.rfl

/-- The tiles cover `hn`: row `r` is in the tile of point `r / 2000`. -/
theorem cover3_5_arr (i : S100000x256.Idx) :
    ∃ t : Fin cfg3.N, (cfg3.win 5).flush t = true ∧ i ∈ ((cfg3.win 5).blk t).view.set := by
  have hi0 : (i 0).val < 100000 := (i 0).isLt
  have hi1 : (i 1).val < 256 := (i 1).isLt
  have hN : cfg3.N = 50 := N_3
  let t : Fin cfg3.N := ⟨(i 0).val / 2000, by omega⟩
  obtain ⟨-, -, -, -, -, -, -, -, -, -, e50, e51, -⟩ := idx_facts3 t
  have q0 : win3_5.index t (0 : Fin 2) = (i 0).val / 2000 := e50
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- WINDOW 5's ARRAY after the region's run is `hn` of the arrays as the region finds them. -/
theorem final3_5 (c : Dev nD) :
    (dat3 (F := Ideal) V c).arrAt 5 cfg3.N = (Cert.Spec.hnK (V c main_v39) (V c main_v51) (V c main_v53) (V c main_v58) (V c main_v57)) :=
  (dat3 V c).arrAt_eq_of_cover 5 (Cert.Spec.hnK (V c main_v39) (V c main_v51) (V c main_v53) (V c main_v58) (V c main_v57)) (fun t _ => flushed3_5_eq V c t) (cover3_5_arr)

/-! ## The running sums over the first `n` tiles -/

/-- Tile `t`'s column sum of `hn` at column `q` (zero past the grid). -/
def tileS3 (c : Dev nD) (q : Fin 256) (t : ℕ) : EReal :=
  if h : t < 50 then ∑ r : Fin 2000, (Cert.Spec.hnK (V c main_v39) (V c main_v51) (V c main_v53) (V c main_v58) (V c main_v57)) (ix2 ⟨2000 * t + r.val, by have := r.isLt; omega⟩ q) else 0
/-- Tile `t`'s column sum of `hn²` at column `q` (zero past the grid). -/
def tileQ3 (c : Dev nD) (q : Fin 256) (t : ℕ) : EReal :=
  if h : t < 50 then ∑ r : Fin 2000, (Cert.Spec.hnK (V c main_v39) (V c main_v51) (V c main_v53) (V c main_v58) (V c main_v57)) (ix2 ⟨2000 * t + r.val, by have := r.isLt; omega⟩ q) * (Cert.Spec.hnK (V c main_v39) (V c main_v51) (V c main_v53) (V c main_v58) (V c main_v57)) (ix2 ⟨2000 * t + r.val, by have := r.isLt; omega⟩ q) else 0

/-- Before point `n` the first scratch row holds the column sums of `hn` over the first `n` tiles. -/
theorem accS3_eq (c : Dev nD) (q : Fin 256) : ∀ n : ℕ, n ≤ 50 →
    accS3 V c n (ix2 0 q) = ∑ t ∈ Finset.range n, tileS3 V c q t
  | 0, _ => by rw [Finset.sum_range_zero]; exact zeroS_apply _
  | n + 1, hn => by
    have hlt : n < 50 := hn
    have ih := accS3_eq c q n (Nat.le_of_succ_le hn)
    rw [Finset.sum_range_succ, ← ih]
    show accS3 V c ((⟨n, lt_of_lt_of_eq hlt N_3.symm⟩ : Fin cfg3.N).val + 1) (ix2 0 q) = _
    rw [accS3_succ V c ⟨n, lt_of_lt_of_eq hlt N_3.symm⟩]
    refine (stepS_apply _ _ _ _ _ _ q).trans (congrArg (accS3 V c n (ix2 0 q) + ·) ?_)
    unfold tileS3
    rw [dif_pos hlt]
    exact Finset.sum_congr rfl fun r _ => tile3_eq V c ⟨n, lt_of_lt_of_eq hlt N_3.symm⟩ r q

/-- Before point `n` the second scratch row holds the column sums of `hn²` over the first `n` tiles. -/
theorem accQ3_eq (c : Dev nD) (q : Fin 256) : ∀ n : ℕ, n ≤ 50 →
    accQ3 V c n (ix2 0 q) = ∑ t ∈ Finset.range n, tileQ3 V c q t
  | 0, _ => by rw [Finset.sum_range_zero]; exact zeroQ_apply _
  | n + 1, hn => by
    have hlt : n < 50 := hn
    have ih := accQ3_eq c q n (Nat.le_of_succ_le hn)
    rw [Finset.sum_range_succ, ← ih]
    show accQ3 V c ((⟨n, lt_of_lt_of_eq hlt N_3.symm⟩ : Fin cfg3.N).val + 1) (ix2 0 q) = _
    rw [accQ3_succ V c ⟨n, lt_of_lt_of_eq hlt N_3.symm⟩]
    refine (stepQ_apply _ _ _ _ _ _ q).trans (congrArg (accQ3 V c n (ix2 0 q) + ·) ?_)
    unfold tileQ3
    rw [dif_pos hlt]
    exact Finset.sum_congr rfl fun r _ => by rw [tile3_eq V c ⟨n, lt_of_lt_of_eq hlt N_3.symm⟩ r q]; rfl

/-- After the last point: the column sums of `hn` over all 100000 rows. -/
theorem accS3_last (c : Dev nD) (q : Fin 256) :
    accS3 V c 50 (ix2 0 q) = ∑ r : Fin 100000, (Cert.Spec.hnK (V c main_v39) (V c main_v51) (V c main_v53) (V c main_v58) (V c main_v57)) (ix2 r q) := by
  rw [accS3_eq V c q 50 le_rfl, Cert.Spec.sum_tiles (fun r => (Cert.Spec.hnK (V c main_v39) (V c main_v51) (V c main_v53) (V c main_v58) (V c main_v57)) (ix2 r q)), ← Fin.sum_univ_eq_sum_range]
  exact Finset.sum_congr rfl fun t _ => by unfold tileS3; rw [dif_pos t.isLt]

/-- After the last point: the column sums of `hn²` over all 100000 rows. -/
theorem accQ3_last (c : Dev nD) (q : Fin 256) :
    accQ3 V c 50 (ix2 0 q) = ∑ r : Fin 100000, (Cert.Spec.hnK (V c main_v39) (V c main_v51) (V c main_v53) (V c main_v58) (V c main_v57)) (ix2 r q) * (Cert.Spec.hnK (V c main_v39) (V c main_v51) (V c main_v53) (V c main_v58) (V c main_v57)) (ix2 r q) := by
  rw [accQ3_eq V c q 50 le_rfl, Cert.Spec.sum_tiles (fun r => (Cert.Spec.hnK (V c main_v39) (V c main_v51) (V c main_v53) (V c main_v58) (V c main_v57)) (ix2 r q) * (Cert.Spec.hnK (V c main_v39) (V c main_v51) (V c main_v53) (V c main_v58) (V c main_v57)) (ix2 r q)), ← Fin.sum_univ_eq_sum_range]
  exact Finset.sum_congr rfl fun t _ => by unfold tileQ3; rw [dif_pos t.isLt]

/-! ## Windows 6 and 7: written back once, after the last point -/

/-- Window 6's one block is the whole row: reading the block reads the row. -/
theorem read_blk3_6 (t : Fin cfg3.N) (G : S1x256.Idx → EReal) (q : Fin 256) :
    ((cfg3.win 6).blk t).view.read (Elt Ideal) G (ix2 0 q) = G (ix2 0 q) := by
  obtain ⟨-, -, -, -, -, -, -, -, -, -, -, -, e60, e61, e70, e71⟩ := idx_facts3 t
  have hemb : ((cfg3.win 6).blk t).view.emb (ix2 0 q) = ix2 0 q := by
    funext a; apply Fin.ext
    match a with
    | ⟨0, _⟩ => show win3_6.index t (0 : Fin 2) * 1 + 1 * 0 = 0; omega
    | ⟨1, _⟩ => show win3_6.index t (1 : Fin 2) * 256 + 1 * q.val = q.val; omega
  show G (((cfg3.win 6).blk t).view.emb (ix2 0 q)) = G (ix2 0 q)
  rw [hemb]

/-- The one point that writes window 6 back is the last, and what it writes is the whole row of column sums. -/
theorem flushed3_6_eq (c : Dev nD) (t : Fin cfg3.N) (ht : (cfg3.win 6).flush t = true) :
    (dat3 (F := Ideal) V c).flushed 6 t = ((cfg3.win 6).blk t).view.read (Elt Ideal) (Cert.Spec.sumK (Cert.Spec.hnK (V c main_v39) (V c main_v51) (V c main_v53) (V c main_v58) (V c main_v57))) := by
  show (cfg3.win 6).cut (grid3.coords t) ((dat3 V c).after 6 t) = _
  rw [after3_6]
  have hN : t.val < 50 := lt_of_lt_of_eq t.isLt N_3
  have h49 : t.val = 49 := by have := (flush3_6 t).mp ht; omega
  have e : accS3 V c (t.val + 1) = accS3 V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk3_6 t _ q).symm
  exact (accS3_last V c q).trans (sumK_apply _ q).symm

theorem mem_blk3_6 (t : Fin cfg3.N) (i : S1x256.Idx) :
    i ∈ ((cfg3.win 6).blk t).view.set ↔ ∀ a : Fin 2, win3_6.index t a * S1x256.size a ≤ (i a).val ∧ (i a).val < win3_6.index t a * S1x256.size a + S1x256.size a := by
  show i ∈ ((View.whole main_v59_1).slice (win3_6.rect t)).set ↔ _
  rw [View.set_slice_whole, Rect.mem_set_unit]
  exact Iff.rfl

/-- The last point's block is the whole row. -/
theorem cover3_6_arr (i : S1x256.Idx) :
    ∃ t : Fin cfg3.N, (cfg3.win 6).flush t = true ∧ i ∈ ((cfg3.win 6).blk t).view.set := by
  have hi0 : (i 0).val < 1 := (i 0).isLt
  have hi1 : (i 1).val < 256 := (i 1).isLt
  have hN : cfg3.N = 50 := N_3
  let t : Fin cfg3.N := ⟨49, by omega⟩
  obtain ⟨-, -, -, -, -, -, -, -, -, -, -, -, e60, e61, e70, e71⟩ := idx_facts3 t
  refine ⟨t, (flush3_6 t).mpr (by show 49 % 50 = 49; rfl), ?_⟩
  rw [mem_blk3_6]
  intro a
  match a with
  | ⟨0, _⟩ => show win3_6.index t (0 : Fin 2) * 1 ≤ (i 0).val ∧ (i 0).val < win3_6.index t (0 : Fin 2) * 1 + 1; omega
  | ⟨1, _⟩ => show win3_6.index t (1 : Fin 2) * 256 ≤ (i 1).val ∧ (i 1).val < win3_6.index t (1 : Fin 2) * 256 + 256; omega

/-- WINDOW 6's ARRAY after the region's run: the column sums of `hn` over all rows. -/
theorem final3_6 (c : Dev nD) :
    (dat3 (F := Ideal) V c).arrAt 6 cfg3.N = (Cert.Spec.sumK (Cert.Spec.hnK (V c main_v39) (V c main_v51) (V c main_v53) (V c main_v58) (V c main_v57))) :=
  (dat3 V c).arrAt_eq_of_cover 6 (Cert.Spec.sumK (Cert.Spec.hnK (V c main_v39) (V c main_v51) (V c main_v53) (V c main_v58) (V c main_v57))) (fun t ht => flushed3_6_eq V c t ht) (cover3_6_arr)

/-- Window 7's one block is the whole row: reading the block reads the row. -/
theorem read_blk3_7 (t : Fin cfg3.N) (G : S1x256.Idx → EReal) (q : Fin 256) :
    ((cfg3.win 7).blk t).view.read (Elt Ideal) G (ix2 0 q) = G (ix2 0 q) := by
  obtain ⟨-, -, -, -, -, -, -, -, -, -, -, -, e60, e61, e70, e71⟩ := idx_facts3 t
  have hemb : ((cfg3.win 7).blk t).view.emb (ix2 0 q) = ix2 0 q := by
    funext a; apply Fin.ext
    match a with
    | ⟨0, _⟩ => show win3_7.index t (0 : Fin 2) * 1 + 1 * 0 = 0; omega
    | ⟨1, _⟩ => show win3_7.index t (1 : Fin 2) * 256 + 1 * q.val = q.val; omega
  show G (((cfg3.win 7).blk t).view.emb (ix2 0 q)) = G (ix2 0 q)
  rw [hemb]

/-- The one point that writes window 7 back is the last, and what it writes is the whole row of column sums. -/
theorem flushed3_7_eq (c : Dev nD) (t : Fin cfg3.N) (ht : (cfg3.win 7).flush t = true) :
    (dat3 (F := Ideal) V c).flushed 7 t = ((cfg3.win 7).blk t).view.read (Elt Ideal) (Cert.Spec.sumsqK (Cert.Spec.hnK (V c main_v39) (V c main_v51) (V c main_v53) (V c main_v58) (V c main_v57))) := by
  show (cfg3.win 7).cut (grid3.coords t) ((dat3 V c).after 7 t) = _
  rw [after3_7]
  have hN : t.val < 50 := lt_of_lt_of_eq t.isLt N_3
  have h49 : t.val = 49 := by have := (flush3_7 t).mp ht; omega
  have e : accQ3 V c (t.val + 1) = accQ3 V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk3_7 t _ q).symm
  exact (accQ3_last V c q).trans (sumsqK_apply _ q).symm

theorem mem_blk3_7 (t : Fin cfg3.N) (i : S1x256.Idx) :
    i ∈ ((cfg3.win 7).blk t).view.set ↔ ∀ a : Fin 2, win3_7.index t a * S1x256.size a ≤ (i a).val ∧ (i a).val < win3_7.index t a * S1x256.size a + S1x256.size a := by
  show i ∈ ((View.whole main_v59_2).slice (win3_7.rect t)).set ↔ _
  rw [View.set_slice_whole, Rect.mem_set_unit]
  exact Iff.rfl

/-- The last point's block is the whole row. -/
theorem cover3_7_arr (i : S1x256.Idx) :
    ∃ t : Fin cfg3.N, (cfg3.win 7).flush t = true ∧ i ∈ ((cfg3.win 7).blk t).view.set := by
  have hi0 : (i 0).val < 1 := (i 0).isLt
  have hi1 : (i 1).val < 256 := (i 1).isLt
  have hN : cfg3.N = 50 := N_3
  let t : Fin cfg3.N := ⟨49, by omega⟩
  obtain ⟨-, -, -, -, -, -, -, -, -, -, -, -, e60, e61, e70, e71⟩ := idx_facts3 t
  refine ⟨t, (flush3_7 t).mpr (by show 49 % 50 = 49; rfl), ?_⟩
  rw [mem_blk3_7]
  intro a
  match a with
  | ⟨0, _⟩ => show win3_7.index t (0 : Fin 2) * 1 ≤ (i 0).val ∧ (i 0).val < win3_7.index t (0 : Fin 2) * 1 + 1; omega
  | ⟨1, _⟩ => show win3_7.index t (1 : Fin 2) * 256 ≤ (i 1).val ∧ (i 1).val < win3_7.index t (1 : Fin 2) * 256 + 256; omega

/-- WINDOW 7's ARRAY after the region's run: the column sums of `hn²` over all rows. -/
theorem final3_7 (c : Dev nD) :
    (dat3 (F := Ideal) V c).arrAt 7 cfg3.N = (Cert.Spec.sumsqK (Cert.Spec.hnK (V c main_v39) (V c main_v51) (V c main_v53) (V c main_v58) (V c main_v57))) :=
  (dat3 V c).arrAt_eq_of_cover 7 (Cert.Spec.sumsqK (Cert.Spec.hnK (V c main_v39) (V c main_v51) (V c main_v53) (V c main_v58) (V c main_v57))) (fun t ht => flushed3_7_eq V c t ht) (cover3_7_arr)

end Cert.KernelIdeal.HandVal

end
-- ==== Proof.KI.Val5.lean ====
/- The value of region 5 at the exact extended reals: the tiles of window 5 assemble to
   `hn = agg · Wl + bl + h · Wr` over all 100000 rows, and windows 6 and 7, written back once after the last
   point, hold the column sums of `hn` and of `hn²`: the running sums over the 50 tiles regroup to the sums
   over the 100000 rows. No finiteness is needed: addition on the extended reals is commutative and associative. -/
import proofs.«111242_j77756087927556_1_alg».proof.Proof.KI.Region5
import proofs.«111242_j77756087927556_1_alg».proof.Proof.KI.Val1
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The windows' block indices -/

/-- Over the grid: the tiles of `h`, `agg` and `hn` are the point's; every other window stays at its one block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Row `p` of point `t`'s tile is row `2000 t + p` of the array. -/
def rowOf5 (t : Fin cfg5.N) (p : Fin 2000) : Fin 100000 :=
  ⟨2000 * t.val + p.val, by have h : t.val < 50 := lt_of_lt_of_eq t.isLt N_5; have := p.isLt; omega⟩

/-! ## A tile of `hn` -/

/-- Entry (p, q) of point `t`'s tile is entry (2000 t + p, q) of `hn` of the arrays as the region finds them. -/
theorem tile5_eq (c : Dev nD) (t : Fin cfg5.N) (p : Fin 2000) (q : Fin 256) :
    out1_5 (iblk5 V c 0 t) (iblk5 V c 1 t) (iblk5 V c 2 t) (iblk5 V c 3 t) (iblk5 V c 4 t) (ix2 p q) = (Cert.Spec.hnK (V c main_v66) (V c main_v78) (V c main_v80) (V c main_v85) (V c main_v84)) (ix2 (rowOf5 t p) q) := by
  obtain ⟨e00, e01, e10, e11, e20, e21, e30, e31, e40, e41, -⟩ := idx_facts5 t
  refine (out1_5_apply (iblk5 V c 0 t) (iblk5 V c 1 t) (iblk5 V c 2 t) (iblk5 V c 3 t) (iblk5 V c 4 t) p q).trans ?_
  have h0 : ∀ k : Fin 256, (((cfg5.win 0).blk t).view.emb (ix2 p k)) = ix2 (rowOf5 t p) k := fun k => by
    funext a; apply Fin.ext
    match a with
    | ⟨0, _⟩ => show win5_0.index t (0 : Fin 2) * 2000 + 1 * p.val = 2000 * t.val + p.val; omega
    | ⟨1, _⟩ => show win5_0.index t (1 : Fin 2) * 256 + 1 * k.val = k.val; omega
  have h1 : ∀ k : Fin 256, (((cfg5.win 1).blk t).view.emb (ix2 p k)) = ix2 (rowOf5 t p) k := fun k => by
    funext a; apply Fin.ext
    match a with
    | ⟨0, _⟩ => show win5_1.index t (0 : Fin 2) * 2000 + 1 * p.val = 2000 * t.val + p.val; omega
    | ⟨1, _⟩ => show win5_1.index t (1 : Fin 2) * 256 + 1 * k.val = k.val; omega
  have h2 : ∀ k : Fin 256, (((cfg5.win 2).blk t).view.emb (ix2 k q)) = ix2 k q := fun k => by
    funext a; apply Fin.ext
    match a with
    | ⟨0, _⟩ => show win5_2.index t (0 : Fin 2) * 256 + 1 * k.val = k.val; omega
    | ⟨1, _⟩ => show win5_2.index t (1 : Fin 2) * 256 + 1 * q.val = q.val; omega
  have h3 : (((cfg5.win 3).blk t).view.emb (ix2 0 q)) = ix2 0 q := by
    funext a; apply Fin.ext
    match a with
    | ⟨0, _⟩ => show win5_3.index t (0 : Fin 2) * 1 + 1 * 0 = 0; omega
    | ⟨1, _⟩ => show win5_3.index t (1 : Fin 2) * 256 + 1 * q.val = q.val; omega
  have h4 : ∀ k : Fin 256, (((cfg5.win 4).blk t).view.emb (ix2 k q)) = ix2 k q := fun k => by
    funext a; apply Fin.ext
    match a with
    | ⟨0, _⟩ => show win5_4.index t (0 : Fin 2) * 256 + 1 * k.val = k.val; omega
    | ⟨1, _⟩ => show win5_4.index t (1 : Fin 2) * 256 + 1 * q.val = q.val; omega
  have key : ∀ (H A : S100000x256.Idx → EReal) (WL : S256x256.Idx → EReal) (B : S1x256.Idx → EReal) (WR : S256x256.Idx → EReal),
      (∑ k : Fin 256, A (((cfg5.win 1).blk t).view.emb (ix2 p k)) * WL (((cfg5.win 2).blk t).view.emb (ix2 k q))) + B (((cfg5.win 3).blk t).view.emb (ix2 0 q))
        + ∑ k : Fin 256, H (((cfg5.win 0).blk t).view.emb (ix2 p k)) * WR (((cfg5.win 4).blk t).view.emb (ix2 k q))
      = Cert.Spec.hnK H A WL B WR (ix2 (rowOf5 t p) q) := by
    intro H A WL B WR
    show _ = (∑ k : Fin 256, A (ix2 (rowOf5 t p) k) * WL (ix2 k q)) + B (ix2 0 q) + ∑ k : Fin 256, H (ix2 (rowOf5 t p) k) * WR (ix2 k q)
    rw [h3]
    exact congrArg₂ (· + ·)
      (congrArg (· + B (ix2 0 q)) (Finset.sum_congr rfl fun k _ => congrArg₂ (· * ·) (congrArg A (h1 k)) (congrArg WL (h2 k))))
      (Finset.sum_congr rfl fun k _ => congrArg₂ (· * ·) (congrArg H (h0 k)) (congrArg WR (h4 k)))
  exact key (V c main_v66) (V c main_v78) (V c main_v80) (V c main_v85) (V c main_v84)

/-! ## Window 5: from the tiles to the array -/

/-- What point `t` writes back is tile `t` of `hn`. -/
theorem flushed5_5_eq (c : Dev nD) (t : Fin cfg5.N) :
    (dat5 (F := Ideal) V c).flushed 5 t = ((cfg5.win 5).blk t).view.read (Elt Ideal) (Cert.Spec.hnK (V c main_v66) (V c main_v78) (V c main_v80) (V c main_v85) (V c main_v84)) := by
  show (cfg5.win 5).cut (grid5.coords t) ((dat5 V c).after 5 t) = _
  rw [after5_5]
  obtain ⟨e00, e01, e10, e11, e20, e21, e30, e31, e40, e41, e50, e51, -⟩ := idx_facts5 t
  funext j
  obtain ⟨p, q, rfl⟩ : ∃ (p : Fin 2000) (q : Fin 256), j = ix2 p q := ⟨j 0, j 1, eq_ix2 j⟩
  refine (tile5_eq V c t p q).trans ?_
  have h5 : (((cfg5.win 5).blk t).view.emb (ix2 p q)) = ix2 (rowOf5 t p) q := by
    funext a; apply Fin.ext
    match a with
    | ⟨0, _⟩ => show win5_5.index t (0 : Fin 2) * 2000 + 1 * p.val = 2000 * t.val + p.val; omega
    | ⟨1, _⟩ => show win5_5.index t (1 : Fin 2) * 256 + 1 * q.val = q.val; omega
  exact (congrArg (Cert.Spec.hnK (V c main_v66) (V c main_v78) (V c main_v80) (V c main_v85) (V c main_v84)) h5).symm

/-- An index of `hn` is in point `t`'s tile iff each coordinate is in the tile's range on its axis. -/
theorem mem_blk5_5 (t : Fin cfg5.N) (i : S100000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v86_0).slice (win5_5.rect t)).set ↔ _
  rw [View.set_slice_whole, Rect.mem_set_unit]
  exact Iff.rfl

/-- The tiles cover `hn`: row `r` is in the tile of point `r / 2000`. -/
theorem cover5_5_arr (i : S100000x256.Idx) :
    ∃ t : Fin cfg5.N, (cfg5.win 5).flush t = true ∧ i ∈ ((cfg5.win 5).blk t).view.set := by
  have hi0 : (i 0).val < 100000 := (i 0).isLt
  have hi1 : (i 1).val < 256 := (i 1).isLt
  have hN : cfg5.N = 50 := N_5
  let t : Fin cfg5.N := ⟨(i 0).val / 2000, by omega⟩
  obtain ⟨-, -, -, -, -, -, -, -, -, -, e50, e51, -⟩ := idx_facts5 t
  have q0 : win5_5.index t (0 : Fin 2) = (i 0).val / 2000 := e50
  refine ⟨t, flush5_5 t, ?_⟩
  rw [mem_blk5_5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- WINDOW 5's ARRAY after the region's run is `hn` of the arrays as the region finds them. -/
theorem final5_5 (c : Dev nD) :
    (dat5 (F := Ideal) V c).arrAt 5 cfg5.N = (Cert.Spec.hnK (V c main_v66) (V c main_v78) (V c main_v80) (V c main_v85) (V c main_v84)) :=
  (dat5 V c).arrAt_eq_of_cover 5 (Cert.Spec.hnK (V c main_v66) (V c main_v78) (V c main_v80) (V c main_v85) (V c main_v84)) (fun t _ => flushed5_5_eq V c t) (cover5_5_arr)

/-! ## The running sums over the first `n` tiles -/

/-- Tile `t`'s column sum of `hn` at column `q` (zero past the grid). -/
def tileS5 (c : Dev nD) (q : Fin 256) (t : ℕ) : EReal :=
  if h : t < 50 then ∑ r : Fin 2000, (Cert.Spec.hnK (V c main_v66) (V c main_v78) (V c main_v80) (V c main_v85) (V c main_v84)) (ix2 ⟨2000 * t + r.val, by have := r.isLt; omega⟩ q) else 0
/-- Tile `t`'s column sum of `hn²` at column `q` (zero past the grid). -/
def tileQ5 (c : Dev nD) (q : Fin 256) (t : ℕ) : EReal :=
  if h : t < 50 then ∑ r : Fin 2000, (Cert.Spec.hnK (V c main_v66) (V c main_v78) (V c main_v80) (V c main_v85) (V c main_v84)) (ix2 ⟨2000 * t + r.val, by have := r.isLt; omega⟩ q) * (Cert.Spec.hnK (V c main_v66) (V c main_v78) (V c main_v80) (V c main_v85) (V c main_v84)) (ix2 ⟨2000 * t + r.val, by have := r.isLt; omega⟩ q) else 0

/-- Before point `n` the first scratch row holds the column sums of `hn` over the first `n` tiles. -/
theorem accS5_eq (c : Dev nD) (q : Fin 256) : ∀ n : ℕ, n ≤ 50 →
    accS5 V c n (ix2 0 q) = ∑ t ∈ Finset.range n, tileS5 V c q t
  | 0, _ => by rw [Finset.sum_range_zero]; exact zeroS_apply _
  | n + 1, hn => by
    have hlt : n < 50 := hn
    have ih := accS5_eq c q n (Nat.le_of_succ_le hn)
    rw [Finset.sum_range_succ, ← ih]
    show accS5 V c ((⟨n, lt_of_lt_of_eq hlt N_5.symm⟩ : Fin cfg5.N).val + 1) (ix2 0 q) = _
    rw [accS5_succ V c ⟨n, lt_of_lt_of_eq hlt N_5.symm⟩]
    refine (stepS_apply _ _ _ _ _ _ q).trans (congrArg (accS5 V c n (ix2 0 q) + ·) ?_)
    unfold tileS5
    rw [dif_pos hlt]
    exact Finset.sum_congr rfl fun r _ => tile5_eq V c ⟨n, lt_of_lt_of_eq hlt N_5.symm⟩ r q

/-- Before point `n` the second scratch row holds the column sums of `hn²` over the first `n` tiles. -/
theorem accQ5_eq (c : Dev nD) (q : Fin 256) : ∀ n : ℕ, n ≤ 50 →
    accQ5 V c n (ix2 0 q) = ∑ t ∈ Finset.range n, tileQ5 V c q t
  | 0, _ => by rw [Finset.sum_range_zero]; exact zeroQ_apply _
  | n + 1, hn => by
    have hlt : n < 50 := hn
    have ih := accQ5_eq c q n (Nat.le_of_succ_le hn)
    rw [Finset.sum_range_succ, ← ih]
    show accQ5 V c ((⟨n, lt_of_lt_of_eq hlt N_5.symm⟩ : Fin cfg5.N).val + 1) (ix2 0 q) = _
    rw [accQ5_succ V c ⟨n, lt_of_lt_of_eq hlt N_5.symm⟩]
    refine (stepQ_apply _ _ _ _ _ _ q).trans (congrArg (accQ5 V c n (ix2 0 q) + ·) ?_)
    unfold tileQ5
    rw [dif_pos hlt]
    exact Finset.sum_congr rfl fun r _ => by rw [tile5_eq V c ⟨n, lt_of_lt_of_eq hlt N_5.symm⟩ r q]; rfl

/-- After the last point: the column sums of `hn` over all 100000 rows. -/
theorem accS5_last (c : Dev nD) (q : Fin 256) :
    accS5 V c 50 (ix2 0 q) = ∑ r : Fin 100000, (Cert.Spec.hnK (V c main_v66) (V c main_v78) (V c main_v80) (V c main_v85) (V c main_v84)) (ix2 r q) := by
  rw [accS5_eq V c q 50 le_rfl, Cert.Spec.sum_tiles (fun r => (Cert.Spec.hnK (V c main_v66) (V c main_v78) (V c main_v80) (V c main_v85) (V c main_v84)) (ix2 r q)), ← Fin.sum_univ_eq_sum_range]
  exact Finset.sum_congr rfl fun t _ => by unfold tileS5; rw [dif_pos t.isLt]

/-- After the last point: the column sums of `hn²` over all 100000 rows. -/
theorem accQ5_last (c : Dev nD) (q : Fin 256) :
    accQ5 V c 50 (ix2 0 q) = ∑ r : Fin 100000, (Cert.Spec.hnK (V c main_v66) (V c main_v78) (V c main_v80) (V c main_v85) (V c main_v84)) (ix2 r q) * (Cert.Spec.hnK (V c main_v66) (V c main_v78) (V c main_v80) (V c main_v85) (V c main_v84)) (ix2 r q) := by
  rw [accQ5_eq V c q 50 le_rfl, Cert.Spec.sum_tiles (fun r => (Cert.Spec.hnK (V c main_v66) (V c main_v78) (V c main_v80) (V c main_v85) (V c main_v84)) (ix2 r q) * (Cert.Spec.hnK (V c main_v66) (V c main_v78) (V c main_v80) (V c main_v85) (V c main_v84)) (ix2 r q)), ← Fin.sum_univ_eq_sum_range]
  exact Finset.sum_congr rfl fun t _ => by unfold tileQ5; rw [dif_pos t.isLt]

/-! ## Windows 6 and 7: written back once, after the last point -/

/-- Window 6's one block is the whole row: reading the block reads the row. -/
theorem read_blk5_6 (t : Fin cfg5.N) (G : S1x256.Idx → EReal) (q : Fin 256) :
    ((cfg5.win 6).blk t).view.read (Elt Ideal) G (ix2 0 q) = G (ix2 0 q) := by
  obtain ⟨-, -, -, -, -, -, -, -, -, -, -, -, e60, e61, e70, e71⟩ := idx_facts5 t
  have hemb : ((cfg5.win 6).blk t).view.emb (ix2 0 q) = ix2 0 q := by
    funext a; apply Fin.ext
    match a with
    | ⟨0, _⟩ => show win5_6.index t (0 : Fin 2) * 1 + 1 * 0 = 0; omega
    | ⟨1, _⟩ => show win5_6.index t (1 : Fin 2) * 256 + 1 * q.val = q.val; omega
  show G (((cfg5.win 6).blk t).view.emb (ix2 0 q)) = G (ix2 0 q)
  rw [hemb]

/-- The one point that writes window 6 back is the last, and what it writes is the whole row of column sums. -/
theorem flushed5_6_eq (c : Dev nD) (t : Fin cfg5.N) (ht : (cfg5.win 6).flush t = true) :
    (dat5 (F := Ideal) V c).flushed 6 t = ((cfg5.win 6).blk t).view.read (Elt Ideal) (Cert.Spec.sumK (Cert.Spec.hnK (V c main_v66) (V c main_v78) (V c main_v80) (V c main_v85) (V c main_v84))) := by
  show (cfg5.win 6).cut (grid5.coords t) ((dat5 V c).after 6 t) = _
  rw [after5_6]
  have hN : t.val < 50 := lt_of_lt_of_eq t.isLt N_5
  have h49 : t.val = 49 := by have := (flush5_6 t).mp ht; omega
  have e : accS5 V c (t.val + 1) = accS5 V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk5_6 t _ q).symm
  exact (accS5_last V c q).trans (sumK_apply _ q).symm

theorem mem_blk5_6 (t : Fin cfg5.N) (i : S1x256.Idx) :
    i ∈ ((cfg5.win 6).blk t).view.set ↔ ∀ a : Fin 2, win5_6.index t a * S1x256.size a ≤ (i a).val ∧ (i a).val < win5_6.index t a * S1x256.size a + S1x256.size a := by
  show i ∈ ((View.whole main_v86_1).slice (win5_6.rect t)).set ↔ _
  rw [View.set_slice_whole, Rect.mem_set_unit]
  exact Iff.rfl

/-- The last point's block is the whole row. -/
theorem cover5_6_arr (i : S1x256.Idx) :
    ∃ t : Fin cfg5.N, (cfg5.win 6).flush t = true ∧ i ∈ ((cfg5.win 6).blk t).view.set := by
  have hi0 : (i 0).val < 1 := (i 0).isLt
  have hi1 : (i 1).val < 256 := (i 1).isLt
  have hN : cfg5.N = 50 := N_5
  let t : Fin cfg5.N := ⟨49, by omega⟩
  obtain ⟨-, -, -, -, -, -, -, -, -, -, -, -, e60, e61, e70, e71⟩ := idx_facts5 t
  refine ⟨t, (flush5_6 t).mpr (by show 49 % 50 = 49; rfl), ?_⟩
  rw [mem_blk5_6]
  intro a
  match a with
  | ⟨0, _⟩ => show win5_6.index t (0 : Fin 2) * 1 ≤ (i 0).val ∧ (i 0).val < win5_6.index t (0 : Fin 2) * 1 + 1; omega
  | ⟨1, _⟩ => show win5_6.index t (1 : Fin 2) * 256 ≤ (i 1).val ∧ (i 1).val < win5_6.index t (1 : Fin 2) * 256 + 256; omega

/-- WINDOW 6's ARRAY after the region's run: the column sums of `hn` over all rows. -/
theorem final5_6 (c : Dev nD) :
    (dat5 (F := Ideal) V c).arrAt 6 cfg5.N = (Cert.Spec.sumK (Cert.Spec.hnK (V c main_v66) (V c main_v78) (V c main_v80) (V c main_v85) (V c main_v84))) :=
  (dat5 V c).arrAt_eq_of_cover 6 (Cert.Spec.sumK (Cert.Spec.hnK (V c main_v66) (V c main_v78) (V c main_v80) (V c main_v85) (V c main_v84))) (fun t ht => flushed5_6_eq V c t ht) (cover5_6_arr)

/-- Window 7's one block is the whole row: reading the block reads the row. -/
theorem read_blk5_7 (t : Fin cfg5.N) (G : S1x256.Idx → EReal) (q : Fin 256) :
    ((cfg5.win 7).blk t).view.read (Elt Ideal) G (ix2 0 q) = G (ix2 0 q) := by
  obtain ⟨-, -, -, -, -, -, -, -, -, -, -, -, e60, e61, e70, e71⟩ := idx_facts5 t
  have hemb : ((cfg5.win 7).blk t).view.emb (ix2 0 q) = ix2 0 q := by
    funext a; apply Fin.ext
    match a with
    | ⟨0, _⟩ => show win5_7.index t (0 : Fin 2) * 1 + 1 * 0 = 0; omega
    | ⟨1, _⟩ => show win5_7.index t (1 : Fin 2) * 256 + 1 * q.val = q.val; omega
  show G (((cfg5.win 7).blk t).view.emb (ix2 0 q)) = G (ix2 0 q)
  rw [hemb]

/-- The one point that writes window 7 back is the last, and what it writes is the whole row of column sums. -/
theorem flushed5_7_eq (c : Dev nD) (t : Fin cfg5.N) (ht : (cfg5.win 7).flush t = true) :
    (dat5 (F := Ideal) V c).flushed 7 t = ((cfg5.win 7).blk t).view.read (Elt Ideal) (Cert.Spec.sumsqK (Cert.Spec.hnK (V c main_v66) (V c main_v78) (V c main_v80) (V c main_v85) (V c main_v84))) := by
  show (cfg5.win 7).cut (grid5.coords t) ((dat5 V c).after 7 t) = _
  rw [after5_7]
  have hN : t.val < 50 := lt_of_lt_of_eq t.isLt N_5
  have h49 : t.val = 49 := by have := (flush5_7 t).mp ht; omega
  have e : accQ5 V c (t.val + 1) = accQ5 V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk5_7 t _ q).symm
  exact (accQ5_last V c q).trans (sumsqK_apply _ q).symm

theorem mem_blk5_7 (t : Fin cfg5.N) (i : S1x256.Idx) :
    i ∈ ((cfg5.win 7).blk t).view.set ↔ ∀ a : Fin 2, win5_7.index t a * S1x256.size a ≤ (i a).val ∧ (i a).val < win5_7.index t a * S1x256.size a + S1x256.size a := by
  show i ∈ ((View.whole main_v86_2).slice (win5_7.rect t)).set ↔ _
  rw [View.set_slice_whole, Rect.mem_set_unit]
  exact Iff.rfl

/-- The last point's block is the whole row. -/
theorem cover5_7_arr (i : S1x256.Idx) :
    ∃ t : Fin cfg5.N, (cfg5.win 7).flush t = true ∧ i ∈ ((cfg5.win 7).blk t).view.set := by
  have hi0 : (i 0).val < 1 := (i 0).isLt
  have hi1 : (i 1).val < 256 := (i 1).isLt
  have hN : cfg5.N = 50 := N_5
  let t : Fin cfg5.N := ⟨49, by omega⟩
  obtain ⟨-, -, -, -, -, -, -, -, -, -, -, -, e60, e61, e70, e71⟩ := idx_facts5 t
  refine ⟨t, (flush5_7 t).mpr (by show 49 % 50 = 49; rfl), ?_⟩
  rw [mem_blk5_7]
  intro a
  match a with
  | ⟨0, _⟩ => show win5_7.index t (0 : Fin 2) * 1 ≤ (i 0).val ∧ (i 0).val < win5_7.index t (0 : Fin 2) * 1 + 1; omega
  | ⟨1, _⟩ => show win5_7.index t (1 : Fin 2) * 256 ≤ (i 1).val ∧ (i 1).val < win5_7.index t (1 : Fin 2) * 256 + 256; omega

/-- WINDOW 7's ARRAY after the region's run: the column sums of `hn²` over all rows. -/
theorem final5_7 (c : Dev nD) :
    (dat5 (F := Ideal) V c).arrAt 7 cfg5.N = (Cert.Spec.sumsqK (Cert.Spec.hnK (V c main_v66) (V c main_v78) (V c main_v80) (V c main_v85) (V c main_v84))) :=
  (dat5 V c).arrAt_eq_of_cover 7 (Cert.Spec.sumsqK (Cert.Spec.hnK (V c main_v66) (V c main_v78) (V c main_v80) (V c main_v85) (V c main_v84))) (fun t ht => flushed5_7_eq V c t ht) (cover5_7_arr)

end Cert.KernelIdeal.HandVal

end
-- ==== Proof.KI.Val7.lean ====
/- The value of region 7 at the exact extended reals: the tiles of window 5 assemble to
   `hn = agg · Wl + bl + h · Wr` over all 100000 rows, and windows 6 and 7, written back once after the last
   point, hold the column sums of `hn` and of `hn²`: the running sums over the 50 tiles regroup to the sums
   over the 100000 rows. No finiteness is needed: addition on the extended reals is commutative and associative. -/
import proofs.«111242_j77756087927556_1_alg».proof.Proof.KI.Region7
import proofs.«111242_j77756087927556_1_alg».proof.Proof.KI.Val1
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The windows' block indices -/

/-- Over the grid: the tiles of `h`, `agg` and `hn` are the point's; every other window stays at its one block. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

/-- Row `p` of point `t`'s tile is row `2000 t + p` of the array. -/
def rowOf7 (t : Fin cfg7.N) (p : Fin 2000) : Fin 100000 :=
  ⟨2000 * t.val + p.val, by have h : t.val < 50 := lt_of_lt_of_eq t.isLt N_7; have := p.isLt; omega⟩

/-! ## A tile of `hn` -/

/-- Entry (p, q) of point `t`'s tile is entry (2000 t + p, q) of `hn` of the arrays as the region finds them. -/
theorem tile7_eq (c : Dev nD) (t : Fin cfg7.N) (p : Fin 2000) (q : Fin 256) :
    out1_5 (iblk7 V c 0 t) (iblk7 V c 1 t) (iblk7 V c 2 t) (iblk7 V c 3 t) (iblk7 V c 4 t) (ix2 p q) = (Cert.Spec.hnK (V c main_v93) (V c main_v105) (V c main_v107) (V c main_v112) (V c main_v111)) (ix2 (rowOf7 t p) q) := by
  obtain ⟨e00, e01, e10, e11, e20, e21, e30, e31, e40, e41, -⟩ := idx_facts7 t
  refine (out1_5_apply (iblk7 V c 0 t) (iblk7 V c 1 t) (iblk7 V c 2 t) (iblk7 V c 3 t) (iblk7 V c 4 t) p q).trans ?_
  have h0 : ∀ k : Fin 256, (((cfg7.win 0).blk t).view.emb (ix2 p k)) = ix2 (rowOf7 t p) k := fun k => by
    funext a; apply Fin.ext
    match a with
    | ⟨0, _⟩ => show win7_0.index t (0 : Fin 2) * 2000 + 1 * p.val = 2000 * t.val + p.val; omega
    | ⟨1, _⟩ => show win7_0.index t (1 : Fin 2) * 256 + 1 * k.val = k.val; omega
  have h1 : ∀ k : Fin 256, (((cfg7.win 1).blk t).view.emb (ix2 p k)) = ix2 (rowOf7 t p) k := fun k => by
    funext a; apply Fin.ext
    match a with
    | ⟨0, _⟩ => show win7_1.index t (0 : Fin 2) * 2000 + 1 * p.val = 2000 * t.val + p.val; omega
    | ⟨1, _⟩ => show win7_1.index t (1 : Fin 2) * 256 + 1 * k.val = k.val; omega
  have h2 : ∀ k : Fin 256, (((cfg7.win 2).blk t).view.emb (ix2 k q)) = ix2 k q := fun k => by
    funext a; apply Fin.ext
    match a with
    | ⟨0, _⟩ => show win7_2.index t (0 : Fin 2) * 256 + 1 * k.val = k.val; omega
    | ⟨1, _⟩ => show win7_2.index t (1 : Fin 2) * 256 + 1 * q.val = q.val; omega
  have h3 : (((cfg7.win 3).blk t).view.emb (ix2 0 q)) = ix2 0 q := by
    funext a; apply Fin.ext
    match a with
    | ⟨0, _⟩ => show win7_3.index t (0 : Fin 2) * 1 + 1 * 0 = 0; omega
    | ⟨1, _⟩ => show win7_3.index t (1 : Fin 2) * 256 + 1 * q.val = q.val; omega
  have h4 : ∀ k : Fin 256, (((cfg7.win 4).blk t).view.emb (ix2 k q)) = ix2 k q := fun k => by
    funext a; apply Fin.ext
    match a with
    | ⟨0, _⟩ => show win7_4.index t (0 : Fin 2) * 256 + 1 * k.val = k.val; omega
    | ⟨1, _⟩ => show win7_4.index t (1 : Fin 2) * 256 + 1 * q.val = q.val; omega
  have key : ∀ (H A : S100000x256.Idx → EReal) (WL : S256x256.Idx → EReal) (B : S1x256.Idx → EReal) (WR : S256x256.Idx → EReal),
      (∑ k : Fin 256, A (((cfg7.win 1).blk t).view.emb (ix2 p k)) * WL (((cfg7.win 2).blk t).view.emb (ix2 k q))) + B (((cfg7.win 3).blk t).view.emb (ix2 0 q))
        + ∑ k : Fin 256, H (((cfg7.win 0).blk t).view.emb (ix2 p k)) * WR (((cfg7.win 4).blk t).view.emb (ix2 k q))
      = Cert.Spec.hnK H A WL B WR (ix2 (rowOf7 t p) q) := by
    intro H A WL B WR
    show _ = (∑ k : Fin 256, A (ix2 (rowOf7 t p) k) * WL (ix2 k q)) + B (ix2 0 q) + ∑ k : Fin 256, H (ix2 (rowOf7 t p) k) * WR (ix2 k q)
    rw [h3]
    exact congrArg₂ (· + ·)
      (congrArg (· + B (ix2 0 q)) (Finset.sum_congr rfl fun k _ => congrArg₂ (· * ·) (congrArg A (h1 k)) (congrArg WL (h2 k))))
      (Finset.sum_congr rfl fun k _ => congrArg₂ (· * ·) (congrArg H (h0 k)) (congrArg WR (h4 k)))
  exact key (V c main_v93) (V c main_v105) (V c main_v107) (V c main_v112) (V c main_v111)

/-! ## Window 5: from the tiles to the array -/

/-- What point `t` writes back is tile `t` of `hn`. -/
theorem flushed7_5_eq (c : Dev nD) (t : Fin cfg7.N) :
    (dat7 (F := Ideal) V c).flushed 5 t = ((cfg7.win 5).blk t).view.read (Elt Ideal) (Cert.Spec.hnK (V c main_v93) (V c main_v105) (V c main_v107) (V c main_v112) (V c main_v111)) := by
  show (cfg7.win 5).cut (grid7.coords t) ((dat7 V c).after 5 t) = _
  rw [after7_5]
  obtain ⟨e00, e01, e10, e11, e20, e21, e30, e31, e40, e41, e50, e51, -⟩ := idx_facts7 t
  funext j
  obtain ⟨p, q, rfl⟩ : ∃ (p : Fin 2000) (q : Fin 256), j = ix2 p q := ⟨j 0, j 1, eq_ix2 j⟩
  refine (tile7_eq V c t p q).trans ?_
  have h5 : (((cfg7.win 5).blk t).view.emb (ix2 p q)) = ix2 (rowOf7 t p) q := by
    funext a; apply Fin.ext
    match a with
    | ⟨0, _⟩ => show win7_5.index t (0 : Fin 2) * 2000 + 1 * p.val = 2000 * t.val + p.val; omega
    | ⟨1, _⟩ => show win7_5.index t (1 : Fin 2) * 256 + 1 * q.val = q.val; omega
  exact (congrArg (Cert.Spec.hnK (V c main_v93) (V c main_v105) (V c main_v107) (V c main_v112) (V c main_v111)) h5).symm

/-- An index of `hn` is in point `t`'s tile iff each coordinate is in the tile's range on its axis. -/
theorem mem_blk7_5 (t : Fin cfg7.N) (i : S100000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v113_0).slice (win7_5.rect t)).set ↔ _
  rw [View.set_slice_whole, Rect.mem_set_unit]
  exact Iff.rfl

/-- The tiles cover `hn`: row `r` is in the tile of point `r / 2000`. -/
theorem cover7_5_arr (i : S100000x256.Idx) :
    ∃ t : Fin cfg7.N, (cfg7.win 5).flush t = true ∧ i ∈ ((cfg7.win 5).blk t).view.set := by
  have hi0 : (i 0).val < 100000 := (i 0).isLt
  have hi1 : (i 1).val < 256 := (i 1).isLt
  have hN : cfg7.N = 50 := N_7
  let t : Fin cfg7.N := ⟨(i 0).val / 2000, by omega⟩
  obtain ⟨-, -, -, -, -, -, -, -, -, -, e50, e51, -⟩ := idx_facts7 t
  have q0 : win7_5.index t (0 : Fin 2) = (i 0).val / 2000 := e50
  refine ⟨t, flush7_5 t, ?_⟩
  rw [mem_blk7_5]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 256 ≤ (i 1).val ∧ (i 1).val < win7_5.index t (1 : Fin 2) * 256 + 256; omega

/-- WINDOW 5's ARRAY after the region's run is `hn` of the arrays as the region finds them. -/
theorem final7_5 (c : Dev nD) :
    (dat7 (F := Ideal) V c).arrAt 5 cfg7.N = (Cert.Spec.hnK (V c main_v93) (V c main_v105) (V c main_v107) (V c main_v112) (V c main_v111)) :=
  (dat7 V c).arrAt_eq_of_cover 5 (Cert.Spec.hnK (V c main_v93) (V c main_v105) (V c main_v107) (V c main_v112) (V c main_v111)) (fun t _ => flushed7_5_eq V c t) (cover7_5_arr)

/-! ## The running sums over the first `n` tiles -/

/-- Tile `t`'s column sum of `hn` at column `q` (zero past the grid). -/
def tileS7 (c : Dev nD) (q : Fin 256) (t : ℕ) : EReal :=
  if h : t < 50 then ∑ r : Fin 2000, (Cert.Spec.hnK (V c main_v93) (V c main_v105) (V c main_v107) (V c main_v112) (V c main_v111)) (ix2 ⟨2000 * t + r.val, by have := r.isLt; omega⟩ q) else 0
/-- Tile `t`'s column sum of `hn²` at column `q` (zero past the grid). -/
def tileQ7 (c : Dev nD) (q : Fin 256) (t : ℕ) : EReal :=
  if h : t < 50 then ∑ r : Fin 2000, (Cert.Spec.hnK (V c main_v93) (V c main_v105) (V c main_v107) (V c main_v112) (V c main_v111)) (ix2 ⟨2000 * t + r.val, by have := r.isLt; omega⟩ q) * (Cert.Spec.hnK (V c main_v93) (V c main_v105) (V c main_v107) (V c main_v112) (V c main_v111)) (ix2 ⟨2000 * t + r.val, by have := r.isLt; omega⟩ q) else 0

/-- Before point `n` the first scratch row holds the column sums of `hn` over the first `n` tiles. -/
theorem accS7_eq (c : Dev nD) (q : Fin 256) : ∀ n : ℕ, n ≤ 50 →
    accS7 V c n (ix2 0 q) = ∑ t ∈ Finset.range n, tileS7 V c q t
  | 0, _ => by rw [Finset.sum_range_zero]; exact zeroS_apply _
  | n + 1, hn => by
    have hlt : n < 50 := hn
    have ih := accS7_eq c q n (Nat.le_of_succ_le hn)
    rw [Finset.sum_range_succ, ← ih]
    show accS7 V c ((⟨n, lt_of_lt_of_eq hlt N_7.symm⟩ : Fin cfg7.N).val + 1) (ix2 0 q) = _
    rw [accS7_succ V c ⟨n, lt_of_lt_of_eq hlt N_7.symm⟩]
    refine (stepS_apply _ _ _ _ _ _ q).trans (congrArg (accS7 V c n (ix2 0 q) + ·) ?_)
    unfold tileS7
    rw [dif_pos hlt]
    exact Finset.sum_congr rfl fun r _ => tile7_eq V c ⟨n, lt_of_lt_of_eq hlt N_7.symm⟩ r q

/-- Before point `n` the second scratch row holds the column sums of `hn²` over the first `n` tiles. -/
theorem accQ7_eq (c : Dev nD) (q : Fin 256) : ∀ n : ℕ, n ≤ 50 →
    accQ7 V c n (ix2 0 q) = ∑ t ∈ Finset.range n, tileQ7 V c q t
  | 0, _ => by rw [Finset.sum_range_zero]; exact zeroQ_apply _
  | n + 1, hn => by
    have hlt : n < 50 := hn
    have ih := accQ7_eq c q n (Nat.le_of_succ_le hn)
    rw [Finset.sum_range_succ, ← ih]
    show accQ7 V c ((⟨n, lt_of_lt_of_eq hlt N_7.symm⟩ : Fin cfg7.N).val + 1) (ix2 0 q) = _
    rw [accQ7_succ V c ⟨n, lt_of_lt_of_eq hlt N_7.symm⟩]
    refine (stepQ_apply _ _ _ _ _ _ q).trans (congrArg (accQ7 V c n (ix2 0 q) + ·) ?_)
    unfold tileQ7
    rw [dif_pos hlt]
    exact Finset.sum_congr rfl fun r _ => by rw [tile7_eq V c ⟨n, lt_of_lt_of_eq hlt N_7.symm⟩ r q]; rfl

/-- After the last point: the column sums of `hn` over all 100000 rows. -/
theorem accS7_last (c : Dev nD) (q : Fin 256) :
    accS7 V c 50 (ix2 0 q) = ∑ r : Fin 100000, (Cert.Spec.hnK (V c main_v93) (V c main_v105) (V c main_v107) (V c main_v112) (V c main_v111)) (ix2 r q) := by
  rw [accS7_eq V c q 50 le_rfl, Cert.Spec.sum_tiles (fun r => (Cert.Spec.hnK (V c main_v93) (V c main_v105) (V c main_v107) (V c main_v112) (V c main_v111)) (ix2 r q)), ← Fin.sum_univ_eq_sum_range]
  exact Finset.sum_congr rfl fun t _ => by unfold tileS7; rw [dif_pos t.isLt]

/-- After the last point: the column sums of `hn²` over all 100000 rows. -/
theorem accQ7_last (c : Dev nD) (q : Fin 256) :
    accQ7 V c 50 (ix2 0 q) = ∑ r : Fin 100000, (Cert.Spec.hnK (V c main_v93) (V c main_v105) (V c main_v107) (V c main_v112) (V c main_v111)) (ix2 r q) * (Cert.Spec.hnK (V c main_v93) (V c main_v105) (V c main_v107) (V c main_v112) (V c main_v111)) (ix2 r q) := by
  rw [accQ7_eq V c q 50 le_rfl, Cert.Spec.sum_tiles (fun r => (Cert.Spec.hnK (V c main_v93) (V c main_v105) (V c main_v107) (V c main_v112) (V c main_v111)) (ix2 r q) * (Cert.Spec.hnK (V c main_v93) (V c main_v105) (V c main_v107) (V c main_v112) (V c main_v111)) (ix2 r q)), ← Fin.sum_univ_eq_sum_range]
  exact Finset.sum_congr rfl fun t _ => by unfold tileQ7; rw [dif_pos t.isLt]

/-! ## Windows 6 and 7: written back once, after the last point -/

/-- Window 6's one block is the whole row: reading the block reads the row. -/
theorem read_blk7_6 (t : Fin cfg7.N) (G : S1x256.Idx → EReal) (q : Fin 256) :
    ((cfg7.win 6).blk t).view.read (Elt Ideal) G (ix2 0 q) = G (ix2 0 q) := by
  obtain ⟨-, -, -, -, -, -, -, -, -, -, -, -, e60, e61, e70, e71⟩ := idx_facts7 t
  have hemb : ((cfg7.win 6).blk t).view.emb (ix2 0 q) = ix2 0 q := by
    funext a; apply Fin.ext
    match a with
    | ⟨0, _⟩ => show win7_6.index t (0 : Fin 2) * 1 + 1 * 0 = 0; omega
    | ⟨1, _⟩ => show win7_6.index t (1 : Fin 2) * 256 + 1 * q.val = q.val; omega
  show G (((cfg7.win 6).blk t).view.emb (ix2 0 q)) = G (ix2 0 q)
  rw [hemb]

/-- The one point that writes window 6 back is the last, and what it writes is the whole row of column sums. -/
theorem flushed7_6_eq (c : Dev nD) (t : Fin cfg7.N) (ht : (cfg7.win 6).flush t = true) :
    (dat7 (F := Ideal) V c).flushed 6 t = ((cfg7.win 6).blk t).view.read (Elt Ideal) (Cert.Spec.sumK (Cert.Spec.hnK (V c main_v93) (V c main_v105) (V c main_v107) (V c main_v112) (V c main_v111))) := by
  show (cfg7.win 6).cut (grid7.coords t) ((dat7 V c).after 6 t) = _
  rw [after7_6]
  have hN : t.val < 50 := lt_of_lt_of_eq t.isLt N_7
  have h49 : t.val = 49 := by have := (flush7_6 t).mp ht; omega
  have e : accS7 V c (t.val + 1) = accS7 V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk7_6 t _ q).symm
  exact (accS7_last V c q).trans (sumK_apply _ q).symm

theorem mem_blk7_6 (t : Fin cfg7.N) (i : S1x256.Idx) :
    i ∈ ((cfg7.win 6).blk t).view.set ↔ ∀ a : Fin 2, win7_6.index t a * S1x256.size a ≤ (i a).val ∧ (i a).val < win7_6.index t a * S1x256.size a + S1x256.size a := by
  show i ∈ ((View.whole main_v113_1).slice (win7_6.rect t)).set ↔ _
  rw [View.set_slice_whole, Rect.mem_set_unit]
  exact Iff.rfl

/-- The last point's block is the whole row. -/
theorem cover7_6_arr (i : S1x256.Idx) :
    ∃ t : Fin cfg7.N, (cfg7.win 6).flush t = true ∧ i ∈ ((cfg7.win 6).blk t).view.set := by
  have hi0 : (i 0).val < 1 := (i 0).isLt
  have hi1 : (i 1).val < 256 := (i 1).isLt
  have hN : cfg7.N = 50 := N_7
  let t : Fin cfg7.N := ⟨49, by omega⟩
  obtain ⟨-, -, -, -, -, -, -, -, -, -, -, -, e60, e61, e70, e71⟩ := idx_facts7 t
  refine ⟨t, (flush7_6 t).mpr (by show 49 % 50 = 49; rfl), ?_⟩
  rw [mem_blk7_6]
  intro a
  match a with
  | ⟨0, _⟩ => show win7_6.index t (0 : Fin 2) * 1 ≤ (i 0).val ∧ (i 0).val < win7_6.index t (0 : Fin 2) * 1 + 1; omega
  | ⟨1, _⟩ => show win7_6.index t (1 : Fin 2) * 256 ≤ (i 1).val ∧ (i 1).val < win7_6.index t (1 : Fin 2) * 256 + 256; omega

/-- WINDOW 6's ARRAY after the region's run: the column sums of `hn` over all rows. -/
theorem final7_6 (c : Dev nD) :
    (dat7 (F := Ideal) V c).arrAt 6 cfg7.N = (Cert.Spec.sumK (Cert.Spec.hnK (V c main_v93) (V c main_v105) (V c main_v107) (V c main_v112) (V c main_v111))) :=
  (dat7 V c).arrAt_eq_of_cover 6 (Cert.Spec.sumK (Cert.Spec.hnK (V c main_v93) (V c main_v105) (V c main_v107) (V c main_v112) (V c main_v111))) (fun t ht => flushed7_6_eq V c t ht) (cover7_6_arr)

/-- Window 7's one block is the whole row: reading the block reads the row. -/
theorem read_blk7_7 (t : Fin cfg7.N) (G : S1x256.Idx → EReal) (q : Fin 256) :
    ((cfg7.win 7).blk t).view.read (Elt Ideal) G (ix2 0 q) = G (ix2 0 q) := by
  obtain ⟨-, -, -, -, -, -, -, -, -, -, -, -, e60, e61, e70, e71⟩ := idx_facts7 t
  have hemb : ((cfg7.win 7).blk t).view.emb (ix2 0 q) = ix2 0 q := by
    funext a; apply Fin.ext
    match a with
    | ⟨0, _⟩ => show win7_7.index t (0 : Fin 2) * 1 + 1 * 0 = 0; omega
    | ⟨1, _⟩ => show win7_7.index t (1 : Fin 2) * 256 + 1 * q.val = q.val; omega
  show G (((cfg7.win 7).blk t).view.emb (ix2 0 q)) = G (ix2 0 q)
  rw [hemb]

/-- The one point that writes window 7 back is the last, and what it writes is the whole row of column sums. -/
theorem flushed7_7_eq (c : Dev nD) (t : Fin cfg7.N) (ht : (cfg7.win 7).flush t = true) :
    (dat7 (F := Ideal) V c).flushed 7 t = ((cfg7.win 7).blk t).view.read (Elt Ideal) (Cert.Spec.sumsqK (Cert.Spec.hnK (V c main_v93) (V c main_v105) (V c main_v107) (V c main_v112) (V c main_v111))) := by
  show (cfg7.win 7).cut (grid7.coords t) ((dat7 V c).after 7 t) = _
  rw [after7_7]
  have hN : t.val < 50 := lt_of_lt_of_eq t.isLt N_7
  have h49 : t.val = 49 := by have := (flush7_7 t).mp ht; omega
  have e : accQ7 V c (t.val + 1) = accQ7 V c 50 := by rw [h49]
  rw [e]
  funext j
  obtain ⟨z, q, rfl⟩ : ∃ (z : Fin 1) (q : Fin 256), j = ix2 z q := ⟨j 0, j 1, eq_ix2 j⟩
  obtain rfl : z = 0 := Subsingleton.elim _ _
  refine Eq.trans ?_ (read_blk7_7 t _ q).symm
  exact (accQ7_last V c q).trans (sumsqK_apply _ q).symm

theorem mem_blk7_7 (t : Fin cfg7.N) (i : S1x256.Idx) :
    i ∈ ((cfg7.win 7).blk t).view.set ↔ ∀ a : Fin 2, win7_7.index t a * S1x256.size a ≤ (i a).val ∧ (i a).val < win7_7.index t a * S1x256.size a + S1x256.size a := by
  show i ∈ ((View.whole main_v113_2).slice (win7_7.rect t)).set ↔ _
  rw [View.set_slice_whole, Rect.mem_set_unit]
  exact Iff.rfl

/-- The last point's block is the whole row. -/
theorem cover7_7_arr (i : S1x256.Idx) :
    ∃ t : Fin cfg7.N, (cfg7.win 7).flush t = true ∧ i ∈ ((cfg7.win 7).blk t).view.set := by
  have hi0 : (i 0).val < 1 := (i 0).isLt
  have hi1 : (i 1).val < 256 := (i 1).isLt
  have hN : cfg7.N = 50 := N_7
  let t : Fin cfg7.N := ⟨49, by omega⟩
  obtain ⟨-, -, -, -, -, -, -, -, -, -, -, -, e60, e61, e70, e71⟩ := idx_facts7 t
  refine ⟨t, (flush7_7 t).mpr (by show 49 % 50 = 49; rfl), ?_⟩
  rw [mem_blk7_7]
  intro a
  match a with
  | ⟨0, _⟩ => show win7_7.index t (0 : Fin 2) * 1 ≤ (i 0).val ∧ (i 0).val < win7_7.index t (0 : Fin 2) * 1 + 1; omega
  | ⟨1, _⟩ => show win7_7.index t (1 : Fin 2) * 256 ≤ (i 1).val ∧ (i 1).val < win7_7.index t (1 : Fin 2) * 256 + 256; omega

/-- WINDOW 7's ARRAY after the region's run: the column sums of `hn²` over all rows. -/
theorem final7_7 (c : Dev nD) :
    (dat7 (F := Ideal) V c).arrAt 7 cfg7.N = (Cert.Spec.sumsqK (Cert.Spec.hnK (V c main_v93) (V c main_v105) (V c main_v107) (V c main_v112) (V c main_v111))) :=
  (dat7 V c).arrAt_eq_of_cover 7 (Cert.Spec.sumsqK (Cert.Spec.hnK (V c main_v93) (V c main_v105) (V c main_v107) (V c main_v112) (V c main_v111))) (fun t ht => flushed7_7_eq V c t ht) (cover7_7_arr)

end Cert.KernelIdeal.HandVal

end
-- ==== Proof.KI.Val2.lean ====
/- The value of region 2 at the exact extended reals: the output tile's entry (p, q) is
   `h + max ((hn - μ) · rsqrt (var + ε) · γ + β) 0` with `μ = S / n` and `var = Q / n - μ · μ` read off the two rows of
   column statistics, and the tiles assemble to the whole array. -/
import proofs.«111242_j77756087927556_1_alg».proof.Proof.KI.Region2
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The body's arithmetic read at an index -/

/-- A [1, 256] row broadcast over the tile's rows, at entry (p, q): the row's entry q. -/
theorem rowB2_apply (r : FVec Ideal S1x256 .f32) (p : Fin 2000) (q : Fin 256) :
    (broadcastTo S2000x256 r broadcasts_S1x256_S2000x256 : FVec Ideal S2000x256 .f32) (ix2 p q) = r (ix2 0 q) :=
  broadcastTo_apply r broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The body's arithmetic at entry (p, q) of the tile. -/
theorem pay2_apply (v0 v4 : Vec Ideal S1x256 .f32) (v13 : Vec Ideal S2000x256 .f32) (v19 v23 : Vec Ideal S1x256 .f32)
    (v27 : Vec Ideal S2000x256 .f32) (p : Fin 2000) (q : Fin 256) :
    k2_pay1 v0 v4 v13 v19 v23 v27 (ix2 p q)
      = v27 (ix2 p q) + max ((v13 (ix2 p q) - Ideal.div (v0 (ix2 0 q)) (Ideal.ofBits .f32 0x47C35000#32))
          * Ideal.rsqrt (Ideal.div (v4 (ix2 0 q)) (Ideal.ofBits .f32 0x47C35000#32) - Ideal.div (v0 (ix2 0 q)) (Ideal.ofBits .f32 0x47C35000#32) * Ideal.div (v0 (ix2 0 q)) (Ideal.ofBits .f32 0x47C35000#32) + Ideal.ofBits .f32 0x3727C5AC#32)
          * v19 (ix2 0 q) + v23 (ix2 0 q)) 0 := by
  unfold k2_pay1
  simp only [shapeCast_self]
  refine congrArg (fun z => v27 (ix2 p q) + z) ?_
  refine congrArg₂ max (congrArg₂ (· + ·) (congrArg₂ (· * ·) (congrArg₂ (· * ·) (congrArg (fun z => v13 (ix2 p q) - z) ?_) ?_) ?_) ?_) Ideal.ofBits_zero_f32
  · exact rowB2_apply _ p q
  · exact rowB2_apply _ p q
  · exact rowB2_apply _ p q
  · exact rowB2_apply _ p q

/-! ## From the tiles to the array -/

theorem hz2 : (![0, 0] : Fin 2 → Nat) = fun _ => 0 := funext fun a => by fin_cases a <;> rfl

/-- The windows' block indices over the grid: the two tiles of rows move with the point, the four rows stay at their
    one block, and the output's tile is the point's. -/
theorem idx_facts2 : ∀ t : Fin cfg2.N, win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 49 ∧ win2_6.index t (1 : Fin 2) = 0 :=
  (by decide +kernel : ∀ t : Fin grid2.N, _)

/-- Every tile of the output is some point's. -/
theorem idx_onto2 : ∀ (q0 : Fin 50), ∃ t : Fin cfg2.N, win2_6.index t = ![q0.val, 0] :=
  (by decide +kernel : ∀ (q0 : Fin 50), ∃ t : Fin grid2.N, win2_6.index t = ![q0.val, 0])

/-- Where the input blocks sit in their arrays at point `t`, against the output tile's entry (p, q): the two tiles of
    rows at the same array index, the four rows at the entry's column. -/
theorem embs2 (t : Fin cfg2.N) (p : Fin 2000) (q : Fin 256) :
    ((cfg2.win 0).blk t).view.emb (ix2 p q) = (((cfg2.win 6).blk t).view.emb (ix2 p q))
    ∧ ((cfg2.win 1).blk t).view.emb (ix2 p q) = (((cfg2.win 6).blk t).view.emb (ix2 p q))
    ∧ ((cfg2.win 2).blk t).view.emb (ix2 0 q) = ix2 0 ((((cfg2.win 6).blk t).view.emb (ix2 p q)) 1)
    ∧ ((cfg2.win 3).blk t).view.emb (ix2 0 q) = ix2 0 ((((cfg2.win 6).blk t).view.emb (ix2 p q)) 1)
    ∧ ((cfg2.win 4).blk t).view.emb (ix2 0 q) = ix2 0 ((((cfg2.win 6).blk t).view.emb (ix2 p q)) 1)
    ∧ ((cfg2.win 5).blk t).view.emb (ix2 0 q) = ix2 0 ((((cfg2.win 6).blk t).view.emb (ix2 p q)) 1) := by
  obtain ⟨e0, e1, e2, e3, e4, e5, e6, e7, e8, e9, e10, e11, e12, e13⟩ := idx_facts2 t
  refine ⟨?_, ?_, ?_, ?_, ?_, ?_⟩
  · funext a; apply Fin.ext
    match a with
    | ⟨0, _⟩ => show win2_0.index t (0 : Fin 2) * 2000 + 1 * p.val = win2_6.index t (0 : Fin 2) * 2000 + 1 * p.val; omega
    | ⟨1, _⟩ => show win2_0.index t (1 : Fin 2) * 256 + 1 * q.val = win2_6.index t (1 : Fin 2) * 256 + 1 * q.val; omega
  · funext a; apply Fin.ext
    match a with
    | ⟨0, _⟩ => show win2_1.index t (0 : Fin 2) * 2000 + 1 * p.val = win2_6.index t (0 : Fin 2) * 2000 + 1 * p.val; omega
    | ⟨1, _⟩ => show win2_1.index t (1 : Fin 2) * 256 + 1 * q.val = win2_6.index t (1 : Fin 2) * 256 + 1 * q.val; omega
  · funext a; apply Fin.ext
    match a with
    | ⟨0, _⟩ => show win2_2.index t (0 : Fin 2) * 1 + 1 * 0 = 0; omega
    | ⟨1, _⟩ => show win2_2.index t (1 : Fin 2) * 256 + 1 * q.val = win2_6.index t (1 : Fin 2) * 256 + 1 * q.val; omega
  · funext a; apply Fin.ext
    match a with
    | ⟨0, _⟩ => show win2_3.index t (0 : Fin 2) * 1 + 1 * 0 = 0; omega
    | ⟨1, _⟩ => show win2_3.index t (1 : Fin 2) * 256 + 1 * q.val = win2_6.index t (1 : Fin 2) * 256 + 1 * q.val; omega
  · funext a; apply Fin.ext
    match a with
    | ⟨0, _⟩ => show win2_4.index t (0 : Fin 2) * 1 + 1 * 0 = 0; omega
    | ⟨1, _⟩ => show win2_4.index t (1 : Fin 2) * 256 + 1 * q.val = win2_6.index t (1 : Fin 2) * 256 + 1 * q.val; omega
  · funext a; apply Fin.ext
    match a with
    | ⟨0, _⟩ => show win2_5.index t (0 : Fin 2) * 1 + 1 * 0 = 0; omega
    | ⟨1, _⟩ => show win2_5.index t (1 : Fin 2) * 256 + 1 * q.val = win2_6.index t (1 : Fin 2) * 256 + 1 * q.val; omega

/-- The body's arithmetic on the blocks at point `t`, entry (p, q), is `G2` of the whole arrays at the entry's array
    index. -/
theorem tile2_eq (t : Fin cfg2.N) (p : Fin 2000) (q : Fin 256) (HN H : S100000x256.Idx → EReal) (S Q G B : S1x256.Idx → EReal) :
    H (((cfg2.win 1).blk t).view.emb (ix2 p q)) + max ((HN (((cfg2.win 0).blk t).view.emb (ix2 p q)) - Ideal.div (S (((cfg2.win 2).blk t).view.emb (ix2 0 q))) (Ideal.ofBits .f32 0x47C35000#32))
        * Ideal.rsqrt (Ideal.div (Q (((cfg2.win 3).blk t).view.emb (ix2 0 q))) (Ideal.ofBits .f32 0x47C35000#32) - Ideal.div (S (((cfg2.win 2).blk t).view.emb (ix2 0 q))) (Ideal.ofBits .f32 0x47C35000#32) * Ideal.div (S (((cfg2.win 2).blk t).view.emb (ix2 0 q))) (Ideal.ofBits .f32 0x47C35000#32) + Ideal.ofBits .f32 0x3727C5AC#32)
        * G (((cfg2.win 4).blk t).view.emb (ix2 0 q)) + B (((cfg2.win 5).blk t).view.emb (ix2 0 q))) 0
      = Cert.Spec.G2 HN H S Q G B (((cfg2.win 6).blk t).view.emb (ix2 p q)) := by
  obtain ⟨h0, h1, h2, h3, h4, h5⟩ := embs2 t p q
  rw [h0, h1, h2, h3, h4, h5]
  rfl

variable (V : (c : Dev nD) → (b : Ref sig .tc) → Buf (Elt Ideal) ((c : Thread nD τ).loc b))

/-- What point `t` writes back is tile `t` of `G2` of the arrays as the region finds them. -/
theorem flushed2_6_eq (c : Dev nD) (t : Fin cfg2.N) :
    (dat2 (F := Ideal) V c).flushed 6 t
      = ((cfg2.win 6).blk t).view.read (Elt Ideal) (Cert.Spec.G2 (V c main_v32_0) (V c main_v5) (V c main_v32_1) (V c main_v32_2) (V c main_v37) (V c main_v38)) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S1x256) hz2]
  funext j
  obtain ⟨p, q, rfl⟩ : ∃ (p : Fin 2000) (q : Fin 256), j = ix2 p q := ⟨j 0, j 1, eq_ix2 j⟩
  refine (pay2_apply (iblk2 V c 2 t) (iblk2 V c 3 t) (iblk2 V c 0 t) (iblk2 V c 4 t) (iblk2 V c 5 t) (iblk2 V c 1 t) p q).trans ?_
  exact tile2_eq t p q (V c main_v32_0) (V c main_v5) (V c main_v32_1) (V c main_v32_2) (V c main_v37) (V c main_v38)

/-- An index of the output array is in point `t`'s tile iff each coordinate is in the tile's range on its axis. -/
theorem mem_blk2_6 (t : Fin cfg2.N) (i : S100000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v39).slice (win2_6.rect t)).set ↔ _
  rw [View.set_slice_whole, Rect.mem_set_unit]
  exact Iff.rfl

/-- The tiles cover the array: row `r` is in the tile of point `r / 2000`. -/
theorem cover2_6_arr (i : S100000x256.Idx) :
    ∃ t : Fin cfg2.N, (cfg2.win 6).flush t = true ∧ i ∈ ((cfg2.win 6).blk t).view.set := by
  have hi0 : (i 0).val < 100000 := (i 0).isLt
  have hi1 : (i 1).val < 256 := (i 1).isLt
  obtain ⟨t, ht⟩ := idx_onto2 ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- The output array after the region's run is `G2` of the arrays as the region finds them. -/
theorem final2_6 (c : Dev nD) :
    (dat2 (F := Ideal) V c).arrAt 6 cfg2.N = Cert.Spec.G2 (V c main_v32_0) (V c main_v5) (V c main_v32_1) (V c main_v32_2) (V c main_v37) (V c main_v38) :=
  (dat2 V c).arrAt_eq_of_cover 6 (Cert.Spec.G2 (V c main_v32_0) (V c main_v5) (V c main_v32_1) (V c main_v32_2) (V c main_v37) (V c main_v38))
    (fun t _ => flushed2_6_eq V c t) cover2_6_arr

end Cert.KernelIdeal.HandVal

end
-- ==== Proof.KI.Val4.lean ====
/- The value of region 4 at the exact extended reals: the output tile's entry (p, q) is
   `h + max ((hn - μ) · rsqrt (var + ε) · γ + β) 0` with `μ = S / n` and `var = Q / n - μ · μ` read off the two rows of
   column statistics, and the tiles assemble to the whole array. -/
import proofs.«111242_j77756087927556_1_alg».proof.Proof.KI.Region4
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The body's arithmetic read at an index -/

/-- A [1, 256] row broadcast over the tile's rows, at entry (p, q): the row's entry q. -/
theorem rowB4_apply (r : FVec Ideal S1x256 .f32) (p : Fin 2000) (q : Fin 256) :
    (broadcastTo S2000x256 r broadcasts_S1x256_S2000x256 : FVec Ideal S2000x256 .f32) (ix2 p q) = r (ix2 0 q) :=
  broadcastTo_apply r broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The body's arithmetic at entry (p, q) of the tile. -/
theorem pay4_apply (v0 v4 : Vec Ideal S1x256 .f32) (v13 : Vec Ideal S2000x256 .f32) (v19 v23 : Vec Ideal S1x256 .f32)
    (v27 : Vec Ideal S2000x256 .f32) (p : Fin 2000) (q : Fin 256) :
    k4_pay1 v0 v4 v13 v19 v23 v27 (ix2 p q)
      = v27 (ix2 p q) + max ((v13 (ix2 p q) - Ideal.div (v0 (ix2 0 q)) (Ideal.ofBits .f32 0x47C35000#32))
          * Ideal.rsqrt (Ideal.div (v4 (ix2 0 q)) (Ideal.ofBits .f32 0x47C35000#32) - Ideal.div (v0 (ix2 0 q)) (Ideal.ofBits .f32 0x47C35000#32) * Ideal.div (v0 (ix2 0 q)) (Ideal.ofBits .f32 0x47C35000#32) + Ideal.ofBits .f32 0x3727C5AC#32)
          * v19 (ix2 0 q) + v23 (ix2 0 q)) 0 := by
  unfold k4_pay1
  simp only [shapeCast_self]
  refine congrArg (fun z => v27 (ix2 p q) + z) ?_
  refine congrArg₂ max (congrArg₂ (· + ·) (congrArg₂ (· * ·) (congrArg₂ (· * ·) (congrArg (fun z => v13 (ix2 p q) - z) ?_) ?_) ?_) ?_) Ideal.ofBits_zero_f32
  · exact rowB4_apply _ p q
  · exact rowB4_apply _ p q
  · exact rowB4_apply _ p q
  · exact rowB4_apply _ p q

/-! ## From the tiles to the array -/

theorem hz4 : (![0, 0] : Fin 2 → Nat) = fun _ => 0 := funext fun a => by fin_cases a <;> rfl

/-- The windows' block indices over the grid: the two tiles of rows move with the point, the four rows stay at their
    one block, and the output's tile is the point's. -/
theorem idx_facts4 : ∀ t : Fin cfg4.N, win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) ≤ 49 ∧ win4_6.index t (1 : Fin 2) = 0 :=
  (by decide +kernel : ∀ t : Fin grid4.N, _)

/-- Every tile of the output is some point's. -/
theorem idx_onto4 : ∀ (q0 : Fin 50), ∃ t : Fin cfg4.N, win4_6.index t = ![q0.val, 0] :=
  (by decide +kernel : ∀ (q0 : Fin 50), ∃ t : Fin grid4.N, win4_6.index t = ![q0.val, 0])

/-- Where the input blocks sit in their arrays at point `t`, against the output tile's entry (p, q): the two tiles of
    rows at the same array index, the four rows at the entry's column. -/
theorem embs4 (t : Fin cfg4.N) (p : Fin 2000) (q : Fin 256) :
    ((cfg4.win 0).blk t).view.emb (ix2 p q) = (((cfg4.win 6).blk t).view.emb (ix2 p q))
    ∧ ((cfg4.win 1).blk t).view.emb (ix2 p q) = (((cfg4.win 6).blk t).view.emb (ix2 p q))
    ∧ ((cfg4.win 2).blk t).view.emb (ix2 0 q) = ix2 0 ((((cfg4.win 6).blk t).view.emb (ix2 p q)) 1)
    ∧ ((cfg4.win 3).blk t).view.emb (ix2 0 q) = ix2 0 ((((cfg4.win 6).blk t).view.emb (ix2 p q)) 1)
    ∧ ((cfg4.win 4).blk t).view.emb (ix2 0 q) = ix2 0 ((((cfg4.win 6).blk t).view.emb (ix2 p q)) 1)
    ∧ ((cfg4.win 5).blk t).view.emb (ix2 0 q) = ix2 0 ((((cfg4.win 6).blk t).view.emb (ix2 p q)) 1) := by
  obtain ⟨e0, e1, e2, e3, e4, e5, e6, e7, e8, e9, e10, e11, e12, e13⟩ := idx_facts4 t
  refine ⟨?_, ?_, ?_, ?_, ?_, ?_⟩
  · funext a; apply Fin.ext
    match a with
    | ⟨0, _⟩ => show win4_0.index t (0 : Fin 2) * 2000 + 1 * p.val = win4_6.index t (0 : Fin 2) * 2000 + 1 * p.val; omega
    | ⟨1, _⟩ => show win4_0.index t (1 : Fin 2) * 256 + 1 * q.val = win4_6.index t (1 : Fin 2) * 256 + 1 * q.val; omega
  · funext a; apply Fin.ext
    match a with
    | ⟨0, _⟩ => show win4_1.index t (0 : Fin 2) * 2000 + 1 * p.val = win4_6.index t (0 : Fin 2) * 2000 + 1 * p.val; omega
    | ⟨1, _⟩ => show win4_1.index t (1 : Fin 2) * 256 + 1 * q.val = win4_6.index t (1 : Fin 2) * 256 + 1 * q.val; omega
  · funext a; apply Fin.ext
    match a with
    | ⟨0, _⟩ => show win4_2.index t (0 : Fin 2) * 1 + 1 * 0 = 0; omega
    | ⟨1, _⟩ => show win4_2.index t (1 : Fin 2) * 256 + 1 * q.val = win4_6.index t (1 : Fin 2) * 256 + 1 * q.val; omega
  · funext a; apply Fin.ext
    match a with
    | ⟨0, _⟩ => show win4_3.index t (0 : Fin 2) * 1 + 1 * 0 = 0; omega
    | ⟨1, _⟩ => show win4_3.index t (1 : Fin 2) * 256 + 1 * q.val = win4_6.index t (1 : Fin 2) * 256 + 1 * q.val; omega
  · funext a; apply Fin.ext
    match a with
    | ⟨0, _⟩ => show win4_4.index t (0 : Fin 2) * 1 + 1 * 0 = 0; omega
    | ⟨1, _⟩ => show win4_4.index t (1 : Fin 2) * 256 + 1 * q.val = win4_6.index t (1 : Fin 2) * 256 + 1 * q.val; omega
  · funext a; apply Fin.ext
    match a with
    | ⟨0, _⟩ => show win4_5.index t (0 : Fin 2) * 1 + 1 * 0 = 0; omega
    | ⟨1, _⟩ => show win4_5.index t (1 : Fin 2) * 256 + 1 * q.val = win4_6.index t (1 : Fin 2) * 256 + 1 * q.val; omega

/-- The body's arithmetic on the blocks at point `t`, entry (p, q), is `G2` of the whole arrays at the entry's array
    index. -/
theorem tile4_eq (t : Fin cfg4.N) (p : Fin 2000) (q : Fin 256) (HN H : S100000x256.Idx → EReal) (S Q G B : S1x256.Idx → EReal) :
    H (((cfg4.win 1).blk t).view.emb (ix2 p q)) + max ((HN (((cfg4.win 0).blk t).view.emb (ix2 p q)) - Ideal.div (S (((cfg4.win 2).blk t).view.emb (ix2 0 q))) (Ideal.ofBits .f32 0x47C35000#32))
        * Ideal.rsqrt (Ideal.div (Q (((cfg4.win 3).blk t).view.emb (ix2 0 q))) (Ideal.ofBits .f32 0x47C35000#32) - Ideal.div (S (((cfg4.win 2).blk t).view.emb (ix2 0 q))) (Ideal.ofBits .f32 0x47C35000#32) * Ideal.div (S (((cfg4.win 2).blk t).view.emb (ix2 0 q))) (Ideal.ofBits .f32 0x47C35000#32) + Ideal.ofBits .f32 0x3727C5AC#32)
        * G (((cfg4.win 4).blk t).view.emb (ix2 0 q)) + B (((cfg4.win 5).blk t).view.emb (ix2 0 q))) 0
      = Cert.Spec.G2 HN H S Q G B (((cfg4.win 6).blk t).view.emb (ix2 p q)) := by
  obtain ⟨h0, h1, h2, h3, h4, h5⟩ := embs4 t p q
  rw [h0, h1, h2, h3, h4, h5]
  rfl

variable (V : (c : Dev nD) → (b : Ref sig .tc) → Buf (Elt Ideal) ((c : Thread nD τ).loc b))

/-- What point `t` writes back is tile `t` of `G2` of the arrays as the region finds them. -/
theorem flushed4_6_eq (c : Dev nD) (t : Fin cfg4.N) :
    (dat4 (F := Ideal) V c).flushed 6 t
      = ((cfg4.win 6).blk t).view.read (Elt Ideal) (Cert.Spec.G2 (V c main_v59_0) (V c main_v39) (V c main_v59_1) (V c main_v59_2) (V c main_v64) (V c main_v65)) := by
  show (cfg4.win 6).cut (grid4.coords t) ((dat4 V c).after 6 t) = _
  rw [after4_6]
  unfold out4_6
  rw [View.canon_unit_zero hz4]
  simp only [View.ld_unit_zero (S := S2000x256) hz4, View.ld_unit_zero (S := S1x256) hz4]
  funext j
  obtain ⟨p, q, rfl⟩ : ∃ (p : Fin 2000) (q : Fin 256), j = ix2 p q := ⟨j 0, j 1, eq_ix2 j⟩
  refine (pay4_apply (iblk4 V c 2 t) (iblk4 V c 3 t) (iblk4 V c 0 t) (iblk4 V c 4 t) (iblk4 V c 5 t) (iblk4 V c 1 t) p q).trans ?_
  exact tile4_eq t p q (V c main_v59_0) (V c main_v39) (V c main_v59_1) (V c main_v59_2) (V c main_v64) (V c main_v65)

/-- An index of the output array is in point `t`'s tile iff each coordinate is in the tile's range on its axis. -/
theorem mem_blk4_6 (t : Fin cfg4.N) (i : S100000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v66).slice (win4_6.rect t)).set ↔ _
  rw [View.set_slice_whole, Rect.mem_set_unit]
  exact Iff.rfl

/-- The tiles cover the array: row `r` is in the tile of point `r / 2000`. -/
theorem cover4_6_arr (i : S100000x256.Idx) :
    ∃ t : Fin cfg4.N, (cfg4.win 6).flush t = true ∧ i ∈ ((cfg4.win 6).blk t).view.set := by
  have hi0 : (i 0).val < 100000 := (i 0).isLt
  have hi1 : (i 1).val < 256 := (i 1).isLt
  obtain ⟨t, ht⟩ := idx_onto4 ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [mem_blk4_6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 256 ≤ (i 1).val ∧ (i 1).val < win4_6.index t (1 : Fin 2) * 256 + 256; omega

/-- The output array after the region's run is `G2` of the arrays as the region finds them. -/
theorem final4_6 (c : Dev nD) :
    (dat4 (F := Ideal) V c).arrAt 6 cfg4.N = Cert.Spec.G2 (V c main_v59_0) (V c main_v39) (V c main_v59_1) (V c main_v59_2) (V c main_v64) (V c main_v65) :=
  (dat4 V c).arrAt_eq_of_cover 6 (Cert.Spec.G2 (V c main_v59_0) (V c main_v39) (V c main_v59_1) (V c main_v59_2) (V c main_v64) (V c main_v65))
    (fun t _ => flushed4_6_eq V c t) cover4_6_arr

end Cert.KernelIdeal.HandVal

end
-- ==== Proof.KI.Val6.lean ====
/- The value of region 6 at the exact extended reals: the output tile's entry (p, q) is
   `h + max ((hn - μ) · rsqrt (var + ε) · γ + β) 0` with `μ = S / n` and `var = Q / n - μ · μ` read off the two rows of
   column statistics, and the tiles assemble to the whole array. -/
import proofs.«111242_j77756087927556_1_alg».proof.Proof.KI.Region6
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The body's arithmetic read at an index -/

/-- A [1, 256] row broadcast over the tile's rows, at entry (p, q): the row's entry q. -/
theorem rowB6_apply (r : FVec Ideal S1x256 .f32) (p : Fin 2000) (q : Fin 256) :
    (broadcastTo S2000x256 r broadcasts_S1x256_S2000x256 : FVec Ideal S2000x256 .f32) (ix2 p q) = r (ix2 0 q) :=
  broadcastTo_apply r broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The body's arithmetic at entry (p, q) of the tile. -/
theorem pay6_apply (v0 v4 : Vec Ideal S1x256 .f32) (v13 : Vec Ideal S2000x256 .f32) (v19 v23 : Vec Ideal S1x256 .f32)
    (v27 : Vec Ideal S2000x256 .f32) (p : Fin 2000) (q : Fin 256) :
    k6_pay1 v0 v4 v13 v19 v23 v27 (ix2 p q)
      = v27 (ix2 p q) + max ((v13 (ix2 p q) - Ideal.div (v0 (ix2 0 q)) (Ideal.ofBits .f32 0x47C35000#32))
          * Ideal.rsqrt (Ideal.div (v4 (ix2 0 q)) (Ideal.ofBits .f32 0x47C35000#32) - Ideal.div (v0 (ix2 0 q)) (Ideal.ofBits .f32 0x47C35000#32) * Ideal.div (v0 (ix2 0 q)) (Ideal.ofBits .f32 0x47C35000#32) + Ideal.ofBits .f32 0x3727C5AC#32)
          * v19 (ix2 0 q) + v23 (ix2 0 q)) 0 := by
  unfold k6_pay1
  simp only [shapeCast_self]
  refine congrArg (fun z => v27 (ix2 p q) + z) ?_
  refine congrArg₂ max (congrArg₂ (· + ·) (congrArg₂ (· * ·) (congrArg₂ (· * ·) (congrArg (fun z => v13 (ix2 p q) - z) ?_) ?_) ?_) ?_) Ideal.ofBits_zero_f32
  · exact rowB6_apply _ p q
  · exact rowB6_apply _ p q
  · exact rowB6_apply _ p q
  · exact rowB6_apply _ p q

/-! ## From the tiles to the array -/

theorem hz6 : (![0, 0] : Fin 2 → Nat) = fun _ => 0 := funext fun a => by fin_cases a <;> rfl

/-- The windows' block indices over the grid: the two tiles of rows move with the point, the four rows stay at their
    one block, and the output's tile is the point's. -/
theorem idx_facts6 : ∀ t : Fin cfg6.N, win6_0.index t (0 : Fin 2) = win6_6.index t (0 : Fin 2) ∧ win6_0.index t (1 : Fin 2) = 0
    ∧ win6_1.index t (0 : Fin 2) = win6_6.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) ≤ 49 ∧ win6_6.index t (1 : Fin 2) = 0 :=
  (by decide +kernel : ∀ t : Fin grid6.N, _)

/-- Every tile of the output is some point's. -/
theorem idx_onto6 : ∀ (q0 : Fin 50), ∃ t : Fin cfg6.N, win6_6.index t = ![q0.val, 0] :=
  (by decide +kernel : ∀ (q0 : Fin 50), ∃ t : Fin grid6.N, win6_6.index t = ![q0.val, 0])

/-- Where the input blocks sit in their arrays at point `t`, against the output tile's entry (p, q): the two tiles of
    rows at the same array index, the four rows at the entry's column. -/
theorem embs6 (t : Fin cfg6.N) (p : Fin 2000) (q : Fin 256) :
    ((cfg6.win 0).blk t).view.emb (ix2 p q) = (((cfg6.win 6).blk t).view.emb (ix2 p q))
    ∧ ((cfg6.win 1).blk t).view.emb (ix2 p q) = (((cfg6.win 6).blk t).view.emb (ix2 p q))
    ∧ ((cfg6.win 2).blk t).view.emb (ix2 0 q) = ix2 0 ((((cfg6.win 6).blk t).view.emb (ix2 p q)) 1)
    ∧ ((cfg6.win 3).blk t).view.emb (ix2 0 q) = ix2 0 ((((cfg6.win 6).blk t).view.emb (ix2 p q)) 1)
    ∧ ((cfg6.win 4).blk t).view.emb (ix2 0 q) = ix2 0 ((((cfg6.win 6).blk t).view.emb (ix2 p q)) 1)
    ∧ ((cfg6.win 5).blk t).view.emb (ix2 0 q) = ix2 0 ((((cfg6.win 6).blk t).view.emb (ix2 p q)) 1) := by
  obtain ⟨e0, e1, e2, e3, e4, e5, e6, e7, e8, e9, e10, e11, e12, e13⟩ := idx_facts6 t
  refine ⟨?_, ?_, ?_, ?_, ?_, ?_⟩
  · funext a; apply Fin.ext
    match a with
    | ⟨0, _⟩ => show win6_0.index t (0 : Fin 2) * 2000 + 1 * p.val = win6_6.index t (0 : Fin 2) * 2000 + 1 * p.val; omega
    | ⟨1, _⟩ => show win6_0.index t (1 : Fin 2) * 256 + 1 * q.val = win6_6.index t (1 : Fin 2) * 256 + 1 * q.val; omega
  · funext a; apply Fin.ext
    match a with
    | ⟨0, _⟩ => show win6_1.index t (0 : Fin 2) * 2000 + 1 * p.val = win6_6.index t (0 : Fin 2) * 2000 + 1 * p.val; omega
    | ⟨1, _⟩ => show win6_1.index t (1 : Fin 2) * 256 + 1 * q.val = win6_6.index t (1 : Fin 2) * 256 + 1 * q.val; omega
  · funext a; apply Fin.ext
    match a with
    | ⟨0, _⟩ => show win6_2.index t (0 : Fin 2) * 1 + 1 * 0 = 0; omega
    | ⟨1, _⟩ => show win6_2.index t (1 : Fin 2) * 256 + 1 * q.val = win6_6.index t (1 : Fin 2) * 256 + 1 * q.val; omega
  · funext a; apply Fin.ext
    match a with
    | ⟨0, _⟩ => show win6_3.index t (0 : Fin 2) * 1 + 1 * 0 = 0; omega
    | ⟨1, _⟩ => show win6_3.index t (1 : Fin 2) * 256 + 1 * q.val = win6_6.index t (1 : Fin 2) * 256 + 1 * q.val; omega
  · funext a; apply Fin.ext
    match a with
    | ⟨0, _⟩ => show win6_4.index t (0 : Fin 2) * 1 + 1 * 0 = 0; omega
    | ⟨1, _⟩ => show win6_4.index t (1 : Fin 2) * 256 + 1 * q.val = win6_6.index t (1 : Fin 2) * 256 + 1 * q.val; omega
  · funext a; apply Fin.ext
    match a with
    | ⟨0, _⟩ => show win6_5.index t (0 : Fin 2) * 1 + 1 * 0 = 0; omega
    | ⟨1, _⟩ => show win6_5.index t (1 : Fin 2) * 256 + 1 * q.val = win6_6.index t (1 : Fin 2) * 256 + 1 * q.val; omega

/-- The body's arithmetic on the blocks at point `t`, entry (p, q), is `G2` of the whole arrays at the entry's array
    index. -/
theorem tile6_eq (t : Fin cfg6.N) (p : Fin 2000) (q : Fin 256) (HN H : S100000x256.Idx → EReal) (S Q G B : S1x256.Idx → EReal) :
    H (((cfg6.win 1).blk t).view.emb (ix2 p q)) + max ((HN (((cfg6.win 0).blk t).view.emb (ix2 p q)) - Ideal.div (S (((cfg6.win 2).blk t).view.emb (ix2 0 q))) (Ideal.ofBits .f32 0x47C35000#32))
        * Ideal.rsqrt (Ideal.div (Q (((cfg6.win 3).blk t).view.emb (ix2 0 q))) (Ideal.ofBits .f32 0x47C35000#32) - Ideal.div (S (((cfg6.win 2).blk t).view.emb (ix2 0 q))) (Ideal.ofBits .f32 0x47C35000#32) * Ideal.div (S (((cfg6.win 2).blk t).view.emb (ix2 0 q))) (Ideal.ofBits .f32 0x47C35000#32) + Ideal.ofBits .f32 0x3727C5AC#32)
        * G (((cfg6.win 4).blk t).view.emb (ix2 0 q)) + B (((cfg6.win 5).blk t).view.emb (ix2 0 q))) 0
      = Cert.Spec.G2 HN H S Q G B (((cfg6.win 6).blk t).view.emb (ix2 p q)) := by
  obtain ⟨h0, h1, h2, h3, h4, h5⟩ := embs6 t p q
  rw [h0, h1, h2, h3, h4, h5]
  rfl

variable (V : (c : Dev nD) → (b : Ref sig .tc) → Buf (Elt Ideal) ((c : Thread nD τ).loc b))

/-- What point `t` writes back is tile `t` of `G2` of the arrays as the region finds them. -/
theorem flushed6_6_eq (c : Dev nD) (t : Fin cfg6.N) :
    (dat6 (F := Ideal) V c).flushed 6 t
      = ((cfg6.win 6).blk t).view.read (Elt Ideal) (Cert.Spec.G2 (V c main_v86_0) (V c main_v66) (V c main_v86_1) (V c main_v86_2) (V c main_v91) (V c main_v92)) := by
  show (cfg6.win 6).cut (grid6.coords t) ((dat6 V c).after 6 t) = _
  rw [after6_6]
  unfold out6_6
  rw [View.canon_unit_zero hz6]
  simp only [View.ld_unit_zero (S := S2000x256) hz6, View.ld_unit_zero (S := S1x256) hz6]
  funext j
  obtain ⟨p, q, rfl⟩ : ∃ (p : Fin 2000) (q : Fin 256), j = ix2 p q := ⟨j 0, j 1, eq_ix2 j⟩
  refine (pay6_apply (iblk6 V c 2 t) (iblk6 V c 3 t) (iblk6 V c 0 t) (iblk6 V c 4 t) (iblk6 V c 5 t) (iblk6 V c 1 t) p q).trans ?_
  exact tile6_eq t p q (V c main_v86_0) (V c main_v66) (V c main_v86_1) (V c main_v86_2) (V c main_v91) (V c main_v92)

/-- An index of the output array is in point `t`'s tile iff each coordinate is in the tile's range on its axis. -/
theorem mem_blk6_6 (t : Fin cfg6.N) (i : S100000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v93).slice (win6_6.rect t)).set ↔ _
  rw [View.set_slice_whole, Rect.mem_set_unit]
  exact Iff.rfl

/-- The tiles cover the array: row `r` is in the tile of point `r / 2000`. -/
theorem cover6_6_arr (i : S100000x256.Idx) :
    ∃ t : Fin cfg6.N, (cfg6.win 6).flush t = true ∧ i ∈ ((cfg6.win 6).blk t).view.set := by
  have hi0 : (i 0).val < 100000 := (i 0).isLt
  have hi1 : (i 1).val < 256 := (i 1).isLt
  obtain ⟨t, ht⟩ := idx_onto6 ⟨(i 0).val / 2000, by omega⟩
  have q0 : win6_6.index t (0 : Fin 2) = (i 0).val / 2000 := congrFun ht 0
  have q1 : win6_6.index t (1 : Fin 2) = 0 := congrFun ht 1
  refine ⟨t, flush6_6 t, ?_⟩
  rw [mem_blk6_6]
  intro a
  match a with
  | ⟨0, _⟩ => show win6_6.index t (0 : Fin 2) * 2000 ≤ (i 0).val ∧ (i 0).val < win6_6.index t (0 : Fin 2) * 2000 + 2000; omega
  | ⟨1, _⟩ => show win6_6.index t (1 : Fin 2) * 256 ≤ (i 1).val ∧ (i 1).val < win6_6.index t (1 : Fin 2) * 256 + 256; omega

/-- The output array after the region's run is `G2` of the arrays as the region finds them. -/
theorem final6_6 (c : Dev nD) :
    (dat6 (F := Ideal) V c).arrAt 6 cfg6.N = Cert.Spec.G2 (V c main_v86_0) (V c main_v66) (V c main_v86_1) (V c main_v86_2) (V c main_v91) (V c main_v92) :=
  (dat6 V c).arrAt_eq_of_cover 6 (Cert.Spec.G2 (V c main_v86_0) (V c main_v66) (V c main_v86_1) (V c main_v86_2) (V c main_v91) (V c main_v92))
    (fun t _ => flushed6_6_eq V c t) cover6_6_arr

end Cert.KernelIdeal.HandVal

end
-- ==== Proof.KI.Val8.lean ====
/- The value of region 8 at the exact extended reals: the output tile's entry (p, q) is
   `h + max ((hn - μ) · rsqrt (var + ε) · γ + β) 0` with `μ = S / n` and `var = Q / n - μ · μ` read off the two rows of
   column statistics, and the tiles assemble to the whole array. -/
import proofs.«111242_j77756087927556_1_alg».proof.Proof.KI.Region8
import proofs.«111242_j77756087927556_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## The body's arithmetic read at an index -/

/-- A [1, 256] row broadcast over the tile's rows, at entry (p, q): the row's entry q. -/
theorem rowB8_apply (r : FVec Ideal S1x256 .f32) (p : Fin 2000) (q : Fin 256) :
    (broadcastTo S2000x256 r broadcasts_S1x256_S2000x256 : FVec Ideal S2000x256 .f32) (ix2 p q) = r (ix2 0 q) :=
  broadcastTo_apply r broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The body's arithmetic at entry (p, q) of the tile. -/
theorem pay8_apply (v0 v4 : Vec Ideal S1x256 .f32) (v13 : Vec Ideal S2000x256 .f32) (v19 v23 : Vec Ideal S1x256 .f32)
    (v27 : Vec Ideal S2000x256 .f32) (p : Fin 2000) (q : Fin 256) :
    k8_pay1 v0 v4 v13 v19 v23 v27 (ix2 p q)
      = v27 (ix2 p q) + max ((v13 (ix2 p q) - Ideal.div (v0 (ix2 0 q)) (Ideal.ofBits .f32 0x47C35000#32))
          * Ideal.rsqrt (Ideal.div (v4 (ix2 0 q)) (Ideal.ofBits .f32 0x47C35000#32) - Ideal.div (v0 (ix2 0 q)) (Ideal.ofBits .f32 0x47C35000#32) * Ideal.div (v0 (ix2 0 q)) (Ideal.ofBits .f32 0x47C35000#32) + Ideal.ofBits .f32 0x3727C5AC#32)
          * v19 (ix2 0 q) + v23 (ix2 0 q)) 0 := by
  unfold k8_pay1
  simp only [shapeCast_self]
  refine congrArg (fun z => v27 (ix2 p q) + z) ?_
  refine congrArg₂ max (congrArg₂ (· + ·) (congrArg₂ (· * ·) (congrArg₂ (· * ·) (congrArg (fun z => v13 (ix2 p q) - z) ?_) ?_) ?_) ?_) Ideal.ofBits_zero_f32
  · exact rowB8_apply _ p q
  · exact rowB8_apply _ p q
  · exact rowB8_apply _ p q
  · exact rowB8_apply _ p q

/-! ## From the tiles to the array -/

theorem hz8 : (![0, 0] : Fin 2 → Nat) = fun _ => 0 := funext fun a => by fin_cases a <;> rfl

/-- The windows' block indices over the grid: the two tiles of rows move with the point, the four rows stay at their
    one block, and the output's tile is the point's. -/
theorem idx_facts8 : ∀ t : Fin cfg8.N, win8_0.index t (0 : Fin 2) = win8_6.index t (0 : Fin 2) ∧ win8_0.index t (1 : Fin 2) = 0
    ∧ win8_1.index t (0 : Fin 2) = win8_6.index t (0 : Fin 2) ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) ≤ 49 ∧ win8_6.index t (1 : Fin 2) = 0 :=
  (by decide +kernel : ∀ t : Fin grid8.N, _)

/-- Every tile of the output is some point's. -/
theorem idx_onto8 : ∀ (q0 : Fin 50), ∃ t : Fin cfg8.N, win8_6.index t = ![q0.val, 0] :=
  (by decide +kernel : ∀ (q0 : Fin 50), ∃ t : Fin grid8.N, win8_6.index t = ![q0.val, 0])

/-- Where the input blocks sit in their arrays at point `t`, against the output tile's entry (p, q): the two tiles of
    rows at the same array index, the four rows at the entry's column. -/
theorem embs8 (t : Fin cfg8.N) (p : Fin 2000) (q : Fin 256) :
    ((cfg8.win 0).blk t).view.emb (ix2 p q) = (((cfg8.win 6).blk t).view.emb (ix2 p q))
    ∧ ((cfg8.win 1).blk t).view.emb (ix2 p q) = (((cfg8.win 6).blk t).view.emb (ix2 p q))
    ∧ ((cfg8.win 2).blk t).view.emb (ix2 0 q) = ix2 0 ((((cfg8.win 6).blk t).view.emb (ix2 p q)) 1)
    ∧ ((cfg8.win 3).blk t).view.emb (ix2 0 q) = ix2 0 ((((cfg8.win 6).blk t).view.emb (ix2 p q)) 1)
    ∧ ((cfg8.win 4).blk t).view.emb (ix2 0 q) = ix2 0 ((((cfg8.win 6).blk t).view.emb (ix2 p q)) 1)
    ∧ ((cfg8.win 5).blk t).view.emb (ix2 0 q) = ix2 0 ((((cfg8.win 6).blk t).view.emb (ix2 p q)) 1) := by
  obtain ⟨e0, e1, e2, e3, e4, e5, e6, e7, e8, e9, e10, e11, e12, e13⟩ := idx_facts8 t
  refine ⟨?_, ?_, ?_, ?_, ?_, ?_⟩
  · funext a; apply Fin.ext
    match a with
    | ⟨0, _⟩ => show win8_0.index t (0 : Fin 2) * 2000 + 1 * p.val = win8_6.index t (0 : Fin 2) * 2000 + 1 * p.val; omega
    | ⟨1, _⟩ => show win8_0.index t (1 : Fin 2) * 256 + 1 * q.val = win8_6.index t (1 : Fin 2) * 256 + 1 * q.val; omega
  · funext a; apply Fin.ext
    match a with
    | ⟨0, _⟩ => show win8_1.index t (0 : Fin 2) * 2000 + 1 * p.val = win8_6.index t (0 : Fin 2) * 2000 + 1 * p.val; omega
    | ⟨1, _⟩ => show win8_1.index t (1 : Fin 2) * 256 + 1 * q.val = win8_6.index t (1 : Fin 2) * 256 + 1 * q.val; omega
  · funext a; apply Fin.ext
    match a with
    | ⟨0, _⟩ => show win8_2.index t (0 : Fin 2) * 1 + 1 * 0 = 0; omega
    | ⟨1, _⟩ => show win8_2.index t (1 : Fin 2) * 256 + 1 * q.val = win8_6.index t (1 : Fin 2) * 256 + 1 * q.val; omega
  · funext a; apply Fin.ext
    match a with
    | ⟨0, _⟩ => show win8_3.index t (0 : Fin 2) * 1 + 1 * 0 = 0; omega
    | ⟨1, _⟩ => show win8_3.index t (1 : Fin 2) * 256 + 1 * q.val = win8_6.index t (1 : Fin 2) * 256 + 1 * q.val; omega
  · funext a; apply Fin.ext
    match a with
    | ⟨0, _⟩ => show win8_4.index t (0 : Fin 2) * 1 + 1 * 0 = 0; omega
    | ⟨1, _⟩ => show win8_4.index t (1 : Fin 2) * 256 + 1 * q.val = win8_6.index t (1 : Fin 2) * 256 + 1 * q.val; omega
  · funext a; apply Fin.ext
    match a with
    | ⟨0, _⟩ => show win8_5.index t (0 : Fin 2) * 1 + 1 * 0 = 0; omega
    | ⟨1, _⟩ => show win8_5.index t (1 : Fin 2) * 256 + 1 * q.val = win8_6.index t (1 : Fin 2) * 256 + 1 * q.val; omega

/-- The body's arithmetic on the blocks at point `t`, entry (p, q), is `G2` of the whole arrays at the entry's array
    index. -/
theorem tile8_eq (t : Fin cfg8.N) (p : Fin 2000) (q : Fin 256) (HN H : S100000x256.Idx → EReal) (S Q G B : S1x256.Idx → EReal) :
    H (((cfg8.win 1).blk t).view.emb (ix2 p q)) + max ((HN (((cfg8.win 0).blk t).view.emb (ix2 p q)) - Ideal.div (S (((cfg8.win 2).blk t).view.emb (ix2 0 q))) (Ideal.ofBits .f32 0x47C35000#32))
        * Ideal.rsqrt (Ideal.div (Q (((cfg8.win 3).blk t).view.emb (ix2 0 q))) (Ideal.ofBits .f32 0x47C35000#32) - Ideal.div (S (((cfg8.win 2).blk t).view.emb (ix2 0 q))) (Ideal.ofBits .f32 0x47C35000#32) * Ideal.div (S (((cfg8.win 2).blk t).view.emb (ix2 0 q))) (Ideal.ofBits .f32 0x47C35000#32) + Ideal.ofBits .f32 0x3727C5AC#32)
        * G (((cfg8.win 4).blk t).view.emb (ix2 0 q)) + B (((cfg8.win 5).blk t).view.emb (ix2 0 q))) 0
      = Cert.Spec.G2 HN H S Q G B (((cfg8.win 6).blk t).view.emb (ix2 p q)) := by
  obtain ⟨h0, h1, h2, h3, h4, h5⟩ := embs8 t p q
  rw [h0, h1, h2, h3, h4, h5]
  rfl

variable (V : (c : Dev nD) → (b : Ref sig .tc) → Buf (Elt Ideal) ((c : Thread nD τ).loc b))

/-- What point `t` writes back is tile `t` of `G2` of the arrays as the region finds them. -/
theorem flushed8_6_eq (c : Dev nD) (t : Fin cfg8.N) :
    (dat8 (F := Ideal) V c).flushed 6 t
      = ((cfg8.win 6).blk t).view.read (Elt Ideal) (Cert.Spec.G2 (V c main_v113_0) (V c main_v93) (V c main_v113_1) (V c main_v113_2) (V c main_v118) (V c main_v119)) := by
  show (cfg8.win 6).cut (grid8.coords t) ((dat8 V c).after 6 t) = _
  rw [after8_6]
  unfold out8_6
  rw [View.canon_unit_zero hz8]
  simp only [View.ld_unit_zero (S := S2000x256) hz8, View.ld_unit_zero (S := S1x256) hz8]
  funext j
  obtain ⟨p, q, rfl⟩ : ∃ (p : Fin 2000) (q : Fin 256), j = ix2 p q := ⟨j 0, j 1, eq_ix2 j⟩
  refine (pay8_apply (iblk8 V c 2 t) (iblk8 V c 3 t) (iblk8 V c 0 t) (iblk8 V c 4 t) (iblk8 V c 5 t) (iblk8 V c 1 t) p q).trans ?_
  exact tile8_eq t p q (V c main_v113_0) (V c main_v93) (V c main_v113_1) (V c main_v113_2) (V c main_v118) (V c main_v119)

/-- An index of the output array is in point `t`'s tile iff each coordinate is in the tile's range on its axis. -/
theorem mem_blk8_6 (t : Fin cfg8.N) (i : S100000x256.Idx) :
    i ∈ ((cfg8.win 6).blk t).view.set ↔ ∀ a : Fin 2, win8_6.index t a * S2000x256.size a ≤ (i a).val ∧ (i a).val < win8_6.index t a * S2000x256.size a + S2000x256.size a := by
  show i ∈ ((View.whole main_v120).slice (win8_6.rect t)).set ↔ _
  rw [View.set_slice_whole, Rect.mem_set_unit]
  exact Iff.rfl

/-- The tiles cover the array: row `r` is in the tile of point `r / 2000`. -/
theorem cover8_6_arr (i : S100000x256.Idx) :
    ∃ t : Fin cfg8.N, (cfg8.win 6).flush t = true ∧ i ∈ ((cfg8.win 6).blk t).view.set := by
  have hi0 : (i 0).val < 100000 := (i 0).isLt
  have hi1 : (i 1).val < 256 := (i 1).isLt
  obtain ⟨t, ht⟩ := idx_onto8 ⟨(i 0).val / 2000, by omega⟩
  have q0 : win8_6.index t (0 : Fin 2) = (i 0).val / 2000 := congrFun ht 0
  have q1 : win8_6.index t (1 : Fin 2) = 0 := congrFun ht 1
  refine ⟨t, flush8_6 t, ?_⟩
  rw [mem_blk8_6]
  intro a
  match a with
  | ⟨0, _⟩ => show win8_6.index t (0 : Fin 2) * 2000 ≤ (i 0).val ∧ (i 0).val < win8_6.index t (0 : Fin 2) * 2000 + 2000; omega
  | ⟨1, _⟩ => show win8_6.index t (1 : Fin 2) * 256 ≤ (i 1).val ∧ (i 1).val < win8_6.index t (1 : Fin 2) * 256 + 256; omega

/-- The output array after the region's run is `G2` of the arrays as the region finds them. -/
theorem final8_6 (c : Dev nD) :
    (dat8 (F := Ideal) V c).arrAt 6 cfg8.N = Cert.Spec.G2 (V c main_v113_0) (V c main_v93) (V c main_v113_1) (V c main_v113_2) (V c main_v118) (V c main_v119) :=
  (dat8 V c).arrAt_eq_of_cover 6 (Cert.Spec.G2 (V c main_v113_0) (V c main_v93) (V c main_v113_1) (V c main_v113_2) (V c main_v118) (V c main_v119))
    (fun t _ => flushed8_6_eq V c t) cover8_6_arr

end Cert.KernelIdeal.HandVal

end
-- ==== Proof.Chain.lean ====
/-
  The four layers, in the form the kernel computes them and in the form the reference computes them, are the same
  function of real inputs.

  A layer takes the features h and their neighbour aggregate agg to
    hn = agg · Wl + bl + h · Wr,   out = h + max ((hn - mu) · rsqrt (var + eps) · gamma + beta) 0.
  The kernel reads mu and var off the column sums S = Σ hn and Q = Σ hn² (mu = S / n, var = Q / n - mu²); the
  reference computes var as the mean of (hn - mu)². The two agree when every entry of hn is a real number, which
  holds when the layer's inputs and parameters are real; and a layer's output is then real again, so the law applies
  layer after layer. The neighbour aggregate, the clamped in-degree and the closing pooling and predictor are the
  same host functions in both programs; only that the aggregate of a real array over in-degrees at least one is
  real is used of them.
-/
import proofs.«111242_j77756087927556_1_alg».proof.Proof.Spec
import proofs.«111242_j77756087927556_1_alg».proof.Proof.RefStages
import proofs.«111242_j77756087927556_1_alg».proof.Proof.Gen.ReferenceIdeal

noncomputable section

namespace Cert.Chain

open Idealize.ShloMosaic Idealize.ShloMosaic.ValueIdx
open Cert.Spec Cert.ReferenceIdeal.RefValue
open Cert.ReferenceIdeal (S2x800000 S800000 S100000 S100000x1 S100000x256 S256x128 S128 S128x1 S1 S256x1)

/-! ## One layer -/

/-- One layer as the kernel's two regions compute it: the linear part, its column sums and sums of squares, and the
    normalisation read off those two rows. -/
def layerK (l : Fin 4) (wl : Arr3 4 256 256) (bl : Arr2 4 256) (wr : Arr3 4 256 256) (gamma beta : Arr2 4 256)
    (h agg : Arr2 100000 256) : Arr2 100000 256 :=
  G2 (hnK h agg (layerW l wl) (layerRow l bl) (layerW l wr)) h
    (sumK (hnK h agg (layerW l wl) (layerRow l bl) (layerW l wr)))
    (sumsqK (hnK h agg (layerW l wl) (layerRow l bl) (layerW l wr))) (layerRow l gamma) (layerRow l beta)

/-- On real inputs the kernel's layer is the reference's. -/
theorem layerK_eq (l : Fin 4) (wl : Arr3 4 256 256) (bl : Arr2 4 256) (wr : Arr3 4 256 256) (gamma beta : Arr2 4 256)
    (h agg : Arr2 100000 256) (hwl : IsReal wl) (hbl : IsReal bl) (hwr : IsReal wr) (hh : IsReal h) (ha : IsReal agg) :
    layerK l wl bl wr gamma beta h agg = layerR l wl bl wr gamma beta h agg :=
  layerK_eq_layerR l wl bl wr gamma beta h agg hwl hbl hwr hh ha

section Steps

variable [Cert.ReferenceIdeal.Facts₀]
variable (src dst : IVec S800000 32) (degc : FVec Ideal S100000x1 .f32)
variable (wl : Arr3 4 256 256) (bl : Arr2 4 256) (wr : Arr3 4 256 256) (gamma beta : Arr2 4 256)

/-! ## One step: aggregate over the in-neighbours, then the layer -/

/-- A step in the kernel's form. -/
def stepK (l : Fin 4) (h : Arr2 100000 256) : Arr2 100000 256 :=
  layerK l wl bl wr gamma beta h (aggOps src dst degc h)

/-- A step in the reference's form. -/
def stepR (l : Fin 4) (h : Arr2 100000 256) : Arr2 100000 256 :=
  layerR l wl bl wr gamma beta h (aggOps src dst degc h)

/-- On real features, with real parameters and in-degrees at least one, the two forms of a step agree. -/
theorem stepK_eq_stepR (l : Fin 4) (h : Arr2 100000 256) (hd : ∀ i, ∃ r : ℝ, 1 ≤ r ∧ degc i = (r : EReal))
    (hh : IsReal h) (hwl : IsReal wl) (hbl : IsReal bl) (hwr : IsReal wr) (hg : IsReal gamma) (hb : IsReal beta) :
    stepK src dst degc wl bl wr gamma beta l h = stepR src dst degc wl bl wr gamma beta l h :=
  layerK_eq l wl bl wr gamma beta h _ hwl hbl hwr hh (aggOps_real src dst degc h hd hh)

/-- and the step's output is real again. -/
theorem stepR_real (l : Fin 4) (h : Arr2 100000 256) (hd : ∀ i, ∃ r : ℝ, 1 ≤ r ∧ degc i = (r : EReal))
    (hh : IsReal h) (hwl : IsReal wl) (hbl : IsReal bl) (hwr : IsReal wr) (hg : IsReal gamma) (hb : IsReal beta) :
    IsReal (stepR src dst degc wl bl wr gamma beta l h) :=
  layerR_real l wl bl wr gamma beta h _ hwl hbl hwr hg hb hh (aggOps_real src dst degc h hd hh)

/-! ## The four layers -/

/-- The four layers in the kernel's form. -/
def hK4 (h0 : Arr2 100000 256) : Arr2 100000 256 :=
  stepK src dst degc wl bl wr gamma beta 3 (stepK src dst degc wl bl wr gamma beta 2 (stepK src dst degc wl bl wr gamma beta 1 (stepK src dst degc wl bl wr gamma beta 0 h0)))

/-- The four layers in the reference's form. -/
def hR4 (h0 : Arr2 100000 256) : Arr2 100000 256 :=
  stepR src dst degc wl bl wr gamma beta 3 (stepR src dst degc wl bl wr gamma beta 2 (stepR src dst degc wl bl wr gamma beta 1 (stepR src dst degc wl bl wr gamma beta 0 h0)))

/-- From real features, the two forms of the four layers agree: the innermost layer first, each next layer applied
    to a real array in the reference's form. -/
theorem chain_eq (h0 : Arr2 100000 256) (hh : IsReal h0) (hwl : IsReal wl) (hbl : IsReal bl) (hwr : IsReal wr) (hg : IsReal gamma) (hb : IsReal beta)
    (hd : ∀ i, ∃ r : ℝ, 1 ≤ r ∧ degc i = (r : EReal)) :
    hK4 src dst degc wl bl wr gamma beta h0 = hR4 src dst degc wl bl wr gamma beta h0 := by
  have r1 := stepR_real src dst degc wl bl wr gamma beta 0 h0 hd hh hwl hbl hwr hg hb
  have r2 := stepR_real src dst degc wl bl wr gamma beta 1 _ hd r1 hwl hbl hwr hg hb
  have r3 := stepR_real src dst degc wl bl wr gamma beta 2 _ hd r2 hwl hbl hwr hg hb
  unfold hK4 hR4
  rw [stepK_eq_stepR src dst degc wl bl wr gamma beta 0 h0 hd hh hwl hbl hwr hg hb,
    stepK_eq_stepR src dst degc wl bl wr gamma beta 1 _ hd r1 hwl hbl hwr hg hb,
    stepK_eq_stepR src dst degc wl bl wr gamma beta 2 _ hd r2 hwl hbl hwr hg hb,
    stepK_eq_stepR src dst degc wl bl wr gamma beta 3 _ hd r3 hwl hbl hwr hg hb]

end Steps

/-! ## The two results -/

section Out

variable [Cert.ReferenceIdeal.Facts₀]
variable (x0 : Arr2 100000 128) (x1 : IVec S2x800000 32) (x2 : IVec S100000 32) (x3 : Arr2 128 256) (x4 : Arr1 256)
  (x5 : Arr3 4 256 256) (x6 : Arr2 4 256) (x7 : Arr3 4 256 256) (x8 x9 : Arr2 4 256)
  (x10 : FVec Ideal S256x128 .f32) (x11 : FVec Ideal S128 .f32) (x12 : FVec Ideal S128x1 .f32) (x13 : FVec Ideal S1 .f32)

/-- The result in the kernel's form: the projection, the four layers over the edge list's sources, destinations and
    clamped in-degrees, the pooling and the predictor. -/
def kerOut : FVec Ideal S256x1 .f32 :=
  tailOps x2 x10 x11 x12 x13 (hK4 (srcOps x1) (dstOps x1) (degOps (dstOps x1)) x5 x6 x7 x8 x9 (G0 x0 x3 (row x4)))

/-- The result in the reference's form. -/
def refOut : FVec Ideal S256x1 .f32 :=
  tailOps x2 x10 x11 x12 x13 (hR4 (srcOps x1) (dstOps x1) (degOps (dstOps x1)) x5 x6 x7 x8 x9 (G0 x0 x3 (row x4)))

/-- When every float argument holds real numbers the two results are equal. (The hypotheses on the last four
    arguments are not used: the closing operations are the same function in both forms.) -/
theorem kerOut_eq_refOut (h0 : IsReal x0) (h3 : IsReal x3) (h4 : IsReal x4) (h5 : IsReal x5) (h6 : IsReal x6)
    (h7 : IsReal x7) (h8 : IsReal x8) (h9 : IsReal x9) (h10 : IsReal x10) (h11 : IsReal x11) (h12 : IsReal x12)
    (h13 : IsReal x13) :
    kerOut x0 x1 x2 x3 x4 x5 x6 x7 x8 x9 x10 x11 x12 x13 = refOut x0 x1 x2 x3 x4 x5 x6 x7 x8 x9 x10 x11 x12 x13 :=
  congrArg (tailOps x2 x10 x11 x12 x13)
    (chain_eq (srcOps x1) (dstOps x1) (degOps (dstOps x1)) x5 x6 x7 x8 x9 (G0 x0 x3 (row x4))
      (G0_real x0 x3 (row x4) h0 h3 (row_real x4 h4)) h5 h6 h7 h8 h9 (fun i => degOps_ge_one (dstOps x1) i))

end Out

end Cert.Chain

end
-- ==== Proof.KI.Thread.lean ====
/-
  The kernel program's result as a function of its arguments. Boundary by boundary: the first stretch cuts the edge list
  into sources and destinations and lays the bias out as a row; region 0 is the input projection; then per layer a stretch
  takes the mean over the in-neighbours and slices the layer's parameters, the linear pass leaves x ↦ agg·Wl + bl + h·Wr with
  the column sums of it and of its square, a stretch slices the scale and the shift, and the normalising pass leaves
  h + max ((hn − μ)·rsqrt (var + ε)·γ + β) 0 with μ = S/n, var = Q/n − μ² — one step of the specification's kernel-side
  layer; the last stretches pool per graph and apply the predictor.
-/
import proofs.«111242_j77756087927556_1_alg».proof.Proof.KI.Run
import proofs.«111242_j77756087927556_1_alg».proof.Proof.KI.Host0
import proofs.«111242_j77756087927556_1_alg».proof.Proof.KI.HostW
import proofs.«111242_j77756087927556_1_alg».proof.Proof.KI.HostAgg
import proofs.«111242_j77756087927556_1_alg».proof.Proof.KI.Val1
import proofs.«111242_j77756087927556_1_alg».proof.Proof.KI.Val3
import proofs.«111242_j77756087927556_1_alg».proof.Proof.KI.Val5
import proofs.«111242_j77756087927556_1_alg».proof.Proof.KI.Val7
import proofs.«111242_j77756087927556_1_alg».proof.Proof.KI.Val2
import proofs.«111242_j77756087927556_1_alg».proof.Proof.KI.Val4
import proofs.«111242_j77756087927556_1_alg».proof.Proof.KI.Val6
import proofs.«111242_j77756087927556_1_alg».proof.Proof.KI.Val8
import proofs.«111242_j77756087927556_1_alg».proof.Proof.Chain
import proofs.«111242_j77756087927556_1_alg».proof.Proof.Gen.KernelIdeal.Regions

noncomputable section

namespace Cert.KernelIdeal.HandVal

open Cert.KernelIdeal Cert.KernelIdeal.Gen Cert.KernelIdeal.Hand Idealize.ShloMosaic Idealize.ShloMosaic.TcCoe Idealize.ShloMosaic.StableHlo
open Cert.ReferenceIdeal.RefValue (srcOps dstOps degOps aggOps tailOps)
open Cert.Spec Cert.Chain

variable (m : (ℓ : Loc nD τ sig) → Buf (Elt Ideal) ℓ) (ρ : Dev nD → PrngReg) (c : Dev nD)

/-- An argument's launch contents on core `c`. -/
abbrev xa (r : Ref sig .tc) : Buf (Elt Ideal) ((c : Thread nD τ).loc r) := m ((c : Thread nD τ).loc r)

/-- The node features the specification's kernel-side chain holds before layer `l`: the input projection, then one step per layer. -/
def feat0 : Arr2 100000 256 := G0 (xa m c main_arg0) (xa m c main_arg3) (row (xa m c main_arg4))
def feat1 : Arr2 100000 256 := stepK (srcOps (xa m c main_arg1)) (dstOps (xa m c main_arg1)) (degOps (dstOps (xa m c main_arg1))) (xa m c main_arg5) (xa m c main_arg6) (xa m c main_arg7) (xa m c main_arg8) (xa m c main_arg9) 0 (feat0 m c)
def feat2 : Arr2 100000 256 := stepK (srcOps (xa m c main_arg1)) (dstOps (xa m c main_arg1)) (degOps (dstOps (xa m c main_arg1))) (xa m c main_arg5) (xa m c main_arg6) (xa m c main_arg7) (xa m c main_arg8) (xa m c main_arg9) 1 (feat1 m c)
def feat3 : Arr2 100000 256 := stepK (srcOps (xa m c main_arg1)) (dstOps (xa m c main_arg1)) (degOps (dstOps (xa m c main_arg1))) (xa m c main_arg5) (xa m c main_arg6) (xa m c main_arg7) (xa m c main_arg8) (xa m c main_arg9) 2 (feat2 m c)
def feat4 : Arr2 100000 256 := stepK (srcOps (xa m c main_arg1)) (dstOps (xa m c main_arg1)) (degOps (dstOps (xa m c main_arg1))) (xa m c main_arg5) (xa m c main_arg6) (xa m c main_arg7) (xa m c main_arg8) (xa m c main_arg9) 3 (feat3 m c)

/-! ## Layer 0 -/

/-- What the linear pass of layer 0 is entered from. -/
theorem E3_facts :
    E3 m ρ c main_v5 = (feat0 m c)
    ∧ E3 m ρ c main_v24 = aggOps (srcOps (xa m c main_arg1)) (dstOps (xa m c main_arg1)) (degOps (dstOps (xa m c main_arg1))) (feat0 m c)
    ∧ E3 m ρ c main_v26 = layerW 0 (xa m c main_arg5) ∧ E3 m ρ c main_v31 = layerRow 0 (xa m c main_arg6) ∧ E3 m ρ c main_v30 = layerW 0 (xa m c main_arg7) := by
  have a5 : W2 m ρ c (Proc.devRef .tc main_arg5) = (xa m c main_arg5) :=
    (W2_of_ne m ρ c main_arg5 (by decide)).trans <|
    (StableHlo.after_of_writes_sub hostOps0 _ hostOps0_writes (by decide))
  have a6 : W2 m ρ c (Proc.devRef .tc main_arg6) = (xa m c main_arg6) :=
    (W2_of_ne m ρ c main_arg6 (by decide)).trans <|
    (StableHlo.after_of_writes_sub hostOps0 _ hostOps0_writes (by decide))
  have a7 : W2 m ρ c (Proc.devRef .tc main_arg7) = (xa m c main_arg7) :=
    (W2_of_ne m ρ c main_arg7 (by decide)).trans <|
    (StableHlo.after_of_writes_sub hostOps0 _ hostOps0_writes (by decide))
  have s1 : W2 m ρ c (Proc.devRef .tc main_v1) = srcOps (xa m c main_arg1) :=
    (W2_of_ne m ρ c main_v1 (by decide)).trans <|
    (host0_src _)
  have s3 : W2 m ρ c (Proc.devRef .tc main_v3) = dstOps (xa m c main_arg1) :=
    (W2_of_ne m ρ c main_v3 (by decide)).trans <|
    (host0_dst _)
  have h5 := W2_v5 m ρ c
  refine ⟨(host1_h _).trans h5, ?_, ?_, ?_, ?_⟩
  · exact (host1_agg _).trans (by rw [s1, s3, h5] <;> rfl)
  · exact (host1_Wl _).trans (by rw [a5] <;> rfl)
  · exact (host1_bl _).trans (by rw [a6] <;> rfl)
  · exact (host1_Wr _).trans (by rw [a7] <;> rfl)

/-- What it leaves: the linear part of the features and their neighbour mean, and the column sums of it and of its square. -/
theorem W4_facts :
    let h := (feat0 m c)
    let hn := hnK h (aggOps (srcOps (xa m c main_arg1)) (dstOps (xa m c main_arg1)) (degOps (dstOps (xa m c main_arg1))) h) (layerW 0 (xa m c main_arg5)) (layerRow 0 (xa m c main_arg6)) (layerW 0 (xa m c main_arg7))
    W4 m ρ c (Proc.devRef .tc main_v32_0) = hn ∧ W4 m ρ c (Proc.devRef .tc main_v32_1) = sumK hn
    ∧ W4 m ρ c (Proc.devRef .tc main_v32_2) = sumsqK hn ∧ W4 m ρ c (Proc.devRef .tc main_v5) = h := by
  intro h hn
  obtain ⟨e5, e24, e26, e31, e30⟩ := E3_facts m ρ c
  have hhn : hnK (E3 m ρ c main_v5) (E3 m ρ c main_v24) (E3 m ρ c main_v26) (E3 m ρ c main_v31) (E3 m ρ c main_v30) = hn := by
    rw [e5, e24, e26, e31, e30] <;> rfl
  refine ⟨((W4_arr m ρ c 5).trans (final1_5 (E3 m ρ) c)).trans hhn,
    ((W4_arr m ρ c 6).trans (final1_6 (E3 m ρ) c)).trans (congrArg sumK hhn),
    ((W4_arr m ρ c 7).trans (final1_7 (E3 m ρ) c)).trans (congrArg sumsqK hhn), ?_⟩
  exact ((W4_arr m ρ c 0).trans (((dat1 (E3 m ρ) c).arrAt_in 0 rfl _).trans (A_eq1 (E3 m ρ) c 0))).trans e5

/-- After layer 0: the two passes are one step of the kernel-side layer of the specification. -/
theorem W6_main_v39 :
    W6 m ρ c (Proc.devRef .tc main_v39) = feat1 m c := by
  obtain ⟨f0, f1, f2, f5⟩ := W4_facts m ρ c
  have a8 : W4 m ρ c (Proc.devRef .tc main_arg8) = (xa m c main_arg8) :=
    (W4_of_ne m ρ c main_arg8 (by decide)).trans <|
    (StableHlo.after_of_writes_sub hostOps1 _ hostOps1_writes (by decide)).trans <|
    (W2_of_ne m ρ c main_arg8 (by decide)).trans <|
    (StableHlo.after_of_writes_sub hostOps0 _ hostOps0_writes (by decide))
  have a9 : W4 m ρ c (Proc.devRef .tc main_arg9) = (xa m c main_arg9) :=
    (W4_of_ne m ρ c main_arg9 (by decide)).trans <|
    (StableHlo.after_of_writes_sub hostOps1 _ hostOps1_writes (by decide)).trans <|
    (W2_of_ne m ρ c main_arg9 (by decide)).trans <|
    (StableHlo.after_of_writes_sub hostOps0 _ hostOps0_writes (by decide))
  have g : E5 m ρ c main_v37 = layerRow 0 (xa m c main_arg8) := (host2_gamma _).trans (by rw [a8] <;> rfl)
  have b : E5 m ρ c main_v38 = layerRow 0 (xa m c main_arg9) := (host2_beta _).trans (by rw [a9] <;> rfl)
  have k0 : E5 m ρ c main_v32_0 = _ := (host2_hn _).trans f0
  have k1 : E5 m ρ c main_v32_1 = _ := (host2_S _).trans f1
  have k2 : E5 m ρ c main_v32_2 = _ := (host2_Q _).trans f2
  have k5 : E5 m ρ c main_v5 = _ := (host2_h _).trans f5
  refine ((W6_arr m ρ c 6).trans (final2_6 (E5 m ρ) c)).trans ?_
  rw [k0, k1, k2, k5, g, b]
  rfl

/-! ## Layer 1 -/

/-- What the linear pass of layer 1 is entered from. -/
theorem E7_facts :
    E7 m ρ c main_v39 = (feat1 m c)
    ∧ E7 m ρ c main_v51 = aggOps (srcOps (xa m c main_arg1)) (dstOps (xa m c main_arg1)) (degOps (dstOps (xa m c main_arg1))) (feat1 m c)
    ∧ E7 m ρ c main_v53 = layerW 1 (xa m c main_arg5) ∧ E7 m ρ c main_v58 = layerRow 1 (xa m c main_arg6) ∧ E7 m ρ c main_v57 = layerW 1 (xa m c main_arg7) := by
  have a5 : W6 m ρ c (Proc.devRef .tc main_arg5) = (xa m c main_arg5) :=
    (W6_of_ne m ρ c main_arg5 (by decide)).trans <|
    (StableHlo.after_of_writes_sub hostOps2 _ hostOps2_writes (by decide)).trans <|
    (W4_of_ne m ρ c main_arg5 (by decide)).trans <|
    (StableHlo.after_of_writes_sub hostOps1 _ hostOps1_writes (by decide)).trans <|
    (W2_of_ne m ρ c main_arg5 (by decide)).trans <|
    (StableHlo.after_of_writes_sub hostOps0 _ hostOps0_writes (by decide))
  have a6 : W6 m ρ c (Proc.devRef .tc main_arg6) = (xa m c main_arg6) :=
    (W6_of_ne m ρ c main_arg6 (by decide)).trans <|
    (StableHlo.after_of_writes_sub hostOps2 _ hostOps2_writes (by decide)).trans <|
    (W4_of_ne m ρ c main_arg6 (by decide)).trans <|
    (StableHlo.after_of_writes_sub hostOps1 _ hostOps1_writes (by decide)).trans <|
    (W2_of_ne m ρ c main_arg6 (by decide)).trans <|
    (StableHlo.after_of_writes_sub hostOps0 _ hostOps0_writes (by decide))
  have a7 : W6 m ρ c (Proc.devRef .tc main_arg7) = (xa m c main_arg7) :=
    (W6_of_ne m ρ c main_arg7 (by decide)).trans <|
    (StableHlo.after_of_writes_sub hostOps2 _ hostOps2_writes (by decide)).trans <|
    (W4_of_ne m ρ c main_arg7 (by decide)).trans <|
    (StableHlo.after_of_writes_sub hostOps1 _ hostOps1_writes (by decide)).trans <|
    (W2_of_ne m ρ c main_arg7 (by decide)).trans <|
    (StableHlo.after_of_writes_sub hostOps0 _ hostOps0_writes (by decide))
  have s1 : W6 m ρ c (Proc.devRef .tc main_v1) = srcOps (xa m c main_arg1) :=
    (W6_of_ne m ρ c main_v1 (by decide)).trans <|
    (StableHlo.after_of_writes_sub hostOps2 _ hostOps2_writes (by decide)).trans <|
    (W4_of_ne m ρ c main_v1 (by decide)).trans <|
    (StableHlo.after_of_writes_sub hostOps1 _ hostOps1_writes (by decide)).trans <|
    (W2_of_ne m ρ c main_v1 (by decide)).trans <|
    (host0_src _)
  have s3 : W6 m ρ c (Proc.devRef .tc main_v3) = dstOps (xa m c main_arg1) :=
    (W6_of_ne m ρ c main_v3 (by decide)).trans <|
    (StableHlo.after_of_writes_sub hostOps2 _ hostOps2_writes (by decide)).trans <|
    (W4_of_ne m ρ c main_v3 (by decide)).trans <|
    (StableHlo.after_of_writes_sub hostOps1 _ hostOps1_writes (by decide)).trans <|
    (W2_of_ne m ρ c main_v3 (by decide)).trans <|
    (host0_dst _)
  have s12 : W6 m ρ c (Proc.devRef .tc main_v12) = degOps (dstOps (xa m c main_arg1)) :=
    (W6_of_ne m ρ c main_v12 (by decide)).trans <|
    (StableHlo.after_of_writes_sub hostOps2 _ hostOps2_writes (by decide)).trans <|
    (W4_of_ne m ρ c main_v12 (by decide)).trans <|
    ((host1_deg _).trans (by rw [show W2 m ρ c (Proc.devRef .tc main_v3) = dstOps (xa m c main_arg1) from (W2_of_ne m ρ c main_v3 (by decide)).trans <|
    (host0_dst _)] <;> rfl))
  have h5 := W6_main_v39 m ρ c
  refine ⟨(host3_h _).trans h5, ?_, ?_, ?_, ?_⟩
  · exact (host3_agg _).trans (by rw [s1, s3, s12, h5] <;> rfl)
  · exact (host3_Wl _).trans (by rw [a5] <;> rfl)
  · exact (host3_bl _).trans (by rw [a6] <;> rfl)
  · exact (host3_Wr _).trans (by rw [a7] <;> rfl)

/-- What it leaves: the linear part of the features and their neighbour mean, and the column sums of it and of its square. -/
theorem W8_facts :
    let h := (feat1 m c)
    let hn := hnK h (aggOps (srcOps (xa m c main_arg1)) (dstOps (xa m c main_arg1)) (degOps (dstOps (xa m c main_arg1))) h) (layerW 1 (xa m c main_arg5)) (layerRow 1 (xa m c main_arg6)) (layerW 1 (xa m c main_arg7))
    W8 m ρ c (Proc.devRef .tc main_v59_0) = hn ∧ W8 m ρ c (Proc.devRef .tc main_v59_1) = sumK hn
    ∧ W8 m ρ c (Proc.devRef .tc main_v59_2) = sumsqK hn ∧ W8 m ρ c (Proc.devRef .tc main_v39) = h := by
  intro h hn
  obtain ⟨e5, e24, e26, e31, e30⟩ := E7_facts m ρ c
  have hhn : hnK (E7 m ρ c main_v39) (E7 m ρ c main_v51) (E7 m ρ c main_v53) (E7 m ρ c main_v58) (E7 m ρ c main_v57) = hn := by
    rw [e5, e24, e26, e31, e30] <;> rfl
  refine ⟨((W8_arr m ρ c 5).trans (final3_5 (E7 m ρ) c)).trans hhn,
    ((W8_arr m ρ c 6).trans (final3_6 (E7 m ρ) c)).trans (congrArg sumK hhn),
    ((W8_arr m ρ c 7).trans (final3_7 (E7 m ρ) c)).trans (congrArg sumsqK hhn), ?_⟩
  exact ((W8_arr m ρ c 0).trans (((dat3 (E7 m ρ) c).arrAt_in 0 rfl _).trans (A_eq3 (E7 m ρ) c 0))).trans e5

/-- After layer 1: the two passes are one step of the kernel-side layer of the specification. -/
theorem W10_main_v66 :
    W10 m ρ c (Proc.devRef .tc main_v66) = feat2 m c := by
  obtain ⟨f0, f1, f2, f5⟩ := W8_facts m ρ c
  have a8 : W8 m ρ c (Proc.devRef .tc main_arg8) = (xa m c main_arg8) :=
    (W8_of_ne m ρ c main_arg8 (by decide)).trans <|
    (StableHlo.after_of_writes_sub hostOps3 _ hostOps3_writes (by decide)).trans <|
    (W6_of_ne m ρ c main_arg8 (by decide)).trans <|
    (StableHlo.after_of_writes_sub hostOps2 _ hostOps2_writes (by decide)).trans <|
    (W4_of_ne m ρ c main_arg8 (by decide)).trans <|
    (StableHlo.after_of_writes_sub hostOps1 _ hostOps1_writes (by decide)).trans <|
    (W2_of_ne m ρ c main_arg8 (by decide)).trans <|
    (StableHlo.after_of_writes_sub hostOps0 _ hostOps0_writes (by decide))
  have a9 : W8 m ρ c (Proc.devRef .tc main_arg9) = (xa m c main_arg9) :=
    (W8_of_ne m ρ c main_arg9 (by decide)).trans <|
    (StableHlo.after_of_writes_sub hostOps3 _ hostOps3_writes (by decide)).trans <|
    (W6_of_ne m ρ c main_arg9 (by decide)).trans <|
    (StableHlo.after_of_writes_sub hostOps2 _ hostOps2_writes (by decide)).trans <|
    (W4_of_ne m ρ c main_arg9 (by decide)).trans <|
    (StableHlo.after_of_writes_sub hostOps1 _ hostOps1_writes (by decide)).trans <|
    (W2_of_ne m ρ c main_arg9 (by decide)).trans <|
    (StableHlo.after_of_writes_sub hostOps0 _ hostOps0_writes (by decide))
  have g : E9 m ρ c main_v64 = layerRow 1 (xa m c main_arg8) := (host4_gamma _).trans (by rw [a8] <;> rfl)
  have b : E9 m ρ c main_v65 = layerRow 1 (xa m c main_arg9) := (host4_beta _).trans (by rw [a9] <;> rfl)
  have k0 : E9 m ρ c main_v59_0 = _ := (host4_hn _).trans f0
  have k1 : E9 m ρ c main_v59_1 = _ := (host4_S _).trans f1
  have k2 : E9 m ρ c main_v59_2 = _ := (host4_Q _).trans f2
  have k5 : E9 m ρ c main_v39 = _ := (host4_h _).trans f5
  refine ((W10_arr m ρ c 6).trans (final4_6 (E9 m ρ) c)).trans ?_
  rw [k0, k1, k2, k5, g, b]
  rfl

/-! ## Layer 2 -/

/-- What the linear pass of layer 2 is entered from. -/
theorem E11_facts :
    E11 m ρ c main_v66 = (feat2 m c)
    ∧ E11 m ρ c main_v78 = aggOps (srcOps (xa m c main_arg1)) (dstOps (xa m c main_arg1)) (degOps (dstOps (xa m c main_arg1))) (feat2 m c)
    ∧ E11 m ρ c main_v80 = layerW 2 (xa m c main_arg5) ∧ E11 m ρ c main_v85 = layerRow 2 (xa m c main_arg6) ∧ E11 m ρ c main_v84 = layerW 2 (xa m c main_arg7) := by
  have a5 : W10 m ρ c (Proc.devRef .tc main_arg5) = (xa m c main_arg5) :=
    (W10_of_ne m ρ c main_arg5 (by decide)).trans <|
    (StableHlo.after_of_writes_sub hostOps4 _ hostOps4_writes (by decide)).trans <|
    (W8_of_ne m ρ c main_arg5 (by decide)).trans <|
    (StableHlo.after_of_writes_sub hostOps3 _ hostOps3_writes (by decide)).trans <|
    (W6_of_ne m ρ c main_arg5 (by decide)).trans <|
    (StableHlo.after_of_writes_sub hostOps2 _ hostOps2_writes (by decide)).trans <|
    (W4_of_ne m ρ c main_arg5 (by decide)).trans <|
    (StableHlo.after_of_writes_sub hostOps1 _ hostOps1_writes (by decide)).trans <|
    (W2_of_ne m ρ c main_arg5 (by decide)).trans <|
    (StableHlo.after_of_writes_sub hostOps0 _ hostOps0_writes (by decide))
  have a6 : W10 m ρ c (Proc.devRef .tc main_arg6) = (xa m c main_arg6) :=
    (W10_of_ne m ρ c main_arg6 (by decide)).trans <|
    (StableHlo.after_of_writes_sub hostOps4 _ hostOps4_writes (by decide)).trans <|
    (W8_of_ne m ρ c main_arg6 (by decide)).trans <|
    (StableHlo.after_of_writes_sub hostOps3 _ hostOps3_writes (by decide)).trans <|
    (W6_of_ne m ρ c main_arg6 (by decide)).trans <|
    (StableHlo.after_of_writes_sub hostOps2 _ hostOps2_writes (by decide)).trans <|
    (W4_of_ne m ρ c main_arg6 (by decide)).trans <|
    (StableHlo.after_of_writes_sub hostOps1 _ hostOps1_writes (by decide)).trans <|
    (W2_of_ne m ρ c main_arg6 (by decide)).trans <|
    (StableHlo.after_of_writes_sub hostOps0 _ hostOps0_writes (by decide))
  have a7 : W10 m ρ c (Proc.devRef .tc main_arg7) = (xa m c main_arg7) :=
    (W10_of_ne m ρ c main_arg7 (by decide)).trans <|
    (StableHlo.after_of_writes_sub hostOps4 _ hostOps4_writes (by decide)).trans <|
    (W8_of_ne m ρ c main_arg7 (by decide)).trans <|
    (StableHlo.after_of_writes_sub hostOps3 _ hostOps3_writes (by decide)).trans <|
    (W6_of_ne m ρ c main_arg7 (by decide)).trans <|
    (StableHlo.after_of_writes_sub hostOps2 _ hostOps2_writes (by decide)).trans <|
    (W4_of_ne m ρ c main_arg7 (by decide)).trans <|
    (StableHlo.after_of_writes_sub hostOps1 _ hostOps1_writes (by decide)).trans <|
    (W2_of_ne m ρ c main_arg7 (by decide)).trans <|
    (StableHlo.after_of_writes_sub hostOps0 _ hostOps0_writes (by decide))
  have s1 : W10 m ρ c (Proc.devRef .tc main_v1) = srcOps (xa m c main_arg1) :=
    (W10_of_ne m ρ c main_v1 (by decide)).trans <|
    (StableHlo.after_of_writes_sub hostOps4 _ hostOps4_writes (by decide)).trans <|
    (W8_of_ne m ρ c main_v1 (by decide)).trans <|
    (StableHlo.after_of_writes_sub hostOps3 _ hostOps3_writes (by decide)).trans <|
    (W6_of_ne m ρ c main_v1 (by decide)).trans <|
    (StableHlo.after_of_writes_sub hostOps2 _ hostOps2_writes (by decide)).trans <|
    (W4_of_ne m ρ c main_v1 (by decide)).trans <|
    (StableHlo.after_of_writes_sub hostOps1 _ hostOps1_writes (by decide)).trans <|
    (W2_of_ne m ρ c main_v1 (by decide)).trans <|
    (host0_src _)
  have s3 : W10 m ρ c (Proc.devRef .tc main_v3) = dstOps (xa m c main_arg1) :=
    (W10_of_ne m ρ c main_v3 (by decide)).trans <|
    (StableHlo.after_of_writes_sub hostOps4 _ hostOps4_writes (by decide)).trans <|
    (W8_of_ne m ρ c main_v3 (by decide)).trans <|
    (StableHlo.after_of_writes_sub hostOps3 _ hostOps3_writes (by decide)).trans <|
    (W6_of_ne m ρ c main_v3 (by decide)).trans <|
    (StableHlo.after_of_writes_sub hostOps2 _ hostOps2_writes (by decide)).trans <|
    (W4_of_ne m ρ c main_v3 (by decide)).trans <|
    (StableHlo.after_of_writes_sub hostOps1 _ hostOps1_writes (by decide)).trans <|
    (W2_of_ne m ρ c main_v3 (by decide)).trans <|
    (host0_dst _)
  have s12 : W10 m ρ c (Proc.devRef .tc main_v12) = degOps (dstOps (xa m c main_arg1)) :=
    (W10_of_ne m ρ c main_v12 (by decide)).trans <|
    (StableHlo.after_of_writes_sub hostOps4 _ hostOps4_writes (by decide)).trans <|
    (W8_of_ne m ρ c main_v12 (by decide)).trans <|
    (StableHlo.after_of_writes_sub hostOps3 _ hostOps3_writes (by decide)).trans <|
    (W6_of_ne m ρ c main_v12 (by decide)).trans <|
    (StableHlo.after_of_writes_sub hostOps2 _ hostOps2_writes (by decide)).trans <|
    (W4_of_ne m ρ c main_v12 (by decide)).trans <|
    ((host1_deg _).trans (by rw [show W2 m ρ c (Proc.devRef .tc main_v3) = dstOps (xa m c main_arg1) from (W2_of_ne m ρ c main_v3 (by decide)).trans <|
    (host0_dst _)] <;> rfl))
  have h5 := W10_main_v66 m ρ c
  refine ⟨(host5_h _).trans h5, ?_, ?_, ?_, ?_⟩
  · exact (host5_agg _).trans (by rw [s1, s3, s12, h5] <;> rfl)
  · exact (host5_Wl _).trans (by rw [a5] <;> rfl)
  · exact (host5_bl _).trans (by rw [a6] <;> rfl)
  · exact (host5_Wr _).trans (by rw [a7] <;> rfl)

/-- What it leaves: the linear part of the features and their neighbour mean, and the column sums of it and of its square. -/
theorem W12_facts :
    let h := (feat2 m c)
    let hn := hnK h (aggOps (srcOps (xa m c main_arg1)) (dstOps (xa m c main_arg1)) (degOps (dstOps (xa m c main_arg1))) h) (layerW 2 (xa m c main_arg5)) (layerRow 2 (xa m c main_arg6)) (layerW 2 (xa m c main_arg7))
    W12 m ρ c (Proc.devRef .tc main_v86_0) = hn ∧ W12 m ρ c (Proc.devRef .tc main_v86_1) = sumK hn
    ∧ W12 m ρ c (Proc.devRef .tc main_v86_2) = sumsqK hn ∧ W12 m ρ c (Proc.devRef .tc main_v66) = h := by
  intro h hn
  obtain ⟨e5, e24, e26, e31, e30⟩ := E11_facts m ρ c
  have hhn : hnK (E11 m ρ c main_v66) (E11 m ρ c main_v78) (E11 m ρ c main_v80) (E11 m ρ c main_v85) (E11 m ρ c main_v84) = hn := by
    rw [e5, e24, e26, e31, e30] <;> rfl
  refine ⟨((W12_arr m ρ c 5).trans (final5_5 (E11 m ρ) c)).trans hhn,
    ((W12_arr m ρ c 6).trans (final5_6 (E11 m ρ) c)).trans (congrArg sumK hhn),
    ((W12_arr m ρ c 7).trans (final5_7 (E11 m ρ) c)).trans (congrArg sumsqK hhn), ?_⟩
  exact ((W12_arr m ρ c 0).trans (((dat5 (E11 m ρ) c).arrAt_in 0 rfl _).trans (A_eq5 (E11 m ρ) c 0))).trans e5

/-- After layer 2: the two passes are one step of the kernel-side layer of the specification. -/
theorem W14_main_v93 :
    W14 m ρ c (Proc.devRef .tc main_v93) = feat3 m c := by
  obtain ⟨f0, f1, f2, f5⟩ := W12_facts m ρ c
  have a8 : W12 m ρ c (Proc.devRef .tc main_arg8) = (xa m c main_arg8) :=
    (W12_of_ne m ρ c main_arg8 (by decide)).trans <|
    (StableHlo.after_of_writes_sub hostOps5 _ hostOps5_writes (by decide)).trans <|
    (W10_of_ne m ρ c main_arg8 (by decide)).trans <|
    (StableHlo.after_of_writes_sub hostOps4 _ hostOps4_writes (by decide)).trans <|
    (W8_of_ne m ρ c main_arg8 (by decide)).trans <|
    (StableHlo.after_of_writes_sub hostOps3 _ hostOps3_writes (by decide)).trans <|
    (W6_of_ne m ρ c main_arg8 (by decide)).trans <|
    (StableHlo.after_of_writes_sub hostOps2 _ hostOps2_writes (by decide)).trans <|
    (W4_of_ne m ρ c main_arg8 (by decide)).trans <|
    (StableHlo.after_of_writes_sub hostOps1 _ hostOps1_writes (by decide)).trans <|
    (W2_of_ne m ρ c main_arg8 (by decide)).trans <|
    (StableHlo.after_of_writes_sub hostOps0 _ hostOps0_writes (by decide))
  have a9 : W12 m ρ c (Proc.devRef .tc main_arg9) = (xa m c main_arg9) :=
    (W12_of_ne m ρ c main_arg9 (by decide)).trans <|
    (StableHlo.after_of_writes_sub hostOps5 _ hostOps5_writes (by decide)).trans <|
    (W10_of_ne m ρ c main_arg9 (by decide)).trans <|
    (StableHlo.after_of_writes_sub hostOps4 _ hostOps4_writes (by decide)).trans <|
    (W8_of_ne m ρ c main_arg9 (by decide)).trans <|
    (StableHlo.after_of_writes_sub hostOps3 _ hostOps3_writes (by decide)).trans <|
    (W6_of_ne m ρ c main_arg9 (by decide)).trans <|
    (StableHlo.after_of_writes_sub hostOps2 _ hostOps2_writes (by decide)).trans <|
    (W4_of_ne m ρ c main_arg9 (by decide)).trans <|
    (StableHlo.after_of_writes_sub hostOps1 _ hostOps1_writes (by decide)).trans <|
    (W2_of_ne m ρ c main_arg9 (by decide)).trans <|
    (StableHlo.after_of_writes_sub hostOps0 _ hostOps0_writes (by decide))
  have g : E13 m ρ c main_v91 = layerRow 2 (xa m c main_arg8) := (host6_gamma _).trans (by rw [a8] <;> rfl)
  have b : E13 m ρ c main_v92 = layerRow 2 (xa m c main_arg9) := (host6_beta _).trans (by rw [a9] <;> rfl)
  have k0 : E13 m ρ c main_v86_0 = _ := (host6_hn _).trans f0
  have k1 : E13 m ρ c main_v86_1 = _ := (host6_S _).trans f1
  have k2 : E13 m ρ c main_v86_2 = _ := (host6_Q _).trans f2
  have k5 : E13 m ρ c main_v66 = _ := (host6_h _).trans f5
  refine ((W14_arr m ρ c 6).trans (final6_6 (E13 m ρ) c)).trans ?_
  rw [k0, k1, k2, k5, g, b]
  rfl

/-! ## Layer 3 -/

/-- What the linear pass of layer 3 is entered from. -/
theorem E15_facts :
    E15 m ρ c main_v93 = (feat3 m c)
    ∧ E15 m ρ c main_v105 = aggOps (srcOps (xa m c main_arg1)) (dstOps (xa m c main_arg1)) (degOps (dstOps (xa m c main_arg1))) (feat3 m c)
    ∧ E15 m ρ c main_v107 = layerW 3 (xa m c main_arg5) ∧ E15 m ρ c main_v112 = layerRow 3 (xa m c main_arg6) ∧ E15 m ρ c main_v111 = layerW 3 (xa m c main_arg7) := by
  have a5 : W14 m ρ c (Proc.devRef .tc main_arg5) = (xa m c main_arg5) :=
    (W14_of_ne m ρ c main_arg5 (by decide)).trans <|
    (StableHlo.after_of_writes_sub hostOps6 _ hostOps6_writes (by decide)).trans <|
    (W12_of_ne m ρ c main_arg5 (by decide)).trans <|
    (StableHlo.after_of_writes_sub hostOps5 _ hostOps5_writes (by decide)).trans <|
    (W10_of_ne m ρ c main_arg5 (by decide)).trans <|
    (StableHlo.after_of_writes_sub hostOps4 _ hostOps4_writes (by decide)).trans <|
    (W8_of_ne m ρ c main_arg5 (by decide)).trans <|
    (StableHlo.after_of_writes_sub hostOps3 _ hostOps3_writes (by decide)).trans <|
    (W6_of_ne m ρ c main_arg5 (by decide)).trans <|
    (StableHlo.after_of_writes_sub hostOps2 _ hostOps2_writes (by decide)).trans <|
    (W4_of_ne m ρ c main_arg5 (by decide)).trans <|
    (StableHlo.after_of_writes_sub hostOps1 _ hostOps1_writes (by decide)).trans <|
    (W2_of_ne m ρ c main_arg5 (by decide)).trans <|
    (StableHlo.after_of_writes_sub hostOps0 _ hostOps0_writes (by decide))
  have a6 : W14 m ρ c (Proc.devRef .tc main_arg6) = (xa m c main_arg6) :=
    (W14_of_ne m ρ c main_arg6 (by decide)).trans <|
    (StableHlo.after_of_writes_sub hostOps6 _ hostOps6_writes (by decide)).trans <|
    (W12_of_ne m ρ c main_arg6 (by decide)).trans <|
    (StableHlo.after_of_writes_sub hostOps5 _ hostOps5_writes (by decide)).trans <|
    (W10_of_ne m ρ c main_arg6 (by decide)).trans <|
    (StableHlo.after_of_writes_sub hostOps4 _ hostOps4_writes (by decide)).trans <|
    (W8_of_ne m ρ c main_arg6 (by decide)).trans <|
    (StableHlo.after_of_writes_sub hostOps3 _ hostOps3_writes (by decide)).trans <|
    (W6_of_ne m ρ c main_arg6 (by decide)).trans <|
    (StableHlo.after_of_writes_sub hostOps2 _ hostOps2_writes (by decide)).trans <|
    (W4_of_ne m ρ c main_arg6 (by decide)).trans <|
    (StableHlo.after_of_writes_sub hostOps1 _ hostOps1_writes (by decide)).trans <|
    (W2_of_ne m ρ c main_arg6 (by decide)).trans <|
    (StableHlo.after_of_writes_sub hostOps0 _ hostOps0_writes (by decide))
  have a7 : W14 m ρ c (Proc.devRef .tc main_arg7) = (xa m c main_arg7) :=
    (W14_of_ne m ρ c main_arg7 (by decide)).trans <|
    (StableHlo.after_of_writes_sub hostOps6 _ hostOps6_writes (by decide)).trans <|
    (W12_of_ne m ρ c main_arg7 (by decide)).trans <|
    (StableHlo.after_of_writes_sub hostOps5 _ hostOps5_writes (by decide)).trans <|
    (W10_of_ne m ρ c main_arg7 (by decide)).trans <|
    (StableHlo.after_of_writes_sub hostOps4 _ hostOps4_writes (by decide)).trans <|
    (W8_of_ne m ρ c main_arg7 (by decide)).trans <|
    (StableHlo.after_of_writes_sub hostOps3 _ hostOps3_writes (by decide)).trans <|
    (W6_of_ne m ρ c main_arg7 (by decide)).trans <|
    (StableHlo.after_of_writes_sub hostOps2 _ hostOps2_writes (by decide)).trans <|
    (W4_of_ne m ρ c main_arg7 (by decide)).trans <|
    (StableHlo.after_of_writes_sub hostOps1 _ hostOps1_writes (by decide)).trans <|
    (W2_of_ne m ρ c main_arg7 (by decide)).trans <|
    (StableHlo.after_of_writes_sub hostOps0 _ hostOps0_writes (by decide))
  have s1 : W14 m ρ c (Proc.devRef .tc main_v1) = srcOps (xa m c main_arg1) :=
    (W14_of_ne m ρ c main_v1 (by decide)).trans <|
    (StableHlo.after_of_writes_sub hostOps6 _ hostOps6_writes (by decide)).trans <|
    (W12_of_ne m ρ c main_v1 (by decide)).trans <|
    (StableHlo.after_of_writes_sub hostOps5 _ hostOps5_writes (by decide)).trans <|
    (W10_of_ne m ρ c main_v1 (by decide)).trans <|
    (StableHlo.after_of_writes_sub hostOps4 _ hostOps4_writes (by decide)).trans <|
    (W8_of_ne m ρ c main_v1 (by decide)).trans <|
    (StableHlo.after_of_writes_sub hostOps3 _ hostOps3_writes (by decide)).trans <|
    (W6_of_ne m ρ c main_v1 (by decide)).trans <|
    (StableHlo.after_of_writes_sub hostOps2 _ hostOps2_writes (by decide)).trans <|
    (W4_of_ne m ρ c main_v1 (by decide)).trans <|
    (StableHlo.after_of_writes_sub hostOps1 _ hostOps1_writes (by decide)).trans <|
    (W2_of_ne m ρ c main_v1 (by decide)).trans <|
    (host0_src _)
  have s3 : W14 m ρ c (Proc.devRef .tc main_v3) = dstOps (xa m c main_arg1) :=
    (W14_of_ne m ρ c main_v3 (by decide)).trans <|
    (StableHlo.after_of_writes_sub hostOps6 _ hostOps6_writes (by decide)).trans <|
    (W12_of_ne m ρ c main_v3 (by decide)).trans <|
    (StableHlo.after_of_writes_sub hostOps5 _ hostOps5_writes (by decide)).trans <|
    (W10_of_ne m ρ c main_v3 (by decide)).trans <|
    (StableHlo.after_of_writes_sub hostOps4 _ hostOps4_writes (by decide)).trans <|
    (W8_of_ne m ρ c main_v3 (by decide)).trans <|
    (StableHlo.after_of_writes_sub hostOps3 _ hostOps3_writes (by decide)).trans <|
    (W6_of_ne m ρ c main_v3 (by decide)).trans <|
    (StableHlo.after_of_writes_sub hostOps2 _ hostOps2_writes (by decide)).trans <|
    (W4_of_ne m ρ c main_v3 (by decide)).trans <|
    (StableHlo.after_of_writes_sub hostOps1 _ hostOps1_writes (by decide)).trans <|
    (W2_of_ne m ρ c main_v3 (by decide)).trans <|
    (host0_dst _)
  have s12 : W14 m ρ c (Proc.devRef .tc main_v12) = degOps (dstOps (xa m c main_arg1)) :=
    (W14_of_ne m ρ c main_v12 (by decide)).trans <|
    (StableHlo.after_of_writes_sub hostOps6 _ hostOps6_writes (by decide)).trans <|
    (W12_of_ne m ρ c main_v12 (by decide)).trans <|
    (StableHlo.after_of_writes_sub hostOps5 _ hostOps5_writes (by decide)).trans <|
    (W10_of_ne m ρ c main_v12 (by decide)).trans <|
    (StableHlo.after_of_writes_sub hostOps4 _ hostOps4_writes (by decide)).trans <|
    (W8_of_ne m ρ c main_v12 (by decide)).trans <|
    (StableHlo.after_of_writes_sub hostOps3 _ hostOps3_writes (by decide)).trans <|
    (W6_of_ne m ρ c main_v12 (by decide)).trans <|
    (StableHlo.after_of_writes_sub hostOps2 _ hostOps2_writes (by decide)).trans <|
    (W4_of_ne m ρ c main_v12 (by decide)).trans <|
    ((host1_deg _).trans (by rw [show W2 m ρ c (Proc.devRef .tc main_v3) = dstOps (xa m c main_arg1) from (W2_of_ne m ρ c main_v3 (by decide)).trans <|
    (host0_dst _)] <;> rfl))
  have h5 := W14_main_v93 m ρ c
  refine ⟨(host7_h _).trans h5, ?_, ?_, ?_, ?_⟩
  · exact (host7_agg _).trans (by rw [s1, s3, s12, h5] <;> rfl)
  · exact (host7_Wl _).trans (by rw [a5] <;> rfl)
  · exact (host7_bl _).trans (by rw [a6] <;> rfl)
  · exact (host7_Wr _).trans (by rw [a7] <;> rfl)

/-- What it leaves: the linear part of the features and their neighbour mean, and the column sums of it and of its square. -/
theorem W16_facts :
    let h := (feat3 m c)
    let hn := hnK h (aggOps (srcOps (xa m c main_arg1)) (dstOps (xa m c main_arg1)) (degOps (dstOps (xa m c main_arg1))) h) (layerW 3 (xa m c main_arg5)) (layerRow 3 (xa m c main_arg6)) (layerW 3 (xa m c main_arg7))
    W16 m ρ c (Proc.devRef .tc main_v113_0) = hn ∧ W16 m ρ c (Proc.devRef .tc main_v113_1) = sumK hn
    ∧ W16 m ρ c (Proc.devRef .tc main_v113_2) = sumsqK hn ∧ W16 m ρ c (Proc.devRef .tc main_v93) = h := by
  intro h hn
  obtain ⟨e5, e24, e26, e31, e30⟩ := E15_facts m ρ c
  have hhn : hnK (E15 m ρ c main_v93) (E15 m ρ c main_v105) (E15 m ρ c main_v107) (E15 m ρ c main_v112) (E15 m ρ c main_v111) = hn := by
    rw [e5, e24, e26, e31, e30] <;> rfl
  refine ⟨((W16_arr m ρ c 5).trans (final7_5 (E15 m ρ) c)).trans hhn,
    ((W16_arr m ρ c 6).trans (final7_6 (E15 m ρ) c)).trans (congrArg sumK hhn),
    ((W16_arr m ρ c 7).trans (final7_7 (E15 m ρ) c)).trans (congrArg sumsqK hhn), ?_⟩
  exact ((W16_arr m ρ c 0).trans (((dat7 (E15 m ρ) c).arrAt_in 0 rfl _).trans (A_eq7 (E15 m ρ) c 0))).trans e5

/-- After layer 3: the two passes are one step of the kernel-side layer of the specification. -/
theorem W18_main_v120 :
    W18 m ρ c (Proc.devRef .tc main_v120) = feat4 m c := by
  obtain ⟨f0, f1, f2, f5⟩ := W16_facts m ρ c
  have a8 : W16 m ρ c (Proc.devRef .tc main_arg8) = (xa m c main_arg8) :=
    (W16_of_ne m ρ c main_arg8 (by decide)).trans <|
    (StableHlo.after_of_writes_sub hostOps7 _ hostOps7_writes (by decide)).trans <|
    (W14_of_ne m ρ c main_arg8 (by decide)).trans <|
    (StableHlo.after_of_writes_sub hostOps6 _ hostOps6_writes (by decide)).trans <|
    (W12_of_ne m ρ c main_arg8 (by decide)).trans <|
    (StableHlo.after_of_writes_sub hostOps5 _ hostOps5_writes (by decide)).trans <|
    (W10_of_ne m ρ c main_arg8 (by decide)).trans <|
    (StableHlo.after_of_writes_sub hostOps4 _ hostOps4_writes (by decide)).trans <|
    (W8_of_ne m ρ c main_arg8 (by decide)).trans <|
    (StableHlo.after_of_writes_sub hostOps3 _ hostOps3_writes (by decide)).trans <|
    (W6_of_ne m ρ c main_arg8 (by decide)).trans <|
    (StableHlo.after_of_writes_sub hostOps2 _ hostOps2_writes (by decide)).trans <|
    (W4_of_ne m ρ c main_arg8 (by decide)).trans <|
    (StableHlo.after_of_writes_sub hostOps1 _ hostOps1_writes (by decide)).trans <|
    (W2_of_ne m ρ c main_arg8 (by decide)).trans <|
    (StableHlo.after_of_writes_sub hostOps0 _ hostOps0_writes (by decide))
  have a9 : W16 m ρ c (Proc.devRef .tc main_arg9) = (xa m c main_arg9) :=
    (W16_of_ne m ρ c main_arg9 (by decide)).trans <|
    (StableHlo.after_of_writes_sub hostOps7 _ hostOps7_writes (by decide)).trans <|
    (W14_of_ne m ρ c main_arg9 (by decide)).trans <|
    (StableHlo.after_of_writes_sub hostOps6 _ hostOps6_writes (by decide)).trans <|
    (W12_of_ne m ρ c main_arg9 (by decide)).trans <|
    (StableHlo.after_of_writes_sub hostOps5 _ hostOps5_writes (by decide)).trans <|
    (W10_of_ne m ρ c main_arg9 (by decide)).trans <|
    (StableHlo.after_of_writes_sub hostOps4 _ hostOps4_writes (by decide)).trans <|
    (W8_of_ne m ρ c main_arg9 (by decide)).trans <|
    (StableHlo.after_of_writes_sub hostOps3 _ hostOps3_writes (by decide)).trans <|
    (W6_of_ne m ρ c main_arg9 (by decide)).trans <|
    (StableHlo.after_of_writes_sub hostOps2 _ hostOps2_writes (by decide)).trans <|
    (W4_of_ne m ρ c main_arg9 (by decide)).trans <|
    (StableHlo.after_of_writes_sub hostOps1 _ hostOps1_writes (by decide)).trans <|
    (W2_of_ne m ρ c main_arg9 (by decide)).trans <|
    (StableHlo.after_of_writes_sub hostOps0 _ hostOps0_writes (by decide))
  have g : E17 m ρ c main_v118 = layerRow 3 (xa m c main_arg8) := (host8_gamma _).trans (by rw [a8] <;> rfl)
  have b : E17 m ρ c main_v119 = layerRow 3 (xa m c main_arg9) := (host8_beta _).trans (by rw [a9] <;> rfl)
  have k0 : E17 m ρ c main_v113_0 = _ := (host8_hn _).trans f0
  have k1 : E17 m ρ c main_v113_1 = _ := (host8_S _).trans f1
  have k2 : E17 m ρ c main_v113_2 = _ := (host8_Q _).trans f2
  have k5 : E17 m ρ c main_v93 = _ := (host8_h _).trans f5
  refine ((W18_arr m ρ c 6).trans (final8_6 (E17 m ρ) c)).trans ?_
  rw [k0, k1, k2, k5, g, b]
  rfl

/-! ## After the last layer -/

/-- The program's result on core `c`: the pooling and the predictor applied to the features after the four layers — the
    kernel-side composition of the specification at the launch contents of the arguments. -/
theorem W21_out :
    W21 m ρ c (Proc.devRef .tc main_v141)
      = Cert.Chain.kerOut (xa m c main_arg0) (xa m c main_arg1) (xa m c main_arg2) (xa m c main_arg3) (xa m c main_arg4) (xa m c main_arg5) (xa m c main_arg6) (xa m c main_arg7) (xa m c main_arg8) (xa m c main_arg9) (xa m c main_arg10) (xa m c main_arg11) (xa m c main_arg12) (xa m c main_arg13) := by
  have h4 := W18_main_v120 m ρ c
  have t0 : W18 m ρ c (Proc.devRef .tc main_arg2) = (xa m c main_arg2) :=
    (W18_of_ne m ρ c main_arg2 (by decide)).trans <|
    (StableHlo.after_of_writes_sub hostOps8 _ hostOps8_writes (by decide)).trans <|
    (W16_of_ne m ρ c main_arg2 (by decide)).trans <|
    (StableHlo.after_of_writes_sub hostOps7 _ hostOps7_writes (by decide)).trans <|
    (W14_of_ne m ρ c main_arg2 (by decide)).trans <|
    (StableHlo.after_of_writes_sub hostOps6 _ hostOps6_writes (by decide)).trans <|
    (W12_of_ne m ρ c main_arg2 (by decide)).trans <|
    (StableHlo.after_of_writes_sub hostOps5 _ hostOps5_writes (by decide)).trans <|
    (W10_of_ne m ρ c main_arg2 (by decide)).trans <|
    (StableHlo.after_of_writes_sub hostOps4 _ hostOps4_writes (by decide)).trans <|
    (W8_of_ne m ρ c main_arg2 (by decide)).trans <|
    (StableHlo.after_of_writes_sub hostOps3 _ hostOps3_writes (by decide)).trans <|
    (W6_of_ne m ρ c main_arg2 (by decide)).trans <|
    (StableHlo.after_of_writes_sub hostOps2 _ hostOps2_writes (by decide)).trans <|
    (W4_of_ne m ρ c main_arg2 (by decide)).trans <|
    (StableHlo.after_of_writes_sub hostOps1 _ hostOps1_writes (by decide)).trans <|
    (W2_of_ne m ρ c main_arg2 (by decide)).trans <|
    (StableHlo.after_of_writes_sub hostOps0 _ hostOps0_writes (by decide))
  have t1 : W18 m ρ c (Proc.devRef .tc main_arg10) = (xa m c main_arg10) :=
    (W18_of_ne m ρ c main_arg10 (by decide)).trans <|
    (StableHlo.after_of_writes_sub hostOps8 _ hostOps8_writes (by decide)).trans <|
    (W16_of_ne m ρ c main_arg10 (by decide)).trans <|
    (StableHlo.after_of_writes_sub hostOps7 _ hostOps7_writes (by decide)).trans <|
    (W14_of_ne m ρ c main_arg10 (by decide)).trans <|
    (StableHlo.after_of_writes_sub hostOps6 _ hostOps6_writes (by decide)).trans <|
    (W12_of_ne m ρ c main_arg10 (by decide)).trans <|
    (StableHlo.after_of_writes_sub hostOps5 _ hostOps5_writes (by decide)).trans <|
    (W10_of_ne m ρ c main_arg10 (by decide)).trans <|
    (StableHlo.after_of_writes_sub hostOps4 _ hostOps4_writes (by decide)).trans <|
    (W8_of_ne m ρ c main_arg10 (by decide)).trans <|
    (StableHlo.after_of_writes_sub hostOps3 _ hostOps3_writes (by decide)).trans <|
    (W6_of_ne m ρ c main_arg10 (by decide)).trans <|
    (StableHlo.after_of_writes_sub hostOps2 _ hostOps2_writes (by decide)).trans <|
    (W4_of_ne m ρ c main_arg10 (by decide)).trans <|
    (StableHlo.after_of_writes_sub hostOps1 _ hostOps1_writes (by decide)).trans <|
    (W2_of_ne m ρ c main_arg10 (by decide)).trans <|
    (StableHlo.after_of_writes_sub hostOps0 _ hostOps0_writes (by decide))
  have t2 : W18 m ρ c (Proc.devRef .tc main_arg11) = (xa m c main_arg11) :=
    (W18_of_ne m ρ c main_arg11 (by decide)).trans <|
    (StableHlo.after_of_writes_sub hostOps8 _ hostOps8_writes (by decide)).trans <|
    (W16_of_ne m ρ c main_arg11 (by decide)).trans <|
    (StableHlo.after_of_writes_sub hostOps7 _ hostOps7_writes (by decide)).trans <|
    (W14_of_ne m ρ c main_arg11 (by decide)).trans <|
    (StableHlo.after_of_writes_sub hostOps6 _ hostOps6_writes (by decide)).trans <|
    (W12_of_ne m ρ c main_arg11 (by decide)).trans <|
    (StableHlo.after_of_writes_sub hostOps5 _ hostOps5_writes (by decide)).trans <|
    (W10_of_ne m ρ c main_arg11 (by decide)).trans <|
    (StableHlo.after_of_writes_sub hostOps4 _ hostOps4_writes (by decide)).trans <|
    (W8_of_ne m ρ c main_arg11 (by decide)).trans <|
    (StableHlo.after_of_writes_sub hostOps3 _ hostOps3_writes (by decide)).trans <|
    (W6_of_ne m ρ c main_arg11 (by decide)).trans <|
    (StableHlo.after_of_writes_sub hostOps2 _ hostOps2_writes (by decide)).trans <|
    (W4_of_ne m ρ c main_arg11 (by decide)).trans <|
    (StableHlo.after_of_writes_sub hostOps1 _ hostOps1_writes (by decide)).trans <|
    (W2_of_ne m ρ c main_arg11 (by decide)).trans <|
    (StableHlo.after_of_writes_sub hostOps0 _ hostOps0_writes (by decide))
  have t3 : W18 m ρ c (Proc.devRef .tc main_arg12) = (xa m c main_arg12) :=
    (W18_of_ne m ρ c main_arg12 (by decide)).trans <|
    (StableHlo.after_of_writes_sub hostOps8 _ hostOps8_writes (by decide)).trans <|
    (W16_of_ne m ρ c main_arg12 (by decide)).trans <|
    (StableHlo.after_of_writes_sub hostOps7 _ hostOps7_writes (by decide)).trans <|
    (W14_of_ne m ρ c main_arg12 (by decide)).trans <|
    (StableHlo.after_of_writes_sub hostOps6 _ hostOps6_writes (by decide)).trans <|
    (W12_of_ne m ρ c main_arg12 (by decide)).trans <|
    (StableHlo.after_of_writes_sub hostOps5 _ hostOps5_writes (by decide)).trans <|
    (W10_of_ne m ρ c main_arg12 (by decide)).trans <|
    (StableHlo.after_of_writes_sub hostOps4 _ hostOps4_writes (by decide)).trans <|
    (W8_of_ne m ρ c main_arg12 (by decide)).trans <|
    (StableHlo.after_of_writes_sub hostOps3 _ hostOps3_writes (by decide)).trans <|
    (W6_of_ne m ρ c main_arg12 (by decide)).trans <|
    (StableHlo.after_of_writes_sub hostOps2 _ hostOps2_writes (by decide)).trans <|
    (W4_of_ne m ρ c main_arg12 (by decide)).trans <|
    (StableHlo.after_of_writes_sub hostOps1 _ hostOps1_writes (by decide)).trans <|
    (W2_of_ne m ρ c main_arg12 (by decide)).trans <|
    (StableHlo.after_of_writes_sub hostOps0 _ hostOps0_writes (by decide))
  have t4 : W18 m ρ c (Proc.devRef .tc main_arg13) = (xa m c main_arg13) :=
    (W18_of_ne m ρ c main_arg13 (by decide)).trans <|
    (StableHlo.after_of_writes_sub hostOps8 _ hostOps8_writes (by decide)).trans <|
    (W16_of_ne m ρ c main_arg13 (by decide)).trans <|
    (StableHlo.after_of_writes_sub hostOps7 _ hostOps7_writes (by decide)).trans <|
    (W14_of_ne m ρ c main_arg13 (by decide)).trans <|
    (StableHlo.after_of_writes_sub hostOps6 _ hostOps6_writes (by decide)).trans <|
    (W12_of_ne m ρ c main_arg13 (by decide)).trans <|
    (StableHlo.after_of_writes_sub hostOps5 _ hostOps5_writes (by decide)).trans <|
    (W10_of_ne m ρ c main_arg13 (by decide)).trans <|
    (StableHlo.after_of_writes_sub hostOps4 _ hostOps4_writes (by decide)).trans <|
    (W8_of_ne m ρ c main_arg13 (by decide)).trans <|
    (StableHlo.after_of_writes_sub hostOps3 _ hostOps3_writes (by decide)).trans <|
    (W6_of_ne m ρ c main_arg13 (by decide)).trans <|
    (StableHlo.after_of_writes_sub hostOps2 _ hostOps2_writes (by decide)).trans <|
    (W4_of_ne m ρ c main_arg13 (by decide)).trans <|
    (StableHlo.after_of_writes_sub hostOps1 _ hostOps1_writes (by decide)).trans <|
    (W2_of_ne m ρ c main_arg13 (by decide)).trans <|
    (StableHlo.after_of_writes_sub hostOps0 _ hostOps0_writes (by decide))
  refine (host9_out _).trans ?_
  rw [t0, t1, t2, t3, t4, h4]
  rfl

end Cert.KernelIdeal.HandVal

end
-- ==== Proof.RefChain.lean ====
/-
  The reference's result as one function of its arguments, and the same in the specification's words.

  The features after the input projection and after each of the four layers are named H0 … H4: H0 is the
  projection, and each next one is the two-pass layer of Proof/Spec.lean applied to the one before and to its neighbour
  mean. The result is the shared pooling-and-predictor tail of H4. From real arguments every H is real: that is what
  lets the kernel's one-pass layers be replaced by the two-pass ones, layer after layer.
-/
import proofs.«111242_j77756087927556_1_alg».proof.Proof.RefStages

noncomputable section

namespace Cert.ReferenceIdeal.RefValue

open Cert.ReferenceIdeal Idealize.ShloMosaic Idealize.ShloMosaic.ValueIdx Cert.Spec

variable [Facts₀]

/-- Layer 0 of the reference from the features h: the neighbour mean, the linear part, the normalisation. -/
def layerOps0 (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) : FVec Ideal S100000x256 .f32 :=
  normOps0 (linOps0 h (aggOps src dst degc h) x5 x6 x7) h x8 x9

theorem layerOps0_eq (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) :
    layerOps0 src dst degc x5 x6 x7 x8 x9 h = layerR 0 x5 x6 x7 x8 x9 h (aggOps src dst degc h) := by
  unfold layerOps0
  rw [linOps0_eq, normOps0_eq]
  rfl

/-- Layer 1 of the reference from the features h: the neighbour mean, the linear part, the normalisation. -/
def layerOps1 (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) : FVec Ideal S100000x256 .f32 :=
  normOps1 (linOps1 h (aggOps src dst degc h) x5 x6 x7) h x8 x9

theorem layerOps1_eq (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) :
    layerOps1 src dst degc x5 x6 x7 x8 x9 h = layerR 1 x5 x6 x7 x8 x9 h (aggOps src dst degc h) := by
  unfold layerOps1
  rw [linOps1_eq, normOps1_eq]
  rfl

/-- Layer 2 of the reference from the features h: the neighbour mean, the linear part, the normalisation. -/
def layerOps2 (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) : FVec Ideal S100000x256 .f32 :=
  normOps2 (linOps2 h (aggOps src dst degc h) x5 x6 x7) h x8 x9

theorem layerOps2_eq (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) :
    layerOps2 src dst degc x5 x6 x7 x8 x9 h = layerR 2 x5 x6 x7 x8 x9 h (aggOps src dst degc h) := by
  unfold layerOps2
  rw [linOps2_eq, normOps2_eq]
  rfl

/-- Layer 3 of the reference from the features h: the neighbour mean, the linear part, the normalisation. -/
def layerOps3 (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) : FVec Ideal S100000x256 .f32 :=
  normOps3 (linOps3 h (aggOps src dst degc h) x5 x6 x7) h x8 x9

theorem layerOps3_eq (src dst : IVec S800000 32) (degc : FVec Ideal S100000x1 .f32) (x5 : FVec Ideal S4x256x256 .f32)
    (x6 : FVec Ideal S4x256 .f32) (x7 : FVec Ideal S4x256x256 .f32) (x8 x9 : FVec Ideal S4x256 .f32)
    (h : FVec Ideal S100000x256 .f32) :
    layerOps3 src dst degc x5 x6 x7 x8 x9 h = layerR 3 x5 x6 x7 x8 x9 h (aggOps src dst degc h) := by
  unfold layerOps3
  rw [linOps3_eq, normOps3_eq]
  rfl

/-- The reference's result as a function of its fourteen arguments. -/
def refOut (x0 : FVec Ideal S100000x128 .f32) (x1 : IVec S2x800000 32) (x2 : IVec S100000 32) (x3 : FVec Ideal S128x256 .f32)
    (x4 : FVec Ideal S256 .f32) (x5 : FVec Ideal S4x256x256 .f32) (x6 : FVec Ideal S4x256 .f32)
    (x7 : FVec Ideal S4x256x256 .f32) (x8 x9 : FVec Ideal S4x256 .f32) (x10 : FVec Ideal S256x128 .f32)
    (x11 : FVec Ideal S128 .f32) (x12 : FVec Ideal S128x1 .f32) (x13 : FVec Ideal S1 .f32) : FVec Ideal S256x1 .f32 :=
  tailOps x2 x10 x11 x12 x13
    (layerOps3 (srcOps x1) (dstOps x1) (degOps (dstOps x1)) x5 x6 x7 x8 x9
      (layerOps2 (srcOps x1) (dstOps x1) (degOps (dstOps x1)) x5 x6 x7 x8 x9
        (layerOps1 (srcOps x1) (dstOps x1) (degOps (dstOps x1)) x5 x6 x7 x8 x9
          (layerOps0 (srcOps x1) (dstOps x1) (degOps (dstOps x1)) x5 x6 x7 x8 x9 (projOps x0 x3 x4)))))

/-! ## The same in the specification's words -/

/-- The neighbour mean over the edge list x1. -/
def nbrMean (x1 : IVec S2x800000 32) (h : FVec Ideal S100000x256 .f32) : FVec Ideal S100000x256 .f32 :=
  aggOps (srcOps x1) (dstOps x1) (degOps (dstOps x1)) h

theorem nbrMean_real (x1 : IVec S2x800000 32) (h : FVec Ideal S100000x256 .f32) (hh : IsReal h) : IsReal (nbrMean x1 h) :=
  aggOps_real _ _ _ _ (degOps_ge_one _) hh

/-- One layer of the specification from the features h: the two-pass layer of h and its neighbour mean. -/
def specLayer (l : Fin 4) (x1 : IVec S2x800000 32) (x5 : Arr3 4 256 256) (x6 : Arr2 4 256) (x7 : Arr3 4 256 256)
    (x8 x9 : Arr2 4 256) (h : Arr2 100000 256) : Arr2 100000 256 :=
  layerR l x5 x6 x7 x8 x9 h (nbrMean x1 h)

theorem specLayer_real (l : Fin 4) (x1 : IVec S2x800000 32) (x5 : Arr3 4 256 256) (x6 : Arr2 4 256) (x7 : Arr3 4 256 256)
    (x8 x9 : Arr2 4 256) (h : Arr2 100000 256) (h5 : IsReal x5) (h6 : IsReal x6) (h7 : IsReal x7) (h8 : IsReal x8)
    (h9 : IsReal x9) (hh : IsReal h) : IsReal (specLayer l x1 x5 x6 x7 x8 x9 h) :=
  layerR_real l x5 x6 x7 x8 x9 h _ h5 h6 h7 h8 h9 hh (nbrMean_real x1 h hh)

/-- The kernel's form of a layer — the one-pass normalisation fed with the true column sums — is the specification's
    layer when the arguments and the features are real. -/
theorem kernelLayer_eq_specLayer (l : Fin 4) (x1 : IVec S2x800000 32) (x5 : Arr3 4 256 256) (x6 : Arr2 4 256)
    (x7 : Arr3 4 256 256) (x8 x9 : Arr2 4 256) (h : Arr2 100000 256) (h5 : IsReal x5) (h6 : IsReal x6) (h7 : IsReal x7)
    (hh : IsReal h) :
    G2 (hnK h (nbrMean x1 h) (layerW l x5) (layerRow l x6) (layerW l x7)) h
        (sumK (hnK h (nbrMean x1 h) (layerW l x5) (layerRow l x6) (layerW l x7)))
        (sumsqK (hnK h (nbrMean x1 h) (layerW l x5) (layerRow l x6) (layerW l x7))) (layerRow l x8) (layerRow l x9)
      = specLayer l x1 x5 x6 x7 x8 x9 h :=
  layerK_eq_layerR l x5 x6 x7 x8 x9 h _ h5 h6 h7 hh (nbrMean_real x1 h hh)

/-- The features after the projection and after each layer. -/
def specH0 (x0 : Arr2 100000 128) (x3 : Arr2 128 256) (x4 : Arr1 256) : Arr2 100000 256 := G0 x0 x3 (row x4)
def specH (x0 : Arr2 100000 128) (x1 : IVec S2x800000 32) (x3 : Arr2 128 256) (x4 : Arr1 256) (x5 : Arr3 4 256 256)
    (x6 : Arr2 4 256) (x7 : Arr3 4 256 256) (x8 x9 : Arr2 4 256) : ℕ → Arr2 100000 256
  | 0 => specH0 x0 x3 x4
  | k + 1 => specLayer (Fin.ofNat 4 k) x1 x5 x6 x7 x8 x9 (specH x0 x1 x3 x4 x5 x6 x7 x8 x9 k)

theorem specH_real (x0 : Arr2 100000 128) (x1 : IVec S2x800000 32) (x3 : Arr2 128 256) (x4 : Arr1 256) (x5 : Arr3 4 256 256)
    (x6 : Arr2 4 256) (x7 : Arr3 4 256 256) (x8 x9 : Arr2 4 256) (h0 : IsReal x0) (h3 : IsReal x3) (h4 : IsReal x4)
    (h5 : IsReal x5) (h6 : IsReal x6) (h7 : IsReal x7) (h8 : IsReal x8) (h9 : IsReal x9) :
    ∀ k, IsReal (specH x0 x1 x3 x4 x5 x6 x7 x8 x9 k)
  | 0 => G0_real _ _ _ h0 h3 (row_real _ h4)
  | k + 1 => specLayer_real _ x1 x5 x6 x7 x8 x9 _ h5 h6 h7 h8 h9 (specH_real x0 x1 x3 x4 x5 x6 x7 x8 x9 h0 h3 h4 h5 h6 h7 h8 h9 k)

/-- The reference's result is the shared tail of the features after the fourth layer. -/
theorem refOut_eq (x0 : FVec Ideal S100000x128 .f32) (x1 : IVec S2x800000 32) (x2 : IVec S100000 32) (x3 : FVec Ideal S128x256 .f32)
    (x4 : FVec Ideal S256 .f32) (x5 : FVec Ideal S4x256x256 .f32) (x6 : FVec Ideal S4x256 .f32)
    (x7 : FVec Ideal S4x256x256 .f32) (x8 x9 : FVec Ideal S4x256 .f32) (x10 : FVec Ideal S256x128 .f32)
    (x11 : FVec Ideal S128 .f32) (x12 : FVec Ideal S128x1 .f32) (x13 : FVec Ideal S1 .f32) :
    refOut x0 x1 x2 x3 x4 x5 x6 x7 x8 x9 x10 x11 x12 x13
      = tailOps x2 x10 x11 x12 x13 (specH x0 x1 x3 x4 x5 x6 x7 x8 x9 4) := by
  unfold refOut
  rw [layerOps3_eq, layerOps2_eq, layerOps1_eq, layerOps0_eq, projOps_eq]
  rfl

end Cert.ReferenceIdeal.RefValue
-- ==== Proof.RefFold.lean ====
/-
  The reference program's result read off the fold of its operations, stage by stage.

  The 308 operations are cut into consecutive slices: the two rows of the edge list, the input projection, the
  clamped in-degree, then per layer the neighbour mean, the linear part and the normalisation, and last the pooling and
  the predictor. For each slice and any contents V of the buffers before it, the one buffer the later slices read is
  the slice's stage function of the buffers it reads, and every buffer it does not write is unchanged. Chaining the
  slices gives the program's result as the composition of the stage functions of the arguments, in which the features
  of a layer are named once and used three times (the neighbour mean, the linear part and the residual).
-/
import proofs.«111242_j77756087927556_1_alg».proof.Proof.RefChain
import proofs.«111242_j77756087927556_1_alg».proof.Proof.Ref.Run
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Spec

variable {F : FTy → Type} [FloatOps F]

/-- One operation writes the one buffer it names, which is in the slice's list. -/
local macro "wr" : tactic => `(tactic| (simp only [nullary_writes, unary_writes, binary_writes, ternary_writes, reshape_writes,
  Finset.singleton_subset_iff, List.mem_toFinset]; exact List.mem_map_of_mem (by decide)))

/-- Operations 1 to 4 of the program, in order. -/
def sEdge : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]
/-- The buffers they write. -/
abbrev sEdge_W : List (Ref sig .tc) := [main_v0, main_v1, main_v2, main_v3]
theorem sEdge_writes : (sEdge : List (HloOp τ sig (Elt F))).Forall fun op => op.writes ⊆ (sEdge_W.map (Proc.devRef (τ := τ) .tc)).toFinset := by
  unfold sEdge; simp only [List.Forall]; exact ⟨by wr, by wr, by wr, by wr⟩
/-- A buffer they do not write keeps its contents. -/
theorem sEdge_keep (V : Valuation τ sig (Elt F)) (r : Ref sig .tc) (h : r ∉ sEdge_W) :
    after sEdge V (no_index (Proc.devRef .tc r)) = V (Proc.devRef .tc r) :=
  after_of_writes_sub sEdge V sEdge_writes h

/-- Operations 5 to 11 of the program, in order. -/
def sProj : List (HloOp τ sig (Elt F)) :=
  [ binary main_arg0 main_arg3 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg4 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    TRef.nullary main_call0.cst (constant S_ .f32 0x00000000#32),
    TRef.unary main_call0.cst main_call0.v0 (broadcastInDim S100000x256 ![] bcast_S_S100000x256),
    TRef.binary (.of main_v7) main_call0.v0 main_call0.v1 maximumf ]
/-- The buffers they write. -/
abbrev sProj_W : List (Ref sig .tc) := [main_v4, main_v5, main_v6, main_v7, main_call0_cst, main_call0_v0, main_v8]
theorem sProj_writes : (sProj : List (HloOp τ sig (Elt F))).Forall fun op => op.writes ⊆ (sProj_W.map (Proc.devRef (τ := τ) .tc)).toFinset := by
  unfold sProj; simp only [List.Forall]; exact ⟨by wr, by wr, by wr, by wr, by wr, by wr, by wr⟩
/-- A buffer they do not write keeps its contents. -/
theorem sProj_keep (V : Valuation τ sig (Elt F)) (r : Ref sig .tc) (h : r ∉ sProj_W) :
    after sProj V (no_index (Proc.devRef .tc r)) = V (Proc.devRef .tc r) :=
  after_of_writes_sub sProj V sProj_writes h

/-- Operations 12 to 21 of the program, in order. -/
def sDeg : List (HloOp τ sig (Elt F)) :=
  [ nullary main_cst (constant S_ .f32 0x3F800000#32),
    unary main_cst main_v9 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (broadcastInDim S100000x1 ![0] bcast_S100000_S100000x1_0 : (⟨S100000, .f32⟩ : BufTy).Contents (Elt F) → (⟨S100000x1, .f32⟩ : BufTy).Contents (Elt F)) ]
/-- The buffers they write. -/
abbrev sDeg_W : List (Ref sig .tc) := [main_cst, main_v9, main_cst_0, main_v10, main_v11, main_v12, main_cst_1, main_v13, main_v14, main_v15]
theorem sDeg_writes : (sDeg : List (HloOp τ sig (Elt F))).Forall fun op => op.writes ⊆ (sDeg_W.map (Proc.devRef (τ := τ) .tc)).toFinset := by
  unfold sDeg; simp only [List.Forall]; exact ⟨by wr, by wr, by wr, by wr, by wr, by wr, by wr, by wr, by wr, by wr⟩
/-- A buffer they do not write keeps its contents. -/
theorem sDeg_keep (V : Valuation τ sig (Elt F)) (r : Ref sig .tc) (h : r ∉ sDeg_W) :
    after sDeg V (no_index (Proc.devRef .tc r)) = V (Proc.devRef .tc r) :=
  after_of_writes_sub sDeg V sDeg_writes h

/-- Operations 22 to 36 of the program, in order. -/
def sAgg0 : List (HloOp τ sig (Elt F)) :=
  [ nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v8 main_v21 main_v22 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_3 (constant S_ .f32 0x00000000#32),
    unary main_cst_3 main_v23 (broadcastInDim S100000x256 ![] bcast_S_S100000x256 : (⟨S_, .f32⟩ : BufTy).Contents (Elt F) → (⟨S100000x256, .f32⟩ : BufTy).Contents (Elt F)),
    unary main_v3 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v26 (broadcastInDim S100000x256 ![0, 1] bcast_S100000x1_S100000x256_0_1 : (⟨S100000x1, .f32⟩ : BufTy).Contents (Elt F) → (⟨S100000x256, .f32⟩ : BufTy).Contents (Elt F)),
    binary main_v25 main_v26 main_v27 (Host.divf : (⟨S100000x256, .f32⟩ : BufTy).Contents (Elt F) → (⟨S100000x256, .f32⟩ : BufTy).Contents (Elt F) → (⟨S100000x256, .f32⟩ : BufTy).Contents (Elt F)) ]
/-- The buffers they write. -/
abbrev sAgg0_W : List (Ref sig .tc) := [main_c, main_v16, main_v17, main_c_2, main_v18, main_v19, main_v20, main_v21, main_v22, main_cst_3, main_v23, main_v24, main_v25, main_v26, main_v27]
theorem sAgg0_writes : (sAgg0 : List (HloOp τ sig (Elt F))).Forall fun op => op.writes ⊆ (sAgg0_W.map (Proc.devRef (τ := τ) .tc)).toFinset := by
  unfold sAgg0; simp only [List.Forall]; exact ⟨by wr, by wr, by wr, by wr, by wr, by wr, by wr, by wr, by wr, by wr, by wr, by wr, by wr, by wr, by wr⟩
/-- A buffer they do not write keeps its contents. -/
theorem sAgg0_keep (V : Valuation τ sig (Elt F)) (r : Ref sig .tc) (h : r ∉ sAgg0_W) :
    after sAgg0 V (no_index (Proc.devRef .tc r)) = V (Proc.devRef .tc r) :=
  after_of_writes_sub sAgg0 V sAgg0_writes h

/-- Operations 37 to 48 of the program, in order. -/
def sLin0 : List (HloOp τ sig (Elt F)) :=
  [ unary main_arg5 main_v28 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v28 main_v29 rfl shapeCasts_S1x256x256_S256x256,
    binary main_v27 main_v29 main_v30 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v31 ((extractStridedSlice S1x256 ![0, 0] · slices_S4x256_S1x256_0_0) : (⟨S4x256, .f32⟩ : BufTy).Contents (Elt F) → (⟨S1x256, .f32⟩ : BufTy).Contents (Elt F)),
    reshape main_v31 main_v32 rfl shapeCasts_S1x256_S256,
    unary main_v32 main_v33 (broadcastInDim S1x256 ![1] bcast_S256_S1x256_1 : (⟨S256, .f32⟩ : BufTy).Contents (Elt F) → (⟨S1x256, .f32⟩ : BufTy).Contents (Elt F)),
    unary main_v33 main_v34 (broadcastInDim S100000x256 ![0, 1] bcast_S1x256_S100000x256_0_1 : (⟨S1x256, .f32⟩ : BufTy).Contents (Elt F) → (⟨S100000x256, .f32⟩ : BufTy).Contents (Elt F)),
    binary main_v30 main_v34 main_v35 (addf : (⟨S100000x256, .f32⟩ : BufTy).Contents (Elt F) → (⟨S100000x256, .f32⟩ : BufTy).Contents (Elt F) → (⟨S100000x256, .f32⟩ : BufTy).Contents (Elt F)),
    unary main_arg7 main_v36 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v36 main_v37 rfl shapeCasts_S1x256x256_S256x256,
    binary main_v8 main_v37 main_v38 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v35 main_v38 main_v39 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sLin0_W : List (Ref sig .tc) := [main_v28, main_v29, main_v30, main_v31, main_v32, main_v33, main_v34, main_v35, main_v36, main_v37, main_v38, main_v39]
theorem sLin0_writes : (sLin0 : List (HloOp τ sig (Elt F))).Forall fun op => op.writes ⊆ (sLin0_W.map (Proc.devRef (τ := τ) .tc)).toFinset := by
  unfold sLin0; simp only [List.Forall]; exact ⟨by wr, by wr, by wr, by wr, by wr, by wr, by wr, by wr, by wr, by wr, by wr, by wr⟩
/-- A buffer they do not write keeps its contents. -/
theorem sLin0_keep (V : Valuation τ sig (Elt F)) (r : Ref sig .tc) (h : r ∉ sLin0_W) :
    after sLin0 V (no_index (Proc.devRef .tc r)) = V (Proc.devRef .tc r) :=
  after_of_writes_sub sLin0 V sLin0_writes h

/-- Operations 49 to 86 of the program, in order. -/
def sNorm0 : List (HloOp τ sig (Elt F)) :=
  [ nullary main_cst_4 (constant S_ .f32 0x00000000#32),
    binary main_v39 main_cst_4 main_v40 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_5 (constant S_ .f32 0x47C35000#32),
    unary main_cst_5 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)),
    unary main_v42 main_v43 (broadcastInDim S1x256 ![1] bcast_S256_S1x256_1 : (⟨S256, .f32⟩ : BufTy).Contents (Elt F) → (⟨S1x256, .f32⟩ : BufTy).Contents (Elt F)),
    unary main_v43 main_v44 (broadcastInDim S100000x256 ![0, 1] bcast_S1x256_S100000x256_0_1 : (⟨S1x256, .f32⟩ : BufTy).Contents (Elt F) → (⟨S100000x256, .f32⟩ : BufTy).Contents (Elt F)),
    binary main_v39 main_v44 main_v45 (subf : (⟨S100000x256, .f32⟩ : BufTy).Contents (Elt F) → (⟨S100000x256, .f32⟩ : BufTy).Contents (Elt F) → (⟨S100000x256, .f32⟩ : BufTy).Contents (Elt F)),
    binary main_v45 main_v45 main_v46 (mulf : (⟨S100000x256, .f32⟩ : BufTy).Contents (Elt F) → (⟨S100000x256, .f32⟩ : BufTy).Contents (Elt F) → (⟨S100000x256, .f32⟩ : BufTy).Contents (Elt F)),
    nullary main_cst_6 (constant S_ .f32 0x00000000#32),
    binary main_v46 main_cst_6 main_v47 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_7 (constant S_ .f32 0x47C35000#32),
    unary main_cst_7 main_v48 (broadcastInDim S256 ![] bcast_S_S256 : (⟨S_, .f32⟩ : BufTy).Contents (Elt F) → (⟨S256, .f32⟩ : BufTy).Contents (Elt F)),
    binary main_v47 main_v48 main_v49 (Host.divf : (⟨S256, .f32⟩ : BufTy).Contents (Elt F) → (⟨S256, .f32⟩ : BufTy).Contents (Elt F) → (⟨S256, .f32⟩ : BufTy).Contents (Elt F)),
    unary main_v42 main_v50 (broadcastInDim S1x256 ![1] bcast_S256_S1x256_1 : (⟨S256, .f32⟩ : BufTy).Contents (Elt F) → (⟨S1x256, .f32⟩ : BufTy).Contents (Elt F)),
    unary main_v50 main_v51 (broadcastInDim S100000x256 ![0, 1] bcast_S1x256_S100000x256_0_1 : (⟨S1x256, .f32⟩ : BufTy).Contents (Elt F) → (⟨S100000x256, .f32⟩ : BufTy).Contents (Elt F)),
    binary main_v39 main_v51 main_v52 (subf : (⟨S100000x256, .f32⟩ : BufTy).Contents (Elt F) → (⟨S100000x256, .f32⟩ : BufTy).Contents (Elt F) → (⟨S100000x256, .f32⟩ : BufTy).Contents (Elt F)),
    nullary main_cst_8 (constant S_ .f32 0x3727C5AC#32),
    unary main_cst_8 main_v53 (broadcastInDim S256 ![] bcast_S_S256 : (⟨S_, .f32⟩ : BufTy).Contents (Elt F) → (⟨S256, .f32⟩ : BufTy).Contents (Elt F)),
    binary main_v49 main_v53 main_v54 (addf : (⟨S256, .f32⟩ : BufTy).Contents (Elt F) → (⟨S256, .f32⟩ : BufTy).Contents (Elt F) → (⟨S256, .f32⟩ : BufTy).Contents (Elt F)),
    unary main_v54 main_v55 (Host.rsqrt : (⟨S256, .f32⟩ : BufTy).Contents (Elt F) → (⟨S256, .f32⟩ : BufTy).Contents (Elt F)),
    unary main_v55 main_v56 (broadcastInDim S1x256 ![1] bcast_S256_S1x256_1 : (⟨S256, .f32⟩ : BufTy).Contents (Elt F) → (⟨S1x256, .f32⟩ : BufTy).Contents (Elt F)),
    unary main_v56 main_v57 (broadcastInDim S100000x256 ![0, 1] bcast_S1x256_S100000x256_0_1 : (⟨S1x256, .f32⟩ : BufTy).Contents (Elt F) → (⟨S100000x256, .f32⟩ : BufTy).Contents (Elt F)),
    binary main_v52 main_v57 main_v58 (mulf : (⟨S100000x256, .f32⟩ : BufTy).Contents (Elt F) → (⟨S100000x256, .f32⟩ : BufTy).Contents (Elt F) → (⟨S100000x256, .f32⟩ : BufTy).Contents (Elt F)),
    unary main_arg8 main_v59 ((extractStridedSlice S1x256 ![0, 0] · slices_S4x256_S1x256_0_0) : (⟨S4x256, .f32⟩ : BufTy).Contents (Elt F) → (⟨S1x256, .f32⟩ : BufTy).Contents (Elt F)),
    reshape main_v59 main_v60 rfl shapeCasts_S1x256_S256,
    unary main_v60 main_v61 (broadcastInDim S1x256 ![1] bcast_S256_S1x256_1 : (⟨S256, .f32⟩ : BufTy).Contents (Elt F) → (⟨S1x256, .f32⟩ : BufTy).Contents (Elt F)),
    unary main_v61 main_v62 (broadcastInDim S100000x256 ![0, 1] bcast_S1x256_S100000x256_0_1 : (⟨S1x256, .f32⟩ : BufTy).Contents (Elt F) → (⟨S100000x256, .f32⟩ : BufTy).Contents (Elt F)),
    binary main_v58 main_v62 main_v63 (mulf : (⟨S100000x256, .f32⟩ : BufTy).Contents (Elt F) → (⟨S100000x256, .f32⟩ : BufTy).Contents (Elt F) → (⟨S100000x256, .f32⟩ : BufTy).Contents (Elt F)),
    unary main_arg9 main_v64 ((extractStridedSlice S1x256 ![0, 0] · slices_S4x256_S1x256_0_0) : (⟨S4x256, .f32⟩ : BufTy).Contents (Elt F) → (⟨S1x256, .f32⟩ : BufTy).Contents (Elt F)),
    reshape main_v64 main_v65 rfl shapeCasts_S1x256_S256,
    unary main_v65 main_v66 (broadcastInDim S1x256 ![1] bcast_S256_S1x256_1 : (⟨S256, .f32⟩ : BufTy).Contents (Elt F) → (⟨S1x256, .f32⟩ : BufTy).Contents (Elt F)),
    unary main_v66 main_v67 (broadcastInDim S100000x256 ![0, 1] bcast_S1x256_S100000x256_0_1 : (⟨S1x256, .f32⟩ : BufTy).Contents (Elt F) → (⟨S100000x256, .f32⟩ : BufTy).Contents (Elt F)),
    binary main_v63 main_v67 main_v68 (addf : (⟨S100000x256, .f32⟩ : BufTy).Contents (Elt F) → (⟨S100000x256, .f32⟩ : BufTy).Contents (Elt F) → (⟨S100000x256, .f32⟩ : BufTy).Contents (Elt F)),
    TRef.nullary main_call1.cst (constant S_ .f32 0x00000000#32),
    TRef.unary main_call1.cst main_call1.v0 (broadcastInDim S100000x256 ![] bcast_S_S100000x256),
    TRef.binary (.of main_v68) main_call1.v0 main_call1.v1 maximumf,
    binary main_v8 main_v69 main_v70 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sNorm0_W : List (Ref sig .tc) := [main_cst_4, main_v40, main_cst_5, main_v41, main_v42, main_v43, main_v44, main_v45, main_v46, main_cst_6, main_v47, main_cst_7, main_v48, main_v49, main_v50, main_v51, main_v52, main_cst_8, main_v53, main_v54, main_v55, main_v56, main_v57, main_v58, main_v59, main_v60, main_v61, main_v62, main_v63, main_v64, main_v65, main_v66, main_v67, main_v68, main_call1_cst, main_call1_v0, main_v69, main_v70]
theorem sNorm0_writes : (sNorm0 : List (HloOp τ sig (Elt F))).Forall fun op => op.writes ⊆ (sNorm0_W.map (Proc.devRef (τ := τ) .tc)).toFinset := by
  unfold sNorm0; simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer they do not write keeps its contents. -/
theorem sNorm0_keep (V : Valuation τ sig (Elt F)) (r : Ref sig .tc) (h : r ∉ sNorm0_W) :
    after sNorm0 V (no_index (Proc.devRef .tc r)) = V (Proc.devRef .tc r) :=
  after_of_writes_sub sNorm0 V sNorm0_writes h

/-- Operations 87 to 101 of the program, in order. -/
def sAgg1 : List (HloOp τ sig (Elt F)) :=
  [ nullary main_c_9 (constantI S_ 32 0#32),
    unary main_c_9 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_10 (constantI S_ 32 100000#32),
    unary main_c_10 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v70 main_v76 main_v77 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_11 (constant S_ .f32 0x00000000#32),
    unary main_cst_11 main_v78 (broadcastInDim S100000x256 ![] bcast_S_S100000x256 : (⟨S_, .f32⟩ : BufTy).Contents (Elt F) → (⟨S100000x256, .f32⟩ : BufTy).Contents (Elt F)),
    unary main_v3 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v81 (broadcastInDim S100000x256 ![0, 1] bcast_S100000x1_S100000x256_0_1 : (⟨S100000x1, .f32⟩ : BufTy).Contents (Elt F) → (⟨S100000x256, .f32⟩ : BufTy).Contents (Elt F)),
    binary main_v80 main_v81 main_v82 (Host.divf : (⟨S100000x256, .f32⟩ : BufTy).Contents (Elt F) → (⟨S100000x256, .f32⟩ : BufTy).Contents (Elt F) → (⟨S100000x256, .f32⟩ : BufTy).Contents (Elt F)) ]
/-- The buffers they write. -/
abbrev sAgg1_W : List (Ref sig .tc) := [main_c_9, main_v71, main_v72, main_c_10, main_v73, main_v74, main_v75, main_v76, main_v77, main_cst_11, main_v78, main_v79, main_v80, main_v81, main_v82]
theorem sAgg1_writes : (sAgg1 : List (HloOp τ sig (Elt F))).Forall fun op => op.writes ⊆ (sAgg1_W.map (Proc.devRef (τ := τ) .tc)).toFinset := by
  unfold sAgg1; simp only [List.Forall]; exact ⟨by wr, by wr, by wr, by wr, by wr, by wr, by wr, by wr, by wr, by wr, by wr, by wr, by wr, by wr, by wr⟩
/-- A buffer they do not write keeps its contents. -/
theorem sAgg1_keep (V : Valuation τ sig (Elt F)) (r : Ref sig .tc) (h : r ∉ sAgg1_W) :
    after sAgg1 V (no_index (Proc.devRef .tc r)) = V (Proc.devRef .tc r) :=
  after_of_writes_sub sAgg1 V sAgg1_writes h

/-- Operations 102 to 113 of the program, in order. -/
def sLin1 : List (HloOp τ sig (Elt F)) :=
  [ unary main_arg5 main_v83 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v83 main_v84 rfl shapeCasts_S1x256x256_S256x256,
    binary main_v82 main_v84 main_v85 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v86 ((extractStridedSlice S1x256 ![1, 0] · slices_S4x256_S1x256_1_0) : (⟨S4x256, .f32⟩ : BufTy).Contents (Elt F) → (⟨S1x256, .f32⟩ : BufTy).Contents (Elt F)),
    reshape main_v86 main_v87 rfl shapeCasts_S1x256_S256,
    unary main_v87 main_v88 (broadcastInDim S1x256 ![1] bcast_S256_S1x256_1 : (⟨S256, .f32⟩ : BufTy).Contents (Elt F) → (⟨S1x256, .f32⟩ : BufTy).Contents (Elt F)),
    unary main_v88 main_v89 (broadcastInDim S100000x256 ![0, 1] bcast_S1x256_S100000x256_0_1 : (⟨S1x256, .f32⟩ : BufTy).Contents (Elt F) → (⟨S100000x256, .f32⟩ : BufTy).Contents (Elt F)),
    binary main_v85 main_v89 main_v90 (addf : (⟨S100000x256, .f32⟩ : BufTy).Contents (Elt F) → (⟨S100000x256, .f32⟩ : BufTy).Contents (Elt F) → (⟨S100000x256, .f32⟩ : BufTy).Contents (Elt F)),
    unary main_arg7 main_v91 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v91 main_v92 rfl shapeCasts_S1x256x256_S256x256,
    binary main_v70 main_v92 main_v93 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v90 main_v93 main_v94 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sLin1_W : List (Ref sig .tc) := [main_v83, main_v84, main_v85, main_v86, main_v87, main_v88, main_v89, main_v90, main_v91, main_v92, main_v93, main_v94]
theorem sLin1_writes : (sLin1 : List (HloOp τ sig (Elt F))).Forall fun op => op.writes ⊆ (sLin1_W.map (Proc.devRef (τ := τ) .tc)).toFinset := by
  unfold sLin1; simp only [List.Forall]; exact ⟨by wr, by wr, by wr, by wr, by wr, by wr, by wr, by wr, by wr, by wr, by wr, by wr⟩
/-- A buffer they do not write keeps its contents. -/
theorem sLin1_keep (V : Valuation τ sig (Elt F)) (r : Ref sig .tc) (h : r ∉ sLin1_W) :
    after sLin1 V (no_index (Proc.devRef .tc r)) = V (Proc.devRef .tc r) :=
  after_of_writes_sub sLin1 V sLin1_writes h

/-- Operations 114 to 151 of the program, in order. -/
def sNorm1 : List (HloOp τ sig (Elt F)) :=
  [ nullary main_cst_12 (constant S_ .f32 0x00000000#32),
    binary main_v94 main_cst_12 main_v95 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_13 (constant S_ .f32 0x47C35000#32),
    unary main_cst_13 main_v96 (broadcastInDim S256 ![] bcast_S_S256 : (⟨S_, .f32⟩ : BufTy).Contents (Elt F) → (⟨S256, .f32⟩ : BufTy).Contents (Elt F)),
    binary main_v95 main_v96 main_v97 (Host.divf : (⟨S256, .f32⟩ : BufTy).Contents (Elt F) → (⟨S256, .f32⟩ : BufTy).Contents (Elt F) → (⟨S256, .f32⟩ : BufTy).Contents (Elt F)),
    unary main_v97 main_v98 (broadcastInDim S1x256 ![1] bcast_S256_S1x256_1 : (⟨S256, .f32⟩ : BufTy).Contents (Elt F) → (⟨S1x256, .f32⟩ : BufTy).Contents (Elt F)),
    unary main_v98 main_v99 (broadcastInDim S100000x256 ![0, 1] bcast_S1x256_S100000x256_0_1 : (⟨S1x256, .f32⟩ : BufTy).Contents (Elt F) → (⟨S100000x256, .f32⟩ : BufTy).Contents (Elt F)),
    binary main_v94 main_v99 main_v100 (subf : (⟨S100000x256, .f32⟩ : BufTy).Contents (Elt F) → (⟨S100000x256, .f32⟩ : BufTy).Contents (Elt F) → (⟨S100000x256, .f32⟩ : BufTy).Contents (Elt F)),
    binary main_v100 main_v100 main_v101 (mulf : (⟨S100000x256, .f32⟩ : BufTy).Contents (Elt F) → (⟨S100000x256, .f32⟩ : BufTy).Contents (Elt F) → (⟨S100000x256, .f32⟩ : BufTy).Contents (Elt F)),
    nullary main_cst_14 (constant S_ .f32 0x00000000#32),
    binary main_v101 main_cst_14 main_v102 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_15 (constant S_ .f32 0x47C35000#32),
    unary main_cst_15 main_v103 (broadcastInDim S256 ![] bcast_S_S256 : (⟨S_, .f32⟩ : BufTy).Contents (Elt F) → (⟨S256, .f32⟩ : BufTy).Contents (Elt F)),
    binary main_v102 main_v103 main_v104 (Host.divf : (⟨S256, .f32⟩ : BufTy).Contents (Elt F) → (⟨S256, .f32⟩ : BufTy).Contents (Elt F) → (⟨S256, .f32⟩ : BufTy).Contents (Elt F)),
    unary main_v97 main_v105 (broadcastInDim S1x256 ![1] bcast_S256_S1x256_1 : (⟨S256, .f32⟩ : BufTy).Contents (Elt F) → (⟨S1x256, .f32⟩ : BufTy).Contents (Elt F)),
    unary main_v105 main_v106 (broadcastInDim S100000x256 ![0, 1] bcast_S1x256_S100000x256_0_1 : (⟨S1x256, .f32⟩ : BufTy).Contents (Elt F) → (⟨S100000x256, .f32⟩ : BufTy).Contents (Elt F)),
    binary main_v94 main_v106 main_v107 (subf : (⟨S100000x256, .f32⟩ : BufTy).Contents (Elt F) → (⟨S100000x256, .f32⟩ : BufTy).Contents (Elt F) → (⟨S100000x256, .f32⟩ : BufTy).Contents (Elt F)),
    nullary main_cst_16 (constant S_ .f32 0x3727C5AC#32),
    unary main_cst_16 main_v108 (broadcastInDim S256 ![] bcast_S_S256 : (⟨S_, .f32⟩ : BufTy).Contents (Elt F) → (⟨S256, .f32⟩ : BufTy).Contents (Elt F)),
    binary main_v104 main_v108 main_v109 (addf : (⟨S256, .f32⟩ : BufTy).Contents (Elt F) → (⟨S256, .f32⟩ : BufTy).Contents (Elt F) → (⟨S256, .f32⟩ : BufTy).Contents (Elt F)),
    unary main_v109 main_v110 (Host.rsqrt : (⟨S256, .f32⟩ : BufTy).Contents (Elt F) → (⟨S256, .f32⟩ : BufTy).Contents (Elt F)),
    unary main_v110 main_v111 (broadcastInDim S1x256 ![1] bcast_S256_S1x256_1 : (⟨S256, .f32⟩ : BufTy).Contents (Elt F) → (⟨S1x256, .f32⟩ : BufTy).Contents (Elt F)),
    unary main_v111 main_v112 (broadcastInDim S100000x256 ![0, 1] bcast_S1x256_S100000x256_0_1 : (⟨S1x256, .f32⟩ : BufTy).Contents (Elt F) → (⟨S100000x256, .f32⟩ : BufTy).Contents (Elt F)),
    binary main_v107 main_v112 main_v113 (mulf : (⟨S100000x256, .f32⟩ : BufTy).Contents (Elt F) → (⟨S100000x256, .f32⟩ : BufTy).Contents (Elt F) → (⟨S100000x256, .f32⟩ : BufTy).Contents (Elt F)),
    unary main_arg8 main_v114 ((extractStridedSlice S1x256 ![1, 0] · slices_S4x256_S1x256_1_0) : (⟨S4x256, .f32⟩ : BufTy).Contents (Elt F) → (⟨S1x256, .f32⟩ : BufTy).Contents (Elt F)),
    reshape main_v114 main_v115 rfl shapeCasts_S1x256_S256,
    unary main_v115 main_v116 (broadcastInDim S1x256 ![1] bcast_S256_S1x256_1 : (⟨S256, .f32⟩ : BufTy).Contents (Elt F) → (⟨S1x256, .f32⟩ : BufTy).Contents (Elt F)),
    unary main_v116 main_v117 (broadcastInDim S100000x256 ![0, 1] bcast_S1x256_S100000x256_0_1 : (⟨S1x256, .f32⟩ : BufTy).Contents (Elt F) → (⟨S100000x256, .f32⟩ : BufTy).Contents (Elt F)),
    binary main_v113 main_v117 main_v118 (mulf : (⟨S100000x256, .f32⟩ : BufTy).Contents (Elt F) → (⟨S100000x256, .f32⟩ : BufTy).Contents (Elt F) → (⟨S100000x256, .f32⟩ : BufTy).Contents (Elt F)),
    unary main_arg9 main_v119 ((extractStridedSlice S1x256 ![1, 0] · slices_S4x256_S1x256_1_0) : (⟨S4x256, .f32⟩ : BufTy).Contents (Elt F) → (⟨S1x256, .f32⟩ : BufTy).Contents (Elt F)),
    reshape main_v119 main_v120 rfl shapeCasts_S1x256_S256,
    unary main_v120 main_v121 (broadcastInDim S1x256 ![1] bcast_S256_S1x256_1 : (⟨S256, .f32⟩ : BufTy).Contents (Elt F) → (⟨S1x256, .f32⟩ : BufTy).Contents (Elt F)),
    unary main_v121 main_v122 (broadcastInDim S100000x256 ![0, 1] bcast_S1x256_S100000x256_0_1 : (⟨S1x256, .f32⟩ : BufTy).Contents (Elt F) → (⟨S100000x256, .f32⟩ : BufTy).Contents (Elt F)),
    binary main_v118 main_v122 main_v123 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (.of main_v123) main_call2.v0 main_call2.v1 maximumf,
    binary main_v70 main_v124 main_v125 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sNorm1_W : List (Ref sig .tc) := [main_cst_12, main_v95, main_cst_13, main_v96, main_v97, main_v98, main_v99, main_v100, main_v101, main_cst_14, main_v102, main_cst_15, main_v103, main_v104, main_v105, main_v106, main_v107, main_cst_16, main_v108, main_v109, main_v110, main_v111, main_v112, main_v113, main_v114, main_v115, main_v116, main_v117, main_v118, main_v119, main_v120, main_v121, main_v122, main_v123, main_call2_cst, main_call2_v0, main_v124, main_v125]
theorem sNorm1_writes : (sNorm1 : List (HloOp τ sig (Elt F))).Forall fun op => op.writes ⊆ (sNorm1_W.map (Proc.devRef (τ := τ) .tc)).toFinset := by
  unfold sNorm1; simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer they do not write keeps its contents. -/
theorem sNorm1_keep (V : Valuation τ sig (Elt F)) (r : Ref sig .tc) (h : r ∉ sNorm1_W) :
    after sNorm1 V (no_index (Proc.devRef .tc r)) = V (Proc.devRef .tc r) :=
  after_of_writes_sub sNorm1 V sNorm1_writes h

/-- Operations 152 to 166 of the program, in order. -/
def sAgg2 : List (HloOp τ sig (Elt F)) :=
  [ nullary main_c_17 (constantI S_ 32 0#32),
    unary main_c_17 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_18 (constantI S_ 32 100000#32),
    unary main_c_18 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v125 main_v131 main_v132 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_19 (constant S_ .f32 0x00000000#32),
    unary main_cst_19 main_v133 (broadcastInDim S100000x256 ![] bcast_S_S100000x256 : (⟨S_, .f32⟩ : BufTy).Contents (Elt F) → (⟨S100000x256, .f32⟩ : BufTy).Contents (Elt F)),
    unary main_v3 main_v134 (broadcastInDim S800000x1 ![0] bcast_S800000_S800000x1_0 : (⟨S800000, .i32⟩ : BufTy).Contents (Elt F) → (⟨S800000x1, .i32⟩ : BufTy).Contents (Elt F)),
    ternary main_v133 main_v134 main_v132 main_v135 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v136 (broadcastInDim S100000x256 ![0, 1] bcast_S100000x1_S100000x256_0_1 : (⟨S100000x1, .f32⟩ : BufTy).Contents (Elt F) → (⟨S100000x256, .f32⟩ : BufTy).Contents (Elt F)),
    binary main_v135 main_v136 main_v137 (Host.divf : (⟨S100000x256, .f32⟩ : BufTy).Contents (Elt F) → (⟨S100000x256, .f32⟩ : BufTy).Contents (Elt F) → (⟨S100000x256, .f32⟩ : BufTy).Contents (Elt F)) ]
/-- The buffers they write. -/
abbrev sAgg2_W : List (Ref sig .tc) := [main_c_17, main_v126, main_v127, main_c_18, main_v128, main_v129, main_v130, main_v131, main_v132, main_cst_19, main_v133, main_v134, main_v135, main_v136, main_v137]
theorem sAgg2_writes : (sAgg2 : List (HloOp τ sig (Elt F))).Forall fun op => op.writes ⊆ (sAgg2_W.map (Proc.devRef (τ := τ) .tc)).toFinset := by
  unfold sAgg2; simp only [List.Forall]; exact ⟨by wr, by wr, by wr, by wr, by wr, by wr, by wr, by wr, by wr, by wr, by wr, by wr, by wr, by wr, by wr⟩
/-- A buffer they do not write keeps its contents. -/
theorem sAgg2_keep (V : Valuation τ sig (Elt F)) (r : Ref sig .tc) (h : r ∉ sAgg2_W) :
    after sAgg2 V (no_index (Proc.devRef .tc r)) = V (Proc.devRef .tc r) :=
  after_of_writes_sub sAgg2 V sAgg2_writes h

/-- Operations 167 to 178 of the program, in order. -/
def sLin2 : List (HloOp τ sig (Elt F)) :=
  [ unary main_arg5 main_v138 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v138 main_v139 rfl shapeCasts_S1x256x256_S256x256,
    binary main_v137 main_v139 main_v140 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v141 ((extractStridedSlice S1x256 ![2, 0] · slices_S4x256_S1x256_2_0) : (⟨S4x256, .f32⟩ : BufTy).Contents (Elt F) → (⟨S1x256, .f32⟩ : BufTy).Contents (Elt F)),
    reshape main_v141 main_v142 rfl shapeCasts_S1x256_S256,
    unary main_v142 main_v143 (broadcastInDim S1x256 ![1] bcast_S256_S1x256_1 : (⟨S256, .f32⟩ : BufTy).Contents (Elt F) → (⟨S1x256, .f32⟩ : BufTy).Contents (Elt F)),
    unary main_v143 main_v144 (broadcastInDim S100000x256 ![0, 1] bcast_S1x256_S100000x256_0_1 : (⟨S1x256, .f32⟩ : BufTy).Contents (Elt F) → (⟨S100000x256, .f32⟩ : BufTy).Contents (Elt F)),
    binary main_v140 main_v144 main_v145 (addf : (⟨S100000x256, .f32⟩ : BufTy).Contents (Elt F) → (⟨S100000x256, .f32⟩ : BufTy).Contents (Elt F) → (⟨S100000x256, .f32⟩ : BufTy).Contents (Elt F)),
    unary main_arg7 main_v146 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v146 main_v147 rfl shapeCasts_S1x256x256_S256x256,
    binary main_v125 main_v147 main_v148 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v145 main_v148 main_v149 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sLin2_W : List (Ref sig .tc) := [main_v138, main_v139, main_v140, main_v141, main_v142, main_v143, main_v144, main_v145, main_v146, main_v147, main_v148, main_v149]
theorem sLin2_writes : (sLin2 : List (HloOp τ sig (Elt F))).Forall fun op => op.writes ⊆ (sLin2_W.map (Proc.devRef (τ := τ) .tc)).toFinset := by
  unfold sLin2; simp only [List.Forall]; exact ⟨by wr, by wr, by wr, by wr, by wr, by wr, by wr, by wr, by wr, by wr, by wr, by wr⟩
/-- A buffer they do not write keeps its contents. -/
theorem sLin2_keep (V : Valuation τ sig (Elt F)) (r : Ref sig .tc) (h : r ∉ sLin2_W) :
    after sLin2 V (no_index (Proc.devRef .tc r)) = V (Proc.devRef .tc r) :=
  after_of_writes_sub sLin2 V sLin2_writes h

/-- Operations 179 to 216 of the program, in order. -/
def sNorm2 : List (HloOp τ sig (Elt F)) :=
  [ nullary main_cst_20 (constant S_ .f32 0x00000000#32),
    binary main_v149 main_cst_20 main_v150 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_21 (constant S_ .f32 0x47C35000#32),
    unary main_cst_21 main_v151 (broadcastInDim S256 ![] bcast_S_S256 : (⟨S_, .f32⟩ : BufTy).Contents (Elt F) → (⟨S256, .f32⟩ : BufTy).Contents (Elt F)),
    binary main_v150 main_v151 main_v152 (Host.divf : (⟨S256, .f32⟩ : BufTy).Contents (Elt F) → (⟨S256, .f32⟩ : BufTy).Contents (Elt F) → (⟨S256, .f32⟩ : BufTy).Contents (Elt F)),
    unary main_v152 main_v153 (broadcastInDim S1x256 ![1] bcast_S256_S1x256_1 : (⟨S256, .f32⟩ : BufTy).Contents (Elt F) → (⟨S1x256, .f32⟩ : BufTy).Contents (Elt F)),
    unary main_v153 main_v154 (broadcastInDim S100000x256 ![0, 1] bcast_S1x256_S100000x256_0_1 : (⟨S1x256, .f32⟩ : BufTy).Contents (Elt F) → (⟨S100000x256, .f32⟩ : BufTy).Contents (Elt F)),
    binary main_v149 main_v154 main_v155 (subf : (⟨S100000x256, .f32⟩ : BufTy).Contents (Elt F) → (⟨S100000x256, .f32⟩ : BufTy).Contents (Elt F) → (⟨S100000x256, .f32⟩ : BufTy).Contents (Elt F)),
    binary main_v155 main_v155 main_v156 (mulf : (⟨S100000x256, .f32⟩ : BufTy).Contents (Elt F) → (⟨S100000x256, .f32⟩ : BufTy).Contents (Elt F) → (⟨S100000x256, .f32⟩ : BufTy).Contents (Elt F)),
    nullary main_cst_22 (constant S_ .f32 0x00000000#32),
    binary main_v156 main_cst_22 main_v157 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_23 (constant S_ .f32 0x47C35000#32),
    unary main_cst_23 main_v158 (broadcastInDim S256 ![] bcast_S_S256 : (⟨S_, .f32⟩ : BufTy).Contents (Elt F) → (⟨S256, .f32⟩ : BufTy).Contents (Elt F)),
    binary main_v157 main_v158 main_v159 (Host.divf : (⟨S256, .f32⟩ : BufTy).Contents (Elt F) → (⟨S256, .f32⟩ : BufTy).Contents (Elt F) → (⟨S256, .f32⟩ : BufTy).Contents (Elt F)),
    unary main_v152 main_v160 (broadcastInDim S1x256 ![1] bcast_S256_S1x256_1 : (⟨S256, .f32⟩ : BufTy).Contents (Elt F) → (⟨S1x256, .f32⟩ : BufTy).Contents (Elt F)),
    unary main_v160 main_v161 (broadcastInDim S100000x256 ![0, 1] bcast_S1x256_S100000x256_0_1 : (⟨S1x256, .f32⟩ : BufTy).Contents (Elt F) → (⟨S100000x256, .f32⟩ : BufTy).Contents (Elt F)),
    binary main_v149 main_v161 main_v162 (subf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x3727C5AC#32),
    unary main_cst_24 main_v163 (broadcastInDim S256 ![] bcast_S_S256 : (⟨S_, .f32⟩ : BufTy).Contents (Elt F) → (⟨S256, .f32⟩ : BufTy).Contents (Elt F)),
    binary main_v159 main_v163 main_v164 (addf : (⟨S256, .f32⟩ : BufTy).Contents (Elt F) → (⟨S256, .f32⟩ : BufTy).Contents (Elt F) → (⟨S256, .f32⟩ : BufTy).Contents (Elt F)),
    unary main_v164 main_v165 (Host.rsqrt : (⟨S256, .f32⟩ : BufTy).Contents (Elt F) → (⟨S256, .f32⟩ : BufTy).Contents (Elt F)),
    unary main_v165 main_v166 (broadcastInDim S1x256 ![1] bcast_S256_S1x256_1 : (⟨S256, .f32⟩ : BufTy).Contents (Elt F) → (⟨S1x256, .f32⟩ : BufTy).Contents (Elt F)),
    unary main_v166 main_v167 (broadcastInDim S100000x256 ![0, 1] bcast_S1x256_S100000x256_0_1 : (⟨S1x256, .f32⟩ : BufTy).Contents (Elt F) → (⟨S100000x256, .f32⟩ : BufTy).Contents (Elt F)),
    binary main_v162 main_v167 main_v168 (mulf : (⟨S100000x256, .f32⟩ : BufTy).Contents (Elt F) → (⟨S100000x256, .f32⟩ : BufTy).Contents (Elt F) → (⟨S100000x256, .f32⟩ : BufTy).Contents (Elt F)),
    unary main_arg8 main_v169 ((extractStridedSlice S1x256 ![2, 0] · slices_S4x256_S1x256_2_0) : (⟨S4x256, .f32⟩ : BufTy).Contents (Elt F) → (⟨S1x256, .f32⟩ : BufTy).Contents (Elt F)),
    reshape main_v169 main_v170 rfl shapeCasts_S1x256_S256,
    unary main_v170 main_v171 (broadcastInDim S1x256 ![1] bcast_S256_S1x256_1 : (⟨S256, .f32⟩ : BufTy).Contents (Elt F) → (⟨S1x256, .f32⟩ : BufTy).Contents (Elt F)),
    unary main_v171 main_v172 (broadcastInDim S100000x256 ![0, 1] bcast_S1x256_S100000x256_0_1 : (⟨S1x256, .f32⟩ : BufTy).Contents (Elt F) → (⟨S100000x256, .f32⟩ : BufTy).Contents (Elt F)),
    binary main_v168 main_v172 main_v173 (mulf : (⟨S100000x256, .f32⟩ : BufTy).Contents (Elt F) → (⟨S100000x256, .f32⟩ : BufTy).Contents (Elt F) → (⟨S100000x256, .f32⟩ : BufTy).Contents (Elt F)),
    unary main_arg9 main_v174 ((extractStridedSlice S1x256 ![2, 0] · slices_S4x256_S1x256_2_0) : (⟨S4x256, .f32⟩ : BufTy).Contents (Elt F) → (⟨S1x256, .f32⟩ : BufTy).Contents (Elt F)),
    reshape main_v174 main_v175 rfl shapeCasts_S1x256_S256,
    unary main_v175 main_v176 (broadcastInDim S1x256 ![1] bcast_S256_S1x256_1 : (⟨S256, .f32⟩ : BufTy).Contents (Elt F) → (⟨S1x256, .f32⟩ : BufTy).Contents (Elt F)),
    unary main_v176 main_v177 (broadcastInDim S100000x256 ![0, 1] bcast_S1x256_S100000x256_0_1 : (⟨S1x256, .f32⟩ : BufTy).Contents (Elt F) → (⟨S100000x256, .f32⟩ : BufTy).Contents (Elt F)),
    binary main_v173 main_v177 main_v178 (addf : (⟨S100000x256, .f32⟩ : BufTy).Contents (Elt F) → (⟨S100000x256, .f32⟩ : BufTy).Contents (Elt F) → (⟨S100000x256, .f32⟩ : BufTy).Contents (Elt F)),
    TRef.nullary main_call3.cst (constant S_ .f32 0x00000000#32),
    TRef.unary main_call3.cst main_call3.v0 (broadcastInDim S100000x256 ![] bcast_S_S100000x256),
    TRef.binary (.of main_v178) main_call3.v0 main_call3.v1 maximumf,
    binary main_v125 main_v179 main_v180 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sNorm2_W : List (Ref sig .tc) := [main_cst_20, main_v150, main_cst_21, main_v151, main_v152, main_v153, main_v154, main_v155, main_v156, main_cst_22, main_v157, main_cst_23, main_v158, main_v159, main_v160, main_v161, main_v162, main_cst_24, main_v163, main_v164, main_v165, main_v166, main_v167, main_v168, main_v169, main_v170, main_v171, main_v172, main_v173, main_v174, main_v175, main_v176, main_v177, main_v178, main_call3_cst, main_call3_v0, main_v179, main_v180]
theorem sNorm2_writes : (sNorm2 : List (HloOp τ sig (Elt F))).Forall fun op => op.writes ⊆ (sNorm2_W.map (Proc.devRef (τ := τ) .tc)).toFinset := by
  unfold sNorm2; simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer they do not write keeps its contents. -/
theorem sNorm2_keep (V : Valuation τ sig (Elt F)) (r : Ref sig .tc) (h : r ∉ sNorm2_W) :
    after sNorm2 V (no_index (Proc.devRef .tc r)) = V (Proc.devRef .tc r) :=
  after_of_writes_sub sNorm2 V sNorm2_writes h

/-- Operations 217 to 231 of the program, in order. -/
def sAgg3 : List (HloOp τ sig (Elt F)) :=
  [ nullary main_c_25 (constantI S_ 32 0#32),
    unary main_c_25 main_v181 (broadcastInDim S800000 ![] bcast_S_S800000 : (⟨S_, .i32⟩ : BufTy).Contents (Elt F) → (⟨S800000, .i32⟩ : BufTy).Contents (Elt F)),
    binary main_v1 main_v181 main_v182 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v183 (broadcastInDim S800000 ![] bcast_S_S800000 : (⟨S_, .i32⟩ : BufTy).Contents (Elt F) → (⟨S800000, .i32⟩ : BufTy).Contents (Elt F)),
    binary main_v1 main_v183 main_v184 (addi : (⟨S800000, .i32⟩ : BufTy).Contents (Elt F) → (⟨S800000, .i32⟩ : BufTy).Contents (Elt F) → (⟨S800000, .i32⟩ : BufTy).Contents (Elt F)),
    ternary main_v182 main_v184 main_v1 main_v185 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v185 main_v186 (broadcastInDim S800000x1 ![0] bcast_S800000_S800000x1_0 : (⟨S800000, .i32⟩ : BufTy).Contents (Elt F) → (⟨S800000x1, .i32⟩ : BufTy).Contents (Elt F)),
    binary main_v180 main_v186 main_v187 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_27 (constant S_ .f32 0x00000000#32),
    unary main_cst_27 main_v188 (broadcastInDim S100000x256 ![] bcast_S_S100000x256 : (⟨S_, .f32⟩ : BufTy).Contents (Elt F) → (⟨S100000x256, .f32⟩ : BufTy).Contents (Elt F)),
    unary main_v3 main_v189 (broadcastInDim S800000x1 ![0] bcast_S800000_S800000x1_0 : (⟨S800000, .i32⟩ : BufTy).Contents (Elt F) → (⟨S800000x1, .i32⟩ : BufTy).Contents (Elt F)),
    ternary main_v188 main_v189 main_v187 main_v190 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    unary main_v15 main_v191 (broadcastInDim S100000x256 ![0, 1] bcast_S100000x1_S100000x256_0_1 : (⟨S100000x1, .f32⟩ : BufTy).Contents (Elt F) → (⟨S100000x256, .f32⟩ : BufTy).Contents (Elt F)),
    binary main_v190 main_v191 main_v192 (Host.divf : (⟨S100000x256, .f32⟩ : BufTy).Contents (Elt F) → (⟨S100000x256, .f32⟩ : BufTy).Contents (Elt F) → (⟨S100000x256, .f32⟩ : BufTy).Contents (Elt F)) ]
/-- The buffers they write. -/
abbrev sAgg3_W : List (Ref sig .tc) := [main_c_25, main_v181, main_v182, main_c_26, main_v183, main_v184, main_v185, main_v186, main_v187, main_cst_27, main_v188, main_v189, main_v190, main_v191, main_v192]
theorem sAgg3_writes : (sAgg3 : List (HloOp τ sig (Elt F))).Forall fun op => op.writes ⊆ (sAgg3_W.map (Proc.devRef (τ := τ) .tc)).toFinset := by
  unfold sAgg3; simp only [List.Forall]; exact ⟨by wr, by wr, by wr, by wr, by wr, by wr, by wr, by wr, by wr, by wr, by wr, by wr, by wr, by wr, by wr⟩
/-- A buffer they do not write keeps its contents. -/
theorem sAgg3_keep (V : Valuation τ sig (Elt F)) (r : Ref sig .tc) (h : r ∉ sAgg3_W) :
    after sAgg3 V (no_index (Proc.devRef .tc r)) = V (Proc.devRef .tc r) :=
  after_of_writes_sub sAgg3 V sAgg3_writes h

/-- Operations 232 to 243 of the program, in order. -/
def sLin3 : List (HloOp τ sig (Elt F)) :=
  [ unary main_arg5 main_v193 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v193 main_v194 rfl shapeCasts_S1x256x256_S256x256,
    binary main_v192 main_v194 main_v195 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v196 ((extractStridedSlice S1x256 ![3, 0] · slices_S4x256_S1x256_3_0) : (⟨S4x256, .f32⟩ : BufTy).Contents (Elt F) → (⟨S1x256, .f32⟩ : BufTy).Contents (Elt F)),
    reshape main_v196 main_v197 rfl shapeCasts_S1x256_S256,
    unary main_v197 main_v198 (broadcastInDim S1x256 ![1] bcast_S256_S1x256_1 : (⟨S256, .f32⟩ : BufTy).Contents (Elt F) → (⟨S1x256, .f32⟩ : BufTy).Contents (Elt F)),
    unary main_v198 main_v199 (broadcastInDim S100000x256 ![0, 1] bcast_S1x256_S100000x256_0_1 : (⟨S1x256, .f32⟩ : BufTy).Contents (Elt F) → (⟨S100000x256, .f32⟩ : BufTy).Contents (Elt F)),
    binary main_v195 main_v199 main_v200 (addf : (⟨S100000x256, .f32⟩ : BufTy).Contents (Elt F) → (⟨S100000x256, .f32⟩ : BufTy).Contents (Elt F) → (⟨S100000x256, .f32⟩ : BufTy).Contents (Elt F)),
    unary main_arg7 main_v201 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v201 main_v202 rfl shapeCasts_S1x256x256_S256x256,
    binary main_v180 main_v202 main_v203 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v200 main_v203 main_v204 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sLin3_W : List (Ref sig .tc) := [main_v193, main_v194, main_v195, main_v196, main_v197, main_v198, main_v199, main_v200, main_v201, main_v202, main_v203, main_v204]
theorem sLin3_writes : (sLin3 : List (HloOp τ sig (Elt F))).Forall fun op => op.writes ⊆ (sLin3_W.map (Proc.devRef (τ := τ) .tc)).toFinset := by
  unfold sLin3; simp only [List.Forall]; exact ⟨by wr, by wr, by wr, by wr, by wr, by wr, by wr, by wr, by wr, by wr, by wr, by wr⟩
/-- A buffer they do not write keeps its contents. -/
theorem sLin3_keep (V : Valuation τ sig (Elt F)) (r : Ref sig .tc) (h : r ∉ sLin3_W) :
    after sLin3 V (no_index (Proc.devRef .tc r)) = V (Proc.devRef .tc r) :=
  after_of_writes_sub sLin3 V sLin3_writes h

/-- Operations 244 to 281 of the program, in order. -/
def sNorm3 : List (HloOp τ sig (Elt F)) :=
  [ nullary main_cst_28 (constant S_ .f32 0x00000000#32),
    binary main_v204 main_cst_28 main_v205 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_29 (constant S_ .f32 0x47C35000#32),
    unary main_cst_29 main_v206 (broadcastInDim S256 ![] bcast_S_S256 : (⟨S_, .f32⟩ : BufTy).Contents (Elt F) → (⟨S256, .f32⟩ : BufTy).Contents (Elt F)),
    binary main_v205 main_v206 main_v207 (Host.divf : (⟨S256, .f32⟩ : BufTy).Contents (Elt F) → (⟨S256, .f32⟩ : BufTy).Contents (Elt F) → (⟨S256, .f32⟩ : BufTy).Contents (Elt F)),
    unary main_v207 main_v208 (broadcastInDim S1x256 ![1] bcast_S256_S1x256_1 : (⟨S256, .f32⟩ : BufTy).Contents (Elt F) → (⟨S1x256, .f32⟩ : BufTy).Contents (Elt F)),
    unary main_v208 main_v209 (broadcastInDim S100000x256 ![0, 1] bcast_S1x256_S100000x256_0_1 : (⟨S1x256, .f32⟩ : BufTy).Contents (Elt F) → (⟨S100000x256, .f32⟩ : BufTy).Contents (Elt F)),
    binary main_v204 main_v209 main_v210 (subf : (⟨S100000x256, .f32⟩ : BufTy).Contents (Elt F) → (⟨S100000x256, .f32⟩ : BufTy).Contents (Elt F) → (⟨S100000x256, .f32⟩ : BufTy).Contents (Elt F)),
    binary main_v210 main_v210 main_v211 (mulf : (⟨S100000x256, .f32⟩ : BufTy).Contents (Elt F) → (⟨S100000x256, .f32⟩ : BufTy).Contents (Elt F) → (⟨S100000x256, .f32⟩ : BufTy).Contents (Elt F)),
    nullary main_cst_30 (constant S_ .f32 0x00000000#32),
    binary main_v211 main_cst_30 main_v212 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_31 (constant S_ .f32 0x47C35000#32),
    unary main_cst_31 main_v213 (broadcastInDim S256 ![] bcast_S_S256 : (⟨S_, .f32⟩ : BufTy).Contents (Elt F) → (⟨S256, .f32⟩ : BufTy).Contents (Elt F)),
    binary main_v212 main_v213 main_v214 (Host.divf : (⟨S256, .f32⟩ : BufTy).Contents (Elt F) → (⟨S256, .f32⟩ : BufTy).Contents (Elt F) → (⟨S256, .f32⟩ : BufTy).Contents (Elt F)),
    unary main_v207 main_v215 (broadcastInDim S1x256 ![1] bcast_S256_S1x256_1 : (⟨S256, .f32⟩ : BufTy).Contents (Elt F) → (⟨S1x256, .f32⟩ : BufTy).Contents (Elt F)),
    unary main_v215 main_v216 (broadcastInDim S100000x256 ![0, 1] bcast_S1x256_S100000x256_0_1 : (⟨S1x256, .f32⟩ : BufTy).Contents (Elt F) → (⟨S100000x256, .f32⟩ : BufTy).Contents (Elt F)),
    binary main_v204 main_v216 main_v217 (subf : (⟨S100000x256, .f32⟩ : BufTy).Contents (Elt F) → (⟨S100000x256, .f32⟩ : BufTy).Contents (Elt F) → (⟨S100000x256, .f32⟩ : BufTy).Contents (Elt F)),
    nullary main_cst_32 (constant S_ .f32 0x3727C5AC#32),
    unary main_cst_32 main_v218 (broadcastInDim S256 ![] bcast_S_S256 : (⟨S_, .f32⟩ : BufTy).Contents (Elt F) → (⟨S256, .f32⟩ : BufTy).Contents (Elt F)),
    binary main_v214 main_v218 main_v219 (addf : (⟨S256, .f32⟩ : BufTy).Contents (Elt F) → (⟨S256, .f32⟩ : BufTy).Contents (Elt F) → (⟨S256, .f32⟩ : BufTy).Contents (Elt F)),
    unary main_v219 main_v220 (Host.rsqrt : (⟨S256, .f32⟩ : BufTy).Contents (Elt F) → (⟨S256, .f32⟩ : BufTy).Contents (Elt F)),
    unary main_v220 main_v221 (broadcastInDim S1x256 ![1] bcast_S256_S1x256_1 : (⟨S256, .f32⟩ : BufTy).Contents (Elt F) → (⟨S1x256, .f32⟩ : BufTy).Contents (Elt F)),
    unary main_v221 main_v222 (broadcastInDim S100000x256 ![0, 1] bcast_S1x256_S100000x256_0_1 : (⟨S1x256, .f32⟩ : BufTy).Contents (Elt F) → (⟨S100000x256, .f32⟩ : BufTy).Contents (Elt F)),
    binary main_v217 main_v222 main_v223 (mulf : (⟨S100000x256, .f32⟩ : BufTy).Contents (Elt F) → (⟨S100000x256, .f32⟩ : BufTy).Contents (Elt F) → (⟨S100000x256, .f32⟩ : BufTy).Contents (Elt F)),
    unary main_arg8 main_v224 ((extractStridedSlice S1x256 ![3, 0] · slices_S4x256_S1x256_3_0) : (⟨S4x256, .f32⟩ : BufTy).Contents (Elt F) → (⟨S1x256, .f32⟩ : BufTy).Contents (Elt F)),
    reshape main_v224 main_v225 rfl shapeCasts_S1x256_S256,
    unary main_v225 main_v226 (broadcastInDim S1x256 ![1] bcast_S256_S1x256_1 : (⟨S256, .f32⟩ : BufTy).Contents (Elt F) → (⟨S1x256, .f32⟩ : BufTy).Contents (Elt F)),
    unary main_v226 main_v227 (broadcastInDim S100000x256 ![0, 1] bcast_S1x256_S100000x256_0_1 : (⟨S1x256, .f32⟩ : BufTy).Contents (Elt F) → (⟨S100000x256, .f32⟩ : BufTy).Contents (Elt F)),
    binary main_v223 main_v227 main_v228 (mulf : (⟨S100000x256, .f32⟩ : BufTy).Contents (Elt F) → (⟨S100000x256, .f32⟩ : BufTy).Contents (Elt F) → (⟨S100000x256, .f32⟩ : BufTy).Contents (Elt F)),
    unary main_arg9 main_v229 ((extractStridedSlice S1x256 ![3, 0] · slices_S4x256_S1x256_3_0) : (⟨S4x256, .f32⟩ : BufTy).Contents (Elt F) → (⟨S1x256, .f32⟩ : BufTy).Contents (Elt F)),
    reshape main_v229 main_v230 rfl shapeCasts_S1x256_S256,
    unary main_v230 main_v231 (broadcastInDim S1x256 ![1] bcast_S256_S1x256_1 : (⟨S256, .f32⟩ : BufTy).Contents (Elt F) → (⟨S1x256, .f32⟩ : BufTy).Contents (Elt F)),
    unary main_v231 main_v232 (broadcastInDim S100000x256 ![0, 1] bcast_S1x256_S100000x256_0_1 : (⟨S1x256, .f32⟩ : BufTy).Contents (Elt F) → (⟨S100000x256, .f32⟩ : BufTy).Contents (Elt F)),
    binary main_v228 main_v232 main_v233 (addf : (⟨S100000x256, .f32⟩ : BufTy).Contents (Elt F) → (⟨S100000x256, .f32⟩ : BufTy).Contents (Elt F) → (⟨S100000x256, .f32⟩ : BufTy).Contents (Elt F)),
    TRef.nullary main_call4.cst (constant S_ .f32 0x00000000#32),
    TRef.unary main_call4.cst main_call4.v0 (broadcastInDim S100000x256 ![] bcast_S_S100000x256),
    TRef.binary (.of main_v233) main_call4.v0 main_call4.v1 maximumf,
    binary main_v180 main_v234 main_v235 (addf : (⟨S100000x256, .f32⟩ : BufTy).Contents (Elt F) → (⟨S100000x256, .f32⟩ : BufTy).Contents (Elt F) → (⟨S100000x256, .f32⟩ : BufTy).Contents (Elt F)) ]
/-- The buffers they write. -/
abbrev sNorm3_W : List (Ref sig .tc) := [main_cst_28, main_v205, main_cst_29, main_v206, main_v207, main_v208, main_v209, main_v210, main_v211, main_cst_30, main_v212, main_cst_31, main_v213, main_v214, main_v215, main_v216, main_v217, main_cst_32, main_v218, main_v219, main_v220, main_v221, main_v222, main_v223, main_v224, main_v225, main_v226, main_v227, main_v228, main_v229, main_v230, main_v231, main_v232, main_v233, main_call4_cst, main_call4_v0, main_v234, main_v235]
theorem sNorm3_writes : (sNorm3 : List (HloOp τ sig (Elt F))).Forall fun op => op.writes ⊆ (sNorm3_W.map (Proc.devRef (τ := τ) .tc)).toFinset := by
  unfold sNorm3; simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩
/-- A buffer they do not write keeps its contents. -/
theorem sNorm3_keep (V : Valuation τ sig (Elt F)) (r : Ref sig .tc) (h : r ∉ sNorm3_W) :
    after sNorm3 V (no_index (Proc.devRef .tc r)) = V (Proc.devRef .tc r) :=
  after_of_writes_sub sNorm3 V sNorm3_writes h

/-- Operations 282 to 308 of the program, in order. -/
def sTail : List (HloOp τ sig (Elt F)) :=
  [ nullary main_cst_33 (constant S_ .f32 0x3F800000#32),
    unary main_cst_33 main_v236 (broadcastInDim S100000 ![] bcast_S_S100000 : (⟨S_, .f32⟩ : BufTy).Contents (Elt F) → (⟨S100000, .f32⟩ : BufTy).Contents (Elt F)),
    nullary main_cst_34 (constant S_ .f32 0x00000000#32),
    unary main_cst_34 main_v237 (broadcastInDim S256 ![] bcast_S_S256 : (⟨S_, .f32⟩ : BufTy).Contents (Elt F) → (⟨S256, .f32⟩ : BufTy).Contents (Elt F)),
    unary main_arg2 main_v238 (broadcastInDim S100000x1 ![0] bcast_S100000_S100000x1_0 : (⟨S100000, .i32⟩ : BufTy).Contents (Elt F) → (⟨S100000x1, .i32⟩ : BufTy).Contents (Elt F)),
    ternary main_v237 main_v238 main_v236 main_v239 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_35 (constant S_ .f32 0x00000000#32),
    unary main_cst_35 main_v240 (broadcastInDim S256x256 ![] bcast_S_S256x256 : (⟨S_, .f32⟩ : BufTy).Contents (Elt F) → (⟨S256x256, .f32⟩ : BufTy).Contents (Elt F)),
    unary main_arg2 main_v241 (broadcastInDim S100000x1 ![0] bcast_S100000_S100000x1_0 : (⟨S100000, .i32⟩ : BufTy).Contents (Elt F) → (⟨S100000x1, .i32⟩ : BufTy).Contents (Elt F)),
    ternary main_v240 main_v241 main_v235 main_v242 ((fun x i u => Host.scatterAdd scatter_S256x256_S100000x1_S100000x256_1_0_0_1 x i u) : (⟨S256x256, .f32⟩ : BufTy).Contents (Elt F) → (⟨S100000x1, .i32⟩ : BufTy).Contents (Elt F) → (⟨S100000x256, .f32⟩ : BufTy).Contents (Elt F) → (⟨S256x256, .f32⟩ : BufTy).Contents (Elt F)),
    nullary main_cst_36 (constant S_ .f32 0x3F800000#32),
    unary main_cst_36 main_v243 (broadcastInDim S256 ![] bcast_S_S256 : (⟨S_, .f32⟩ : BufTy).Contents (Elt F) → (⟨S256, .f32⟩ : BufTy).Contents (Elt F)),
    binary main_v239 main_v243 main_v244 (maximumf : (⟨S256, .f32⟩ : BufTy).Contents (Elt F) → (⟨S256, .f32⟩ : BufTy).Contents (Elt F) → (⟨S256, .f32⟩ : BufTy).Contents (Elt F)),
    unary main_v244 main_v245 (broadcastInDim S256x1 ![0] bcast_S256_S256x1_0 : (⟨S256, .f32⟩ : BufTy).Contents (Elt F) → (⟨S256x1, .f32⟩ : BufTy).Contents (Elt F)),
    unary main_v245 main_v246 (broadcastInDim S256x256 ![0, 1] bcast_S256x1_S256x256_0_1 : (⟨S256x1, .f32⟩ : BufTy).Contents (Elt F) → (⟨S256x256, .f32⟩ : BufTy).Contents (Elt F)),
    binary main_v242 main_v246 main_v247 (Host.divf : (⟨S256x256, .f32⟩ : BufTy).Contents (Elt F) → (⟨S256x256, .f32⟩ : BufTy).Contents (Elt F) → (⟨S256x256, .f32⟩ : BufTy).Contents (Elt F)),
    binary main_v247 main_arg10 main_v248 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg11 main_v249 (broadcastInDim S1x128 ![1] bcast_S128_S1x128_1 : (⟨S128, .f32⟩ : BufTy).Contents (Elt F) → (⟨S1x128, .f32⟩ : BufTy).Contents (Elt F)),
    unary main_v249 main_v250 (broadcastInDim S256x128 ![0, 1] bcast_S1x128_S256x128_0_1 : (⟨S1x128, .f32⟩ : BufTy).Contents (Elt F) → (⟨S256x128, .f32⟩ : BufTy).Contents (Elt F)),
    binary main_v248 main_v250 main_v251 (addf : (⟨S256x128, .f32⟩ : BufTy).Contents (Elt F) → (⟨S256x128, .f32⟩ : BufTy).Contents (Elt F) → (⟨S256x128, .f32⟩ : BufTy).Contents (Elt F)),
    TRef.nullary main_call5.cst (constant S_ .f32 0x00000000#32),
    TRef.unary main_call5.cst main_call5.v0 (broadcastInDim S256x128 ![] bcast_S_S256x128),
    TRef.binary (.of main_v251) main_call5.v0 main_call5.v1 maximumf,
    binary main_v252 main_arg12 main_v253 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg13 main_v254 (broadcastInDim S1x1 ![1] bcast_S1_S1x1_1 : (⟨S1, .f32⟩ : BufTy).Contents (Elt F) → (⟨S1x1, .f32⟩ : BufTy).Contents (Elt F)),
    unary main_v254 main_v255 (broadcastInDim S256x1 ![0, 1] bcast_S1x1_S256x1_0_1 : (⟨S1x1, .f32⟩ : BufTy).Contents (Elt F) → (⟨S256x1, .f32⟩ : BufTy).Contents (Elt F)),
    binary main_v253 main_v255 main_v256 (addf : (⟨S256x1, .f32⟩ : BufTy).Contents (Elt F) → (⟨S256x1, .f32⟩ : BufTy).Contents (Elt F) → (⟨S256x1, .f32⟩ : BufTy).Contents (Elt F)) ]
/-- The buffers they write. -/
abbrev sTail_W : List (Ref sig .tc) := [main_cst_33, main_v236, main_cst_34, main_v237, main_v238, main_v239, main_cst_35, main_v240, main_v241, main_v242, main_cst_36, main_v243, main_v244, main_v245, main_v246, main_v247, main_v248, main_v249, main_v250, main_v251, main_call5_cst, main_call5_v0, main_v252, main_v253, main_v254, main_v255, main_v256]
theorem sTail_writes : (sTail : List (HloOp τ sig (Elt F))).Forall fun op => op.writes ⊆ (sTail_W.map (Proc.devRef (τ := τ) .tc)).toFinset := by
  unfold sTail; simp only [List.Forall]; exact ⟨by wr, by wr, by wr, by wr, by wr, by wr, by wr, by wr, by wr, by wr, by wr, by wr, by wr, by wr, by wr, by wr, by wr, by wr, by wr, by wr, by wr, by wr, by wr, by wr, by wr, by wr, by wr⟩
/-- A buffer they do not write keeps its contents. -/
theorem sTail_keep (V : Valuation τ sig (Elt F)) (r : Ref sig .tc) (h : r ∉ sTail_W) :
    after sTail V (no_index (Proc.devRef .tc r)) = V (Proc.devRef .tc r) :=
  after_of_writes_sub sTail V sTail_writes h

/-! ## What each slice computes -/

set_option maxHeartbeats 4000000 in
theorem sEdge_src (V : Valuation τ sig (Elt Ideal)) : after (sEdge (F := Ideal)) V (no_index (Proc.devRef .tc main_v1)) = srcOps (V (Proc.devRef .tc main_arg1)) := by
  unfold sEdge; after_results_simp; rfl
set_option maxHeartbeats 4000000 in
theorem sEdge_dst (V : Valuation τ sig (Elt Ideal)) : after (sEdge (F := Ideal)) V (no_index (Proc.devRef .tc main_v3)) = dstOps (V (Proc.devRef .tc main_arg1)) := by
  unfold sEdge; after_results_simp; rfl
set_option maxHeartbeats 4000000 in
theorem sProj_out (V : Valuation τ sig (Elt Ideal)) : after (sProj (F := Ideal)) V (no_index (Proc.devRef .tc main_v8))
    = projOps (V (Proc.devRef .tc main_arg0)) (V (Proc.devRef .tc main_arg3)) (V (Proc.devRef .tc main_arg4)) := by
  unfold sProj; after_results_simp; rfl
set_option maxHeartbeats 4000000 in
theorem sDeg_out (V : Valuation τ sig (Elt Ideal)) : after (sDeg (F := Ideal)) V (no_index (Proc.devRef .tc main_v15)) = degOps (V (Proc.devRef .tc main_v3)) := by
  unfold sDeg; after_results_simp; rfl

set_option maxHeartbeats 4000000 in
theorem sAgg0_out (V : Valuation τ sig (Elt Ideal)) : after (sAgg0 (F := Ideal)) V (no_index (Proc.devRef .tc main_v27))
    = aggOps (V (Proc.devRef .tc main_v1)) (V (Proc.devRef .tc main_v3)) (V (Proc.devRef .tc main_v15)) (V (Proc.devRef .tc main_v8)) := by
  unfold sAgg0; after_results_simp; rfl
set_option maxHeartbeats 4000000 in
theorem sLin0_out (V : Valuation τ sig (Elt Ideal)) : after (sLin0 (F := Ideal)) V (no_index (Proc.devRef .tc main_v39))
    = linOps0 (V (Proc.devRef .tc main_v8)) (V (Proc.devRef .tc main_v27)) (V (Proc.devRef .tc main_arg5)) (V (Proc.devRef .tc main_arg6)) (V (Proc.devRef .tc main_arg7)) := by
  unfold sLin0; after_results_simp; rfl
set_option maxHeartbeats 4000000 in
theorem sNorm0_out (V : Valuation τ sig (Elt Ideal)) : after (sNorm0 (F := Ideal)) V (no_index (Proc.devRef .tc main_v70))
    = normOps0 (V (Proc.devRef .tc main_v39)) (V (Proc.devRef .tc main_v8)) (V (Proc.devRef .tc main_arg8)) (V (Proc.devRef .tc main_arg9)) := by
  unfold sNorm0; after_results_simp; rfl

set_option maxHeartbeats 4000000 in
theorem sAgg1_out (V : Valuation τ sig (Elt Ideal)) : after (sAgg1 (F := Ideal)) V (no_index (Proc.devRef .tc main_v82))
    = aggOps (V (Proc.devRef .tc main_v1)) (V (Proc.devRef .tc main_v3)) (V (Proc.devRef .tc main_v15)) (V (Proc.devRef .tc main_v70)) := by
  unfold sAgg1; after_results_simp; rfl
set_option maxHeartbeats 4000000 in
theorem sLin1_out (V : Valuation τ sig (Elt Ideal)) : after (sLin1 (F := Ideal)) V (no_index (Proc.devRef .tc main_v94))
    = linOps1 (V (Proc.devRef .tc main_v70)) (V (Proc.devRef .tc main_v82)) (V (Proc.devRef .tc main_arg5)) (V (Proc.devRef .tc main_arg6)) (V (Proc.devRef .tc main_arg7)) := by
  unfold sLin1; after_results_simp; rfl
set_option maxHeartbeats 4000000 in
theorem sNorm1_out (V : Valuation τ sig (Elt Ideal)) : after (sNorm1 (F := Ideal)) V (no_index (Proc.devRef .tc main_v125))
    = normOps1 (V (Proc.devRef .tc main_v94)) (V (Proc.devRef .tc main_v70)) (V (Proc.devRef .tc main_arg8)) (V (Proc.devRef .tc main_arg9)) := by
  unfold sNorm1; after_results_simp; rfl

set_option maxHeartbeats 4000000 in
theorem sAgg2_out (V : Valuation τ sig (Elt Ideal)) : after (sAgg2 (F := Ideal)) V (no_index (Proc.devRef .tc main_v137))
    = aggOps (V (Proc.devRef .tc main_v1)) (V (Proc.devRef .tc main_v3)) (V (Proc.devRef .tc main_v15)) (V (Proc.devRef .tc main_v125)) := by
  unfold sAgg2; after_results_simp; rfl
set_option maxHeartbeats 4000000 in
theorem sLin2_out (V : Valuation τ sig (Elt Ideal)) : after (sLin2 (F := Ideal)) V (no_index (Proc.devRef .tc main_v149))
    = linOps2 (V (Proc.devRef .tc main_v125)) (V (Proc.devRef .tc main_v137)) (V (Proc.devRef .tc main_arg5)) (V (Proc.devRef .tc main_arg6)) (V (Proc.devRef .tc main_arg7)) := by
  unfold sLin2; after_results_simp; rfl
set_option maxHeartbeats 4000000 in
theorem sNorm2_out (V : Valuation τ sig (Elt Ideal)) : after (sNorm2 (F := Ideal)) V (no_index (Proc.devRef .tc main_v180))
    = normOps2 (V (Proc.devRef .tc main_v149)) (V (Proc.devRef .tc main_v125)) (V (Proc.devRef .tc main_arg8)) (V (Proc.devRef .tc main_arg9)) := by
  unfold sNorm2; after_results_simp; rfl

set_option maxHeartbeats 4000000 in
theorem sAgg3_out (V : Valuation τ sig (Elt Ideal)) : after (sAgg3 (F := Ideal)) V (no_index (Proc.devRef .tc main_v192))
    = aggOps (V (Proc.devRef .tc main_v1)) (V (Proc.devRef .tc main_v3)) (V (Proc.devRef .tc main_v15)) (V (Proc.devRef .tc main_v180)) := by
  unfold sAgg3; after_results_simp; rfl
set_option maxHeartbeats 4000000 in
theorem sLin3_out (V : Valuation τ sig (Elt Ideal)) : after (sLin3 (F := Ideal)) V (no_index (Proc.devRef .tc main_v204))
    = linOps3 (V (Proc.devRef .tc main_v180)) (V (Proc.devRef .tc main_v192)) (V (Proc.devRef .tc main_arg5)) (V (Proc.devRef .tc main_arg6)) (V (Proc.devRef .tc main_arg7)) := by
  unfold sLin3; after_results_simp; rfl
set_option maxHeartbeats 4000000 in
theorem sNorm3_out (V : Valuation τ sig (Elt Ideal)) : after (sNorm3 (F := Ideal)) V (no_index (Proc.devRef .tc main_v235))
    = normOps3 (V (Proc.devRef .tc main_v204)) (V (Proc.devRef .tc main_v180)) (V (Proc.devRef .tc main_arg8)) (V (Proc.devRef .tc main_arg9)) := by
  unfold sNorm3; after_results_simp; rfl

set_option maxHeartbeats 4000000 in
theorem sTail_out (V : Valuation τ sig (Elt Ideal)) : after (sTail (F := Ideal)) V (no_index (Proc.devRef .tc main_v256))
    = tailOps (V (Proc.devRef .tc main_arg2)) (V (Proc.devRef .tc main_arg10)) (V (Proc.devRef .tc main_arg11)) (V (Proc.devRef .tc main_arg12)) (V (Proc.devRef .tc main_arg13)) (V (Proc.devRef .tc main_v235)) := by
  unfold sTail; after_results_simp; rfl

/-! ## The composition -/

set_option maxHeartbeats 8000000 in
/-- The program's operations are the slices, in order. -/
theorem ops_eq : (RunH.ops (F := F)) = sEdge ++ sProj ++ sDeg ++ sAgg0 ++ sLin0 ++ sNorm0 ++ sAgg1 ++ sLin1 ++ sNorm1 ++ sAgg2 ++ sLin2 ++ sNorm2 ++ sAgg3 ++ sLin3 ++ sNorm3 ++ sTail := by
  simp only [RunH.ops, RunH.ops0, RunH.ops1, RunH.ops2, RunH.ops3, RunH.ops4, sEdge, sProj, sDeg, sAgg0, sLin0, sNorm0, sAgg1, sLin1, sNorm1, sAgg2, sLin2, sNorm2, sAgg3, sLin3, sNorm3, sTail,
    List.cons_append, List.nil_append, List.append_assoc]

set_option maxHeartbeats 8000000 in
/-- The reference program's result buffer after all its operations, from any contents V of the buffers, is refOut of
    the argument buffers' contents. -/
theorem ref_out (V : Valuation τ sig (Elt Ideal)) :
    after (RunH.ops (F := Ideal)) V (Proc.devRef .tc main_v256)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_eq]
  simp only [StableHlo.after_append]
  simp (disch := decide) only [sTail_out, sNorm3_out, sLin3_out, sAgg3_out, sNorm2_out, sLin2_out, sAgg2_out, sNorm1_out, sLin1_out, sAgg1_out, sNorm0_out, sLin0_out, sAgg0_out, sDeg_out, sProj_out, sEdge_src, sEdge_dst,
    sEdge_keep, sProj_keep, sDeg_keep, sAgg0_keep, sLin0_keep, sNorm0_keep, sAgg1_keep, sLin1_keep, sNorm1_keep, sAgg2_keep, sLin2_keep, sNorm2_keep, sAgg3_keep, sLin3_keep, sNorm3_keep, sTail_keep]
  rfl

/-- THE REFERENCE'S RESULT: from a launch memory m, on device c, the result buffer after all the operations is the shared
    tail of the features after the fourth layer, a function of the argument buffers' launch contents. -/
theorem ref_result (m : (ℓ : Loc nD τ sig) → Buf (Elt Ideal) ℓ) (c : Dev nD) :
    after (RunH.ops (F := Ideal)) (launchContents m c) (Proc.devRef .tc main_v256)
      = tailOps (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13))
          (specH (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9)) 4) := by
  rw [ref_out, refOut_eq]

end Cert.ReferenceIdeal.RefValue
-- ==== Proof.ChainRef.lean ====
/-
  The reference's result, composed stage by stage out of its own host operations, is the result in the reference's
  form of the four-layer chain: both are the closing pooling and predictor of the two-pass layers applied four times
  to the input projection. With the chain's law it follows that, from real arguments, the reference's result is the
  result in the kernel's form.
-/
import proofs.«111242_j77756087927556_1_alg».proof.Proof.Chain
import proofs.«111242_j77756087927556_1_alg».proof.Proof.RefChain

noncomputable section

namespace Cert.Chain

open Idealize.ShloMosaic Idealize.ShloMosaic.ValueIdx
open Cert.Spec
open Cert.ReferenceIdeal (S2x800000 S800000 S100000 S100000x1 S100000x256 S256x128 S128 S128x1 S1 S256x1)

variable [Cert.ReferenceIdeal.Facts₀]
variable (x0 : Arr2 100000 128) (x1 : IVec S2x800000 32) (x2 : IVec S100000 32) (x3 : Arr2 128 256) (x4 : Arr1 256)
  (x5 : Arr3 4 256 256) (x6 : Arr2 4 256) (x7 : Arr3 4 256 256) (x8 x9 : Arr2 4 256)
  (x10 : FVec Ideal S256x128 .f32) (x11 : FVec Ideal S128 .f32) (x12 : FVec Ideal S128x1 .f32) (x13 : FVec Ideal S1 .f32)

/-- The reference's composed result is the chain's result in the reference's form. -/
theorem refValue_refOut_eq :
    Cert.ReferenceIdeal.RefValue.refOut x0 x1 x2 x3 x4 x5 x6 x7 x8 x9 x10 x11 x12 x13 = Cert.Chain.refOut x0 x1 x2 x3 x4 x5 x6 x7 x8 x9 x10 x11 x12 x13 :=
  (Cert.ReferenceIdeal.RefValue.refOut_eq x0 x1 x2 x3 x4 x5 x6 x7 x8 x9 x10 x11 x12 x13).trans rfl

/-- From real arguments, the reference's composed result is the chain's result in the kernel's form. -/
theorem refValue_refOut_eq_kerOut (h0 : IsReal x0) (h3 : IsReal x3) (h4 : IsReal x4) (h5 : IsReal x5) (h6 : IsReal x6)
    (h7 : IsReal x7) (h8 : IsReal x8) (h9 : IsReal x9) (h10 : IsReal x10) (h11 : IsReal x11) (h12 : IsReal x12)
    (h13 : IsReal x13) :
    Cert.ReferenceIdeal.RefValue.refOut x0 x1 x2 x3 x4 x5 x6 x7 x8 x9 x10 x11 x12 x13 = Cert.Chain.kerOut x0 x1 x2 x3 x4 x5 x6 x7 x8 x9 x10 x11 x12 x13 :=
  (refValue_refOut_eq x0 x1 x2 x3 x4 x5 x6 x7 x8 x9 x10 x11 x12 x13).trans
    (kerOut_eq_refOut x0 x1 x2 x3 x4 x5 x6 x7 x8 x9 x10 x11 x12 x13 h0 h3 h4 h5 h6 h7 h8 h9 h10 h11 h12 h13).symm

/-- The same, read from the kernel's side: from real arguments, the chain's result in the kernel's form is the
    reference's composed result. -/
theorem kerOut_eq_refValue_refOut (h0 : IsReal x0) (h3 : IsReal x3) (h4 : IsReal x4) (h5 : IsReal x5) (h6 : IsReal x6)
    (h7 : IsReal x7) (h8 : IsReal x8) (h9 : IsReal x9) (h10 : IsReal x10) (h11 : IsReal x11) (h12 : IsReal x12)
    (h13 : IsReal x13) :
    Cert.Chain.kerOut x0 x1 x2 x3 x4 x5 x6 x7 x8 x9 x10 x11 x12 x13 = Cert.ReferenceIdeal.RefValue.refOut x0 x1 x2 x3 x4 x5 x6 x7 x8 x9 x10 x11 x12 x13 :=
  (refValue_refOut_eq_kerOut x0 x1 x2 x3 x4 x5 x6 x7 x8 x9 x10 x11 x12 x13 h0 h3 h4 h5 h6 h7 h8 h9 h10 h11 h12 h13).symm

end Cert.Chain

end
-- ==== Proof.PreReal.lean ====
/- Finiteness decoded. The precondition of the claim is the conjunction, over the twelve float arguments, of
   "every entry x has |x| < +∞". At the exact extended reals |x| is max x (-x) and +∞ is the top element, so the
   precondition being true says that no entry of a float argument is an infinity: every entry is a real number. -/
import proofs.«111242_j77756087927556_1_alg».proof.Pre_finite_inputs
import proofs.«111242_j77756087927556_1_alg».proof.Proof.Gen.Pre_finite_inputs
import proofs.«111242_j77756087927556_1_alg».proof.Proof.Spec
import proofs.«111242_j77756087927556_1_alg».proof.Defs
import Idealize.ShloMosaic.Lib.ReduceAll
import Idealize.ShloMosaic.Lib.ValueIdx
import Idealize.ShloMosaic.Lib.Pipeline.Value

noncomputable section

namespace Cert.PreReal

open Idealize.ShloMosaic Idealize.ShloMosaic.ValueIdx Idealize.SL.Sem
open Cert.Pre_finite_inputs

/-- The scalar shape has one index. -/
instance : Subsingleton S_.Idx := ⟨fun a b => funext fun d => d.elim0⟩

/-- The f32 word of +∞ is the top element. -/
theorem inf_word : Ideal.ofBits .f32 0x7F800000#32 = (⊤ : EReal) := by simp [Ideal.ofBits, Ideal.ieee]

/-- An extended real whose absolute value max x (-x) is below the top element is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One conjunct of the precondition, for an array of any shape: if the conjunction over all entries of
    "|a i| < +∞" is true, every entry of `a` is a real number. -/
theorem real_of_all {s : Shape} {axes : List (Fin s.rank)} (a : FVec Ideal s .f32)
    (hb : S_.BroadcastsInDim s (![] : Fin 0 → Fin s.rank)) (hr : s.ReducesTo axes S_) (hS : 0 < S_.numel) (init : IVec S_ 1)
    (e : Host.reduce IntOp.andi (cmpf .olt (Host.absf a) (broadcastInDim s ![] hb (constant (F := Ideal) S_ .f32 0x7F800000#32))) init hr hS ix0 = 1#1) :
    Cert.Spec.IsReal a := by
  intro i
  have hi := Host.reduce_andi_all _ init hr hS ix0 e i
  have hb' : broadcastInDim s ![] hb (constant (F := Ideal) S_ .f32 0x7F800000#32) i = Ideal.ofBits .f32 0x7F800000#32 :=
    broadcastInDim_apply _ hb _ i ix0 (fun a => a.elim0)
  have hc : Ideal.cmp .olt (max (a i) (-(a i))) (broadcastInDim s ![] hb (constant (F := Ideal) S_ .f32 0x7F800000#32) i) = 1#1 := hi
  rw [hb', inf_word] at hc
  have hd : BitVec.ofBool (decide (max (a i) (-(a i)) < (⊤ : EReal))) = 1#1 := hc
  refine real_of_abs_lt_top (a i) ?_
  cases hq : decide (max (a i) (-(a i)) < (⊤ : EReal)) with
  | true => exact of_decide_eq_true hq
  | false => rw [hq] at hd; exact absurd hd (by decide)

/-- The precondition, all ones, gives that every float argument holds real numbers (the two integer arguments are
    not constrained). -/
theorem real_of_pre [Cert.Pre_finite_inputs.Facts] (a0 : FVec Ideal S100000x128 .f32) (a1 : IVec S2x800000 32) (a2 : IVec S100000 32) (a3 : FVec Ideal S128x256 .f32) (a4 : FVec Ideal S256 .f32) (a5 : FVec Ideal S4x256x256 .f32) (a6 : FVec Ideal S4x256 .f32) (a7 : FVec Ideal S4x256x256 .f32) (a8 : FVec Ideal S4x256 .f32) (a9 : FVec Ideal S4x256 .f32) (a10 : FVec Ideal S256x128 .f32) (a11 : FVec Ideal S128 .f32) (a12 : FVec Ideal S128x1 .f32) (a13 : FVec Ideal S1 .f32)
    (h : Cert.Pre_finite_inputs.fn (F := Ideal) a0 a1 a2 a3 a4 a5 a6 a7 a8 a9 a10 a11 a12 a13 = fun _ => 1#1) :
    Cert.Spec.IsReal a0 ∧ Cert.Spec.IsReal a3 ∧ Cert.Spec.IsReal a4 ∧ Cert.Spec.IsReal a5 ∧ Cert.Spec.IsReal a6 ∧ Cert.Spec.IsReal a7 ∧ Cert.Spec.IsReal a8 ∧ Cert.Spec.IsReal a9 ∧ Cert.Spec.IsReal a10 ∧ Cert.Spec.IsReal a11 ∧ Cert.Spec.IsReal a12 ∧ Cert.Spec.IsReal a13 := by
  have h0 := congrFun h ix0
  dsimp only [fn, fn_part1, fn_part2, fn_part3, Idealize.ShloMosaic.andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  exact ⟨real_of_all a0 _ _ _ _ h0, real_of_all a3 _ _ _ _ e3, real_of_all a4 _ _ _ _ e4, real_of_all a5 _ _ _ _ e5, real_of_all a6 _ _ _ _ e6, real_of_all a7 _ _ _ _ e7, real_of_all a8 _ _ _ _ e8, real_of_all a9 _ _ _ _ e9, real_of_all a10 _ _ _ _ e10, real_of_all a11 _ _ _ _ e11, real_of_all a12 _ _ _ _ e12, real_of_all a13 _ _ _ _ e13⟩

/-- Under the precondition of `KernelIdeal`, every float argument array of the launch memory holds real numbers, on
    every device. -/
theorem real_of_pre_KernelIdeal [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.IsReal (ι := S100000x128.Idx) (m ((c.tc : Thread Cert.KernelIdeal.nD Cert.KernelIdeal.τ).loc Cert.KernelIdeal.main_arg0))
    ∧ Cert.Spec.IsReal (ι := S128x256.Idx) (m ((c.tc : Thread Cert.KernelIdeal.nD Cert.KernelIdeal.τ).loc Cert.KernelIdeal.main_arg3))
    ∧ Cert.Spec.IsReal (ι := S256.Idx) (m ((c.tc : Thread Cert.KernelIdeal.nD Cert.KernelIdeal.τ).loc Cert.KernelIdeal.main_arg4))
    ∧ Cert.Spec.IsReal (ι := S4x256x256.Idx) (m ((c.tc : Thread Cert.KernelIdeal.nD Cert.KernelIdeal.τ).loc Cert.KernelIdeal.main_arg5))
    ∧ Cert.Spec.IsReal (ι := S4x256.Idx) (m ((c.tc : Thread Cert.KernelIdeal.nD Cert.KernelIdeal.τ).loc Cert.KernelIdeal.main_arg6))
    ∧ Cert.Spec.IsReal (ι := S4x256x256.Idx) (m ((c.tc : Thread Cert.KernelIdeal.nD Cert.KernelIdeal.τ).loc Cert.KernelIdeal.main_arg7))
    ∧ Cert.Spec.IsReal (ι := S4x256.Idx) (m ((c.tc : Thread Cert.KernelIdeal.nD Cert.KernelIdeal.τ).loc Cert.KernelIdeal.main_arg8))
    ∧ Cert.Spec.IsReal (ι := S4x256.Idx) (m ((c.tc : Thread Cert.KernelIdeal.nD Cert.KernelIdeal.τ).loc Cert.KernelIdeal.main_arg9))
    ∧ Cert.Spec.IsReal (ι := S256x128.Idx) (m ((c.tc : Thread Cert.KernelIdeal.nD Cert.KernelIdeal.τ).loc Cert.KernelIdeal.main_arg10))
    ∧ Cert.Spec.IsReal (ι := S128.Idx) (m ((c.tc : Thread Cert.KernelIdeal.nD Cert.KernelIdeal.τ).loc Cert.KernelIdeal.main_arg11))
    ∧ Cert.Spec.IsReal (ι := S128x1.Idx) (m ((c.tc : Thread Cert.KernelIdeal.nD Cert.KernelIdeal.τ).loc Cert.KernelIdeal.main_arg12))
    ∧ Cert.Spec.IsReal (ι := S1.Idx) (m ((c.tc : Thread Cert.KernelIdeal.nD Cert.KernelIdeal.τ).loc Cert.KernelIdeal.main_arg13)) :=
  real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (h c)

/-- Under the precondition of `ReferenceIdeal`, every float argument array of the launch memory holds real numbers, on
    every device. -/
theorem real_of_pre_ReferenceIdeal [Cert.Pre_finite_inputs.Facts]
    (m : (ℓ : Loc Cert.ReferenceIdeal.nD Cert.ReferenceIdeal.τ Cert.ReferenceIdeal.sig) → Buf (Elt Ideal) ℓ) (h : Cert.Pre_ReferenceIdeal m) (c : Dev Cert.ReferenceIdeal.nD) :
    Cert.Spec.IsReal (ι := S100000x128.Idx) (m ((c.tc : Thread Cert.ReferenceIdeal.nD Cert.ReferenceIdeal.τ).loc Cert.ReferenceIdeal.main_arg0))
    ∧ Cert.Spec.IsReal (ι := S128x256.Idx) (m ((c.tc : Thread Cert.ReferenceIdeal.nD Cert.ReferenceIdeal.τ).loc Cert.ReferenceIdeal.main_arg3))
    ∧ Cert.Spec.IsReal (ι := S256.Idx) (m ((c.tc : Thread Cert.ReferenceIdeal.nD Cert.ReferenceIdeal.τ).loc Cert.ReferenceIdeal.main_arg4))
    ∧ Cert.Spec.IsReal (ι := S4x256x256.Idx) (m ((c.tc : Thread Cert.ReferenceIdeal.nD Cert.ReferenceIdeal.τ).loc Cert.ReferenceIdeal.main_arg5))
    ∧ Cert.Spec.IsReal (ι := S4x256.Idx) (m ((c.tc : Thread Cert.ReferenceIdeal.nD Cert.ReferenceIdeal.τ).loc Cert.ReferenceIdeal.main_arg6))
    ∧ Cert.Spec.IsReal (ι := S4x256x256.Idx) (m ((c.tc : Thread Cert.ReferenceIdeal.nD Cert.ReferenceIdeal.τ).loc Cert.ReferenceIdeal.main_arg7))
    ∧ Cert.Spec.IsReal (ι := S4x256.Idx) (m ((c.tc : Thread Cert.ReferenceIdeal.nD Cert.ReferenceIdeal.τ).loc Cert.ReferenceIdeal.main_arg8))
    ∧ Cert.Spec.IsReal (ι := S4x256.Idx) (m ((c.tc : Thread Cert.ReferenceIdeal.nD Cert.ReferenceIdeal.τ).loc Cert.ReferenceIdeal.main_arg9))
    ∧ Cert.Spec.IsReal (ι := S256x128.Idx) (m ((c.tc : Thread Cert.ReferenceIdeal.nD Cert.ReferenceIdeal.τ).loc Cert.ReferenceIdeal.main_arg10))
    ∧ Cert.Spec.IsReal (ι := S128.Idx) (m ((c.tc : Thread Cert.ReferenceIdeal.nD Cert.ReferenceIdeal.τ).loc Cert.ReferenceIdeal.main_arg11))
    ∧ Cert.Spec.IsReal (ι := S128x1.Idx) (m ((c.tc : Thread Cert.ReferenceIdeal.nD Cert.ReferenceIdeal.τ).loc Cert.ReferenceIdeal.main_arg12))
    ∧ Cert.Spec.IsReal (ι := S1.Idx) (m ((c.tc : Thread Cert.ReferenceIdeal.nD Cert.ReferenceIdeal.τ).loc Cert.ReferenceIdeal.main_arg13)) :=
  real_of_pre (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (h c)

end Cert.PreReal

end
-- ==== Proof.lean ====
/-
  A four-layer GraphSAGE network with batch normalisation over 100000 nodes: the kernel's program computes each layer by two
  tiled passes (the linear part with the column sums of its result and of its square accumulated tile by tile; then the
  normalisation with variance E[x²] − (E x)², the activation and the residual) where the reference normalises with
  E[(x − E x)²]. Proved here: both forms of the kernel's program and the reference run to the end from any memory, fault
  nowhere and leave their arguments as launched; the idealized kernel is the kernel's own text read over the extended reals;
  and (below) the two idealized programs end with equal results when every float argument is finite.
-/
import proofs.«111242_j77756087927556_1_alg».proof.Defs
import proofs.«111242_j77756087927556_1_alg».proof.Proof.Gen.Kernel
import proofs.«111242_j77756087927556_1_alg».proof.Proof.Gen.KernelIdeal
import proofs.«111242_j77756087927556_1_alg».proof.Proof.Gen.ReferenceIdeal
import proofs.«111242_j77756087927556_1_alg».proof.Proof.Gen.Pre_finite_inputs
import proofs.«111242_j77756087927556_1_alg».proof.Proof.K.Run
import proofs.«111242_j77756087927556_1_alg».proof.Proof.KI.Run
import proofs.«111242_j77756087927556_1_alg».proof.Proof.Ref.Run
import proofs.«111242_j77756087927556_1_alg».proof.Proof.KI.Thread
import proofs.«111242_j77756087927556_1_alg».proof.Proof.RefFold
import proofs.«111242_j77756087927556_1_alg».proof.Proof.Chain
import proofs.«111242_j77756087927556_1_alg».proof.Proof.ChainRef
import proofs.«111242_j77756087927556_1_alg».proof.Proof.PreReal
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ
/-- So does its reading over the extended reals. -/
theorem frame_ki : Cert.frame_KernelIdeal := fun m ρ _ => Cert.KernelIdeal.Hand.frame (F := Ideal) m ρ
/-- So does the reference: no operation of it names an argument as its result. -/
theorem frame_ri : Cert.frame_ReferenceIdeal := fun m ρ _ => Cert.ReferenceIdeal.RunH.frame (F := Ideal) m ρ
/-- The idealized kernel is the kernel's own text: no operation was rewritten. -/
theorem preserves : Cert.preserves_Kernel_KernelIdeal := trivial

/-- From memories agreeing on finite arguments the two idealized programs end with equal results: on each core both end at the
    specification's composition of the shared stages — the kernel's with the variance as E[x²] − (E x)², the reference's as
    E[(x − E x)²], equal because every entry that enters a variance is a real number. -/
theorem algebraic : Cert.algebraic_KernelIdeal_ReferenceIdeal := by
  intro m ρ m' ρ' hpre hagree
  refine ⟨fun c => Cert.Chain.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · -- the kernel's program: its run leaves every buffer at the last boundary's contents; the result's is the composition
    exact (θ_run Cert.KernelIdeal.defs _ _).mono (fun r h c => ⟨(h c _ (Cert.KernelIdeal.Hand.mem_uc Cert.KernelIdeal.main_v141 (by decide))).trans (Cert.KernelIdeal.HandVal.W21_out m ρ c),
      (h c _ (Cert.KernelIdeal.Hand.mem_uc Cert.KernelIdeal.main_arg0 (by decide))).trans (Cert.KernelIdeal.Hand.W21_main_arg0 m ρ c),
      (h c _ (Cert.KernelIdeal.Hand.mem_uc Cert.KernelIdeal.main_arg1 (by decide))).trans (Cert.KernelIdeal.Hand.W21_main_arg1 m ρ c),
      (h c _ (Cert.KernelIdeal.Hand.mem_uc Cert.KernelIdeal.main_arg2 (by decide))).trans (Cert.KernelIdeal.Hand.W21_main_arg2 m ρ c),
      (h c _ (Cert.KernelIdeal.Hand.mem_uc Cert.KernelIdeal.main_arg3 (by decide))).trans (Cert.KernelIdeal.Hand.W21_main_arg3 m ρ c),
      (h c _ (Cert.KernelIdeal.Hand.mem_uc Cert.KernelIdeal.main_arg4 (by decide))).trans (Cert.KernelIdeal.Hand.W21_main_arg4 m ρ c),
      (h c _ (Cert.KernelIdeal.Hand.mem_uc Cert.KernelIdeal.main_arg5 (by decide))).trans (Cert.KernelIdeal.Hand.W21_main_arg5 m ρ c),
      (h c _ (Cert.KernelIdeal.Hand.mem_uc Cert.KernelIdeal.main_arg6 (by decide))).trans (Cert.KernelIdeal.Hand.W21_main_arg6 m ρ c),
      (h c _ (Cert.KernelIdeal.Hand.mem_uc Cert.KernelIdeal.main_arg7 (by decide))).trans (Cert.KernelIdeal.Hand.W21_main_arg7 m ρ c),
      (h c _ (Cert.KernelIdeal.Hand.mem_uc Cert.KernelIdeal.main_arg8 (by decide))).trans (Cert.KernelIdeal.Hand.W21_main_arg8 m ρ c),
      (h c _ (Cert.KernelIdeal.Hand.mem_uc Cert.KernelIdeal.main_arg9 (by decide))).trans (Cert.KernelIdeal.Hand.W21_main_arg9 m ρ c),
      (h c _ (Cert.KernelIdeal.Hand.mem_uc Cert.KernelIdeal.main_arg10 (by decide))).trans (Cert.KernelIdeal.Hand.W21_main_arg10 m ρ c),
      (h c _ (Cert.KernelIdeal.Hand.mem_uc Cert.KernelIdeal.main_arg11 (by decide))).trans (Cert.KernelIdeal.Hand.W21_main_arg11 m ρ c),
      (h c _ (Cert.KernelIdeal.Hand.mem_uc Cert.KernelIdeal.main_arg12 (by decide))).trans (Cert.KernelIdeal.Hand.W21_main_arg12 m ρ c),
      (h c _ (Cert.KernelIdeal.Hand.mem_uc Cert.KernelIdeal.main_arg13 (by decide))).trans (Cert.KernelIdeal.Hand.W21_main_arg13 m ρ c)⟩)
      (Cert.KernelIdeal.Hand.run (F := Ideal) m ρ)
  · -- the reference: its fold of operations read stage by stage, then the law, the arguments being real
    refine (θ_run Cert.ReferenceIdeal.defs _ _).mono (fun r h c => ⟨(h c Cert.ReferenceIdeal.main_v256).trans ?_,
      (h c Cert.ReferenceIdeal.main_arg0).trans (Cert.ReferenceIdeal.RunH.after_ops_of_not_written _ Cert.ReferenceIdeal.main_arg0 (by decide) (by decide) (by decide) (by decide) (by decide)),
      (h c Cert.ReferenceIdeal.main_arg1).trans (Cert.ReferenceIdeal.RunH.after_ops_of_not_written _ Cert.ReferenceIdeal.main_arg1 (by decide) (by decide) (by decide) (by decide) (by decide)),
      (h c Cert.ReferenceIdeal.main_arg2).trans (Cert.ReferenceIdeal.RunH.after_ops_of_not_written _ Cert.ReferenceIdeal.main_arg2 (by decide) (by decide) (by decide) (by decide) (by decide)),
      (h c Cert.ReferenceIdeal.main_arg3).trans (Cert.ReferenceIdeal.RunH.after_ops_of_not_written _ Cert.ReferenceIdeal.main_arg3 (by decide) (by decide) (by decide) (by decide) (by decide)),
      (h c Cert.ReferenceIdeal.main_arg4).trans (Cert.ReferenceIdeal.RunH.after_ops_of_not_written _ Cert.ReferenceIdeal.main_arg4 (by decide) (by decide) (by decide) (by decide) (by decide)),
      (h c Cert.ReferenceIdeal.main_arg5).trans (Cert.ReferenceIdeal.RunH.after_ops_of_not_written _ Cert.ReferenceIdeal.main_arg5 (by decide) (by decide) (by decide) (by decide) (by decide)),
      (h c Cert.ReferenceIdeal.main_arg6).trans (Cert.ReferenceIdeal.RunH.after_ops_of_not_written _ Cert.ReferenceIdeal.main_arg6 (by decide) (by decide) (by decide) (by decide) (by decide)),
      (h c Cert.ReferenceIdeal.main_arg7).trans (Cert.ReferenceIdeal.RunH.after_ops_of_not_written _ Cert.ReferenceIdeal.main_arg7 (by decide) (by decide) (by decide) (by decide) (by decide)),
      (h c Cert.ReferenceIdeal.main_arg8).trans (Cert.ReferenceIdeal.RunH.after_ops_of_not_written _ Cert.ReferenceIdeal.main_arg8 (by decide) (by decide) (by decide) (by decide) (by decide)),
      (h c Cert.ReferenceIdeal.main_arg9).trans (Cert.ReferenceIdeal.RunH.after_ops_of_not_written _ Cert.ReferenceIdeal.main_arg9 (by decide) (by decide) (by decide) (by decide) (by decide)),
      (h c Cert.ReferenceIdeal.main_arg10).trans (Cert.ReferenceIdeal.RunH.after_ops_of_not_written _ Cert.ReferenceIdeal.main_arg10 (by decide) (by decide) (by decide) (by decide) (by decide)),
      (h c Cert.ReferenceIdeal.main_arg11).trans (Cert.ReferenceIdeal.RunH.after_ops_of_not_written _ Cert.ReferenceIdeal.main_arg11 (by decide) (by decide) (by decide) (by decide) (by decide)),
      (h c Cert.ReferenceIdeal.main_arg12).trans (Cert.ReferenceIdeal.RunH.after_ops_of_not_written _ Cert.ReferenceIdeal.main_arg12 (by decide) (by decide) (by decide) (by decide) (by decide)),
      (h c Cert.ReferenceIdeal.main_arg13).trans (Cert.ReferenceIdeal.RunH.after_ops_of_not_written _ Cert.ReferenceIdeal.main_arg13 (by decide) (by decide) (by decide) (by decide) (by decide))⟩)
      (Cert.ReferenceIdeal.RunH.run_after (F := Ideal) m' ρ')
    obtain ⟨r0, r3, r4, r5, r6, r7, r8, r9, r10, r11, r12, r13⟩ := Cert.PreReal.real_of_pre_KernelIdeal m hpre c
    obtain ⟨g0, g1, g2, g3, g4, g5, g6, g7, g8, g9, g10, g11, g12, g13⟩ := hagree c
    rw [Cert.ReferenceIdeal.RefValue.ref_result m' c, ← Cert.ReferenceIdeal.RefValue.refOut_eq, g0, g1, g2, g3, g4, g5, g6, g7, g8, g9, g10, g11, g12, g13]
    exact (Cert.Chain.kerOut_eq_refValue_refOut _ _ _ _ _ _ _ _ _ _ _ _ _ _ r0 r3 r4 r5 r6 r7 r8 r9 r10 r11 r12 r13).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
